-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v151)) (v1 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_v133) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_v299) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x128x128 : Shape := ⟨3, ![2, 128, 128]⟩
abbrev S2x128 : Shape := ⟨2, ![2, 128]⟩
abbrev S2x2x2x128x128 : Shape := ⟨5, ![2, 2, 2, 128, 128]⟩
abbrev S2x2x2x128 : Shape := ⟨4, ![2, 2, 2, 128]⟩
abbrev S2x2 : Shape := ⟨2, ![2, 2]⟩
abbrev S2x2x128 : Shape := ⟨3, ![2, 2, 128]⟩
abbrev S2x600000 : Shape := ⟨2, ![2, 600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2x2x2x128x128 : S_.BroadcastsInDim S2x2x2x128x128 (![] : Fin 0 → Fin S2x2x2x128x128.rank)
  reducesTo_S2x2x2x128x128_S_d0_1_2_3_4 : S2x2x2x128x128.ReducesTo [0, 1, 2, 3, 4] S_
  bcast_S_S2x2x2x128 : S_.BroadcastsInDim S2x2x2x128 (![] : Fin 0 → Fin S2x2x2x128.rank)
  reducesTo_S2x2x2x128_S_d0_1_2_3 : S2x2x2x128.ReducesTo [0, 1, 2, 3] S_
  bcast_S_S2x2 : S_.BroadcastsInDim S2x2 (![] : Fin 0 → Fin S2x2.rank)
  reducesTo_S2x2_S_d0_1 : S2x2.ReducesTo [0, 1] S_
  bcast_S_S2x2x128 : S_.BroadcastsInDim S2x2x128 (![] : Fin 0 → Fin S2x2x128.rank)
  reducesTo_S2x2x128_S_d0_1_2 : S2x2x128.ReducesTo [0, 1, 2] S_

variable [Facts]

def fn_part2 {F : FTy → Type} [FloatOps F] (main_arg7 : FVec F S2x2x128 .f32) (main_arg8 : FVec F S2x2x128 .f32) (main_v33 : IVec S_ 1) : IVec S_ 1 :=
  let main_v34 : FVec F S2x2x128 .f32 := Host.absf main_arg7
  let main_cst_12 : FVec F S_ .f32 := constant S_ .f32 0x7F800000#32
  let main_v35 : FVec F S2x2x128 .f32 := broadcastInDim S2x2x128 ![] bcast_S_S2x2x128 main_cst_12
  let main_v36 : IVec S2x2x128 1 := cmpf .olt main_v34 main_v35
  let main_c_13 : IVec S_ 1 := constantI S_ 1 1#1
  let main_v37 : IVec S_ 1 := (fun x v => Host.reduce IntOp.andi x v reducesTo_S2x2x128_S_d0_1_2 h_S_) main_v36 main_c_13
  let main_v38 : IVec S_ 1 := andi main_v33 main_v37
  let main_v39 : FVec F S2x2x128 .f32 := Host.absf main_arg8
  let main_cst_14 : FVec F S_ .f32 := constant S_ .f32 0x7F800000#32
  let main_v40 : FVec F S2x2x128 .f32 := broadcastInDim S2x2x128 ![] bcast_S_S2x2x128 main_cst_14
  let main_v41 : IVec S2x2x128 1 := cmpf .olt main_v39 main_v40
  let main_c_15 : IVec S_ 1 := constantI S_ 1 1#1
  let main_v42 : IVec S_ 1 := (fun x v => Host.reduce IntOp.andi x v reducesTo_S2x2x128_S_d0_1_2 h_S_) main_v41 main_c_15
  let main_v43 : IVec S_ 1 := andi main_v38 main_v42
  main_v43

def fn_part1 {F : FTy → Type} [FloatOps F] (main_arg4 : FVec F S2x2x2x128x128 .f32) (main_arg5 : FVec F S2x2x2x128 .f32) (main_arg6 : FVec F S2x2 .f32) (main_arg7 : FVec F S2x2x128 .f32) (main_arg8 : FVec F S2x2x128 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x2x2x128x128 .f32 := Host.absf main_arg4
  let main_cst_6 : FVec F S_ .f32 := constant S_ .f32 0x7F800000#32
  let main_v20 : FVec F S2x2x2x128x128 .f32 := broadcastInDim S2x2x2x128x128 ![] bcast_S_S2x2x2x128x128 main_cst_6
  let main_v21 : IVec S2x2x2x128x128 1 := cmpf .olt main_v19 main_v20
  let main_c_7 : IVec S_ 1 := constantI S_ 1 1#1
  let main_v22 : IVec S_ 1 := (fun x v => Host.reduce IntOp.andi x v reducesTo_S2x2x2x128x128_S_d0_1_2_3_4 h_S_) main_v21 main_c_7
  let main_v23 : IVec S_ 1 := andi main_v18 main_v22
  let main_v24 : FVec F S2x2x2x128 .f32 := Host.absf main_arg5
  let main_cst_8 : FVec F S_ .f32 := constant S_ .f32 0x7F800000#32
  let main_v25 : FVec F S2x2x2x128 .f32 := broadcastInDim S2x2x2x128 ![] bcast_S_S2x2x2x128 main_cst_8
  let main_v26 : IVec S2x2x2x128 1 := cmpf .olt main_v24 main_v25
  let main_c_9 : IVec S_ 1 := constantI S_ 1 1#1
  let main_v27 : IVec S_ 1 := (fun x v => Host.reduce IntOp.andi x v reducesTo_S2x2x2x128_S_d0_1_2_3 h_S_) main_v26 main_c_9
  let main_v28 : IVec S_ 1 := andi main_v23 main_v27
  let main_v29 : FVec F S2x2 .f32 := Host.absf main_arg6
  let main_cst_10 : FVec F S_ .f32 := constant S_ .f32 0x7F800000#32
  let main_v30 : FVec F S2x2 .f32 := broadcastInDim S2x2 ![] bcast_S_S2x2 main_cst_10
  let main_v31 : IVec S2x2 1 := cmpf .olt main_v29 main_v30
  let main_c_11 : IVec S_ 1 := constantI S_ 1 1#1
  let main_v32 : IVec S_ 1 := (fun x v => Host.reduce IntOp.andi x v reducesTo_S2x2_S_d0_1 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S50000x128 .f32) (main_arg2 : FVec F S2x128x128 .f32) (main_arg3 : FVec F S2x128 .f32) (main_arg4 : FVec F S2x2x2x128x128 .f32) (main_arg5 : FVec F S2x2x2x128 .f32) (main_arg6 : FVec F S2x2 .f32) (main_arg7 : FVec F S2x2x128 .f32) (main_arg8 : FVec F S2x2x128 .f32) (main_arg9 : IVec S2x600000 32) (main_arg10 : IVec S2x600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S50000x128 : Shape := ⟨2, ![50000, 128]⟩
abbrev S2x128x128 : Shape := ⟨3, ![2, 128, 128]⟩
abbrev S2x128 : Shape := ⟨2, ![2, 128]⟩
abbrev S2x2x2x128x128 : Shape := ⟨5, ![2, 2, 2, 128, 128]⟩
abbrev S2x2x2x128 : Shape := ⟨4, ![2, 2, 2, 128]⟩
abbrev S2x2 : Shape := ⟨2, ![2, 2]⟩
abbrev S2x2x128 : Shape := ⟨3, ![2, 2, 128]⟩
abbrev S2x600000 : Shape := ⟨2, ![2, 600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x1 : Shape := ⟨2, ![1, 1]⟩
abbrev S1x1x1x128x128 : Shape := ⟨5, ![1, 1, 1, 128, 128]⟩
abbrev S1x1x1x128 : Shape := ⟨4, ![1, 1, 1, 128]⟩
abbrev S1x1x128 : Shape := ⟨3, ![1, 1, 128]⟩
abbrev S5000 : Shape := ⟨1, ![5000]⟩
abbrev S5000x1 : Shape := ⟨2, ![5000, 1]⟩

abbrev nBuf : Space → Nat
  | .hbm => 179
  | .vmem => 64
  | .smem => 0
  | _ => 0

abbrev hbmTy0_0 (i : Nat) : BufTy := match i % 128 with
  | 0 => ⟨S100000x128, .f32⟩
  | 1 => ⟨S50000x128, .f32⟩
  | 2 => ⟨S2x128x128, .f32⟩
  | 3 => ⟨S2x128, .f32⟩
  | 4 => ⟨S2x2x2x128x128, .f32⟩
  | 5 => ⟨S2x2x2x128, .f32⟩
  | 6 => ⟨S2x2, .f32⟩
  | 7 => ⟨S2x2x128, .f32⟩
  | 8 => ⟨S2x2x128, .f32⟩
  | 9 => ⟨S2x600000, .i32⟩
  | 10 => ⟨S2x600000, .i32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S100000x128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S50000x128, .f32⟩
  | 23 => ⟨S1x600000, .i32⟩
  | 24 => ⟨S600000, .i32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S1x600000, .i32⟩
  | 35 => ⟨S600000, .i32⟩
  | 36 => ⟨S_, .f32⟩
  | 37 => ⟨S50000x128, .f32⟩
  | 38 => ⟨S600000x1, .i32⟩
  | 39 => ⟨S50000x128, .f32⟩
  | 40 => ⟨S1x600000, .i32⟩
  | 41 => ⟨S600000, .i32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S1x600000, .i32⟩
  | 52 => ⟨S600000, .i32⟩
  | 53 => ⟨S_, .f32⟩
  | 54 => ⟨S100000x128, .f32⟩
  | 55 => ⟨S600000x1, .i32⟩
  | 56 => ⟨S100000x128, .f32⟩
  | 57 => ⟨S1x1, .f32⟩
  | 58 => ⟨S_, .f32⟩
  | 59 => ⟨S_, .f32⟩
  | 60 => ⟨S_, .f32⟩
  | 61 => ⟨S1x1, .f32⟩
  | 62 => ⟨S_, .f32⟩
  | 63 => ⟨S_, .f32⟩
  | 64 => ⟨S_, .f32⟩
  | 65 => ⟨S1x1x1x128x128, .f32⟩
  | 66 => ⟨S128x128, .f32⟩
  | 67 => ⟨S1x1x1x128, .f32⟩
  | 68 => ⟨S128, .f32⟩
  | 69 => ⟨S1x1x1x128x128, .f32⟩
  | 70 => ⟨S128x128, .f32⟩
  | 71 => ⟨S1x1x1x128, .f32⟩
  | 72 => ⟨S128, .f32⟩
  | 73 => ⟨S1x1x128, .f32⟩
  | 74 => ⟨S128, .f32⟩
  | 75 => ⟨S1x1x128, .f32⟩
  | 76 => ⟨S128, .f32⟩
  | 77 => ⟨S1x128, .f32⟩
  | 78 => ⟨S1x128, .f32⟩
  | 79 => ⟨S1x128, .f32⟩
  | 80 => ⟨S1x128, .f32⟩
  | 81 => ⟨S1x1, .f32⟩
  | 82 => ⟨S50000x128, .f32⟩
  | 83 => ⟨S1x1x1x128x128, .f32⟩
  | 84 => ⟨S128x128, .f32⟩
  | 85 => ⟨S1x1x1x128, .f32⟩
  | 86 => ⟨S128, .f32⟩
  | 87 => ⟨S1x1x1x128x128, .f32⟩
  | 88 => ⟨S128x128, .f32⟩
  | 89 => ⟨S1x1x1x128, .f32⟩
  | 90 => ⟨S128, .f32⟩
  | 91 => ⟨S1x1x128, .f32⟩
  | 92 => ⟨S128, .f32⟩
  | 93 => ⟨S1x1x128, .f32⟩
  | 94 => ⟨S128, .f32⟩
  | 95 => ⟨S1x128, .f32⟩
  | 96 => ⟨S1x128, .f32⟩
  | 97 => ⟨S1x128, .f32⟩
  | 98 => ⟨S1x128, .f32⟩
  | 99 => ⟨S1x1, .f32⟩
  | 100 => ⟨S100000x128, .f32⟩
  | 101 => ⟨S1x600000, .i32⟩
  | 102 => ⟨S600000, .i32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S1x600000, .i32⟩
  | 113 => ⟨S600000, .i32⟩
  | 114 => ⟨S_, .f32⟩
  | 115 => ⟨S50000x128, .f32⟩
  | 116 => ⟨S600000x1, .i32⟩
  | 117 => ⟨S50000x128, .f32⟩
  | 118 => ⟨S1x600000, .i32⟩
  | 119 => ⟨S600000, .i32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S100000x128, .f32⟩

abbrev hbmTy0_1 (i : Nat) : BufTy := match i % 128 with
  | 0 => ⟨S600000x128, .f32⟩
  | 1 => ⟨S1x600000, .i32⟩
  | 2 => ⟨S600000, .i32⟩
  | 3 => ⟨S_, .f32⟩
  | 4 => ⟨S100000x128, .f32⟩
  | 5 => ⟨S600000x1, .i32⟩
  | 6 => ⟨S100000x128, .f32⟩
  | 7 => ⟨S1x1, .f32⟩
  | 8 => ⟨S_, .f32⟩
  | 9 => ⟨S_, .f32⟩
  | 10 => ⟨S_, .f32⟩
  | 11 => ⟨S1x1, .f32⟩
  | 12 => ⟨S_, .f32⟩
  | 13 => ⟨S_, .f32⟩
  | 14 => ⟨S_, .f32⟩
  | 15 => ⟨S1x1x1x128x128, .f32⟩
  | 16 => ⟨S128x128, .f32⟩
  | 17 => ⟨S1x1x1x128, .f32⟩
  | 18 => ⟨S128, .f32⟩
  | 19 => ⟨S1x1x1x128x128, .f32⟩
  | 20 => ⟨S128x128, .f32⟩
  | 21 => ⟨S1x1x1x128, .f32⟩
  | 22 => ⟨S128, .f32⟩
  | 23 => ⟨S1x1x128, .f32⟩
  | 24 => ⟨S128, .f32⟩
  | 25 => ⟨S1x1x128, .f32⟩
  | 26 => ⟨S128, .f32⟩
  | 27 => ⟨S1x128, .f32⟩
  | 28 => ⟨S1x128, .f32⟩
  | 29 => ⟨S1x128, .f32⟩
  | 30 => ⟨S1x128, .f32⟩
  | 31 => ⟨S1x1, .f32⟩
  | 32 => ⟨S50000x128, .f32⟩
  | 33 => ⟨S1x1x1x128x128, .f32⟩
  | 34 => ⟨S128x128, .f32⟩
  | 35 => ⟨S1x1x1x128, .f32⟩
  | 36 => ⟨S128, .f32⟩
  | 37 => ⟨S1x1x1x128x128, .f32⟩
  | 38 => ⟨S128x128, .f32⟩
  | 39 => ⟨S1x1x1x128, .f32⟩
  | 40 => ⟨S128, .f32⟩
  | 41 => ⟨S1x1x128, .f32⟩
  | 42 => ⟨S128, .f32⟩
  | 43 => ⟨S1x1x128, .f32⟩
  | 44 => ⟨S128, .f32⟩
  | 45 => ⟨S1x128, .f32⟩
  | 46 => ⟨S1x128, .f32⟩
  | 47 => ⟨S1x128, .f32⟩
  | 48 => ⟨S1x128, .f32⟩
  | 49 => ⟨S1x1, .f32⟩
  | 50 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x1, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S1x1, .f32⟩
  | .local _ .vmem, ⟨43, _⟩ => ⟨S128x128, .f32⟩
  | .local _ .vmem, ⟨44, _⟩ => ⟨S1x128, .f32⟩
  | .local _ .vmem, ⟨45, _⟩ => ⟨S128x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S1x1, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_1 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_c_6 : Ref sig .tc := ⟨.hbm, 103, rfl⟩
abbrev main_v84 : Ref sig .tc := ⟨.hbm, 104, rfl⟩
abbrev main_v85 : Ref sig .tc := ⟨.hbm, 105, rfl⟩
abbrev main_c_7 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_8 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_c_9 : Ref sig .tc := ⟨.hbm, 120, rfl⟩
abbrev main_v98 : Ref sig .tc := ⟨.hbm, 121, rfl⟩
abbrev main_v99 : Ref sig .tc := ⟨.hbm, 122, rfl⟩
abbrev main_c_10 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_11 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_12 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_13 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg9_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg9_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg8_0 : Ref sig .tc := ⟨.vmem, 48, rfl⟩
abbrev cc4_stg9_0 : Ref sig .tc := ⟨.vmem, 49, rfl⟩
abbrev cc4_stg9_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg8_0 : Ref sig .tc := ⟨.vmem, 61, rfl⟩
abbrev cc5_stg9_0 : Ref sig .tc := ⟨.vmem, 62, rfl⟩
abbrev cc5_stg9_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem9_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem9_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem8_0 : DmaSem sig := 48
abbrev cc4_sem9_0 : DmaSem sig := 49
abbrev cc4_sem9_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem8_0 : DmaSem sig := 61
abbrev cc5_sem9_0 : DmaSem sig := 62
abbrev cc5_sem9_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_1_0_0 : S2x128x128.Slices ![1, 0, 0] S1x128x128
  slices_S2x128_S1x128_1_0 : S2x128.Slices ![1, 0] S1x128
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S50000x128 : S_.BroadcastsInDim S50000x128 (![] : Fin 0 → Fin S50000x128.rank)
  bcast_S_S100000x128 : S_.BroadcastsInDim S100000x128 (![] : Fin 0 → Fin S100000x128.rank)
  slices_S2x2_S1x1_0_0 : S2x2.Slices ![0, 0] S1x1
  shapeCasts_S1x1_S_ : S1x1.ShapeCasts S_
  slices_S2x2_S1x1_0_1 : S2x2.Slices ![0, 1] S1x1
  slices_S2x2x2x128x128_S1x1x1x128x128_0_0_0_0_0 : S2x2x2x128x128.Slices ![0, 0, 0, 0, 0] S1x1x1x128x128
  shapeCasts_S1x1x1x128x128_S128x128 : S1x1x1x128x128.ShapeCasts S128x128
  slices_S2x2x2x128_S1x1x1x128_0_0_0_0 : S2x2x2x128.Slices ![0, 0, 0, 0] S1x1x1x128
  shapeCasts_S1x1x1x128_S128 : S1x1x1x128.ShapeCasts S128
  slices_S2x2x2x128x128_S1x1x1x128x128_0_0_1_0_0 : S2x2x2x128x128.Slices ![0, 0, 1, 0, 0] S1x1x1x128x128
  slices_S2x2x2x128_S1x1x1x128_0_0_1_0 : S2x2x2x128.Slices ![0, 0, 1, 0] S1x1x1x128
  slices_S2x2x128_S1x1x128_0_1_0 : S2x2x128.Slices ![0, 1, 0] S1x1x128
  shapeCasts_S1x1x128_S128 : S1x1x128.ShapeCasts S128
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  slices_S2x2x2x128x128_S1x1x1x128x128_0_1_0_0_0 : S2x2x2x128x128.Slices ![0, 1, 0, 0, 0] S1x1x1x128x128
  slices_S2x2x2x128_S1x1x1x128_0_1_0_0 : S2x2x2x128.Slices ![0, 1, 0, 0] S1x1x1x128
  slices_S2x2x2x128x128_S1x1x1x128x128_0_1_1_0_0 : S2x2x2x128x128.Slices ![0, 1, 1, 0, 0] S1x1x1x128x128
  slices_S2x2x2x128_S1x1x1x128_0_1_1_0 : S2x2x2x128.Slices ![0, 1, 1, 0] S1x1x1x128
  slices_S2x2x128_S1x1x128_0_0_0 : S2x2x128.Slices ![0, 0, 0] S1x1x128
  slices_S2x2_S1x1_1_0 : S2x2.Slices ![1, 0] S1x1
  slices_S2x2_S1x1_1_1 : S2x2.Slices ![1, 1] S1x1
  slices_S2x2x2x128x128_S1x1x1x128x128_1_0_0_0_0 : S2x2x2x128x128.Slices ![1, 0, 0, 0, 0] S1x1x1x128x128
  slices_S2x2x2x128_S1x1x1x128_1_0_0_0 : S2x2x2x128.Slices ![1, 0, 0, 0] S1x1x1x128
  slices_S2x2x2x128x128_S1x1x1x128x128_1_0_1_0_0 : S2x2x2x128x128.Slices ![1, 0, 1, 0, 0] S1x1x1x128x128
  slices_S2x2x2x128_S1x1x1x128_1_0_1_0 : S2x2x2x128.Slices ![1, 0, 1, 0] S1x1x1x128
  slices_S2x2x128_S1x1x128_1_1_0 : S2x2x128.Slices ![1, 1, 0] S1x1x128
  slices_S2x2x2x128x128_S1x1x1x128x128_1_1_0_0_0 : S2x2x2x128x128.Slices ![1, 1, 0, 0, 0] S1x1x1x128x128
  slices_S2x2x2x128_S1x1x1x128_1_1_0_0 : S2x2x2x128.Slices ![1, 1, 0, 0] S1x1x1x128
  slices_S2x2x2x128x128_S1x1x1x128x128_1_1_1_0_0 : S2x2x2x128x128.Slices ![1, 1, 1, 0, 0] S1x1x1x128x128
  slices_S2x2x2x128_S1x1x1x128_1_1_1_0 : S2x2x2x128.Slices ![1, 1, 1, 0] S1x1x1x128
  slices_S2x2x128_S1x1x128_1_0_0 : S2x2x128.Slices ![1, 0, 0] S1x1x128
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S100000x128.size a
  hwx3_9 : ∀ i : grid3.Coords, EltTy.bits .f32 = 32 ∨ (Rect.block (s := S100000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x128.size a ≤ S50000x128.size a
  hwx4_9 : ∀ i : grid4.Coords, EltTy.bits .f32 = 32 ∨ (Rect.block (s := S50000x128) S5000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S100000x128.size a
  hwx5_9 : ∀ i : grid5.Coords, EltTy.bits .f32 = 32 ∨ (Rect.block (s := S100000x128) S5000x128.size (cc5_transform_9 i) (hinb5_9 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v61) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v63) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v5) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v77) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v79) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v81) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v132) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v117) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v128) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v121) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v129) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v130) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v131) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v133) S5000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v150) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v135) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v146) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v139) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v147) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v148) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v149) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v151) S5000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x128x128 : Shape := ⟨3, ![2, 128, 128]⟩
abbrev S2x128 : Shape := ⟨2, ![2, 128]⟩
abbrev S2x2x2x128x128 : Shape := ⟨5, ![2, 2, 2, 128, 128]⟩
abbrev S2x2x2x128 : Shape := ⟨4, ![2, 2, 2, 128]⟩
abbrev S2x2 : Shape := ⟨2, ![2, 2]⟩
abbrev S2x2x128 : Shape := ⟨3, ![2, 2, 128]⟩
abbrev S2x600000 : Shape := ⟨2, ![2, 600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x1 : Shape := ⟨2, ![1, 1]⟩
abbrev S1x1x2x128x128 : Shape := ⟨5, ![1, 1, 2, 128, 128]⟩
abbrev S1x1x2x128 : Shape := ⟨4, ![1, 1, 2, 128]⟩
abbrev S1x1x128 : Shape := ⟨3, ![1, 1, 128]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩

abbrev nBuf : Space → Nat
  | .hbm => 371
  | .vmem => 0
  | .smem => 0
  | _ => 0

abbrev hbmTy0_0 (i : Nat) : BufTy := match i % 128 with
  | 0 => ⟨S100000x128, .f32⟩
  | 1 => ⟨S50000x128, .f32⟩
  | 2 => ⟨S2x128x128, .f32⟩
  | 3 => ⟨S2x128, .f32⟩
  | 4 => ⟨S2x2x2x128x128, .f32⟩
  | 5 => ⟨S2x2x2x128, .f32⟩
  | 6 => ⟨S2x2, .f32⟩
  | 7 => ⟨S2x2x128, .f32⟩
  | 8 => ⟨S2x2x128, .f32⟩
  | 9 => ⟨S2x600000, .i32⟩
  | 10 => ⟨S2x600000, .i32⟩
  | 11 => ⟨S1x128x128, .f32⟩
  | 12 => ⟨S128x128, .f32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S1x128x128, .f32⟩
  | 20 => ⟨S128x128, .f32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S1x600000, .i32⟩
  | 28 => ⟨S600000, .i32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S1x600000, .i32⟩
  | 39 => ⟨S600000, .i32⟩
  | 40 => ⟨S_, .f32⟩
  | 41 => ⟨S50000x128, .f32⟩
  | 42 => ⟨S600000x1, .i32⟩
  | 43 => ⟨S50000x128, .f32⟩
  | 44 => ⟨S1x600000, .i32⟩
  | 45 => ⟨S600000, .i32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S1x600000, .i32⟩
  | 56 => ⟨S600000, .i32⟩
  | 57 => ⟨S_, .f32⟩
  | 58 => ⟨S100000x128, .f32⟩
  | 59 => ⟨S600000x1, .i32⟩
  | 60 => ⟨S100000x128, .f32⟩
  | 61 => ⟨S1x1, .f32⟩
  | 62 => ⟨S_, .f32⟩
  | 63 => ⟨S_, .f32⟩
  | 64 => ⟨S_, .f32⟩
  | 65 => ⟨S50000x128, .f32⟩
  | 66 => ⟨S50000x128, .f32⟩
  | 67 => ⟨S50000x128, .f32⟩
  | 68 => ⟨S1x1x2x128x128, .f32⟩
  | 69 => ⟨S2x128x128, .f32⟩
  | 70 => ⟨S1x1x2x128, .f32⟩
  | 71 => ⟨S2x128, .f32⟩
  | 72 => ⟨S1x128x128, .f32⟩
  | 73 => ⟨S128x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S1x128x128, .f32⟩
  | 84 => ⟨S128x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S1x1, .f32⟩
  | 95 => ⟨S_, .f32⟩
  | 96 => ⟨S_, .f32⟩
  | 97 => ⟨S_, .f32⟩
  | 98 => ⟨S100000x128, .f32⟩
  | 99 => ⟨S100000x128, .f32⟩
  | 100 => ⟨S100000x128, .f32⟩
  | 101 => ⟨S1x1x2x128x128, .f32⟩
  | 102 => ⟨S2x128x128, .f32⟩
  | 103 => ⟨S1x1x2x128, .f32⟩
  | 104 => ⟨S2x128, .f32⟩
  | 105 => ⟨S1x128x128, .f32⟩
  | 106 => ⟨S128x128, .f32⟩
  | 107 => ⟨S100000x128, .f32⟩
  | 108 => ⟨S1x128, .f32⟩
  | 109 => ⟨S128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S1x128x128, .f32⟩
  | 117 => ⟨S128x128, .f32⟩
  | 118 => ⟨S100000x128, .f32⟩
  | 119 => ⟨S1x128, .f32⟩
  | 120 => ⟨S128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S1x1x128, .f32⟩
  | _ => ⟨S100000x128, .f32⟩

abbrev hbmTy0_1 (i : Nat) : BufTy := match i % 128 with
  | 0 => ⟨S128, .f32⟩
  | 1 => ⟨S1x1x128, .f32⟩
  | 2 => ⟨S128, .f32⟩
  | 3 => ⟨S_, .f32⟩
  | 4 => ⟨S100000, .f32⟩
  | 5 => ⟨S100000x1, .f32⟩
  | 6 => ⟨S_, .f32⟩
  | 7 => ⟨S100000x1, .f32⟩
  | 8 => ⟨S100000x1, .f32⟩
  | 9 => ⟨S100000x128, .f32⟩
  | 10 => ⟨S100000x128, .f32⟩
  | 11 => ⟨S100000x128, .f32⟩
  | 12 => ⟨S_, .f32⟩
  | 13 => ⟨S100000, .f32⟩
  | 14 => ⟨S100000x1, .f32⟩
  | 15 => ⟨S_, .f32⟩
  | 16 => ⟨S100000x1, .f32⟩
  | 17 => ⟨S100000x1, .f32⟩
  | 18 => ⟨S100000x128, .f32⟩
  | 19 => ⟨S100000x128, .f32⟩
  | 20 => ⟨S_, .f32⟩
  | 21 => ⟨S100000x1, .f32⟩
  | 22 => ⟨S100000x1, .f32⟩
  | 23 => ⟨S100000x1, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S1x1x128, .f32⟩
  | 36 => ⟨S128, .f32⟩
  | 37 => ⟨S1x1x128, .f32⟩
  | 38 => ⟨S128, .f32⟩
  | 39 => ⟨S_, .f32⟩
  | 40 => ⟨S50000, .f32⟩
  | 41 => ⟨S50000x1, .f32⟩
  | 42 => ⟨S_, .f32⟩
  | 43 => ⟨S50000x1, .f32⟩
  | 44 => ⟨S50000x1, .f32⟩
  | 45 => ⟨S50000x128, .f32⟩
  | 46 => ⟨S50000x128, .f32⟩
  | 47 => ⟨S50000x128, .f32⟩
  | 48 => ⟨S_, .f32⟩
  | 49 => ⟨S50000, .f32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S_, .f32⟩
  | 57 => ⟨S50000x1, .f32⟩
  | 58 => ⟨S50000x1, .f32⟩
  | 59 => ⟨S50000x1, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S1x600000, .i32⟩
  | 72 => ⟨S600000, .i32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .f32⟩
  | 82 => ⟨S1x600000, .i32⟩
  | 83 => ⟨S600000, .i32⟩
  | 84 => ⟨S_, .f32⟩
  | 85 => ⟨S50000x128, .f32⟩
  | 86 => ⟨S600000x1, .i32⟩
  | 87 => ⟨S50000x128, .f32⟩
  | 88 => ⟨S1x600000, .i32⟩
  | 89 => ⟨S600000, .i32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S1x600000, .i32⟩
  | 100 => ⟨S600000, .i32⟩
  | 101 => ⟨S_, .f32⟩
  | 102 => ⟨S100000x128, .f32⟩
  | 103 => ⟨S600000x1, .i32⟩
  | 104 => ⟨S100000x128, .f32⟩
  | 105 => ⟨S1x1, .f32⟩
  | 106 => ⟨S_, .f32⟩
  | 107 => ⟨S_, .f32⟩
  | 108 => ⟨S_, .f32⟩
  | 109 => ⟨S50000x128, .f32⟩
  | 110 => ⟨S50000x128, .f32⟩
  | 111 => ⟨S50000x128, .f32⟩
  | 112 => ⟨S1x1x2x128x128, .f32⟩
  | 113 => ⟨S2x128x128, .f32⟩
  | 114 => ⟨S1x1x2x128, .f32⟩
  | 115 => ⟨S2x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S1x128x128, .f32⟩
  | _ => ⟨S100000x128, .f32⟩

abbrev hbmTy0_2 (i : Nat) : BufTy := match i % 128 with
  | 0 => ⟨S128x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S1x1, .f32⟩
  | 11 => ⟨S_, .f32⟩
  | 12 => ⟨S_, .f32⟩
  | 13 => ⟨S_, .f32⟩
  | 14 => ⟨S100000x128, .f32⟩
  | 15 => ⟨S100000x128, .f32⟩
  | 16 => ⟨S100000x128, .f32⟩
  | 17 => ⟨S1x1x2x128x128, .f32⟩
  | 18 => ⟨S2x128x128, .f32⟩
  | 19 => ⟨S1x1x2x128, .f32⟩
  | 20 => ⟨S2x128, .f32⟩
  | 21 => ⟨S1x128x128, .f32⟩
  | 22 => ⟨S128x128, .f32⟩
  | 23 => ⟨S100000x128, .f32⟩
  | 24 => ⟨S1x128, .f32⟩
  | 25 => ⟨S128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S1x128x128, .f32⟩
  | 33 => ⟨S128x128, .f32⟩
  | 34 => ⟨S100000x128, .f32⟩
  | 35 => ⟨S1x128, .f32⟩
  | 36 => ⟨S128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S1x1x128, .f32⟩
  | 44 => ⟨S128, .f32⟩
  | 45 => ⟨S1x1x128, .f32⟩
  | 46 => ⟨S128, .f32⟩
  | 47 => ⟨S_, .f32⟩
  | 48 => ⟨S100000, .f32⟩
  | 49 => ⟨S100000x1, .f32⟩
  | 50 => ⟨S_, .f32⟩
  | 51 => ⟨S100000x1, .f32⟩
  | 52 => ⟨S100000x1, .f32⟩
  | 53 => ⟨S100000x128, .f32⟩
  | 54 => ⟨S100000x128, .f32⟩
  | 55 => ⟨S100000x128, .f32⟩
  | 56 => ⟨S_, .f32⟩
  | 57 => ⟨S100000, .f32⟩
  | 58 => ⟨S100000x1, .f32⟩
  | 59 => ⟨S_, .f32⟩
  | 60 => ⟨S100000x1, .f32⟩
  | 61 => ⟨S100000x1, .f32⟩
  | 62 => ⟨S100000x128, .f32⟩
  | 63 => ⟨S100000x128, .f32⟩
  | 64 => ⟨S_, .f32⟩
  | 65 => ⟨S100000x1, .f32⟩
  | 66 => ⟨S100000x1, .f32⟩
  | 67 => ⟨S100000x1, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S1x1x128, .f32⟩
  | 80 => ⟨S128, .f32⟩
  | 81 => ⟨S1x1x128, .f32⟩
  | 82 => ⟨S128, .f32⟩
  | 83 => ⟨S_, .f32⟩
  | 84 => ⟨S50000, .f32⟩
  | 85 => ⟨S50000x1, .f32⟩
  | 86 => ⟨S_, .f32⟩
  | 87 => ⟨S50000x1, .f32⟩
  | 88 => ⟨S50000x1, .f32⟩
  | 89 => ⟨S50000x128, .f32⟩
  | 90 => ⟨S50000x128, .f32⟩
  | 91 => ⟨S50000x128, .f32⟩
  | 92 => ⟨S_, .f32⟩
  | 93 => ⟨S50000, .f32⟩
  | 94 => ⟨S50000x1, .f32⟩
  | 95 => ⟨S_, .f32⟩
  | 96 => ⟨S50000x1, .f32⟩
  | 97 => ⟨S50000x1, .f32⟩
  | 98 => ⟨S50000x128, .f32⟩
  | 99 => ⟨S50000x128, .f32⟩
  | 100 => ⟨S_, .f32⟩
  | 101 => ⟨S50000x1, .f32⟩
  | 102 => ⟨S50000x1, .f32⟩
  | 103 => ⟨S50000x1, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_1 : Ref sig .tc := ⟨.hbm, 46, rfl⟩
abbrev main_v32 : Ref sig .tc := ⟨.hbm, 47, rfl⟩
abbrev main_v33 : Ref sig .tc := ⟨.hbm, 48, rfl⟩
abbrev main_c_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_call0_cst : Ref sig .tc := ⟨.hbm, 80, rfl⟩
abbrev main_call0_v0 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_call1_cst : Ref sig .tc := ⟨.hbm, 91, rfl⟩
abbrev main_call1_v0 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_5 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_call2_cst : Ref sig .tc := ⟨.hbm, 113, rfl⟩
abbrev main_call2_v0 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_call3_cst : Ref sig .tc := ⟨.hbm, 124, rfl⟩
abbrev main_call3_v0 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_6 : Ref sig .tc := ⟨.hbm, 131, rfl⟩
abbrev main_v104 : Ref sig .tc := ⟨.hbm, 132, rfl⟩
abbrev main_v105 : Ref sig .tc := ⟨.hbm, 133, rfl⟩
abbrev main_cst_7 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_8 : Ref sig .tc := ⟨.hbm, 140, rfl⟩
abbrev main_v111 : Ref sig .tc := ⟨.hbm, 141, rfl⟩
abbrev main_v112 : Ref sig .tc := ⟨.hbm, 142, rfl⟩
abbrev main_cst_9 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_10 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_call4_cst : Ref sig .tc := ⟨.hbm, 160, rfl⟩
abbrev main_call4_v0 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_11 : Ref sig .tc := ⟨.hbm, 167, rfl⟩
abbrev main_v133 : Ref sig .tc := ⟨.hbm, 168, rfl⟩
abbrev main_v134 : Ref sig .tc := ⟨.hbm, 169, rfl⟩
abbrev main_cst_12 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_13 : Ref sig .tc := ⟨.hbm, 176, rfl⟩
abbrev main_v140 : Ref sig .tc := ⟨.hbm, 177, rfl⟩
abbrev main_v141 : Ref sig .tc := ⟨.hbm, 178, rfl⟩
abbrev main_cst_14 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_15 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_call5_cst : Ref sig .tc := ⟨.hbm, 196, rfl⟩
abbrev main_call5_v0 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_c_16 : Ref sig .tc := ⟨.hbm, 201, rfl⟩
abbrev main_v160 : Ref sig .tc := ⟨.hbm, 202, rfl⟩
abbrev main_v161 : Ref sig .tc := ⟨.hbm, 203, rfl⟩
abbrev main_c_17 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_cst_18 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_c_19 : Ref sig .tc := ⟨.hbm, 218, rfl⟩
abbrev main_v174 : Ref sig .tc := ⟨.hbm, 219, rfl⟩
abbrev main_v175 : Ref sig .tc := ⟨.hbm, 220, rfl⟩
abbrev main_c_20 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_cst_21 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_cst_22 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_call6_cst : Ref sig .tc := ⟨.hbm, 252, rfl⟩
abbrev main_call6_v0 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_call7_cst : Ref sig .tc := ⟨.hbm, 263, rfl⟩
abbrev main_call7_v0 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_cst_23 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_call8_cst : Ref sig .tc := ⟨.hbm, 285, rfl⟩
abbrev main_call8_v0 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_call9_cst : Ref sig .tc := ⟨.hbm, 296, rfl⟩
abbrev main_call9_v0 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_cst_24 : Ref sig .tc := ⟨.hbm, 303, rfl⟩
abbrev main_v246 : Ref sig .tc := ⟨.hbm, 304, rfl⟩
abbrev main_v247 : Ref sig .tc := ⟨.hbm, 305, rfl⟩
abbrev main_cst_25 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_cst_26 : Ref sig .tc := ⟨.hbm, 312, rfl⟩
abbrev main_v253 : Ref sig .tc := ⟨.hbm, 313, rfl⟩
abbrev main_v254 : Ref sig .tc := ⟨.hbm, 314, rfl⟩
abbrev main_cst_27 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_cst_28 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_call10_cst : Ref sig .tc := ⟨.hbm, 332, rfl⟩
abbrev main_call10_v0 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_cst_29 : Ref sig .tc := ⟨.hbm, 339, rfl⟩
abbrev main_v275 : Ref sig .tc := ⟨.hbm, 340, rfl⟩
abbrev main_v276 : Ref sig .tc := ⟨.hbm, 341, rfl⟩
abbrev main_cst_30 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_cst_31 : Ref sig .tc := ⟨.hbm, 348, rfl⟩
abbrev main_v282 : Ref sig .tc := ⟨.hbm, 349, rfl⟩
abbrev main_v283 : Ref sig .tc := ⟨.hbm, 350, rfl⟩
abbrev main_cst_32 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_cst_33 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_call11_cst : Ref sig .tc := ⟨.hbm, 368, rfl⟩
abbrev main_call11_v0 : Ref sig .tc := ⟨.hbm, 369, rfl⟩
abbrev main_v299 : Ref sig .tc := ⟨.hbm, 370, rfl⟩

abbrev nD : Nat := 1
abbrev τ : Topo := Topo.v7x

variable {F : FTy → Type} [FloatOps F]

class Facts₀ : Prop where
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128x128_S1x128x128_1_0_0 : S2x128x128.Slices ![1, 0, 0] S1x128x128
  slices_S2x128_S1x128_1_0 : S2x128.Slices ![1, 0] S1x128
  bcast_S1x128_S50000x128_0_1 : S1x128.BroadcastsInDim S50000x128 (![0, 1] : Fin 2 → Fin S50000x128.rank)
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S50000x128 : S_.BroadcastsInDim S50000x128 (![] : Fin 0 → Fin S50000x128.rank)
  bcast_S_S100000x128 : S_.BroadcastsInDim S100000x128 (![] : Fin 0 → Fin S100000x128.rank)
  slices_S2x2_S1x1_0_0 : S2x2.Slices ![0, 0] S1x1
  shapeCasts_S1x1_S_ : S1x1.ShapeCasts S_
  slices_S2x2x2x128x128_S1x1x2x128x128_0_0_0_0_0 : S2x2x2x128x128.Slices ![0, 0, 0, 0, 0] S1x1x2x128x128
  shapeCasts_S1x1x2x128x128_S2x128x128 : S1x1x2x128x128.ShapeCasts S2x128x128
  slices_S2x2x2x128_S1x1x2x128_0_0_0_0 : S2x2x2x128.Slices ![0, 0, 0, 0] S1x1x2x128
  shapeCasts_S1x1x2x128_S2x128 : S1x1x2x128.ShapeCasts S2x128
  slices_S2x2_S1x1_0_1 : S2x2.Slices ![0, 1] S1x1
  slices_S2x2x2x128x128_S1x1x2x128x128_0_1_0_0_0 : S2x2x2x128x128.Slices ![0, 1, 0, 0, 0] S1x1x2x128x128
  slices_S2x2x2x128_S1x1x2x128_0_1_0_0 : S2x2x2x128.Slices ![0, 1, 0, 0] S1x1x2x128
  slices_S2x2x128_S1x1x128_0_0_0 : S2x2x128.Slices ![0, 0, 0] S1x1x128
  shapeCasts_S1x1x128_S128 : S1x1x128.ShapeCasts S128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x2x128_S1x1x128_0_1_0 : S2x2x128.Slices ![0, 1, 0] S1x1x128
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x2_S1x1_1_0 : S2x2.Slices ![1, 0] S1x1
  slices_S2x2x2x128x128_S1x1x2x128x128_1_0_0_0_0 : S2x2x2x128x128.Slices ![1, 0, 0, 0, 0] S1x1x2x128x128
  slices_S2x2x2x128_S1x1x2x128_1_0_0_0 : S2x2x2x128.Slices ![1, 0, 0, 0] S1x1x2x128
  slices_S2x2_S1x1_1_1 : S2x2.Slices ![1, 1] S1x1
  slices_S2x2x2x128x128_S1x1x2x128x128_1_1_0_0_0 : S2x2x2x128x128.Slices ![1, 1, 0, 0, 0] S1x1x2x128x128
  slices_S2x2x2x128_S1x1x2x128_1_1_0_0 : S2x2x2x128.Slices ![1, 1, 0, 0] S1x1x2x128
  slices_S2x2x128_S1x1x128_1_0_0 : S2x2x128.Slices ![1, 0, 0] S1x1x128
  slices_S2x2x128_S1x1x128_1_1_0 : S2x2x128.Slices ![1, 1, 0] S1x1x128
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.Run.lean ====
/-
  The whole program's run with its two results named.

  The program is six kernel regions among stretches of host operations. Its buffer contents at each boundary form a
  chain: the launch memory, then alternately a host stretch's operations applied to the previous contents and a
  region's arrays replaced by what its grid of block write-backs leaves. Every weakly fair execution ends with each
  unscoped buffer at the LAST link of that chain; read at the two result buffers and at the eleven arguments this is
  the statement below. It is the launch theorem for a list of segments, applied to the same segments, thread states
  and proof data as the frame, with the two results kept in the final reading.
-/
import proofs.«132706_j49976239456902_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the user table's and the item table's result
    buffers at the last boundary's contents and the arguments as launched. -/
theorem run_results : θ_run defs (onTc (τ := τ) (main (F := F))) ⟨m, fun _ => 0, ρ⟩ (fun r => ∀ c : Dev nD,
      r.2.mem ((c.tc : Thread nD τ).loc main_v151) = W12 m ρ c (Proc.devRef .tc main_v151)
      ∧ r.2.mem ((c.tc : Thread nD τ).loc main_v133) = W12 m ρ c (Proc.devRef .tc main_v133)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v151 (by decide)),
       h c _ (mem_uc main_v133 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Gen

end
-- ==== Proof.Spec.lean ====
/-
  The two node-wise stages of the network, stated once, row by row, on the extended reals.

  A node's feature row has 128 channels. The input projection sends a row `x` to `x·W + b`. A layer's update sends a
  node's row `x` and its aggregated neighbour row `a` to

    relu (layerNorm (relu (relu ((s·x + a)·W₀ + b₀)·W₁ + b₁)))

  where `layerNorm r = (r − mean r) · rsqrt (mean ((r − mean r)²) + ε) · g + β`, the mean being the sum of the 128
  channels divided by 128. Every stage is a function of ONE node's rows, so the value at node `p` of an array of `M`
  nodes is the same whether the array is the whole table or a block of its rows: `ginArr_congr`, `projArr_congr`.

  The parameters arrive as slices of stacked parameter tables; the slices are named here by their coordinates so that
  both programs' ways of cutting them out can be compared with one term.
-/
import Idealize.ShloMosaic.Lib.ValueIdx
import Idealize.ShloMosaic.PureOps.Ideal.Laws

noncomputable section

namespace Cert.Gin

open Idealize.ShloMosaic Idealize.ShloMosaic.ValueIdx

/-- An `M × N` array of extended reals. -/
abbrev Mat (M N : ℕ) := (⟨2, ![M, N]⟩ : Shape).Idx → EReal
/-- One node's 128 channels. -/
abbrev Row := Fin 128 → EReal

/-- The float words the two programs share: `0`, `128`, the layer norm's `ε` and `1`. -/
abbrev zeroW : EReal := Ideal.ofBits .f32 0x00000000#32
abbrev c128 : EReal := Ideal.ofBits .f32 0x43000000#32
abbrev epsW : EReal := Ideal.ofBits .f32 0x3727C5AC#32
abbrev oneW : EReal := Ideal.ofBits .f32 0x3F800000#32

/-- Row `p` of an array. -/
def row {M : ℕ} (x : Mat M 128) (p : Fin M) : Row := fun k => x (ix2 p k)

/-- `x·W + b` on one row, the bias a `1 × 128` row. -/
def affineRow (xr : Row) (w : Mat 128 128) (b : Mat 1 128) : Row :=
  fun q => (∑ k : Fin 128, xr k * w (ix2 k q)) + b (ix2 0 q)

/-- `max(·, 0)` channel by channel. -/
def reluRow (r : Row) : Row := fun q => max (r q) zeroW

/-- `s·x + a` channel by channel. -/
def combineRow (s : EReal) (xr ar : Row) : Row := fun q => s * xr q + ar q

/-- The mean of the 128 channels: their sum divided by 128. -/
def meanRow (r : Row) : EReal := Ideal.div (∑ k : Fin 128, r k) c128

/-- The centred row. -/
def centredRow (r : Row) : Row := fun q => r q - meanRow r

/-- Layer normalisation of one row with scale `g` and shift `β`. -/
def normRow (r : Row) (g beta : Mat 1 128) : Row :=
  fun q => centredRow r q * Ideal.rsqrt (meanRow (fun k => centredRow r k * centredRow r k) + epsW) * g (ix2 0 q)
    + beta (ix2 0 q)

/-- One layer's update of one node. -/
def ginRow (s : EReal) (xr ar : Row) (w0 : Mat 128 128) (b0 : Mat 1 128) (w1 : Mat 128 128) (b1 : Mat 1 128)
    (g beta : Mat 1 128) : Row :=
  reluRow (normRow (reluRow (affineRow (reluRow (affineRow (combineRow s xr ar) w0 b0)) w1 b1)) g beta)

/-- The input projection of an array of nodes. -/
def projArr {M : ℕ} (x : Mat M 128) (w : Mat 128 128) (b : Mat 1 128) : Mat M 128 :=
  fun j => affineRow (row x (j 0)) w b (j 1)

/-- One layer's update of an array of nodes, the scale `s` a `1 × 1` array. -/
def ginArr {M : ℕ} (x agg : Mat M 128) (s : Mat 1 1) (w0 : Mat 128 128) (b0 : Mat 1 128) (w1 : Mat 128 128)
    (b1 : Mat 1 128) (g beta : Mat 1 128) : Mat M 128 :=
  fun j => ginRow (s (ix2 0 0)) (row x (j 0)) (row agg (j 0)) w0 b0 w1 b1 g beta (j 1)

/-- The projection at a node depends on that node's row only. -/
theorem projArr_congr {M M' : ℕ} (x : Mat M 128) (x' : Mat M' 128) (w : Mat 128 128) (b : Mat 1 128)
    (j' : (⟨2, ![M', 128]⟩ : Shape).Idx) (j : (⟨2, ![M, 128]⟩ : Shape).Idx)
    (hx : row x' (j' 0) = row x (j 0)) (hq : (j' 1 : Fin 128) = (j 1 : Fin 128)) :
    projArr x' w b j' = projArr x w b j := by
  unfold projArr
  rw [hx]
  exact congrArg _ hq

/-- A layer's update at a node depends on that node's two rows only. -/
theorem ginArr_congr {M M' : ℕ} (x agg : Mat M 128) (x' agg' : Mat M' 128) (s : Mat 1 1) (w0 : Mat 128 128)
    (b0 : Mat 1 128) (w1 : Mat 128 128) (b1 : Mat 1 128) (g beta : Mat 1 128)
    (j' : (⟨2, ![M', 128]⟩ : Shape).Idx) (j : (⟨2, ![M, 128]⟩ : Shape).Idx)
    (hx : row x' (j' 0) = row x (j 0)) (ha : row agg' (j' 0) = row agg (j 0))
    (hq : (j' 1 : Fin 128) = (j 1 : Fin 128)) :
    ginArr x' agg' s w0 b0 w1 b1 g beta j' = ginArr x agg s w0 b0 w1 b1 g beta j := by
  unfold ginArr
  rw [hx, ha]
  exact congrArg _ hq

/-! ## The parameters, by their coordinates in the stacked tables -/

/-- Projection weight of node type `t`: `W[t, ·, ·]`. -/
def projW (W : (⟨3, ![2, 128, 128]⟩ : Shape).Idx → EReal) (t : Fin 2) : Mat 128 128 := fun j => W (ix3 t (j 0) (j 1))
/-- Projection bias of node type `t` as a `1 × 128` row: `b[t, ·]`. -/
def projB (B : (⟨2, ![2, 128]⟩ : Shape).Idx → EReal) (t : Fin 2) : Mat 1 128 := fun j => B (ix2 t (j 1))
/-- MLP weight `W[l, e, n, ·, ·]` of layer `l`, edge type `e`, inner layer `n`. -/
def mlpW (W : (⟨5, ![2, 2, 2, 128, 128]⟩ : Shape).Idx → EReal) (l e n : Fin 2) : Mat 128 128 :=
  fun j => W (ix5 l e n (j 0) (j 1))
/-- MLP bias `b[l, e, n, ·]` as a `1 × 128` row. -/
def mlpB (B : (⟨4, ![2, 2, 2, 128]⟩ : Shape).Idx → EReal) (l e n : Fin 2) : Mat 1 128 := fun j => B (ix4 l e n (j 1))
/-- Layer-norm scale or shift `g[l, t, ·]` as a `1 × 128` row. -/
def lnP (G : (⟨3, ![2, 2, 128]⟩ : Shape).Idx → EReal) (l t : Fin 2) : Mat 1 128 := fun j => G (ix3 l t (j 1))
/-- The self-loop scale `1 + eps[l, e]` as a `1 × 1` array. -/
def scaleOf (E : (⟨2, ![2, 2]⟩ : Shape).Idx → EReal) (l e : Fin 2) : Mat 1 1 := fun _ => oneW + E (ix2 l e)

end Cert.Gin

end
-- ==== Proof.LibSliceCast.lean ====
/-
  A slice of a stacked parameter table, recast to the block a kernel reads, read at an index.

  The parameters of the network arrive stacked: weights as `[2, 128, 128]` or `[2, 2, 2, 128, 128]`, biases as `[2, 128]` or
  `[2, 2, 2, 128]`, layer-norm vectors as `[2, 2, 128]`, scalars as `[2, 2]`. One parameter is cut out by a unit-stride slice
  whose leading offsets are the parameter's coordinates and whose trailing offsets are zero; the slice keeps the leading
  axes as unit axes, and a recast drops them (`[1, 128, 128] → [128, 128]`, `[1, 128] → [128] → [1, 128]`, `[1, 1] → []`).
  A recast preserves row-major position and unit axes contribute nothing to it, so the block at `(p, q)` is the table at
  the parameter's coordinates followed by `(p, q)`; a row at `(u, q)` is the table at the coordinates followed by `q`;
  the scalar is the table at the coordinates. The offsets are taken as a function with its values given by hypotheses,
  so one lemma serves every parameter of a table.
-/
import Idealize.ShloMosaic.Lib.Pipeline.Value
import Idealize.ShloMosaic.Lib.ValueIdx

noncomputable section

namespace Cert.Lib.SliceCast

open Idealize.ShloMosaic Idealize.ShloMosaic.ValueIdx

variable {α : Type}

/-! ## Recasts between a vector, a one-row array and a scalar -/

/-- A `[128]` vector recast to `[1, 128]` reads, at `(u, q)`, the vector at `q`. -/
theorem cast_vec_row (y : (⟨1, ![128]⟩ : Shape).Idx → α) (hc : (⟨1, ![128]⟩ : Shape).ShapeCasts ⟨2, ![1, 128]⟩)
    (u : Fin 1) (q : Fin 128) : shapeCast ⟨2, ![1, 128]⟩ y hc (ix2 u q) = y (ix1 q) :=
  shapeCast_apply y hc (ix2 u q) (ix1 q) (by
    rw [Shape.rowMajor_val_one, Shape.rowMajor_val_two]
    have hu : u.val = 0 := by omega
    show q.val = u.val * 128 + q.val
    omega)

/-- The row-major position of the one index of a rank-0 shape is zero. -/
theorem rowMajor_scalar (k : (⟨0, ![]⟩ : Shape).Idx) : ((⟨0, ![]⟩ : Shape).rowMajor k).val = 0 :=
  Shape.rowMajorPi_zero _ k

/-- A scalar recast to `[1, 1]` reads, at its one index, the scalar. -/
theorem cast_scalar_11 (y : (⟨0, ![]⟩ : Shape).Idx → α) (hc : (⟨0, ![]⟩ : Shape).ShapeCasts ⟨2, ![1, 1]⟩)
    (j : (⟨2, ![1, 1]⟩ : Shape).Idx) : shapeCast ⟨2, ![1, 1]⟩ y hc j = y ix0 :=
  shapeCast_apply y hc j ix0 (by
    rw [rowMajor_scalar, Shape.rowMajor_val_two]
    have h0 : (j 0).val < 1 := (j 0).isLt
    have h1 : (j 1).val < 1 := (j 1).isLt
    show 0 = (j 0).val * 1 + (j 1).val
    omega)

/-! ## One parameter of a stacked table -/

/-- `[2, 128, 128]`, slice at `[t, 0, 0]`, recast to `[128, 128]`: at `(p, q)` the table at `(t, p, q)`. -/
theorem weight3 (x : (⟨3, ![2, 128, 128]⟩ : Shape).Idx → α) (off : Fin 3 → ℕ) (t : Fin 2)
    (h0 : off 0 = t.val) (h1 : off 1 = 0) (h2 : off 2 = 0)
    (hs : (⟨3, ![2, 128, 128]⟩ : Shape).Slices off ⟨3, ![1, 128, 128]⟩)
    (hc : (⟨3, ![1, 128, 128]⟩ : Shape).ShapeCasts ⟨2, ![128, 128]⟩) (p q : Fin 128) :
    shapeCast ⟨2, ![128, 128]⟩ (extractStridedSlice ⟨3, ![1, 128, 128]⟩ off x hs) hc (ix2 p q) = x (ix3 t p q) := by
  refine (shapeCast_apply _ hc (ix2 p q) (ix3 (0 : Fin 1) p q) ?_).trans ?_
  · rw [Shape.rowMajor_val_three, Shape.rowMajor_val_two]
    show ((0 : ℕ) * 128 + p.val) * 128 + q.val = p.val * 128 + q.val
    omega
  · exact extractStridedSlice_apply off x hs (ix3 (0 : Fin 1) p q) (ix3 t p q) fun a => by
      match a with
      | ⟨0, _⟩ => show t.val = off 0 + 0; omega
      | ⟨1, _⟩ => show p.val = off 1 + p.val; omega
      | ⟨2, _⟩ => show q.val = off 2 + q.val; omega

/-- `[2, 128]`, slice at `[t, 0]`, recast to `[128]` and back to `[1, 128]`: at `(u, q)` the table at `(t, q)`. -/
theorem bias2 (x : (⟨2, ![2, 128]⟩ : Shape).Idx → α) (off : Fin 2 → ℕ) (t : Fin 2)
    (h0 : off 0 = t.val) (h1 : off 1 = 0)
    (hs : (⟨2, ![2, 128]⟩ : Shape).Slices off ⟨2, ![1, 128]⟩)
    (hc : (⟨2, ![1, 128]⟩ : Shape).ShapeCasts ⟨1, ![128]⟩) (hc' : (⟨1, ![128]⟩ : Shape).ShapeCasts ⟨2, ![1, 128]⟩)
    (u : Fin 1) (q : Fin 128) :
    shapeCast ⟨2, ![1, 128]⟩ (shapeCast ⟨1, ![128]⟩ (extractStridedSlice ⟨2, ![1, 128]⟩ off x hs) hc) hc' (ix2 u q)
      = x (ix2 t q) := by
  refine (cast_vec_row _ hc' u q).trans ((shapeCast_apply _ hc (ix1 q) (ix2 (0 : Fin 1) q) ?_).trans ?_)
  · rw [Shape.rowMajor_val_two, Shape.rowMajor_val_one]
    show (0 : ℕ) * 128 + q.val = q.val
    omega
  · exact extractStridedSlice_apply off x hs (ix2 (0 : Fin 1) q) (ix2 t q) fun a => by
      match a with
      | ⟨0, _⟩ => show t.val = off 0 + 0; omega
      | ⟨1, _⟩ => show q.val = off 1 + q.val; omega

/-- `[2, 2, 2, 128, 128]`, slice at `[l, e, n, 0, 0]`, recast to `[128, 128]`: at `(p, q)` the table at `(l, e, n, p, q)`. -/
theorem weight5 (x : (⟨5, ![2, 2, 2, 128, 128]⟩ : Shape).Idx → α) (off : Fin 5 → ℕ) (l e n : Fin 2)
    (h0 : off 0 = l.val) (h1 : off 1 = e.val) (h2 : off 2 = n.val) (h3 : off 3 = 0) (h4 : off 4 = 0)
    (hs : (⟨5, ![2, 2, 2, 128, 128]⟩ : Shape).Slices off ⟨5, ![1, 1, 1, 128, 128]⟩)
    (hc : (⟨5, ![1, 1, 1, 128, 128]⟩ : Shape).ShapeCasts ⟨2, ![128, 128]⟩) (p q : Fin 128) :
    shapeCast ⟨2, ![128, 128]⟩ (extractStridedSlice ⟨5, ![1, 1, 1, 128, 128]⟩ off x hs) hc (ix2 p q) = x (ix5 l e n p q) := by
  refine (shapeCast_apply _ hc (ix2 p q) (ix5 (0 : Fin 1) (0 : Fin 1) (0 : Fin 1) p q) ?_).trans ?_
  · rw [Shape.rowMajor_val_five, Shape.rowMajor_val_two]
    show (((((0 : ℕ) * 1 + 0) * 1 + 0) * 128 + p.val) * 128 + q.val) = p.val * 128 + q.val
    omega
  · exact extractStridedSlice_apply off x hs (ix5 (0 : Fin 1) (0 : Fin 1) (0 : Fin 1) p q) (ix5 l e n p q) fun a => by
      match a with
      | ⟨0, _⟩ => show l.val = off 0 + 0; omega
      | ⟨1, _⟩ => show e.val = off 1 + 0; omega
      | ⟨2, _⟩ => show n.val = off 2 + 0; omega
      | ⟨3, _⟩ => show p.val = off 3 + p.val; omega
      | ⟨4, _⟩ => show q.val = off 4 + q.val; omega

/-- `[2, 2, 2, 128]`, slice at `[l, e, n, 0]`, recast to `[128]` and to `[1, 128]`: at `(u, q)` the table at `(l, e, n, q)`. -/
theorem bias4 (x : (⟨4, ![2, 2, 2, 128]⟩ : Shape).Idx → α) (off : Fin 4 → ℕ) (l e n : Fin 2)
    (h0 : off 0 = l.val) (h1 : off 1 = e.val) (h2 : off 2 = n.val) (h3 : off 3 = 0)
    (hs : (⟨4, ![2, 2, 2, 128]⟩ : Shape).Slices off ⟨4, ![1, 1, 1, 128]⟩)
    (hc : (⟨4, ![1, 1, 1, 128]⟩ : Shape).ShapeCasts ⟨1, ![128]⟩) (hc' : (⟨1, ![128]⟩ : Shape).ShapeCasts ⟨2, ![1, 128]⟩)
    (u : Fin 1) (q : Fin 128) :
    shapeCast ⟨2, ![1, 128]⟩ (shapeCast ⟨1, ![128]⟩ (extractStridedSlice ⟨4, ![1, 1, 1, 128]⟩ off x hs) hc) hc' (ix2 u q)
      = x (ix4 l e n q) := by
  refine (cast_vec_row _ hc' u q).trans
    ((shapeCast_apply _ hc (ix1 q) (ix4 (0 : Fin 1) (0 : Fin 1) (0 : Fin 1) q) ?_).trans ?_)
  · rw [Shape.rowMajor_val_four, Shape.rowMajor_val_one]
    show ((((0 : ℕ) * 1 + 0) * 1 + 0) * 128 + q.val) = q.val
    omega
  · exact extractStridedSlice_apply off x hs (ix4 (0 : Fin 1) (0 : Fin 1) (0 : Fin 1) q) (ix4 l e n q) fun a => by
      match a with
      | ⟨0, _⟩ => show l.val = off 0 + 0; omega
      | ⟨1, _⟩ => show e.val = off 1 + 0; omega
      | ⟨2, _⟩ => show n.val = off 2 + 0; omega
      | ⟨3, _⟩ => show q.val = off 3 + q.val; omega

/-- `[2, 2, 128]`, slice at `[l, t, 0]`, recast to `[128]` and to `[1, 128]`: at `(u, q)` the table at `(l, t, q)`. -/
theorem vec3 (x : (⟨3, ![2, 2, 128]⟩ : Shape).Idx → α) (off : Fin 3 → ℕ) (l t : Fin 2)
    (h0 : off 0 = l.val) (h1 : off 1 = t.val) (h2 : off 2 = 0)
    (hs : (⟨3, ![2, 2, 128]⟩ : Shape).Slices off ⟨3, ![1, 1, 128]⟩)
    (hc : (⟨3, ![1, 1, 128]⟩ : Shape).ShapeCasts ⟨1, ![128]⟩) (hc' : (⟨1, ![128]⟩ : Shape).ShapeCasts ⟨2, ![1, 128]⟩)
    (u : Fin 1) (q : Fin 128) :
    shapeCast ⟨2, ![1, 128]⟩ (shapeCast ⟨1, ![128]⟩ (extractStridedSlice ⟨3, ![1, 1, 128]⟩ off x hs) hc) hc' (ix2 u q)
      = x (ix3 l t q) := by
  refine (cast_vec_row _ hc' u q).trans ((shapeCast_apply _ hc (ix1 q) (ix3 (0 : Fin 1) (0 : Fin 1) q) ?_).trans ?_)
  · rw [Shape.rowMajor_val_three, Shape.rowMajor_val_one]
    show (((0 : ℕ) * 1 + 0) * 128 + q.val) = q.val
    omega
  · exact extractStridedSlice_apply off x hs (ix3 (0 : Fin 1) (0 : Fin 1) q) (ix3 l t q) fun a => by
      match a with
      | ⟨0, _⟩ => show l.val = off 0 + 0; omega
      | ⟨1, _⟩ => show t.val = off 1 + 0; omega
      | ⟨2, _⟩ => show q.val = off 2 + q.val; omega

/-- `[2, 2]`, slice at `[l, e]`, recast to a scalar: the table at `(l, e)`. -/
theorem scalar2 (x : (⟨2, ![2, 2]⟩ : Shape).Idx → α) (off : Fin 2 → ℕ) (l e : Fin 2)
    (h0 : off 0 = l.val) (h1 : off 1 = e.val)
    (hs : (⟨2, ![2, 2]⟩ : Shape).Slices off ⟨2, ![1, 1]⟩)
    (hc : (⟨2, ![1, 1]⟩ : Shape).ShapeCasts ⟨0, ![]⟩) (k : (⟨0, ![]⟩ : Shape).Idx) :
    shapeCast ⟨0, ![]⟩ (extractStridedSlice ⟨2, ![1, 1]⟩ off x hs) hc k = x (ix2 l e) := by
  refine (shapeCast_apply _ hc k (ix2 (0 : Fin 1) (0 : Fin 1)) ?_).trans ?_
  · rw [rowMajor_scalar, Shape.rowMajor_val_two]
    show (0 : ℕ) * 1 + 0 = 0
    omega
  · exact extractStridedSlice_apply off x hs (ix2 (0 : Fin 1) (0 : Fin 1)) (ix2 l e) fun a => by
      match a with
      | ⟨0, _⟩ => show l.val = off 0 + 0; omega
      | ⟨1, _⟩ => show e.val = off 1 + 0; omega

end Cert.Lib.SliceCast

end
-- ==== Proof.Glue0.lean ====
/-
  What the host operations before the first two regions leave in the buffers those regions read.

  Before each projection region the host cuts one node type's weight out of the stacked `[2, 128, 128]` table and recasts
  it to `[128, 128]`, and cuts that type's bias out of the `[2, 128]` table and recasts it to one row. Whatever the buffers
  hold when a stretch starts, after it the two blocks are the named parameters `projW` and `projB` of that valuation's
  tables, and every buffer the stretch does not write, the program's arguments among them, holds what it held.
-/
import proofs.«132706_j49976239456902_1_alg».proof.Proof.Gen.KernelIdeal.Launch
import proofs.«132706_j49976239456902_1_alg».proof.Proof.Spec
import Idealize.ShloMosaic.Lib.Pipeline.Value
import Idealize.ShloMosaic.Lib.StableHlo.Run
import Idealize.ShloMosaic.Lib.ValueIdx
import proofs.«132706_j49976239456902_1_alg».proof.Proof.LibSliceCast

noncomputable section

namespace Cert.KernelIdeal.Glue

open Cert.KernelIdeal Cert.KernelIdeal.Gen Cert.Gin Idealize.ShloMosaic Idealize.ShloMosaic.TcCoe Idealize.ShloMosaic.ValueIdx
  Idealize.ShloMosaic.StableHlo

variable (W : Valuation τ sig (Elt Ideal))

/-! ## Before the first region: the first node type's projection parameters -/

/-- The weight block the first region reads is the first node type's projection weight. -/
theorem s0_w : (StableHlo.after hostOps0 W (Proc.devRef .tc main_v1) : S128x128.Idx → EReal)
    = projW (W (Proc.devRef .tc main_arg2)) 0 := by
  delta hostOps0
  after_results
  funext j
  obtain ⟨p, q, rfl⟩ : ∃ (p q : Fin 128), j = ix2 p q := ⟨j 0, j 1, eq_ix2 j⟩
  exact Cert.Lib.SliceCast.weight3 (W (Proc.devRef .tc main_arg2)) ![0, 0, 0] 0 rfl rfl rfl _ _ p q

/-- The bias row the first region reads is the first node type's projection bias. -/
theorem s0_b : (StableHlo.after hostOps0 W (Proc.devRef .tc main_v4) : S1x128.Idx → EReal)
    = projB (W (Proc.devRef .tc main_arg3)) 0 := by
  delta hostOps0
  after_results
  funext j
  obtain ⟨u, q, rfl⟩ : ∃ (u : Fin 1) (q : Fin 128), j = ix2 u q := ⟨j 0, j 1, eq_ix2 j⟩
  exact Cert.Lib.SliceCast.bias2 (W (Proc.devRef .tc main_arg3)) ![0, 0] 0 rfl rfl _ _ _ u q

/-! ## Before the second region: the second node type's projection parameters -/

/-- The weight block the second region reads is the second node type's projection weight. -/
theorem s1_w : (StableHlo.after hostOps1 W (Proc.devRef .tc main_v7) : S128x128.Idx → EReal)
    = projW (W (Proc.devRef .tc main_arg2)) 1 := by
  delta hostOps1
  after_results
  funext j
  obtain ⟨p, q, rfl⟩ : ∃ (p q : Fin 128), j = ix2 p q := ⟨j 0, j 1, eq_ix2 j⟩
  exact Cert.Lib.SliceCast.weight3 (W (Proc.devRef .tc main_arg2)) ![1, 0, 0] 1 rfl rfl rfl _ _ p q

/-- The bias row the second region reads is the second node type's projection bias. -/
theorem s1_b : (StableHlo.after hostOps1 W (Proc.devRef .tc main_v10) : S1x128.Idx → EReal)
    = projB (W (Proc.devRef .tc main_arg3)) 1 := by
  delta hostOps1
  after_results
  funext j
  obtain ⟨u, q, rfl⟩ : ∃ (u : Fin 1) (q : Fin 128), j = ix2 u q := ⟨j 0, j 1, eq_ix2 j⟩
  exact Cert.Lib.SliceCast.bias2 (W (Proc.devRef .tc main_arg3)) ![1, 0] 1 rfl rfl _ _ _ u q

/-! ## What the two stretches leave alone -/

/-- A buffer that no operation of a stretch writes holds after it what it held before: the stretch's operations are
    listed, each one's written buffer is a single named buffer, and that buffer is another one. -/
local macro "host_keep " ops:ident : tactic =>
  `(tactic| (refine StableHlo.after_of_forall_not_mem _ _ (List.forall_iff_forall_mem.mp ?_)
             delta $ops:ident
             simp only [List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

theorem s0_keep_main_arg0 : StableHlo.after hostOps0 W (Proc.devRef .tc main_arg0) = W (Proc.devRef .tc main_arg0) := by host_keep hostOps0
theorem s0_keep_main_arg1 : StableHlo.after hostOps0 W (Proc.devRef .tc main_arg1) = W (Proc.devRef .tc main_arg1) := by host_keep hostOps0
theorem s0_keep_main_arg2 : StableHlo.after hostOps0 W (Proc.devRef .tc main_arg2) = W (Proc.devRef .tc main_arg2) := by host_keep hostOps0
theorem s0_keep_main_arg3 : StableHlo.after hostOps0 W (Proc.devRef .tc main_arg3) = W (Proc.devRef .tc main_arg3) := by host_keep hostOps0
theorem s0_keep_main_arg4 : StableHlo.after hostOps0 W (Proc.devRef .tc main_arg4) = W (Proc.devRef .tc main_arg4) := by host_keep hostOps0
theorem s0_keep_main_arg5 : StableHlo.after hostOps0 W (Proc.devRef .tc main_arg5) = W (Proc.devRef .tc main_arg5) := by host_keep hostOps0
theorem s0_keep_main_arg6 : StableHlo.after hostOps0 W (Proc.devRef .tc main_arg6) = W (Proc.devRef .tc main_arg6) := by host_keep hostOps0
theorem s0_keep_main_arg7 : StableHlo.after hostOps0 W (Proc.devRef .tc main_arg7) = W (Proc.devRef .tc main_arg7) := by host_keep hostOps0
theorem s0_keep_main_arg8 : StableHlo.after hostOps0 W (Proc.devRef .tc main_arg8) = W (Proc.devRef .tc main_arg8) := by host_keep hostOps0
theorem s0_keep_main_arg9 : StableHlo.after hostOps0 W (Proc.devRef .tc main_arg9) = W (Proc.devRef .tc main_arg9) := by host_keep hostOps0
theorem s0_keep_main_arg10 : StableHlo.after hostOps0 W (Proc.devRef .tc main_arg10) = W (Proc.devRef .tc main_arg10) := by host_keep hostOps0

theorem s1_keep_main_arg0 : StableHlo.after hostOps1 W (Proc.devRef .tc main_arg0) = W (Proc.devRef .tc main_arg0) := by host_keep hostOps1
theorem s1_keep_main_arg1 : StableHlo.after hostOps1 W (Proc.devRef .tc main_arg1) = W (Proc.devRef .tc main_arg1) := by host_keep hostOps1
theorem s1_keep_main_arg2 : StableHlo.after hostOps1 W (Proc.devRef .tc main_arg2) = W (Proc.devRef .tc main_arg2) := by host_keep hostOps1
theorem s1_keep_main_arg3 : StableHlo.after hostOps1 W (Proc.devRef .tc main_arg3) = W (Proc.devRef .tc main_arg3) := by host_keep hostOps1
theorem s1_keep_main_arg4 : StableHlo.after hostOps1 W (Proc.devRef .tc main_arg4) = W (Proc.devRef .tc main_arg4) := by host_keep hostOps1
theorem s1_keep_main_arg5 : StableHlo.after hostOps1 W (Proc.devRef .tc main_arg5) = W (Proc.devRef .tc main_arg5) := by host_keep hostOps1
theorem s1_keep_main_arg6 : StableHlo.after hostOps1 W (Proc.devRef .tc main_arg6) = W (Proc.devRef .tc main_arg6) := by host_keep hostOps1
theorem s1_keep_main_arg7 : StableHlo.after hostOps1 W (Proc.devRef .tc main_arg7) = W (Proc.devRef .tc main_arg7) := by host_keep hostOps1
theorem s1_keep_main_arg8 : StableHlo.after hostOps1 W (Proc.devRef .tc main_arg8) = W (Proc.devRef .tc main_arg8) := by host_keep hostOps1
theorem s1_keep_main_arg9 : StableHlo.after hostOps1 W (Proc.devRef .tc main_arg9) = W (Proc.devRef .tc main_arg9) := by host_keep hostOps1
theorem s1_keep_main_arg10 : StableHlo.after hostOps1 W (Proc.devRef .tc main_arg10) = W (Proc.devRef .tc main_arg10) := by host_keep hostOps1
theorem s1_keep_main_v5 : StableHlo.after hostOps1 W (Proc.devRef .tc main_v5) = W (Proc.devRef .tc main_v5) := by host_keep hostOps1

end Cert.KernelIdeal.Glue

end
-- ==== Proof.Glue2.lean ====
/-
  What the host operations before region 2 leave in the buffers that region reads.

  The stretch cuts the first layer's item-update parameters out of the stacked tables (two inner weights and biases, the layer norm's scale
  and shift, the self-loop scale) and recasts each to the block the region reads; it also leaves, as a scalar, the other edge type's scale for the next stretch. Whatever the buffers hold when the
  stretch starts, after it each block is the named parameter of that valuation's tables, and every buffer the stretch
  does not write, the program's arguments among them, holds what it held.
-/
import proofs.«132706_j49976239456902_1_alg».proof.Proof.Gen.KernelIdeal.Launch
import proofs.«132706_j49976239456902_1_alg».proof.Proof.Spec
import Idealize.ShloMosaic.Lib.Pipeline.Value
import Idealize.ShloMosaic.Lib.StableHlo.Run
import Idealize.ShloMosaic.Lib.ValueIdx
import proofs.«132706_j49976239456902_1_alg».proof.Proof.LibSliceCast

noncomputable section

namespace Cert.KernelIdeal.Glue

open Cert.KernelIdeal Cert.KernelIdeal.Gen Cert.Gin Idealize.ShloMosaic Idealize.ShloMosaic.TcCoe Idealize.ShloMosaic.ValueIdx
  Idealize.ShloMosaic.StableHlo

variable (W : Valuation τ sig (Elt Ideal))

/-! ## The parameter blocks the region reads -/

/-- The scale block the region reads is one plus the layer's self-loop weight for this edge type. -/
theorem s2_scale : (StableHlo.after hostOps2 W (Proc.devRef .tc main_v62) : S1x1.Idx → EReal) = scaleOf (W (Proc.devRef .tc main_arg6)) 0 0 := by
  delta hostOps2
  after_results
  funext j
  refine (Cert.Lib.SliceCast.cast_scalar_11 _ _ j).trans ?_
  exact congrArg (fun z => oneW + z) (Cert.Lib.SliceCast.scalar2 (W (Proc.devRef .tc main_arg6)) ![0, 0] 0 0 rfl rfl _ _ ix0)

/-- The first inner weight block is the stacked weight table at this layer, this edge type and inner layer 0. -/
theorem s2_w0 : (StableHlo.after hostOps2 W (Proc.devRef .tc main_v47) : S128x128.Idx → EReal)
    = mlpW (W (Proc.devRef .tc main_arg4)) 0 0 0 := by
  delta hostOps2
  after_results
  funext j
  obtain ⟨p, q, rfl⟩ : ∃ (p q : Fin 128), j = ix2 p q := ⟨j 0, j 1, eq_ix2 j⟩
  exact Cert.Lib.SliceCast.weight5 (W (Proc.devRef .tc main_arg4)) ![0, 0, 0, 0, 0] 0 0 0 rfl rfl rfl rfl rfl _ _ p q

/-- The first inner bias row is the stacked bias table at this layer, this edge type and inner layer 0. -/
theorem s2_b0 : (StableHlo.after hostOps2 W (Proc.devRef .tc main_v58) : S1x128.Idx → EReal)
    = mlpB (W (Proc.devRef .tc main_arg5)) 0 0 0 := by
  delta hostOps2
  after_results
  funext j
  obtain ⟨u, q, rfl⟩ : ∃ (u : Fin 1) (q : Fin 128), j = ix2 u q := ⟨j 0, j 1, eq_ix2 j⟩
  exact Cert.Lib.SliceCast.bias4 (W (Proc.devRef .tc main_arg5)) ![0, 0, 0, 0] 0 0 0 rfl rfl rfl rfl _ _ _ u q

/-- The second inner weight block: inner layer 1. -/
theorem s2_w1 : (StableHlo.after hostOps2 W (Proc.devRef .tc main_v51) : S128x128.Idx → EReal)
    = mlpW (W (Proc.devRef .tc main_arg4)) 0 0 1 := by
  delta hostOps2
  after_results
  funext j
  obtain ⟨p, q, rfl⟩ : ∃ (p q : Fin 128), j = ix2 p q := ⟨j 0, j 1, eq_ix2 j⟩
  exact Cert.Lib.SliceCast.weight5 (W (Proc.devRef .tc main_arg4)) ![0, 0, 1, 0, 0] 0 0 1 rfl rfl rfl rfl rfl _ _ p q

/-- The second inner bias row: inner layer 1. -/
theorem s2_b1 : (StableHlo.after hostOps2 W (Proc.devRef .tc main_v59) : S1x128.Idx → EReal)
    = mlpB (W (Proc.devRef .tc main_arg5)) 0 0 1 := by
  delta hostOps2
  after_results
  funext j
  obtain ⟨u, q, rfl⟩ : ∃ (u : Fin 1) (q : Fin 128), j = ix2 u q := ⟨j 0, j 1, eq_ix2 j⟩
  exact Cert.Lib.SliceCast.bias4 (W (Proc.devRef .tc main_arg5)) ![0, 0, 1, 0] 0 0 1 rfl rfl rfl rfl _ _ _ u q

/-- The layer norm's scale row is the stacked scale table at this layer and the updated node type. -/
theorem s2_g : (StableHlo.after hostOps2 W (Proc.devRef .tc main_v60) : S1x128.Idx → EReal)
    = lnP (W (Proc.devRef .tc main_arg7)) 0 1 := by
  delta hostOps2
  after_results
  funext j
  obtain ⟨u, q, rfl⟩ : ∃ (u : Fin 1) (q : Fin 128), j = ix2 u q := ⟨j 0, j 1, eq_ix2 j⟩
  exact Cert.Lib.SliceCast.vec3 (W (Proc.devRef .tc main_arg7)) ![0, 1, 0] 0 1 rfl rfl rfl _ _ _ u q

/-- The layer norm's shift row is the stacked shift table at this layer and the updated node type. -/
theorem s2_beta : (StableHlo.after hostOps2 W (Proc.devRef .tc main_v61) : S1x128.Idx → EReal)
    = lnP (W (Proc.devRef .tc main_arg8)) 0 1 := by
  delta hostOps2
  after_results
  funext j
  obtain ⟨u, q, rfl⟩ : ∃ (u : Fin 1) (q : Fin 128), j = ix2 u q := ⟨j 0, j 1, eq_ix2 j⟩
  exact Cert.Lib.SliceCast.vec3 (W (Proc.devRef .tc main_arg8)) ![0, 1, 0] 0 1 rfl rfl rfl _ _ _ u q

/-- The other edge type's scale, left as a scalar for the next stretch: one plus that self-loop weight. -/
theorem s2_scaleU : (StableHlo.after hostOps2 W (Proc.devRef .tc main_v45) : S_.Idx → EReal)
    = fun _ => oneW + (W (Proc.devRef .tc main_arg6) : S2x2.Idx → EReal) (ix2 0 1) := by
  delta hostOps2
  after_results
  funext k
  exact congrArg (fun z => oneW + z) (Cert.Lib.SliceCast.scalar2 (W (Proc.devRef .tc main_arg6)) ![0, 1] 0 1 rfl rfl _ _ k)

/-! ## What the stretch leaves alone -/

/-- A buffer that no operation of a stretch writes holds after it what it held before: the stretch's operations are
    listed, each one's written buffer is a single named buffer, and that buffer is another one. -/
local macro "host_keep " ops:ident : tactic =>
  `(tactic| (refine StableHlo.after_of_forall_not_mem _ _ (List.forall_iff_forall_mem.mp ?_)
             delta $ops:ident
             simp only [List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

theorem s2_keep_main_arg0 : StableHlo.after hostOps2 W (Proc.devRef .tc main_arg0) = W (Proc.devRef .tc main_arg0) := by host_keep hostOps2
theorem s2_keep_main_arg1 : StableHlo.after hostOps2 W (Proc.devRef .tc main_arg1) = W (Proc.devRef .tc main_arg1) := by host_keep hostOps2
theorem s2_keep_main_arg2 : StableHlo.after hostOps2 W (Proc.devRef .tc main_arg2) = W (Proc.devRef .tc main_arg2) := by host_keep hostOps2
theorem s2_keep_main_arg3 : StableHlo.after hostOps2 W (Proc.devRef .tc main_arg3) = W (Proc.devRef .tc main_arg3) := by host_keep hostOps2
theorem s2_keep_main_arg4 : StableHlo.after hostOps2 W (Proc.devRef .tc main_arg4) = W (Proc.devRef .tc main_arg4) := by host_keep hostOps2
theorem s2_keep_main_arg5 : StableHlo.after hostOps2 W (Proc.devRef .tc main_arg5) = W (Proc.devRef .tc main_arg5) := by host_keep hostOps2
theorem s2_keep_main_arg6 : StableHlo.after hostOps2 W (Proc.devRef .tc main_arg6) = W (Proc.devRef .tc main_arg6) := by host_keep hostOps2
theorem s2_keep_main_arg7 : StableHlo.after hostOps2 W (Proc.devRef .tc main_arg7) = W (Proc.devRef .tc main_arg7) := by host_keep hostOps2
theorem s2_keep_main_arg8 : StableHlo.after hostOps2 W (Proc.devRef .tc main_arg8) = W (Proc.devRef .tc main_arg8) := by host_keep hostOps2
theorem s2_keep_main_arg9 : StableHlo.after hostOps2 W (Proc.devRef .tc main_arg9) = W (Proc.devRef .tc main_arg9) := by host_keep hostOps2
theorem s2_keep_main_arg10 : StableHlo.after hostOps2 W (Proc.devRef .tc main_arg10) = W (Proc.devRef .tc main_arg10) := by host_keep hostOps2
theorem s2_keep_main_v5 : StableHlo.after hostOps2 W (Proc.devRef .tc main_v5) = W (Proc.devRef .tc main_v5) := by host_keep hostOps2
theorem s2_keep_main_v11 : StableHlo.after hostOps2 W (Proc.devRef .tc main_v11) = W (Proc.devRef .tc main_v11) := by host_keep hostOps2

end Cert.KernelIdeal.Glue

end
-- ==== Proof.Glue3.lean ====
/-
  What the host operations before region 3 leave in the buffers that region reads.

  The stretch cuts the first layer's user-update parameters out of the stacked tables (two inner weights and biases, the layer norm's scale
  and shift, the self-loop scale) and recasts each to the block the region reads; its scale is the scalar an earlier stretch left, recast to a block. Whatever the buffers hold when the
  stretch starts, after it each block is the named parameter of that valuation's tables, and every buffer the stretch
  does not write, the program's arguments among them, holds what it held.
-/
import proofs.«132706_j49976239456902_1_alg».proof.Proof.Gen.KernelIdeal.Launch
import proofs.«132706_j49976239456902_1_alg».proof.Proof.Spec
import Idealize.ShloMosaic.Lib.Pipeline.Value
import Idealize.ShloMosaic.Lib.StableHlo.Run
import Idealize.ShloMosaic.Lib.ValueIdx
import proofs.«132706_j49976239456902_1_alg».proof.Proof.LibSliceCast

noncomputable section

namespace Cert.KernelIdeal.Glue

open Cert.KernelIdeal Cert.KernelIdeal.Gen Cert.Gin Idealize.ShloMosaic Idealize.ShloMosaic.TcCoe Idealize.ShloMosaic.ValueIdx
  Idealize.ShloMosaic.StableHlo

variable (W : Valuation τ sig (Elt Ideal))

/-! ## The parameter blocks the region reads -/

/-- The scale block the region reads is the scalar the earlier stretch left, recast to `[1, 1]`. -/
theorem s3_scale : (StableHlo.after hostOps3 W (Proc.devRef .tc main_v80) : S1x1.Idx → EReal)
    = fun _ => (W (Proc.devRef .tc main_v45) : S_.Idx → EReal) ix0 := by
  delta hostOps3
  after_results
  funext j
  exact Cert.Lib.SliceCast.cast_scalar_11 _ _ j

/-- The first inner weight block is the stacked weight table at this layer, this edge type and inner layer 0. -/
theorem s3_w0 : (StableHlo.after hostOps3 W (Proc.devRef .tc main_v65) : S128x128.Idx → EReal)
    = mlpW (W (Proc.devRef .tc main_arg4)) 0 1 0 := by
  delta hostOps3
  after_results
  funext j
  obtain ⟨p, q, rfl⟩ : ∃ (p q : Fin 128), j = ix2 p q := ⟨j 0, j 1, eq_ix2 j⟩
  exact Cert.Lib.SliceCast.weight5 (W (Proc.devRef .tc main_arg4)) ![0, 1, 0, 0, 0] 0 1 0 rfl rfl rfl rfl rfl _ _ p q

/-- The first inner bias row is the stacked bias table at this layer, this edge type and inner layer 0. -/
theorem s3_b0 : (StableHlo.after hostOps3 W (Proc.devRef .tc main_v76) : S1x128.Idx → EReal)
    = mlpB (W (Proc.devRef .tc main_arg5)) 0 1 0 := by
  delta hostOps3
  after_results
  funext j
  obtain ⟨u, q, rfl⟩ : ∃ (u : Fin 1) (q : Fin 128), j = ix2 u q := ⟨j 0, j 1, eq_ix2 j⟩
  exact Cert.Lib.SliceCast.bias4 (W (Proc.devRef .tc main_arg5)) ![0, 1, 0, 0] 0 1 0 rfl rfl rfl rfl _ _ _ u q

/-- The second inner weight block: inner layer 1. -/
theorem s3_w1 : (StableHlo.after hostOps3 W (Proc.devRef .tc main_v69) : S128x128.Idx → EReal)
    = mlpW (W (Proc.devRef .tc main_arg4)) 0 1 1 := by
  delta hostOps3
  after_results
  funext j
  obtain ⟨p, q, rfl⟩ : ∃ (p q : Fin 128), j = ix2 p q := ⟨j 0, j 1, eq_ix2 j⟩
  exact Cert.Lib.SliceCast.weight5 (W (Proc.devRef .tc main_arg4)) ![0, 1, 1, 0, 0] 0 1 1 rfl rfl rfl rfl rfl _ _ p q

/-- The second inner bias row: inner layer 1. -/
theorem s3_b1 : (StableHlo.after hostOps3 W (Proc.devRef .tc main_v77) : S1x128.Idx → EReal)
    = mlpB (W (Proc.devRef .tc main_arg5)) 0 1 1 := by
  delta hostOps3
  after_results
  funext j
  obtain ⟨u, q, rfl⟩ : ∃ (u : Fin 1) (q : Fin 128), j = ix2 u q := ⟨j 0, j 1, eq_ix2 j⟩
  exact Cert.Lib.SliceCast.bias4 (W (Proc.devRef .tc main_arg5)) ![0, 1, 1, 0] 0 1 1 rfl rfl rfl rfl _ _ _ u q

/-- The layer norm's scale row is the stacked scale table at this layer and the updated node type. -/
theorem s3_g : (StableHlo.after hostOps3 W (Proc.devRef .tc main_v78) : S1x128.Idx → EReal)
    = lnP (W (Proc.devRef .tc main_arg7)) 0 0 := by
  delta hostOps3
  after_results
  funext j
  obtain ⟨u, q, rfl⟩ : ∃ (u : Fin 1) (q : Fin 128), j = ix2 u q := ⟨j 0, j 1, eq_ix2 j⟩
  exact Cert.Lib.SliceCast.vec3 (W (Proc.devRef .tc main_arg7)) ![0, 0, 0] 0 0 rfl rfl rfl _ _ _ u q

/-- The layer norm's shift row is the stacked shift table at this layer and the updated node type. -/
theorem s3_beta : (StableHlo.after hostOps3 W (Proc.devRef .tc main_v79) : S1x128.Idx → EReal)
    = lnP (W (Proc.devRef .tc main_arg8)) 0 0 := by
  delta hostOps3
  after_results
  funext j
  obtain ⟨u, q, rfl⟩ : ∃ (u : Fin 1) (q : Fin 128), j = ix2 u q := ⟨j 0, j 1, eq_ix2 j⟩
  exact Cert.Lib.SliceCast.vec3 (W (Proc.devRef .tc main_arg8)) ![0, 0, 0] 0 0 rfl rfl rfl _ _ _ u q

/-! ## What the stretch leaves alone -/

/-- A buffer that no operation of a stretch writes holds after it what it held before: the stretch's operations are
    listed, each one's written buffer is a single named buffer, and that buffer is another one. -/
local macro "host_keep " ops:ident : tactic =>
  `(tactic| (refine StableHlo.after_of_forall_not_mem _ _ (List.forall_iff_forall_mem.mp ?_)
             delta $ops:ident
             simp only [List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

theorem s3_keep_main_arg0 : StableHlo.after hostOps3 W (Proc.devRef .tc main_arg0) = W (Proc.devRef .tc main_arg0) := by host_keep hostOps3
theorem s3_keep_main_arg1 : StableHlo.after hostOps3 W (Proc.devRef .tc main_arg1) = W (Proc.devRef .tc main_arg1) := by host_keep hostOps3
theorem s3_keep_main_arg2 : StableHlo.after hostOps3 W (Proc.devRef .tc main_arg2) = W (Proc.devRef .tc main_arg2) := by host_keep hostOps3
theorem s3_keep_main_arg3 : StableHlo.after hostOps3 W (Proc.devRef .tc main_arg3) = W (Proc.devRef .tc main_arg3) := by host_keep hostOps3
theorem s3_keep_main_arg4 : StableHlo.after hostOps3 W (Proc.devRef .tc main_arg4) = W (Proc.devRef .tc main_arg4) := by host_keep hostOps3
theorem s3_keep_main_arg5 : StableHlo.after hostOps3 W (Proc.devRef .tc main_arg5) = W (Proc.devRef .tc main_arg5) := by host_keep hostOps3
theorem s3_keep_main_arg6 : StableHlo.after hostOps3 W (Proc.devRef .tc main_arg6) = W (Proc.devRef .tc main_arg6) := by host_keep hostOps3
theorem s3_keep_main_arg7 : StableHlo.after hostOps3 W (Proc.devRef .tc main_arg7) = W (Proc.devRef .tc main_arg7) := by host_keep hostOps3
theorem s3_keep_main_arg8 : StableHlo.after hostOps3 W (Proc.devRef .tc main_arg8) = W (Proc.devRef .tc main_arg8) := by host_keep hostOps3
theorem s3_keep_main_arg9 : StableHlo.after hostOps3 W (Proc.devRef .tc main_arg9) = W (Proc.devRef .tc main_arg9) := by host_keep hostOps3
theorem s3_keep_main_arg10 : StableHlo.after hostOps3 W (Proc.devRef .tc main_arg10) = W (Proc.devRef .tc main_arg10) := by host_keep hostOps3
theorem s3_keep_main_v5 : StableHlo.after hostOps3 W (Proc.devRef .tc main_v5) = W (Proc.devRef .tc main_v5) := by host_keep hostOps3
theorem s3_keep_main_v11 : StableHlo.after hostOps3 W (Proc.devRef .tc main_v11) = W (Proc.devRef .tc main_v11) := by host_keep hostOps3
theorem s3_keep_main_v39 : StableHlo.after hostOps3 W (Proc.devRef .tc main_v39) = W (Proc.devRef .tc main_v39) := by host_keep hostOps3
theorem s3_keep_main_v45 : StableHlo.after hostOps3 W (Proc.devRef .tc main_v45) = W (Proc.devRef .tc main_v45) := by host_keep hostOps3
theorem s3_keep_main_v63 : StableHlo.after hostOps3 W (Proc.devRef .tc main_v63) = W (Proc.devRef .tc main_v63) := by host_keep hostOps3

end Cert.KernelIdeal.Glue

end
-- ==== Proof.Glue4.lean ====
/-
  What the host operations before region 4 leave in the buffers that region reads.

  The stretch cuts the second layer's item-update parameters out of the stacked tables (two inner weights and biases, the layer norm's scale
  and shift, the self-loop scale) and recasts each to the block the region reads; it also leaves, as a scalar, the other edge type's scale for the next stretch. Whatever the buffers hold when the
  stretch starts, after it each block is the named parameter of that valuation's tables, and every buffer the stretch
  does not write, the program's arguments among them, holds what it held.
-/
import proofs.«132706_j49976239456902_1_alg».proof.Proof.Gen.KernelIdeal.Launch
import proofs.«132706_j49976239456902_1_alg».proof.Proof.Spec
import Idealize.ShloMosaic.Lib.Pipeline.Value
import Idealize.ShloMosaic.Lib.StableHlo.Run
import Idealize.ShloMosaic.Lib.ValueIdx
import proofs.«132706_j49976239456902_1_alg».proof.Proof.LibSliceCast

noncomputable section

namespace Cert.KernelIdeal.Glue

open Cert.KernelIdeal Cert.KernelIdeal.Gen Cert.Gin Idealize.ShloMosaic Idealize.ShloMosaic.TcCoe Idealize.ShloMosaic.ValueIdx
  Idealize.ShloMosaic.StableHlo

variable (W : Valuation τ sig (Elt Ideal))

/-! ## The parameter blocks the region reads -/

/-- The scale block the region reads is one plus the layer's self-loop weight for this edge type. -/
theorem s4_scale : (StableHlo.after hostOps4 W (Proc.devRef .tc main_v132) : S1x1.Idx → EReal) = scaleOf (W (Proc.devRef .tc main_arg6)) 1 0 := by
  delta hostOps4
  after_results
  funext j
  refine (Cert.Lib.SliceCast.cast_scalar_11 _ _ j).trans ?_
  exact congrArg (fun z => oneW + z) (Cert.Lib.SliceCast.scalar2 (W (Proc.devRef .tc main_arg6)) ![1, 0] 1 0 rfl rfl _ _ ix0)

/-- The first inner weight block is the stacked weight table at this layer, this edge type and inner layer 0. -/
theorem s4_w0 : (StableHlo.after hostOps4 W (Proc.devRef .tc main_v117) : S128x128.Idx → EReal)
    = mlpW (W (Proc.devRef .tc main_arg4)) 1 0 0 := by
  delta hostOps4
  after_results
  funext j
  obtain ⟨p, q, rfl⟩ : ∃ (p q : Fin 128), j = ix2 p q := ⟨j 0, j 1, eq_ix2 j⟩
  exact Cert.Lib.SliceCast.weight5 (W (Proc.devRef .tc main_arg4)) ![1, 0, 0, 0, 0] 1 0 0 rfl rfl rfl rfl rfl _ _ p q

/-- The first inner bias row is the stacked bias table at this layer, this edge type and inner layer 0. -/
theorem s4_b0 : (StableHlo.after hostOps4 W (Proc.devRef .tc main_v128) : S1x128.Idx → EReal)
    = mlpB (W (Proc.devRef .tc main_arg5)) 1 0 0 := by
  delta hostOps4
  after_results
  funext j
  obtain ⟨u, q, rfl⟩ : ∃ (u : Fin 1) (q : Fin 128), j = ix2 u q := ⟨j 0, j 1, eq_ix2 j⟩
  exact Cert.Lib.SliceCast.bias4 (W (Proc.devRef .tc main_arg5)) ![1, 0, 0, 0] 1 0 0 rfl rfl rfl rfl _ _ _ u q

/-- The second inner weight block: inner layer 1. -/
theorem s4_w1 : (StableHlo.after hostOps4 W (Proc.devRef .tc main_v121) : S128x128.Idx → EReal)
    = mlpW (W (Proc.devRef .tc main_arg4)) 1 0 1 := by
  delta hostOps4
  after_results
  funext j
  obtain ⟨p, q, rfl⟩ : ∃ (p q : Fin 128), j = ix2 p q := ⟨j 0, j 1, eq_ix2 j⟩
  exact Cert.Lib.SliceCast.weight5 (W (Proc.devRef .tc main_arg4)) ![1, 0, 1, 0, 0] 1 0 1 rfl rfl rfl rfl rfl _ _ p q

/-- The second inner bias row: inner layer 1. -/
theorem s4_b1 : (StableHlo.after hostOps4 W (Proc.devRef .tc main_v129) : S1x128.Idx → EReal)
    = mlpB (W (Proc.devRef .tc main_arg5)) 1 0 1 := by
  delta hostOps4
  after_results
  funext j
  obtain ⟨u, q, rfl⟩ : ∃ (u : Fin 1) (q : Fin 128), j = ix2 u q := ⟨j 0, j 1, eq_ix2 j⟩
  exact Cert.Lib.SliceCast.bias4 (W (Proc.devRef .tc main_arg5)) ![1, 0, 1, 0] 1 0 1 rfl rfl rfl rfl _ _ _ u q

/-- The layer norm's scale row is the stacked scale table at this layer and the updated node type. -/
theorem s4_g : (StableHlo.after hostOps4 W (Proc.devRef .tc main_v130) : S1x128.Idx → EReal)
    = lnP (W (Proc.devRef .tc main_arg7)) 1 1 := by
  delta hostOps4
  after_results
  funext j
  obtain ⟨u, q, rfl⟩ : ∃ (u : Fin 1) (q : Fin 128), j = ix2 u q := ⟨j 0, j 1, eq_ix2 j⟩
  exact Cert.Lib.SliceCast.vec3 (W (Proc.devRef .tc main_arg7)) ![1, 1, 0] 1 1 rfl rfl rfl _ _ _ u q

/-- The layer norm's shift row is the stacked shift table at this layer and the updated node type. -/
theorem s4_beta : (StableHlo.after hostOps4 W (Proc.devRef .tc main_v131) : S1x128.Idx → EReal)
    = lnP (W (Proc.devRef .tc main_arg8)) 1 1 := by
  delta hostOps4
  after_results
  funext j
  obtain ⟨u, q, rfl⟩ : ∃ (u : Fin 1) (q : Fin 128), j = ix2 u q := ⟨j 0, j 1, eq_ix2 j⟩
  exact Cert.Lib.SliceCast.vec3 (W (Proc.devRef .tc main_arg8)) ![1, 1, 0] 1 1 rfl rfl rfl _ _ _ u q

/-- The other edge type's scale, left as a scalar for the next stretch: one plus that self-loop weight. -/
theorem s4_scaleU : (StableHlo.after hostOps4 W (Proc.devRef .tc main_v115) : S_.Idx → EReal)
    = fun _ => oneW + (W (Proc.devRef .tc main_arg6) : S2x2.Idx → EReal) (ix2 1 1) := by
  delta hostOps4
  after_results
  funext k
  exact congrArg (fun z => oneW + z) (Cert.Lib.SliceCast.scalar2 (W (Proc.devRef .tc main_arg6)) ![1, 1] 1 1 rfl rfl _ _ k)

/-! ## What the stretch leaves alone -/

/-- A buffer that no operation of a stretch writes holds after it what it held before: the stretch's operations are
    listed, each one's written buffer is a single named buffer, and that buffer is another one. -/
local macro "host_keep " ops:ident : tactic =>
  `(tactic| (refine StableHlo.after_of_forall_not_mem _ _ (List.forall_iff_forall_mem.mp ?_)
             delta $ops:ident
             simp only [List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

theorem s4_keep_main_arg0 : StableHlo.after hostOps4 W (Proc.devRef .tc main_arg0) = W (Proc.devRef .tc main_arg0) := by host_keep hostOps4
theorem s4_keep_main_arg1 : StableHlo.after hostOps4 W (Proc.devRef .tc main_arg1) = W (Proc.devRef .tc main_arg1) := by host_keep hostOps4
theorem s4_keep_main_arg2 : StableHlo.after hostOps4 W (Proc.devRef .tc main_arg2) = W (Proc.devRef .tc main_arg2) := by host_keep hostOps4
theorem s4_keep_main_arg3 : StableHlo.after hostOps4 W (Proc.devRef .tc main_arg3) = W (Proc.devRef .tc main_arg3) := by host_keep hostOps4
theorem s4_keep_main_arg4 : StableHlo.after hostOps4 W (Proc.devRef .tc main_arg4) = W (Proc.devRef .tc main_arg4) := by host_keep hostOps4
theorem s4_keep_main_arg5 : StableHlo.after hostOps4 W (Proc.devRef .tc main_arg5) = W (Proc.devRef .tc main_arg5) := by host_keep hostOps4
theorem s4_keep_main_arg6 : StableHlo.after hostOps4 W (Proc.devRef .tc main_arg6) = W (Proc.devRef .tc main_arg6) := by host_keep hostOps4
theorem s4_keep_main_arg7 : StableHlo.after hostOps4 W (Proc.devRef .tc main_arg7) = W (Proc.devRef .tc main_arg7) := by host_keep hostOps4
theorem s4_keep_main_arg8 : StableHlo.after hostOps4 W (Proc.devRef .tc main_arg8) = W (Proc.devRef .tc main_arg8) := by host_keep hostOps4
theorem s4_keep_main_arg9 : StableHlo.after hostOps4 W (Proc.devRef .tc main_arg9) = W (Proc.devRef .tc main_arg9) := by host_keep hostOps4
theorem s4_keep_main_arg10 : StableHlo.after hostOps4 W (Proc.devRef .tc main_arg10) = W (Proc.devRef .tc main_arg10) := by host_keep hostOps4
theorem s4_keep_main_v63 : StableHlo.after hostOps4 W (Proc.devRef .tc main_v63) = W (Proc.devRef .tc main_v63) := by host_keep hostOps4
theorem s4_keep_main_v81 : StableHlo.after hostOps4 W (Proc.devRef .tc main_v81) = W (Proc.devRef .tc main_v81) := by host_keep hostOps4

end Cert.KernelIdeal.Glue

end
-- ==== Proof.Glue5.lean ====
/-
  What the host operations before region 5 leave in the buffers that region reads.

  The stretch cuts the second layer's user-update parameters out of the stacked tables (two inner weights and biases, the layer norm's scale
  and shift, the self-loop scale) and recasts each to the block the region reads; its scale is the scalar an earlier stretch left, recast to a block. Whatever the buffers hold when the
  stretch starts, after it each block is the named parameter of that valuation's tables, and every buffer the stretch
  does not write, the program's arguments among them, holds what it held.
-/
import proofs.«132706_j49976239456902_1_alg».proof.Proof.Gen.KernelIdeal.Launch
import proofs.«132706_j49976239456902_1_alg».proof.Proof.Spec
import Idealize.ShloMosaic.Lib.Pipeline.Value
import Idealize.ShloMosaic.Lib.StableHlo.Run
import Idealize.ShloMosaic.Lib.ValueIdx
import proofs.«132706_j49976239456902_1_alg».proof.Proof.LibSliceCast

noncomputable section

namespace Cert.KernelIdeal.Glue

open Cert.KernelIdeal Cert.KernelIdeal.Gen Cert.Gin Idealize.ShloMosaic Idealize.ShloMosaic.TcCoe Idealize.ShloMosaic.ValueIdx
  Idealize.ShloMosaic.StableHlo

variable (W : Valuation τ sig (Elt Ideal))

/-! ## The parameter blocks the region reads -/

/-- The scale block the region reads is the scalar the earlier stretch left, recast to `[1, 1]`. -/
theorem s5_scale : (StableHlo.after hostOps5 W (Proc.devRef .tc main_v150) : S1x1.Idx → EReal)
    = fun _ => (W (Proc.devRef .tc main_v115) : S_.Idx → EReal) ix0 := by
  delta hostOps5
  after_results
  funext j
  exact Cert.Lib.SliceCast.cast_scalar_11 _ _ j

/-- The first inner weight block is the stacked weight table at this layer, this edge type and inner layer 0. -/
theorem s5_w0 : (StableHlo.after hostOps5 W (Proc.devRef .tc main_v135) : S128x128.Idx → EReal)
    = mlpW (W (Proc.devRef .tc main_arg4)) 1 1 0 := by
  delta hostOps5
  after_results
  funext j
  obtain ⟨p, q, rfl⟩ : ∃ (p q : Fin 128), j = ix2 p q := ⟨j 0, j 1, eq_ix2 j⟩
  exact Cert.Lib.SliceCast.weight5 (W (Proc.devRef .tc main_arg4)) ![1, 1, 0, 0, 0] 1 1 0 rfl rfl rfl rfl rfl _ _ p q

/-- The first inner bias row is the stacked bias table at this layer, this edge type and inner layer 0. -/
theorem s5_b0 : (StableHlo.after hostOps5 W (Proc.devRef .tc main_v146) : S1x128.Idx → EReal)
    = mlpB (W (Proc.devRef .tc main_arg5)) 1 1 0 := by
  delta hostOps5
  after_results
  funext j
  obtain ⟨u, q, rfl⟩ : ∃ (u : Fin 1) (q : Fin 128), j = ix2 u q := ⟨j 0, j 1, eq_ix2 j⟩
  exact Cert.Lib.SliceCast.bias4 (W (Proc.devRef .tc main_arg5)) ![1, 1, 0, 0] 1 1 0 rfl rfl rfl rfl _ _ _ u q

/-- The second inner weight block: inner layer 1. -/
theorem s5_w1 : (StableHlo.after hostOps5 W (Proc.devRef .tc main_v139) : S128x128.Idx → EReal)
    = mlpW (W (Proc.devRef .tc main_arg4)) 1 1 1 := by
  delta hostOps5
  after_results
  funext j
  obtain ⟨p, q, rfl⟩ : ∃ (p q : Fin 128), j = ix2 p q := ⟨j 0, j 1, eq_ix2 j⟩
  exact Cert.Lib.SliceCast.weight5 (W (Proc.devRef .tc main_arg4)) ![1, 1, 1, 0, 0] 1 1 1 rfl rfl rfl rfl rfl _ _ p q

/-- The second inner bias row: inner layer 1. -/
theorem s5_b1 : (StableHlo.after hostOps5 W (Proc.devRef .tc main_v147) : S1x128.Idx → EReal)
    = mlpB (W (Proc.devRef .tc main_arg5)) 1 1 1 := by
  delta hostOps5
  after_results
  funext j
  obtain ⟨u, q, rfl⟩ : ∃ (u : Fin 1) (q : Fin 128), j = ix2 u q := ⟨j 0, j 1, eq_ix2 j⟩
  exact Cert.Lib.SliceCast.bias4 (W (Proc.devRef .tc main_arg5)) ![1, 1, 1, 0] 1 1 1 rfl rfl rfl rfl _ _ _ u q

/-- The layer norm's scale row is the stacked scale table at this layer and the updated node type. -/
theorem s5_g : (StableHlo.after hostOps5 W (Proc.devRef .tc main_v148) : S1x128.Idx → EReal)
    = lnP (W (Proc.devRef .tc main_arg7)) 1 0 := by
  delta hostOps5
  after_results
  funext j
  obtain ⟨u, q, rfl⟩ : ∃ (u : Fin 1) (q : Fin 128), j = ix2 u q := ⟨j 0, j 1, eq_ix2 j⟩
  exact Cert.Lib.SliceCast.vec3 (W (Proc.devRef .tc main_arg7)) ![1, 0, 0] 1 0 rfl rfl rfl _ _ _ u q

/-- The layer norm's shift row is the stacked shift table at this layer and the updated node type. -/
theorem s5_beta : (StableHlo.after hostOps5 W (Proc.devRef .tc main_v149) : S1x128.Idx → EReal)
    = lnP (W (Proc.devRef .tc main_arg8)) 1 0 := by
  delta hostOps5
  after_results
  funext j
  obtain ⟨u, q, rfl⟩ : ∃ (u : Fin 1) (q : Fin 128), j = ix2 u q := ⟨j 0, j 1, eq_ix2 j⟩
  exact Cert.Lib.SliceCast.vec3 (W (Proc.devRef .tc main_arg8)) ![1, 0, 0] 1 0 rfl rfl rfl _ _ _ u q

/-! ## What the stretch leaves alone -/

/-- A buffer that no operation of a stretch writes holds after it what it held before: the stretch's operations are
    listed, each one's written buffer is a single named buffer, and that buffer is another one. -/
local macro "host_keep " ops:ident : tactic =>
  `(tactic| (refine StableHlo.after_of_forall_not_mem _ _ (List.forall_iff_forall_mem.mp ?_)
             delta $ops:ident
             simp only [List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

theorem s5_keep_main_arg0 : StableHlo.after hostOps5 W (Proc.devRef .tc main_arg0) = W (Proc.devRef .tc main_arg0) := by host_keep hostOps5
theorem s5_keep_main_arg1 : StableHlo.after hostOps5 W (Proc.devRef .tc main_arg1) = W (Proc.devRef .tc main_arg1) := by host_keep hostOps5
theorem s5_keep_main_arg2 : StableHlo.after hostOps5 W (Proc.devRef .tc main_arg2) = W (Proc.devRef .tc main_arg2) := by host_keep hostOps5
theorem s5_keep_main_arg3 : StableHlo.after hostOps5 W (Proc.devRef .tc main_arg3) = W (Proc.devRef .tc main_arg3) := by host_keep hostOps5
theorem s5_keep_main_arg4 : StableHlo.after hostOps5 W (Proc.devRef .tc main_arg4) = W (Proc.devRef .tc main_arg4) := by host_keep hostOps5
theorem s5_keep_main_arg5 : StableHlo.after hostOps5 W (Proc.devRef .tc main_arg5) = W (Proc.devRef .tc main_arg5) := by host_keep hostOps5
theorem s5_keep_main_arg6 : StableHlo.after hostOps5 W (Proc.devRef .tc main_arg6) = W (Proc.devRef .tc main_arg6) := by host_keep hostOps5
theorem s5_keep_main_arg7 : StableHlo.after hostOps5 W (Proc.devRef .tc main_arg7) = W (Proc.devRef .tc main_arg7) := by host_keep hostOps5
theorem s5_keep_main_arg8 : StableHlo.after hostOps5 W (Proc.devRef .tc main_arg8) = W (Proc.devRef .tc main_arg8) := by host_keep hostOps5
theorem s5_keep_main_arg9 : StableHlo.after hostOps5 W (Proc.devRef .tc main_arg9) = W (Proc.devRef .tc main_arg9) := by host_keep hostOps5
theorem s5_keep_main_arg10 : StableHlo.after hostOps5 W (Proc.devRef .tc main_arg10) = W (Proc.devRef .tc main_arg10) := by host_keep hostOps5
theorem s5_keep_main_v63 : StableHlo.after hostOps5 W (Proc.devRef .tc main_v63) = W (Proc.devRef .tc main_v63) := by host_keep hostOps5
theorem s5_keep_main_v81 : StableHlo.after hostOps5 W (Proc.devRef .tc main_v81) = W (Proc.devRef .tc main_v81) := by host_keep hostOps5
theorem s5_keep_main_v109 : StableHlo.after hostOps5 W (Proc.devRef .tc main_v109) = W (Proc.devRef .tc main_v109) := by host_keep hostOps5
theorem s5_keep_main_v115 : StableHlo.after hostOps5 W (Proc.devRef .tc main_v115) = W (Proc.devRef .tc main_v115) := by host_keep hostOps5
theorem s5_keep_main_v133 : StableHlo.after hostOps5 W (Proc.devRef .tc main_v133) = W (Proc.devRef .tc main_v133) := by host_keep hostOps5

end Cert.KernelIdeal.Glue

end
-- ==== Proof.ChainArgs.lean ====
/-
  The arguments at every boundary of the program.

  No host operation writes an argument, and a region changes only its result array, so each argument array holds its
  launch contents at every boundary between segments: one step per segment, walked forward from the launch memory.
-/
import proofs.«132706_j49976239456902_1_alg».proof.Proof.Gen.KernelIdeal.Frame
import proofs.«132706_j49976239456902_1_alg».proof.Proof.Glue0
import proofs.«132706_j49976239456902_1_alg».proof.Proof.Glue2
import proofs.«132706_j49976239456902_1_alg».proof.Proof.Glue3
import proofs.«132706_j49976239456902_1_alg».proof.Proof.Glue4
import proofs.«132706_j49976239456902_1_alg».proof.Proof.Glue5

set_option maxRecDepth 16384

noncomputable section

namespace Cert.KernelIdeal.Chain

open Cert.KernelIdeal Cert.KernelIdeal.Gen Cert.Gin
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)
theorem arg0_0 : W0 m ρ c (Proc.devRef .tc main_arg0) = m ((c : Thread nD τ).loc main_arg0) := rfl
theorem arg1_0 : W1 m ρ c (Proc.devRef .tc main_arg0) = m ((c : Thread nD τ).loc main_arg0) :=
  (Glue.s0_keep_main_arg0 (W0 m ρ c)).trans (arg0_0 m ρ c)
theorem arg0_1 : W0 m ρ c (Proc.devRef .tc main_arg1) = m ((c : Thread nD τ).loc main_arg1) := rfl
theorem arg1_1 : W1 m ρ c (Proc.devRef .tc main_arg1) = m ((c : Thread nD τ).loc main_arg1) :=
  (Glue.s0_keep_main_arg1 (W0 m ρ c)).trans (arg0_1 m ρ c)
theorem arg2_1 : W2 m ρ c (Proc.devRef .tc main_arg1) = m ((c : Thread nD τ).loc main_arg1) :=
  (W2_of_ne m ρ c main_arg1 (by decide)).trans (arg1_1 m ρ c)
theorem arg3_1 : W3 m ρ c (Proc.devRef .tc main_arg1) = m ((c : Thread nD τ).loc main_arg1) :=
  (Glue.s1_keep_main_arg1 (W2 m ρ c)).trans (arg2_1 m ρ c)
theorem arg0_2 : W0 m ρ c (Proc.devRef .tc main_arg2) = m ((c : Thread nD τ).loc main_arg2) := rfl
theorem arg1_2 : W1 m ρ c (Proc.devRef .tc main_arg2) = m ((c : Thread nD τ).loc main_arg2) :=
  (Glue.s0_keep_main_arg2 (W0 m ρ c)).trans (arg0_2 m ρ c)
theorem arg2_2 : W2 m ρ c (Proc.devRef .tc main_arg2) = m ((c : Thread nD τ).loc main_arg2) :=
  (W2_of_ne m ρ c main_arg2 (by decide)).trans (arg1_2 m ρ c)
theorem arg3_2 : W3 m ρ c (Proc.devRef .tc main_arg2) = m ((c : Thread nD τ).loc main_arg2) :=
  (Glue.s1_keep_main_arg2 (W2 m ρ c)).trans (arg2_2 m ρ c)
theorem arg4_2 : W4 m ρ c (Proc.devRef .tc main_arg2) = m ((c : Thread nD τ).loc main_arg2) :=
  (W4_of_ne m ρ c main_arg2 (by decide)).trans (arg3_2 m ρ c)
theorem arg5_2 : W5 m ρ c (Proc.devRef .tc main_arg2) = m ((c : Thread nD τ).loc main_arg2) :=
  (Glue.s2_keep_main_arg2 (W4 m ρ c)).trans (arg4_2 m ρ c)
theorem arg6_2 : W6 m ρ c (Proc.devRef .tc main_arg2) = m ((c : Thread nD τ).loc main_arg2) :=
  (W6_of_ne m ρ c main_arg2 (by decide)).trans (arg5_2 m ρ c)
theorem arg7_2 : W7 m ρ c (Proc.devRef .tc main_arg2) = m ((c : Thread nD τ).loc main_arg2) :=
  (Glue.s3_keep_main_arg2 (W6 m ρ c)).trans (arg6_2 m ρ c)
theorem arg8_2 : W8 m ρ c (Proc.devRef .tc main_arg2) = m ((c : Thread nD τ).loc main_arg2) :=
  (W8_of_ne m ρ c main_arg2 (by decide)).trans (arg7_2 m ρ c)
theorem arg9_2 : W9 m ρ c (Proc.devRef .tc main_arg2) = m ((c : Thread nD τ).loc main_arg2) :=
  (Glue.s4_keep_main_arg2 (W8 m ρ c)).trans (arg8_2 m ρ c)
theorem arg10_2 : W10 m ρ c (Proc.devRef .tc main_arg2) = m ((c : Thread nD τ).loc main_arg2) :=
  (W10_of_ne m ρ c main_arg2 (by decide)).trans (arg9_2 m ρ c)
theorem arg11_2 : W11 m ρ c (Proc.devRef .tc main_arg2) = m ((c : Thread nD τ).loc main_arg2) :=
  (Glue.s5_keep_main_arg2 (W10 m ρ c)).trans (arg10_2 m ρ c)
theorem arg0_3 : W0 m ρ c (Proc.devRef .tc main_arg3) = m ((c : Thread nD τ).loc main_arg3) := rfl
theorem arg1_3 : W1 m ρ c (Proc.devRef .tc main_arg3) = m ((c : Thread nD τ).loc main_arg3) :=
  (Glue.s0_keep_main_arg3 (W0 m ρ c)).trans (arg0_3 m ρ c)
theorem arg2_3 : W2 m ρ c (Proc.devRef .tc main_arg3) = m ((c : Thread nD τ).loc main_arg3) :=
  (W2_of_ne m ρ c main_arg3 (by decide)).trans (arg1_3 m ρ c)
theorem arg3_3 : W3 m ρ c (Proc.devRef .tc main_arg3) = m ((c : Thread nD τ).loc main_arg3) :=
  (Glue.s1_keep_main_arg3 (W2 m ρ c)).trans (arg2_3 m ρ c)
theorem arg4_3 : W4 m ρ c (Proc.devRef .tc main_arg3) = m ((c : Thread nD τ).loc main_arg3) :=
  (W4_of_ne m ρ c main_arg3 (by decide)).trans (arg3_3 m ρ c)
theorem arg5_3 : W5 m ρ c (Proc.devRef .tc main_arg3) = m ((c : Thread nD τ).loc main_arg3) :=
  (Glue.s2_keep_main_arg3 (W4 m ρ c)).trans (arg4_3 m ρ c)
theorem arg6_3 : W6 m ρ c (Proc.devRef .tc main_arg3) = m ((c : Thread nD τ).loc main_arg3) :=
  (W6_of_ne m ρ c main_arg3 (by decide)).trans (arg5_3 m ρ c)
theorem arg7_3 : W7 m ρ c (Proc.devRef .tc main_arg3) = m ((c : Thread nD τ).loc main_arg3) :=
  (Glue.s3_keep_main_arg3 (W6 m ρ c)).trans (arg6_3 m ρ c)
theorem arg8_3 : W8 m ρ c (Proc.devRef .tc main_arg3) = m ((c : Thread nD τ).loc main_arg3) :=
  (W8_of_ne m ρ c main_arg3 (by decide)).trans (arg7_3 m ρ c)
theorem arg9_3 : W9 m ρ c (Proc.devRef .tc main_arg3) = m ((c : Thread nD τ).loc main_arg3) :=
  (Glue.s4_keep_main_arg3 (W8 m ρ c)).trans (arg8_3 m ρ c)
theorem arg10_3 : W10 m ρ c (Proc.devRef .tc main_arg3) = m ((c : Thread nD τ).loc main_arg3) :=
  (W10_of_ne m ρ c main_arg3 (by decide)).trans (arg9_3 m ρ c)
theorem arg11_3 : W11 m ρ c (Proc.devRef .tc main_arg3) = m ((c : Thread nD τ).loc main_arg3) :=
  (Glue.s5_keep_main_arg3 (W10 m ρ c)).trans (arg10_3 m ρ c)
theorem arg0_4 : W0 m ρ c (Proc.devRef .tc main_arg4) = m ((c : Thread nD τ).loc main_arg4) := rfl
theorem arg1_4 : W1 m ρ c (Proc.devRef .tc main_arg4) = m ((c : Thread nD τ).loc main_arg4) :=
  (Glue.s0_keep_main_arg4 (W0 m ρ c)).trans (arg0_4 m ρ c)
theorem arg2_4 : W2 m ρ c (Proc.devRef .tc main_arg4) = m ((c : Thread nD τ).loc main_arg4) :=
  (W2_of_ne m ρ c main_arg4 (by decide)).trans (arg1_4 m ρ c)
theorem arg3_4 : W3 m ρ c (Proc.devRef .tc main_arg4) = m ((c : Thread nD τ).loc main_arg4) :=
  (Glue.s1_keep_main_arg4 (W2 m ρ c)).trans (arg2_4 m ρ c)
theorem arg4_4 : W4 m ρ c (Proc.devRef .tc main_arg4) = m ((c : Thread nD τ).loc main_arg4) :=
  (W4_of_ne m ρ c main_arg4 (by decide)).trans (arg3_4 m ρ c)
theorem arg5_4 : W5 m ρ c (Proc.devRef .tc main_arg4) = m ((c : Thread nD τ).loc main_arg4) :=
  (Glue.s2_keep_main_arg4 (W4 m ρ c)).trans (arg4_4 m ρ c)
theorem arg6_4 : W6 m ρ c (Proc.devRef .tc main_arg4) = m ((c : Thread nD τ).loc main_arg4) :=
  (W6_of_ne m ρ c main_arg4 (by decide)).trans (arg5_4 m ρ c)
theorem arg7_4 : W7 m ρ c (Proc.devRef .tc main_arg4) = m ((c : Thread nD τ).loc main_arg4) :=
  (Glue.s3_keep_main_arg4 (W6 m ρ c)).trans (arg6_4 m ρ c)
theorem arg8_4 : W8 m ρ c (Proc.devRef .tc main_arg4) = m ((c : Thread nD τ).loc main_arg4) :=
  (W8_of_ne m ρ c main_arg4 (by decide)).trans (arg7_4 m ρ c)
theorem arg9_4 : W9 m ρ c (Proc.devRef .tc main_arg4) = m ((c : Thread nD τ).loc main_arg4) :=
  (Glue.s4_keep_main_arg4 (W8 m ρ c)).trans (arg8_4 m ρ c)
theorem arg10_4 : W10 m ρ c (Proc.devRef .tc main_arg4) = m ((c : Thread nD τ).loc main_arg4) :=
  (W10_of_ne m ρ c main_arg4 (by decide)).trans (arg9_4 m ρ c)
theorem arg11_4 : W11 m ρ c (Proc.devRef .tc main_arg4) = m ((c : Thread nD τ).loc main_arg4) :=
  (Glue.s5_keep_main_arg4 (W10 m ρ c)).trans (arg10_4 m ρ c)
theorem arg0_5 : W0 m ρ c (Proc.devRef .tc main_arg5) = m ((c : Thread nD τ).loc main_arg5) := rfl
theorem arg1_5 : W1 m ρ c (Proc.devRef .tc main_arg5) = m ((c : Thread nD τ).loc main_arg5) :=
  (Glue.s0_keep_main_arg5 (W0 m ρ c)).trans (arg0_5 m ρ c)
theorem arg2_5 : W2 m ρ c (Proc.devRef .tc main_arg5) = m ((c : Thread nD τ).loc main_arg5) :=
  (W2_of_ne m ρ c main_arg5 (by decide)).trans (arg1_5 m ρ c)
theorem arg3_5 : W3 m ρ c (Proc.devRef .tc main_arg5) = m ((c : Thread nD τ).loc main_arg5) :=
  (Glue.s1_keep_main_arg5 (W2 m ρ c)).trans (arg2_5 m ρ c)
theorem arg4_5 : W4 m ρ c (Proc.devRef .tc main_arg5) = m ((c : Thread nD τ).loc main_arg5) :=
  (W4_of_ne m ρ c main_arg5 (by decide)).trans (arg3_5 m ρ c)
theorem arg5_5 : W5 m ρ c (Proc.devRef .tc main_arg5) = m ((c : Thread nD τ).loc main_arg5) :=
  (Glue.s2_keep_main_arg5 (W4 m ρ c)).trans (arg4_5 m ρ c)
theorem arg6_5 : W6 m ρ c (Proc.devRef .tc main_arg5) = m ((c : Thread nD τ).loc main_arg5) :=
  (W6_of_ne m ρ c main_arg5 (by decide)).trans (arg5_5 m ρ c)
theorem arg7_5 : W7 m ρ c (Proc.devRef .tc main_arg5) = m ((c : Thread nD τ).loc main_arg5) :=
  (Glue.s3_keep_main_arg5 (W6 m ρ c)).trans (arg6_5 m ρ c)
theorem arg8_5 : W8 m ρ c (Proc.devRef .tc main_arg5) = m ((c : Thread nD τ).loc main_arg5) :=
  (W8_of_ne m ρ c main_arg5 (by decide)).trans (arg7_5 m ρ c)
theorem arg9_5 : W9 m ρ c (Proc.devRef .tc main_arg5) = m ((c : Thread nD τ).loc main_arg5) :=
  (Glue.s4_keep_main_arg5 (W8 m ρ c)).trans (arg8_5 m ρ c)
theorem arg10_5 : W10 m ρ c (Proc.devRef .tc main_arg5) = m ((c : Thread nD τ).loc main_arg5) :=
  (W10_of_ne m ρ c main_arg5 (by decide)).trans (arg9_5 m ρ c)
theorem arg11_5 : W11 m ρ c (Proc.devRef .tc main_arg5) = m ((c : Thread nD τ).loc main_arg5) :=
  (Glue.s5_keep_main_arg5 (W10 m ρ c)).trans (arg10_5 m ρ c)
theorem arg0_6 : W0 m ρ c (Proc.devRef .tc main_arg6) = m ((c : Thread nD τ).loc main_arg6) := rfl
theorem arg1_6 : W1 m ρ c (Proc.devRef .tc main_arg6) = m ((c : Thread nD τ).loc main_arg6) :=
  (Glue.s0_keep_main_arg6 (W0 m ρ c)).trans (arg0_6 m ρ c)
theorem arg2_6 : W2 m ρ c (Proc.devRef .tc main_arg6) = m ((c : Thread nD τ).loc main_arg6) :=
  (W2_of_ne m ρ c main_arg6 (by decide)).trans (arg1_6 m ρ c)
theorem arg3_6 : W3 m ρ c (Proc.devRef .tc main_arg6) = m ((c : Thread nD τ).loc main_arg6) :=
  (Glue.s1_keep_main_arg6 (W2 m ρ c)).trans (arg2_6 m ρ c)
theorem arg4_6 : W4 m ρ c (Proc.devRef .tc main_arg6) = m ((c : Thread nD τ).loc main_arg6) :=
  (W4_of_ne m ρ c main_arg6 (by decide)).trans (arg3_6 m ρ c)
theorem arg5_6 : W5 m ρ c (Proc.devRef .tc main_arg6) = m ((c : Thread nD τ).loc main_arg6) :=
  (Glue.s2_keep_main_arg6 (W4 m ρ c)).trans (arg4_6 m ρ c)
theorem arg6_6 : W6 m ρ c (Proc.devRef .tc main_arg6) = m ((c : Thread nD τ).loc main_arg6) :=
  (W6_of_ne m ρ c main_arg6 (by decide)).trans (arg5_6 m ρ c)
theorem arg7_6 : W7 m ρ c (Proc.devRef .tc main_arg6) = m ((c : Thread nD τ).loc main_arg6) :=
  (Glue.s3_keep_main_arg6 (W6 m ρ c)).trans (arg6_6 m ρ c)
theorem arg8_6 : W8 m ρ c (Proc.devRef .tc main_arg6) = m ((c : Thread nD τ).loc main_arg6) :=
  (W8_of_ne m ρ c main_arg6 (by decide)).trans (arg7_6 m ρ c)
theorem arg9_6 : W9 m ρ c (Proc.devRef .tc main_arg6) = m ((c : Thread nD τ).loc main_arg6) :=
  (Glue.s4_keep_main_arg6 (W8 m ρ c)).trans (arg8_6 m ρ c)
theorem arg10_6 : W10 m ρ c (Proc.devRef .tc main_arg6) = m ((c : Thread nD τ).loc main_arg6) :=
  (W10_of_ne m ρ c main_arg6 (by decide)).trans (arg9_6 m ρ c)
theorem arg11_6 : W11 m ρ c (Proc.devRef .tc main_arg6) = m ((c : Thread nD τ).loc main_arg6) :=
  (Glue.s5_keep_main_arg6 (W10 m ρ c)).trans (arg10_6 m ρ c)
theorem arg0_7 : W0 m ρ c (Proc.devRef .tc main_arg7) = m ((c : Thread nD τ).loc main_arg7) := rfl
theorem arg1_7 : W1 m ρ c (Proc.devRef .tc main_arg7) = m ((c : Thread nD τ).loc main_arg7) :=
  (Glue.s0_keep_main_arg7 (W0 m ρ c)).trans (arg0_7 m ρ c)
theorem arg2_7 : W2 m ρ c (Proc.devRef .tc main_arg7) = m ((c : Thread nD τ).loc main_arg7) :=
  (W2_of_ne m ρ c main_arg7 (by decide)).trans (arg1_7 m ρ c)
theorem arg3_7 : W3 m ρ c (Proc.devRef .tc main_arg7) = m ((c : Thread nD τ).loc main_arg7) :=
  (Glue.s1_keep_main_arg7 (W2 m ρ c)).trans (arg2_7 m ρ c)
theorem arg4_7 : W4 m ρ c (Proc.devRef .tc main_arg7) = m ((c : Thread nD τ).loc main_arg7) :=
  (W4_of_ne m ρ c main_arg7 (by decide)).trans (arg3_7 m ρ c)
theorem arg5_7 : W5 m ρ c (Proc.devRef .tc main_arg7) = m ((c : Thread nD τ).loc main_arg7) :=
  (Glue.s2_keep_main_arg7 (W4 m ρ c)).trans (arg4_7 m ρ c)
theorem arg6_7 : W6 m ρ c (Proc.devRef .tc main_arg7) = m ((c : Thread nD τ).loc main_arg7) :=
  (W6_of_ne m ρ c main_arg7 (by decide)).trans (arg5_7 m ρ c)
theorem arg7_7 : W7 m ρ c (Proc.devRef .tc main_arg7) = m ((c : Thread nD τ).loc main_arg7) :=
  (Glue.s3_keep_main_arg7 (W6 m ρ c)).trans (arg6_7 m ρ c)
theorem arg8_7 : W8 m ρ c (Proc.devRef .tc main_arg7) = m ((c : Thread nD τ).loc main_arg7) :=
  (W8_of_ne m ρ c main_arg7 (by decide)).trans (arg7_7 m ρ c)
theorem arg9_7 : W9 m ρ c (Proc.devRef .tc main_arg7) = m ((c : Thread nD τ).loc main_arg7) :=
  (Glue.s4_keep_main_arg7 (W8 m ρ c)).trans (arg8_7 m ρ c)
theorem arg10_7 : W10 m ρ c (Proc.devRef .tc main_arg7) = m ((c : Thread nD τ).loc main_arg7) :=
  (W10_of_ne m ρ c main_arg7 (by decide)).trans (arg9_7 m ρ c)
theorem arg11_7 : W11 m ρ c (Proc.devRef .tc main_arg7) = m ((c : Thread nD τ).loc main_arg7) :=
  (Glue.s5_keep_main_arg7 (W10 m ρ c)).trans (arg10_7 m ρ c)
theorem arg0_8 : W0 m ρ c (Proc.devRef .tc main_arg8) = m ((c : Thread nD τ).loc main_arg8) := rfl
theorem arg1_8 : W1 m ρ c (Proc.devRef .tc main_arg8) = m ((c : Thread nD τ).loc main_arg8) :=
  (Glue.s0_keep_main_arg8 (W0 m ρ c)).trans (arg0_8 m ρ c)
theorem arg2_8 : W2 m ρ c (Proc.devRef .tc main_arg8) = m ((c : Thread nD τ).loc main_arg8) :=
  (W2_of_ne m ρ c main_arg8 (by decide)).trans (arg1_8 m ρ c)
theorem arg3_8 : W3 m ρ c (Proc.devRef .tc main_arg8) = m ((c : Thread nD τ).loc main_arg8) :=
  (Glue.s1_keep_main_arg8 (W2 m ρ c)).trans (arg2_8 m ρ c)
theorem arg4_8 : W4 m ρ c (Proc.devRef .tc main_arg8) = m ((c : Thread nD τ).loc main_arg8) :=
  (W4_of_ne m ρ c main_arg8 (by decide)).trans (arg3_8 m ρ c)
theorem arg5_8 : W5 m ρ c (Proc.devRef .tc main_arg8) = m ((c : Thread nD τ).loc main_arg8) :=
  (Glue.s2_keep_main_arg8 (W4 m ρ c)).trans (arg4_8 m ρ c)
theorem arg6_8 : W6 m ρ c (Proc.devRef .tc main_arg8) = m ((c : Thread nD τ).loc main_arg8) :=
  (W6_of_ne m ρ c main_arg8 (by decide)).trans (arg5_8 m ρ c)
theorem arg7_8 : W7 m ρ c (Proc.devRef .tc main_arg8) = m ((c : Thread nD τ).loc main_arg8) :=
  (Glue.s3_keep_main_arg8 (W6 m ρ c)).trans (arg6_8 m ρ c)
theorem arg8_8 : W8 m ρ c (Proc.devRef .tc main_arg8) = m ((c : Thread nD τ).loc main_arg8) :=
  (W8_of_ne m ρ c main_arg8 (by decide)).trans (arg7_8 m ρ c)
theorem arg9_8 : W9 m ρ c (Proc.devRef .tc main_arg8) = m ((c : Thread nD τ).loc main_arg8) :=
  (Glue.s4_keep_main_arg8 (W8 m ρ c)).trans (arg8_8 m ρ c)
theorem arg10_8 : W10 m ρ c (Proc.devRef .tc main_arg8) = m ((c : Thread nD τ).loc main_arg8) :=
  (W10_of_ne m ρ c main_arg8 (by decide)).trans (arg9_8 m ρ c)
theorem arg11_8 : W11 m ρ c (Proc.devRef .tc main_arg8) = m ((c : Thread nD τ).loc main_arg8) :=
  (Glue.s5_keep_main_arg8 (W10 m ρ c)).trans (arg10_8 m ρ c)
theorem arg0_9 : W0 m ρ c (Proc.devRef .tc main_arg9) = m ((c : Thread nD τ).loc main_arg9) := rfl
theorem arg1_9 : W1 m ρ c (Proc.devRef .tc main_arg9) = m ((c : Thread nD τ).loc main_arg9) :=
  (Glue.s0_keep_main_arg9 (W0 m ρ c)).trans (arg0_9 m ρ c)
theorem arg2_9 : W2 m ρ c (Proc.devRef .tc main_arg9) = m ((c : Thread nD τ).loc main_arg9) :=
  (W2_of_ne m ρ c main_arg9 (by decide)).trans (arg1_9 m ρ c)
theorem arg3_9 : W3 m ρ c (Proc.devRef .tc main_arg9) = m ((c : Thread nD τ).loc main_arg9) :=
  (Glue.s1_keep_main_arg9 (W2 m ρ c)).trans (arg2_9 m ρ c)
theorem arg4_9 : W4 m ρ c (Proc.devRef .tc main_arg9) = m ((c : Thread nD τ).loc main_arg9) :=
  (W4_of_ne m ρ c main_arg9 (by decide)).trans (arg3_9 m ρ c)
theorem arg5_9 : W5 m ρ c (Proc.devRef .tc main_arg9) = m ((c : Thread nD τ).loc main_arg9) :=
  (Glue.s2_keep_main_arg9 (W4 m ρ c)).trans (arg4_9 m ρ c)
theorem arg6_9 : W6 m ρ c (Proc.devRef .tc main_arg9) = m ((c : Thread nD τ).loc main_arg9) :=
  (W6_of_ne m ρ c main_arg9 (by decide)).trans (arg5_9 m ρ c)
theorem arg7_9 : W7 m ρ c (Proc.devRef .tc main_arg9) = m ((c : Thread nD τ).loc main_arg9) :=
  (Glue.s3_keep_main_arg9 (W6 m ρ c)).trans (arg6_9 m ρ c)
theorem arg8_9 : W8 m ρ c (Proc.devRef .tc main_arg9) = m ((c : Thread nD τ).loc main_arg9) :=
  (W8_of_ne m ρ c main_arg9 (by decide)).trans (arg7_9 m ρ c)
theorem arg9_9 : W9 m ρ c (Proc.devRef .tc main_arg9) = m ((c : Thread nD τ).loc main_arg9) :=
  (Glue.s4_keep_main_arg9 (W8 m ρ c)).trans (arg8_9 m ρ c)
theorem arg10_9 : W10 m ρ c (Proc.devRef .tc main_arg9) = m ((c : Thread nD τ).loc main_arg9) :=
  (W10_of_ne m ρ c main_arg9 (by decide)).trans (arg9_9 m ρ c)
theorem arg11_9 : W11 m ρ c (Proc.devRef .tc main_arg9) = m ((c : Thread nD τ).loc main_arg9) :=
  (Glue.s5_keep_main_arg9 (W10 m ρ c)).trans (arg10_9 m ρ c)
theorem arg0_10 : W0 m ρ c (Proc.devRef .tc main_arg10) = m ((c : Thread nD τ).loc main_arg10) := rfl
theorem arg1_10 : W1 m ρ c (Proc.devRef .tc main_arg10) = m ((c : Thread nD τ).loc main_arg10) :=
  (Glue.s0_keep_main_arg10 (W0 m ρ c)).trans (arg0_10 m ρ c)
theorem arg2_10 : W2 m ρ c (Proc.devRef .tc main_arg10) = m ((c : Thread nD τ).loc main_arg10) :=
  (W2_of_ne m ρ c main_arg10 (by decide)).trans (arg1_10 m ρ c)
theorem arg3_10 : W3 m ρ c (Proc.devRef .tc main_arg10) = m ((c : Thread nD τ).loc main_arg10) :=
  (Glue.s1_keep_main_arg10 (W2 m ρ c)).trans (arg2_10 m ρ c)
theorem arg4_10 : W4 m ρ c (Proc.devRef .tc main_arg10) = m ((c : Thread nD τ).loc main_arg10) :=
  (W4_of_ne m ρ c main_arg10 (by decide)).trans (arg3_10 m ρ c)
theorem arg5_10 : W5 m ρ c (Proc.devRef .tc main_arg10) = m ((c : Thread nD τ).loc main_arg10) :=
  (Glue.s2_keep_main_arg10 (W4 m ρ c)).trans (arg4_10 m ρ c)
theorem arg6_10 : W6 m ρ c (Proc.devRef .tc main_arg10) = m ((c : Thread nD τ).loc main_arg10) :=
  (W6_of_ne m ρ c main_arg10 (by decide)).trans (arg5_10 m ρ c)
theorem arg7_10 : W7 m ρ c (Proc.devRef .tc main_arg10) = m ((c : Thread nD τ).loc main_arg10) :=
  (Glue.s3_keep_main_arg10 (W6 m ρ c)).trans (arg6_10 m ρ c)
theorem arg8_10 : W8 m ρ c (Proc.devRef .tc main_arg10) = m ((c : Thread nD τ).loc main_arg10) :=
  (W8_of_ne m ρ c main_arg10 (by decide)).trans (arg7_10 m ρ c)
theorem arg9_10 : W9 m ρ c (Proc.devRef .tc main_arg10) = m ((c : Thread nD τ).loc main_arg10) :=
  (Glue.s4_keep_main_arg10 (W8 m ρ c)).trans (arg8_10 m ρ c)
theorem arg10_10 : W10 m ρ c (Proc.devRef .tc main_arg10) = m ((c : Thread nD τ).loc main_arg10) :=
  (W10_of_ne m ρ c main_arg10 (by decide)).trans (arg9_10 m ρ c)
theorem arg11_10 : W11 m ρ c (Proc.devRef .tc main_arg10) = m ((c : Thread nD τ).loc main_arg10) :=
  (Glue.s5_keep_main_arg10 (W10 m ρ c)).trans (arg10_10 m ρ c)

end Cert.KernelIdeal.Chain

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.Body.lean ====
/-
  The kernel bodies' arithmetic, as equalities of whole 5000 × 128 blocks with the node-wise stages.

  Each body is a short chain of block operations: `s·x + a`, two linear maps each followed by `max(·, 0)`, a row mean kept
  as a column, the centred block and its square, and the normalisation. On the extended reals every pointwise operation
  is the operation of the same name on entries, a change of float format is the identity, a recast to the same shape is
  the identity, a matrix product into a zero accumulator is the sum of products, a sum along the channels kept as a
  column and broadcast back reads the row's sum, and a `1 × 128` row broadcast over the nodes reads that row. So each
  stage, read at node `p` and channel `q`, is the corresponding row function of the node's row, and the stages compose to
  `projArr` and `ginArr`. No algebra is used: both sides are the same expression.
-/
import proofs.«132706_j49976239456902_1_alg».proof.Proof.Gen.KernelIdeal.Skeleton
import proofs.«132706_j49976239456902_1_alg».proof.Proof.Spec
import proofs.«132706_j49976239456902_1_alg».proof.Proof.LibPlainDot
import proofs.«132706_j49976239456902_1_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Cert.Gin Idealize.ShloMosaic Idealize.ShloMosaic.ValueIdx

/-! ## The stages as block operations -/

/-- `s·x + a` on a block: the scale is the one entry of a `1 × 1` block, broadcast over the block. -/
def combineT (s : Vec Ideal S1x1 .f32) (x agg : Vec Ideal S5000x128 .f32) : FVec Ideal S5000x128 .f32 :=
  addf (mulf (broadcast S5000x128 (extractAt ![0, 0] s inpos_S1x1_p0_0)) (shapeCast S5000x128 x shapeCasts_S5000x128_S5000x128))
    (shapeCast S5000x128 agg shapeCasts_S5000x128_S5000x128)

/-- `a·W + b` on a block: the product into a zero accumulator, plus the bias row broadcast over the nodes. -/
def linearT (a : FVec Ideal S5000x128 .f32) (w : Vec Ideal S128x128 .f32) (b : Vec Ideal S1x128 .f32) : FVec Ideal S5000x128 .f32 :=
  addf
    (matmul dot_S5000x128_S128x128_S5000x128_1_0_0_1_n_n none (truncf (φ := .f32) .bf16 a bitsLt_bf16_f32)
      (truncf (φ := .f32) .bf16 (shapeCast S128x128 w shapeCasts_S128x128_S128x128) bitsLt_bf16_f32)
      (constant (F := Ideal) S5000x128 .f32 0x00000000#32))
    (broadcastTo S5000x128 (shapeCast S1x128 b shapeCasts_S1x128_S1x128) broadcasts_S1x128_S5000x128)

/-- `max(·, 0)` on a block. -/
def reluT (r : FVec Ideal S5000x128 .f32) : FVec Ideal S5000x128 .f32 :=
  maximumf r (broadcast S5000x128 (Scalar.ofBits (F := Ideal) .f32 0x00000000#32))

/-- The row means of a block, kept as a column: the sum along the channels divided by 128. -/
def meanT (r : FVec Ideal S5000x128 .f32) : FVec Ideal S5000x1 .f32 :=
  divf
    (shapeCast S5000x1 (multiReduction (F := Ideal) .add [1] S5000 r 0x00000000#32 reduces_S5000x128_S5000 (.inl rfl) rfl)
      shapeCasts_S5000_S5000x1)
    (broadcast S5000x1 (Scalar.ofBits (F := Ideal) .f32 0x43000000#32))

/-- A block minus a column broadcast along the channels. -/
def centredT (r : FVec Ideal S5000x128 .f32) (m : FVec Ideal S5000x1 .f32) : FVec Ideal S5000x128 .f32 :=
  subf r (broadcastTo S5000x128 m broadcasts_S5000x1_S5000x128)

/-- The square of the centred block. -/
def sqT (r : FVec Ideal S5000x128 .f32) (m : FVec Ideal S5000x1 .f32) : FVec Ideal S5000x128 .f32 :=
  mulf (centredT r m) (centredT r m)

/-- The normalisation and the last `max(·, 0)`, from the block `r`, its column of means `m` and its centred square `sq`. -/
def normT (r : FVec Ideal S5000x128 .f32) (m : FVec Ideal S5000x1 .f32) (sq : FVec Ideal S5000x128 .f32)
    (g beta : Vec Ideal S1x128 .f32) : FVec Ideal S5000x128 .f32 :=
  maximumf
    (addf
      (mulf
        (mulf (centredT r m)
          (broadcastTo S5000x128
            (rsqrt (addf (meanT sq) (broadcast S5000x1 (Scalar.ofBits (F := Ideal) .f32 0x3727C5AC#32))))
            broadcasts_S5000x1_S5000x128))
        (broadcastTo S5000x128 (shapeCast S1x128 g shapeCasts_S1x128_S1x128) broadcasts_S1x128_S5000x128))
      (broadcastTo S5000x128 (shapeCast S1x128 beta shapeCasts_S1x128_S1x128) broadcasts_S1x128_S5000x128))
    (broadcast S5000x128 (Scalar.ofBits (F := Ideal) .f32 0x00000000#32))

/-- The block after the two linear maps. -/
def hiddenT (s : Vec Ideal S1x1 .f32) (x agg : Vec Ideal S5000x128 .f32) (w0 : Vec Ideal S128x128 .f32) (b0 : Vec Ideal S1x128 .f32)
    (w1 : Vec Ideal S128x128 .f32) (b1 : Vec Ideal S1x128 .f32) : FVec Ideal S5000x128 .f32 :=
  reluT (linearT (reluT (linearT (combineT s x agg) w0 b0)) w1 b1)

/-- A whole layer update on a block. -/
def ginT (s : Vec Ideal S1x1 .f32) (x agg : Vec Ideal S5000x128 .f32) (w0 : Vec Ideal S128x128 .f32) (b0 : Vec Ideal S1x128 .f32)
    (w1 : Vec Ideal S128x128 .f32) (b1 : Vec Ideal S1x128 .f32) (g beta : Vec Ideal S1x128 .f32) : FVec Ideal S5000x128 .f32 :=
  normT (hiddenT s x agg w0 b0 w1 b1) (meanT (hiddenT s x agg w0 b0 w1 b1))
    (sqT (hiddenT s x agg w0 b0 w1 b1) (meanT (hiddenT s x agg w0 b0 w1 b1))) g beta

/-! ## Each stage read row by row -/

/-- The contraction record of the bodies' products is the plain one: a `5000 × 128` by a `128 × 128` array. -/
theorem dot_eq_plain : dot_S5000x128_S128x128_S5000x128_1_0_0_1_n_n = DotDims.plain 5000 128 128 := rfl

/-- The position `[0, 0]` of a `1 × 1` block is its index `(0, 0)`. -/
theorem extract00 (s : Vec Ideal S1x1 .f32) : extractAt ![0, 0] s inpos_S1x1_p0_0 = s (ix2 0 0) :=
  congrArg s (funext fun a => by
    match a with
    | ⟨0, _⟩ => rfl
    | ⟨1, _⟩ => rfl)

/-- `s·x + a` at node `p` is `combineRow` of the node's two rows. -/
theorem combineT_eq (s : Vec Ideal S1x1 .f32) (x agg : Vec Ideal S5000x128 .f32) :
    combineT s x agg = fun j => combineRow (s (ix2 0 0)) (row x (j 0)) (row agg (j 0)) (j 1) := by
  unfold combineT
  rw [shapeCast_self, shapeCast_self, extract00]
  funext j
  obtain ⟨p, q, rfl⟩ : ∃ (p : Fin 5000) (q : Fin 128), j = ix2 p q := ⟨j 0, j 1, eq_ix2 j⟩
  rfl

/-- The product into a zero accumulator is the sum of products. -/
theorem matmul_eq (l : FVec Ideal S5000x128 .bf16) (r : FVec Ideal S128x128 .bf16) :
    matmul dot_S5000x128_S128x128_S5000x128_1_0_0_1_n_n none l r (constant (F := Ideal) S5000x128 .f32 0x00000000#32) = Cert.Lib.PlainDot.rowsByCols l r :=
  Cert.Lib.PlainDot.matmul_zero_eq _ dot_eq_plain none l r

/-- `a·W + b` at node `p` is `affineRow` of the node's row. -/
theorem linearT_eq (a : FVec Ideal S5000x128 .f32) (w : Vec Ideal S128x128 .f32) (b : Vec Ideal S1x128 .f32) :
    linearT a w b = fun j => affineRow (row a (j 0)) w b (j 1) := by
  unfold linearT
  rw [shapeCast_self, shapeCast_self, matmul_eq]
  funext j
  obtain ⟨p, q, rfl⟩ : ∃ (p : Fin 5000) (q : Fin 128), j = ix2 p q := ⟨j 0, j 1, eq_ix2 j⟩
  rw [addf_apply, broadcastTo_1b_ab_apply]
  rfl

/-- `max(·, 0)` at node `p` is `reluRow` of the node's row. -/
theorem reluT_eq (r : FVec Ideal S5000x128 .f32) : reluT r = fun j => reluRow (row r (j 0)) (j 1) := by
  funext j
  obtain ⟨p, q, rfl⟩ : ∃ (p : Fin 5000) (q : Fin 128), j = ix2 p q := ⟨j 0, j 1, eq_ix2 j⟩
  rfl

/-- The column of means at node `p` is `meanRow` of the node's row. -/
theorem meanT_eq (r : FVec Ideal S5000x128 .f32) : meanT r = fun j => meanRow (row r (j 0)) := by
  funext j
  obtain ⟨p, u, rfl⟩ : ∃ (p : Fin 5000) (u : Fin 1), j = ix2 p u := ⟨j 0, j 1, eq_ix2 j⟩
  unfold meanT
  rw [divf_apply, Cert.Gcn.Lib.shapeCast_a_a1_apply, Cert.Gcn.Lib.rowsum_apply]
  rfl

/-- A block minus a column, at `(p, q)`. -/
theorem centredT_apply (r : FVec Ideal S5000x128 .f32) (m : FVec Ideal S5000x1 .f32) (p : Fin 5000) (q : Fin 128) :
    centredT r m (ix2 p q) = r (ix2 p q) - m (ix2 p (0 : Fin 1)) := by
  unfold centredT
  rw [subf_apply, Cert.Gcn.Lib.broadcastTo_a1_ab_apply]

/-- The block minus its column of means, at node `p`, is `centredRow` of the node's row. -/
theorem centredT_mean_apply (r : FVec Ideal S5000x128 .f32) (p : Fin 5000) (q : Fin 128) :
    centredT r (meanT r) (ix2 p q) = centredRow (row r p) q := by
  rw [centredT_apply, meanT_eq]
  rfl

/-- The centred square at node `p`, as a row. -/
theorem sqT_row (r : FVec Ideal S5000x128 .f32) (p : Fin 5000) :
    row (sqT r (meanT r)) p = fun k => centredRow (row r p) k * centredRow (row r p) k := by
  funext k
  show sqT r (meanT r) (ix2 p k) = _
  unfold sqT
  rw [mulf_apply, centredT_mean_apply]

/-- The normalisation and the last `max(·, 0)` at node `p` are `reluRow (normRow ·)` of the node's row. -/
theorem normT_eq (r : FVec Ideal S5000x128 .f32) (g beta : Vec Ideal S1x128 .f32) :
    normT r (meanT r) (sqT r (meanT r)) g beta = fun j => reluRow (normRow (row r (j 0)) g beta) (j 1) := by
  funext j
  obtain ⟨p, q, rfl⟩ : ∃ (p : Fin 5000) (q : Fin 128), j = ix2 p q := ⟨j 0, j 1, eq_ix2 j⟩
  unfold normT
  rw [shapeCast_self, shapeCast_self, maximumf_apply, addf_apply, mulf_apply, mulf_apply, centredT_mean_apply,
    Cert.Gcn.Lib.broadcastTo_a1_ab_apply, broadcastTo_1b_ab_apply, broadcastTo_1b_ab_apply]
  show max (centredRow (row r p) q
        * Ideal.rsqrt (meanT (sqT r (meanT r)) (ix2 p (0 : Fin 1)) + epsW) * g (ix2 0 q) + beta (ix2 0 q)) zeroW = _
  rw [meanT_eq]
  show max (centredRow (row r p) q
        * Ideal.rsqrt (meanRow (row (sqT r (meanT r)) p) + epsW) * g (ix2 0 q) + beta (ix2 0 q)) zeroW = _
  rw [sqT_row]
  rfl

/-- The block after the two linear maps, at node `p`. -/
theorem hiddenT_eq (s : Vec Ideal S1x1 .f32) (x agg : Vec Ideal S5000x128 .f32) (w0 : Vec Ideal S128x128 .f32) (b0 : Vec Ideal S1x128 .f32)
    (w1 : Vec Ideal S128x128 .f32) (b1 : Vec Ideal S1x128 .f32) :
    hiddenT s x agg w0 b0 w1 b1 = fun j =>
      reluRow (affineRow (reluRow (affineRow (combineRow (s (ix2 0 0)) (row x (j 0)) (row agg (j 0))) w0 b0)) w1 b1) (j 1) := by
  unfold hiddenT
  rw [combineT_eq, linearT_eq, reluT_eq, linearT_eq, reluT_eq]
  rfl

/-- A whole layer update on a block is `ginArr`. -/
theorem ginT_eq (x agg : Vec Ideal S5000x128 .f32) (s : Vec Ideal S1x1 .f32) (w0 : Vec Ideal S128x128 .f32) (b0 : Vec Ideal S1x128 .f32)
    (w1 : Vec Ideal S128x128 .f32) (b1 : Vec Ideal S1x128 .f32) (g beta : Vec Ideal S1x128 .f32) :
    ginT s x agg w0 b0 w1 b1 g beta = ginArr x agg s w0 b0 w1 b1 g beta := by
  unfold ginT
  rw [normT_eq, hiddenT_eq]
  rfl

/-! ## The bodies -/

/-- The first projection body is `projArr`. -/
theorem proj0_eq (x0 : Vec Ideal S5000x128 .f32) (x1 : Vec Ideal S128x128 .f32) (x2 : Vec Ideal S1x128 .f32) :
    k0_pay1 x0 x1 x2 = projArr x0 x1 x2 :=
  linearT_eq x0 x1 x2

/-- The second projection body is `projArr`. -/
theorem proj1_eq (x0 : Vec Ideal S5000x128 .f32) (x1 : Vec Ideal S128x128 .f32) (x2 : Vec Ideal S1x128 .f32) :
    k1_pay1 x0 x1 x2 = projArr x0 x1 x2 :=
  linearT_eq x0 x1 x2

/-- The layer body number 2, fed with its own three intermediate blocks, is `ginArr`. -/
theorem gin2_eq (x0 x1 : Vec Ideal S5000x128 .f32) (x2 : Vec Ideal S1x1 .f32) (x3 : Vec Ideal S128x128 .f32) (x4 : Vec Ideal S1x128 .f32)
    (x5 : Vec Ideal S128x128 .f32) (x6 x7 x8 : Vec Ideal S1x128 .f32) :
    k2_pay1 (k2_pay2 x2 x0 x1 x3 x4 x5 x6) (k2_pay3 x2 x0 x1 x3 x4 x5 x6) (k2_pay4 x2 x0 x1 x3 x4 x5 x6) x7 x8
      = ginArr x0 x1 x2 x3 x4 x5 x6 x7 x8 :=
  ginT_eq x0 x1 x2 x3 x4 x5 x6 x7 x8

/-- The layer body number 3, fed with its own three intermediate blocks, is `ginArr`. -/
theorem gin3_eq (x0 x1 : Vec Ideal S5000x128 .f32) (x2 : Vec Ideal S1x1 .f32) (x3 : Vec Ideal S128x128 .f32) (x4 : Vec Ideal S1x128 .f32)
    (x5 : Vec Ideal S128x128 .f32) (x6 x7 x8 : Vec Ideal S1x128 .f32) :
    k3_pay1 (k3_pay2 x2 x0 x1 x3 x4 x5 x6) (k3_pay3 x2 x0 x1 x3 x4 x5 x6) (k3_pay4 x2 x0 x1 x3 x4 x5 x6) x7 x8
      = ginArr x0 x1 x2 x3 x4 x5 x6 x7 x8 :=
  ginT_eq x0 x1 x2 x3 x4 x5 x6 x7 x8

/-- The layer body number 4, fed with its own three intermediate blocks, is `ginArr`. -/
theorem gin4_eq (x0 x1 : Vec Ideal S5000x128 .f32) (x2 : Vec Ideal S1x1 .f32) (x3 : Vec Ideal S128x128 .f32) (x4 : Vec Ideal S1x128 .f32)
    (x5 : Vec Ideal S128x128 .f32) (x6 x7 x8 : Vec Ideal S1x128 .f32) :
    k4_pay1 (k4_pay2 x2 x0 x1 x3 x4 x5 x6) (k4_pay3 x2 x0 x1 x3 x4 x5 x6) (k4_pay4 x2 x0 x1 x3 x4 x5 x6) x7 x8
      = ginArr x0 x1 x2 x3 x4 x5 x6 x7 x8 :=
  ginT_eq x0 x1 x2 x3 x4 x5 x6 x7 x8

/-- The layer body number 5, fed with its own three intermediate blocks, is `ginArr`. -/
theorem gin5_eq (x0 x1 : Vec Ideal S5000x128 .f32) (x2 : Vec Ideal S1x1 .f32) (x3 : Vec Ideal S128x128 .f32) (x4 : Vec Ideal S1x128 .f32)
    (x5 : Vec Ideal S128x128 .f32) (x6 x7 x8 : Vec Ideal S1x128 .f32) :
    k5_pay1 (k5_pay2 x2 x0 x1 x3 x4 x5 x6) (k5_pay3 x2 x0 x1 x3 x4 x5 x6) (k5_pay4 x2 x0 x1 x3 x4 x5 x6) x7 x8
      = ginArr x0 x1 x2 x3 x4 x5 x6 x7 x8 :=
  ginT_eq x0 x1 x2 x3 x4 x5 x6 x7 x8

end Cert.KernelIdeal.BodyValue

end
-- ==== Proof.Region0.lean ====
/-
  Kernel region 0: the input projection of the 100000-node table, computed block of 5000 nodes by block.

  Grid point `t` fetches rows `5000·t … 5000·t + 4999` of the node table, the whole weight matrix and the whole bias
  row, and writes back `x·W + b` of those rows. A node's projected row depends on that node's row only, so what point
  `t` writes back is block `t` of the projection of the WHOLE table; the 20 blocks tile the 100000 rows, so the result
  array ends as the projection of the whole table as the region finds it.
-/
import proofs.«132706_j49976239456902_1_alg».proof.Proof.Gen.KernelIdeal.Frame
import proofs.«132706_j49976239456902_1_alg».proof.Proof.Spec
import proofs.«132706_j49976239456902_1_alg».proof.Proof.Body
import Idealize.ShloMosaic.Lib.Pipeline.Value

set_option maxRecDepth 16384

noncomputable section

namespace Cert.KernelIdeal.Region0

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the table's block moves with the result's block along the rows, the weight
    and the bias stay at the origin, and no block moves along the channels. -/
theorem maps : ∀ t : Fin cfg0.N,
      win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0 :=
  (by decide +kernel : ∀ t : Fin grid0.N, _)

/-- Every block of rows is some point's. -/
theorem onto : ∀ q : Fin 20, ∃ t : Fin cfg0.N, win0_3.index t = ![q.val, 0] :=
  (by decide +kernel : ∀ q : Fin 20, ∃ t : Fin grid0.N, win0_3.index t = ![q.val, 0])

/-- Window 1's block is its whole array. -/
theorem whole_1 (c : Dev nD) (t : Fin cfg0.N) : iblk0 V c 1 t = V c main_v1 := by
  obtain ⟨e0, e1, e2, e3, e4, e5, e6⟩ := maps t
  funext y
  show V c main_v1 (((cfg0.win 1).blk t).view.emb y) = V c main_v1 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2's block is its whole array. -/
theorem whole_2 (c : Dev nD) (t : Fin cfg0.N) : iblk0 V c 2 t = V c main_v4 := by
  obtain ⟨e0, e1, e2, e3, e4, e5, e6⟩ := maps t
  funext y
  show V c main_v4 (((cfg0.win 2).blk t).view.emb y) = V c main_v4 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The projection of the whole table as the region finds it. -/
abbrev G (c : Dev nD) : S100000x128.Idx → EReal :=
  projArr (V c main_arg0) (V c main_v1) (V c main_v4)

/-- What point `t` writes back is block `t` of the projection of the whole table. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3, whole_1 V c t, whole_2 V c t]
  unfold out0_3
  rw [View.canon_unit_zero zeros]
  simp only [View.ld_unit_zero (S := S5000x128) zeros, View.ld_unit_zero (S := S128x128) zeros,
    View.ld_unit_zero (S := S1x128) zeros]
  rw [Cert.KernelIdeal.BodyValue.proj0_eq]
  obtain ⟨e0, e1, e2, e3, e4, e5, e6⟩ := maps t
  funext j
  show projArr (iblk0 V c 0 t) (V c main_v1) (V c main_v4) j
    = projArr (V c main_arg0) (V c main_v1) (V c main_v4) (((cfg0.win 3).blk t).view.emb j)
  refine projArr_congr _ _ _ _ _ _ ?_ ?_
  · funext k
    show V c main_arg0 (((cfg0.win 0).blk t).view.emb (ix2 (j 0) k)) = V c main_arg0 (ix2 ((((cfg0.win 3).blk t).view.emb j) 0) k)
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · refine Fin.ext ?_
    show (j 1).val = win0_3.index t (1 : Fin 2) * 128 + 1 * (j 1).val
    omega

/-- An index of the result array is in point `t`'s block iff each coordinate is in the block's range. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- Row `r` is in the block of point `r / 5000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the region: the projection of the whole table as the region finds it. -/
theorem final (c : Dev nD) : (dat0 V c).arrAt 3 cfg0.N = G V c :=
  (dat0 V c).arrAt_eq_of_cover 3 (G V c) (fun t _ => flushed_eq V c t) cover

end Cert.KernelIdeal.Region0

end
-- ==== Proof.Region1.lean ====
/-
  Kernel region 1: the input projection of the 50000-node table, computed block of 5000 nodes by block.

  Grid point `t` fetches rows `5000·t … 5000·t + 4999` of the node table, the whole weight matrix and the whole bias
  row, and writes back `x·W + b` of those rows. A node's projected row depends on that node's row only, so what point
  `t` writes back is block `t` of the projection of the WHOLE table; the 10 blocks tile the 50000 rows, so the result
  array ends as the projection of the whole table as the region finds it.
-/
import proofs.«132706_j49976239456902_1_alg».proof.Proof.Gen.KernelIdeal.Frame
import proofs.«132706_j49976239456902_1_alg».proof.Proof.Spec
import proofs.«132706_j49976239456902_1_alg».proof.Proof.Body
import Idealize.ShloMosaic.Lib.Pipeline.Value

set_option maxRecDepth 16384

noncomputable section

namespace Cert.KernelIdeal.Region1

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the table's block moves with the result's block along the rows, the weight
    and the bias stay at the origin, and no block moves along the channels. -/
theorem maps : ∀ t : Fin cfg1.N,
      win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Every block of rows is some point's. -/
theorem onto : ∀ q : Fin 10, ∃ t : Fin cfg1.N, win1_3.index t = ![q.val, 0] :=
  (by decide +kernel : ∀ q : Fin 10, ∃ t : Fin grid1.N, win1_3.index t = ![q.val, 0])

/-- Window 1's block is its whole array. -/
theorem whole_1 (c : Dev nD) (t : Fin cfg1.N) : iblk1 V c 1 t = V c main_v7 := by
  obtain ⟨e0, e1, e2, e3, e4, e5, e6⟩ := maps t
  funext y
  show V c main_v7 (((cfg1.win 1).blk t).view.emb y) = V c main_v7 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- Window 2's block is its whole array. -/
theorem whole_2 (c : Dev nD) (t : Fin cfg1.N) : iblk1 V c 2 t = V c main_v10 := by
  obtain ⟨e0, e1, e2, e3, e4, e5, e6⟩ := maps t
  funext y
  show V c main_v10 (((cfg1.win 2).blk t).view.emb y) = V c main_v10 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The projection of the whole table as the region finds it. -/
abbrev G (c : Dev nD) : S50000x128.Idx → EReal :=
  projArr (V c main_arg1) (V c main_v7) (V c main_v10)

/-- What point `t` writes back is block `t` of the projection of the whole table. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3, whole_1 V c t, whole_2 V c t]
  unfold out1_3
  rw [View.canon_unit_zero zeros]
  simp only [View.ld_unit_zero (S := S5000x128) zeros, View.ld_unit_zero (S := S128x128) zeros,
    View.ld_unit_zero (S := S1x128) zeros]
  rw [Cert.KernelIdeal.BodyValue.proj1_eq]
  obtain ⟨e0, e1, e2, e3, e4, e5, e6⟩ := maps t
  funext j
  show projArr (iblk1 V c 0 t) (V c main_v7) (V c main_v10) j
    = projArr (V c main_arg1) (V c main_v7) (V c main_v10) (((cfg1.win 3).blk t).view.emb j)
  refine projArr_congr _ _ _ _ _ _ ?_ ?_
  · funext k
    show V c main_arg1 (((cfg1.win 0).blk t).view.emb (ix2 (j 0) k)) = V c main_arg1 (ix2 ((((cfg1.win 3).blk t).view.emb j) 0) k)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · refine Fin.ext ?_
    show (j 1).val = win1_3.index t (1 : Fin 2) * 128 + 1 * (j 1).val
    omega

/-- An index of the result array is in point `t`'s block iff each coordinate is in the block's range. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v11).slice (win1_3.rect t)).set ↔ _
  rw [View.set_slice_whole, Rect.mem_set_unit]
  exact Iff.rfl

/-- Row `r` is in the block of point `r / 5000`. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the region: the projection of the whole table as the region finds it. -/
theorem final (c : Dev nD) : (dat1 V c).arrAt 3 cfg1.N = G V c :=
  (dat1 V c).arrAt_eq_of_cover 3 (G V c) (fun t _ => flushed_eq V c t) cover

end Cert.KernelIdeal.Region1

end
-- ==== Proof.Agg.lean ====
/-
  The neighbour aggregation, as one function of a node table and the edge table.

  An edge table is a `2 × E` array of node ids: row 0 the source of each edge, row 1 its destination. Aggregating a
  table `x` along the edges gathers row `src[k]` of `x` for every edge `k` (a negative id first wrapped by the table's
  length, as array indexing does) and adds it into row `dst[k]` of a zero table. Both programs compute it with the
  same gather and the same scatter-add, so it is carried here as ONE function and never opened: whatever it does with
  its operands, equal operands give equal results.
-/
import proofs.«132706_j49976239456902_1_alg».proof.Proof.Gen.KernelIdeal.Launch
import Idealize.ShloMosaic.Lib.StableHlo.Run
import Idealize.ShloMosaic.PureOps.Ideal

noncomputable section

namespace Cert.KernelIdeal.Agg

open Cert.KernelIdeal Cert.KernelIdeal.Gen
open Idealize.ShloMosaic Idealize.ShloMosaic.TcCoe Idealize.ShloMosaic.StableHlo

/-- Row `0` of the edge table (the sources) as a vector of `E` ids. -/
def srcIds (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000

/-- Row `1` of the edge table (the destinations). -/
def dstIds (e : (⟨S2x600000, .i32⟩ : BufTy).Contents (Elt Ideal)) : (⟨S600000, .i32⟩ : BufTy).Contents (Elt Ideal) :=
  shapeCast S600000 (extractStridedSlice S1x600000 ![1, 0] e slices_S2x600000_S1x600000_1_0) shapeCasts_S1x600000_S600000

/-- Ids as a column of start indices, a negative id moved up by `n`. -/
def wrapped (n : BitVec 32) (v : (⟨S600000, .i32⟩ : BufTy).Contents (Elt Ideal)) : (⟨S600000x1, .i32⟩ : BufTy).Contents (Elt Ideal) :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 n))) v)

/-- Ids as a column of start indices, as they are. -/
def column (v : (⟨S600000, .i32⟩ : BufTy).Contents (Elt Ideal)) : (⟨S600000x1, .i32⟩ : BufTy).Contents (Elt Ideal) :=
  broadcastInDim S600000x1 ![0] bcast_S600000_S600000x1_0 v

/-- The user table aggregated into the items, along the user→item edges. -/
def toItems (xu : (⟨S100000x128, .f32⟩ : BufTy).Contents (Elt Ideal)) (e : (⟨S2x600000, .i32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (column (dstIds e))
    (Host.gather gather_S100000x128_S600000x1_S600000x128_1_0_n_n_0_1_1128 xu (wrapped 100000#32 (srcIds e)))

/-- The item table aggregated into the users, along the item→user edges. -/
def toUsers (xi : (⟨S50000x128, .f32⟩ : BufTy).Contents (Elt Ideal)) (e : (⟨S2x600000, .i32⟩ : BufTy).Contents (Elt Ideal)) :
    (⟨S100000x128, .f32⟩ : BufTy).Contents (Elt Ideal) :=
  Host.scatterAdd scatter_S100000x128_S600000x1_S600000x128_1_0_0_1
    (broadcastInDim S100000x128 ![] bcast_S_S100000x128 (constant (F := Ideal) S_ .f32 0x00000000#32))
    (column (dstIds e))
    (Host.gather gather_S50000x128_S600000x1_S600000x128_1_0_n_n_0_1_1128 xi (wrapped 50000#32 (srcIds e)))

end Cert.KernelIdeal.Agg

end
-- ==== Proof.Net.lean ====
/-
  The network, table by table, as functions of the eleven arguments.

  `xu0`, `xi0` are the projected user and item tables. A layer updates each table from itself and the OTHER table
  aggregated along the edges: the items from the users along user→item edges (edge type 0, layer-norm parameters of
  node type 1), the users from the items along item→user edges (edge type 1, layer-norm parameters of node type 0).
  `xi1`, `xu1` are the tables after the first layer, `xi2`, `xu2` after the second; the program returns `(xu2, xi2)`.
-/
import proofs.«132706_j49976239456902_1_alg».proof.Proof.Spec
import proofs.«132706_j49976239456902_1_alg».proof.Proof.Agg

noncomputable section

namespace Cert.Net

open Cert.KernelIdeal Cert.Gin Cert.KernelIdeal.Agg Idealize.ShloMosaic

variable (a0 : (⟨S100000x128, .f32⟩ : BufTy).Contents (Elt Ideal)) (a1 : (⟨S50000x128, .f32⟩ : BufTy).Contents (Elt Ideal)) (a2 : (⟨S2x128x128, .f32⟩ : BufTy).Contents (Elt Ideal)) (a3 : (⟨S2x128, .f32⟩ : BufTy).Contents (Elt Ideal)) (a4 : (⟨S2x2x2x128x128, .f32⟩ : BufTy).Contents (Elt Ideal)) (a5 : (⟨S2x2x2x128, .f32⟩ : BufTy).Contents (Elt Ideal)) (a6 : (⟨S2x2, .f32⟩ : BufTy).Contents (Elt Ideal)) (a7 : (⟨S2x2x128, .f32⟩ : BufTy).Contents (Elt Ideal)) (a8 : (⟨S2x2x128, .f32⟩ : BufTy).Contents (Elt Ideal)) (a9 : (⟨S2x600000, .i32⟩ : BufTy).Contents (Elt Ideal)) (a10 : (⟨S2x600000, .i32⟩ : BufTy).Contents (Elt Ideal))

/-- The projected user table. -/
def xu0 : Mat 100000 128 := projArr a0 (projW a2 0) (projB a3 0)
/-- The projected item table. -/
def xi0 : Mat 50000 128 := projArr a1 (projW a2 1) (projB a3 1)
/-- The item table after the first layer. -/
def xi1 : Mat 50000 128 := ginArr (xi0 a1 a2 a3) (toItems (xu0 a0 a2 a3) a9) (scaleOf a6 0 0) (mlpW a4 0 0 0) (mlpB a5 0 0 0) (mlpW a4 0 0 1) (mlpB a5 0 0 1) (lnP a7 0 1) (lnP a8 0 1)
/-- The user table after the first layer. -/
def xu1 : Mat 100000 128 := ginArr (xu0 a0 a2 a3) (toUsers (xi0 a1 a2 a3) a10) (scaleOf a6 0 1) (mlpW a4 0 1 0) (mlpB a5 0 1 0) (mlpW a4 0 1 1) (mlpB a5 0 1 1) (lnP a7 0 0) (lnP a8 0 0)
/-- The item table after the second layer. -/
def xi2 : Mat 50000 128 :=
  ginArr (xi1 a0 a1 a2 a3 a4 a5 a6 a7 a8 a9) (toItems (xu1 a0 a1 a2 a3 a4 a5 a6 a7 a8 a10) a9) (scaleOf a6 1 0) (mlpW a4 1 0 0) (mlpB a5 1 0 0) (mlpW a4 1 0 1) (mlpB a5 1 0 1) (lnP a7 1 1) (lnP a8 1 1)
/-- The user table after the second layer. -/
def xu2 : Mat 100000 128 :=
  ginArr (xu1 a0 a1 a2 a3 a4 a5 a6 a7 a8 a10) (toUsers (xi1 a0 a1 a2 a3 a4 a5 a6 a7 a8 a9) a10) (scaleOf a6 1 1) (mlpW a4 1 1 0) (mlpB a5 1 1 0) (mlpW a4 1 1 1) (mlpB a5 1 1 1) (lnP a7 1 0) (lnP a8 1 0)

end Cert.Net

end
-- ==== Proof.Chain0.lean ====
/-
  The two projected tables.

  Host stretches 0 and 1 cut the two projection weights and biases out of the stacked parameter arrays; regions 0 and
  1 project the user and the item table. After region 1 the user table's buffer holds `xu0` and the item table's `xi0`
  of the launch arguments.
-/
import proofs.«132706_j49976239456902_1_alg».proof.Proof.ChainArgs
import proofs.«132706_j49976239456902_1_alg».proof.Proof.Region0
import proofs.«132706_j49976239456902_1_alg».proof.Proof.Region1
import proofs.«132706_j49976239456902_1_alg».proof.Proof.Net

set_option maxRecDepth 16384

noncomputable section

namespace Cert.KernelIdeal.Chain

open Cert.KernelIdeal Cert.KernelIdeal.Gen Cert.Gin Cert.Net Cert.KernelIdeal.Agg
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)
theorem v1_w : (W1 m ρ c (Proc.devRef .tc main_v1) : S128x128.Idx → EReal) = projW (m ((c : Thread nD τ).loc main_arg2)) 0 :=
  (Glue.s0_w (W0 m ρ c)).trans (by rw [arg0_2 m ρ c])
theorem v1_b : (W1 m ρ c (Proc.devRef .tc main_v4) : S1x128.Idx → EReal) = projB (m ((c : Thread nD τ).loc main_arg3)) 0 :=
  (Glue.s0_b (W0 m ρ c)).trans (by rw [arg0_3 m ρ c])
/-- Region 0 leaves the projected user table. -/
theorem v2_xu0 : (W2 m ρ c (Proc.devRef .tc main_v5) : S100000x128.Idx → EReal) = xu0 (m ((c : Thread nD τ).loc main_arg0)) (m ((c : Thread nD τ).loc main_arg2)) (m ((c : Thread nD τ).loc main_arg3)) := by
  refine (W2_arr m ρ c 3).trans ((Region0.final (V1 m ρ) c).trans ?_)
  unfold xu0
  show projArr (W1 m ρ c (Proc.devRef .tc main_arg0)) (W1 m ρ c (Proc.devRef .tc main_v1)) (W1 m ρ c (Proc.devRef .tc main_v4)) = _
  rw [arg1_0 m ρ c, v1_w m ρ c, v1_b m ρ c]
theorem v3_xu0 : (W3 m ρ c (Proc.devRef .tc main_v5) : S100000x128.Idx → EReal) = xu0 (m ((c : Thread nD τ).loc main_arg0)) (m ((c : Thread nD τ).loc main_arg2)) (m ((c : Thread nD τ).loc main_arg3)) :=
  (Glue.s1_keep_main_v5 (W2 m ρ c)).trans (v2_xu0 m ρ c)
theorem v3_w : (W3 m ρ c (Proc.devRef .tc main_v7) : S128x128.Idx → EReal) = projW (m ((c : Thread nD τ).loc main_arg2)) 1 :=
  (Glue.s1_w (W2 m ρ c)).trans (by rw [arg2_2 m ρ c])
theorem v3_b : (W3 m ρ c (Proc.devRef .tc main_v10) : S1x128.Idx → EReal) = projB (m ((c : Thread nD τ).loc main_arg3)) 1 :=
  (Glue.s1_b (W2 m ρ c)).trans (by rw [arg2_3 m ρ c])
/-- Region 1 leaves the projected item table. -/
theorem v4_xi0 : (W4 m ρ c (Proc.devRef .tc main_v11) : S50000x128.Idx → EReal) = xi0 (m ((c : Thread nD τ).loc main_arg1)) (m ((c : Thread nD τ).loc main_arg2)) (m ((c : Thread nD τ).loc main_arg3)) := by
  refine (W4_arr m ρ c 3).trans ((Region1.final (V3 m ρ) c).trans ?_)
  unfold xi0
  show projArr (W3 m ρ c (Proc.devRef .tc main_arg1)) (W3 m ρ c (Proc.devRef .tc main_v7)) (W3 m ρ c (Proc.devRef .tc main_v10)) = _
  rw [arg3_1 m ρ c, v3_w m ρ c, v3_b m ρ c]
theorem v4_xu0 : (W4 m ρ c (Proc.devRef .tc main_v5) : S100000x128.Idx → EReal) = xu0 (m ((c : Thread nD τ).loc main_arg0)) (m ((c : Thread nD τ).loc main_arg2)) (m ((c : Thread nD τ).loc main_arg3)) :=
  (W4_of_ne m ρ c main_v5 (by decide)).trans (v3_xu0 m ρ c)

end Cert.KernelIdeal.Chain

end
-- ==== Proof.Region2.lean ====
/-
  Kernel region 2: one layer's update of the 50000-node table, computed block of 5000 nodes by block.

  Grid point `t` fetches rows `5000·t … 5000·t + 4999` of the node table and of the aggregated table, the whole of
  each parameter array, and writes back the layer's update of those rows. The update of a node depends on that node's
  two rows only, so what point `t` writes back is block `t` of the update of the WHOLE tables; the 10 blocks tile the
  50000 rows, so the result array ends as the update of the whole tables as the region finds them.
-/
import proofs.«132706_j49976239456902_1_alg».proof.Proof.Gen.KernelIdeal.Frame
import proofs.«132706_j49976239456902_1_alg».proof.Proof.Spec
import proofs.«132706_j49976239456902_1_alg».proof.Proof.Body
import Idealize.ShloMosaic.Lib.Pipeline.Value

set_option maxRecDepth 16384

noncomputable section

namespace Cert.KernelIdeal.Region2

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the two tables' blocks move with the result's block along the rows, every
    parameter block stays at the origin, and no block moves along the channels. -/
theorem maps : ∀ t : Fin cfg2.N,
      win2_0.index t (0 : Fin 2) = win2_9.index t (0 : Fin 2)
    ∧ win2_0.index t (1 : Fin 2) = 0
    ∧ win2_1.index t (0 : Fin 2) = win2_9.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (1 : Fin 2) = 0 :=
  (by decide +kernel : ∀ t : Fin grid2.N, _)

/-- Every block of rows is some point's. -/
theorem onto : ∀ q : Fin 10, ∃ t : Fin cfg2.N, win2_9.index t = ![q.val, 0] :=
  (by decide +kernel : ∀ q : Fin 10, ∃ t : Fin grid2.N, win2_9.index t = ![q.val, 0])

/-- Window 2's block is its whole array. -/
theorem whole_2 (c : Dev nD) (t : Fin cfg2.N) : iblk2 V c 2 t = V c main_v62 := by
  obtain ⟨e0, e1, e2, e3, e4, e5, e6, e7, e8, e9, e10, e11, e12, e13, e14, e15, e16, e17, e18⟩ := maps t
  funext y
  show V c main_v62 (((cfg2.win 2).blk t).view.emb y) = V c main_v62 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 1 + 1 * (y 1).val = (y 1).val; omega

/-- Window 3's block is its whole array. -/
theorem whole_3 (c : Dev nD) (t : Fin cfg2.N) : iblk2 V c 3 t = V c main_v47 := by
  obtain ⟨e0, e1, e2, e3, e4, e5, e6, e7, e8, e9, e10, e11, e12, e13, e14, e15, e16, e17, e18⟩ := maps t
  funext y
  show V c main_v47 (((cfg2.win 3).blk t).view.emb y) = V c main_v47 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4's block is its whole array. -/
theorem whole_4 (c : Dev nD) (t : Fin cfg2.N) : iblk2 V c 4 t = V c main_v58 := by
  obtain ⟨e0, e1, e2, e3, e4, e5, e6, e7, e8, e9, e10, e11, e12, e13, e14, e15, e16, e17, e18⟩ := maps t
  funext y
  show V c main_v58 (((cfg2.win 4).blk t).view.emb y) = V c main_v58 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5's block is its whole array. -/
theorem whole_5 (c : Dev nD) (t : Fin cfg2.N) : iblk2 V c 5 t = V c main_v51 := by
  obtain ⟨e0, e1, e2, e3, e4, e5, e6, e7, e8, e9, e10, e11, e12, e13, e14, e15, e16, e17, e18⟩ := maps t
  funext y
  show V c main_v51 (((cfg2.win 5).blk t).view.emb y) = V c main_v51 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6's block is its whole array. -/
theorem whole_6 (c : Dev nD) (t : Fin cfg2.N) : iblk2 V c 6 t = V c main_v59 := by
  obtain ⟨e0, e1, e2, e3, e4, e5, e6, e7, e8, e9, e10, e11, e12, e13, e14, e15, e16, e17, e18⟩ := maps t
  funext y
  show V c main_v59 (((cfg2.win 6).blk t).view.emb y) = V c main_v59 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7's block is its whole array. -/
theorem whole_7 (c : Dev nD) (t : Fin cfg2.N) : iblk2 V c 7 t = V c main_v60 := by
  obtain ⟨e0, e1, e2, e3, e4, e5, e6, e7, e8, e9, e10, e11, e12, e13, e14, e15, e16, e17, e18⟩ := maps t
  funext y
  show V c main_v60 (((cfg2.win 7).blk t).view.emb y) = V c main_v60 y
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- Window 8's block is its whole array. -/
theorem whole_8 (c : Dev nD) (t : Fin cfg2.N) : iblk2 V c 8 t = V c main_v61 := by
  obtain ⟨e0, e1, e2, e3, e4, e5, e6, e7, e8, e9, e10, e11, e12, e13, e14, e15, e16, e17, e18⟩ := maps t
  funext y
  show V c main_v61 (((cfg2.win 8).blk t).view.emb y) = V c main_v61 y
  refine congrArg _ (funext fun a => Fin.ext ?_)
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- The update of the whole tables as the region finds them. -/
abbrev G (c : Dev nD) : S50000x128.Idx → EReal :=
  ginArr (V c main_v11) (V c main_v25) (V c main_v62) (V c main_v47) (V c main_v58) (V c main_v51) (V c main_v59) (V c main_v60) (V c main_v61)

/-- What point `t` writes back is block `t` of the update of the whole tables. -/
theorem flushed_eq (c : Dev nD) (t : Fin cfg2.N) :
    (dat2 V c).flushed 9 t = ((cfg2.win 9).blk t).view.read (Elt Ideal) (G V c) := by
  show (cfg2.win 9).cut (grid2.coords t) ((dat2 V c).after 9 t) = _
  rw [after2_9, whole_2 V c t, whole_3 V c t, whole_4 V c t, whole_5 V c t, whole_6 V c t, whole_7 V c t, whole_8 V c t]
  unfold out2_9
  rw [View.canon_unit_zero zeros]
  simp only [View.ld_unit_zero (S := S5000x128) zeros, View.ld_unit_zero (S := S1x1) zeros,
    View.ld_unit_zero (S := S128x128) zeros, View.ld_unit_zero (S := S1x128) zeros]
  rw [Cert.KernelIdeal.BodyValue.gin2_eq]
  obtain ⟨e0, e1, e2, e3, e4, e5, e6, e7, e8, e9, e10, e11, e12, e13, e14, e15, e16, e17, e18⟩ := maps t
  funext j
  show ginArr (iblk2 V c 0 t) (iblk2 V c 1 t) (V c main_v62) (V c main_v47) (V c main_v58) (V c main_v51) (V c main_v59) (V c main_v60) (V c main_v61) j
    = ginArr (V c main_v11) (V c main_v25) (V c main_v62) (V c main_v47) (V c main_v58) (V c main_v51) (V c main_v59) (V c main_v60) (V c main_v61) (((cfg2.win 9).blk t).view.emb j)
  refine ginArr_congr _ _ _ _ _ _ _ _ _ _ _ _ _ ?_ ?_ ?_
  · funext k
    show V c main_v11 (((cfg2.win 0).blk t).view.emb (ix2 (j 0) k)) = V c main_v11 (ix2 ((((cfg2.win 9).blk t).view.emb j) 0) k)
    refine congrArg _ (funext fun a => Fin.ext ?_)
    match a with
    | ⟨0, _⟩ => show win2_0.index t (0 : Fin 2) * 5000 + 1 * (j 0).val = win2_9.index t (0 : Fin 2) * 5000 + 1 * (j 0).val; omega
    | ⟨1, _⟩ => show win2_0.index t (1 : Fin 2) * 128 + 1 * k.val = k.val; omega
  · funext k
    show V c main_v25 (((cfg2.win 1).blk t).view.emb (ix2 (j 0) k)) = V c main_v25 (ix2 ((((cfg2.win 9).blk t).view.emb j) 0) k)
    refine congrArg _ (funext fun a => Fin.ext ?_)
    match a with
    | ⟨0, _⟩ => show win2_1.index t (0 : Fin 2) * 5000 + 1 * (j 0).val = win2_9.index t (0 : Fin 2) * 5000 + 1 * (j 0).val; omega
    | ⟨1, _⟩ => show win2_1.index t (1 : Fin 2) * 128 + 1 * k.val = k.val; omega
  · refine Fin.ext ?_
    show (j 1).val = win2_9.index t (1 : Fin 2) * 128 + 1 * (j 1).val
    omega

/-- An index of the result array is in point `t`'s block iff each coordinate is in the block's range. -/
theorem mem_blk (t : Fin cfg2.N) (i : S50000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v63).slice (win2_9.rect t)).set ↔ _
  rw [View.set_slice_whole, Rect.mem_set_unit]
  exact Iff.rfl

/-- Row `r` is in the block of point `r / 5000`. -/
theorem cover (i : S50000x128.Idx) : ∃ t : Fin cfg2.N, (cfg2.win 9).flush t = true ∧ i ∈ ((cfg2.win 9).blk t).view.set := by
  have hi0 : (i 0).val < 50000 := (i 0).isLt
  have hi1 : (i 1).val < 128 := (i 1).isLt
  obtain ⟨t, ht⟩ := onto ⟨(i 0).val / 5000, by omega⟩
  have q0 : win2_9.index t (0 : Fin 2) = (i 0).val / 5000 := congrFun ht 0
  have q1 : win2_9.index t (1 : Fin 2) = 0 := congrFun ht 1
  refine ⟨t, flush2_9 t, ?_⟩
  rw [mem_blk]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 128 ≤ (i 1).val ∧ (i 1).val < win2_9.index t (1 : Fin 2) * 128 + 128; omega

/-- The result array after the region: the layer's update of the whole tables as the region finds them. -/
theorem final (c : Dev nD) : (dat2 V c).arrAt 9 cfg2.N = G V c :=
  (dat2 V c).arrAt_eq_of_cover 9 (G V c) (fun t _ => flushed_eq V c t) cover

end Cert.KernelIdeal.Region2

end
-- ==== Proof.Region3.lean ====
/-
  Kernel region 3: one layer's update of the 100000-node table, computed block of 5000 nodes by block.

  Grid point `t` fetches rows `5000·t … 5000·t + 4999` of the node table and of the aggregated table, the whole of
  each parameter array, and writes back the layer's update of those rows. The update of a node depends on that node's
  two rows only, so what point `t` writes back is block `t` of the update of the WHOLE tables; the 20 blocks tile the
  100000 rows, so the result array ends as the update of the whole tables as the region finds them.
-/
import proofs.«132706_j49976239456902_1_alg».proof.Proof.Gen.KernelIdeal.Frame
import proofs.«132706_j49976239456902_1_alg».proof.Proof.Spec
import proofs.«132706_j49976239456902_1_alg».proof.Proof.Body
import Idealize.ShloMosaic.Lib.Pipeline.Value

set_option maxRecDepth 16384

noncomputable section

namespace Cert.KernelIdeal.Region3

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the two tables' blocks move with the result's block along the rows, every
    parameter block stays at the origin, and no block moves along the channels. -/
theorem maps : ∀ t : Fin cfg3.N,
      win3_0.index t (0 : Fin 2) = win3_9.index t (0 : Fin 2)
    ∧ win3_0.index t (1 : Fin 2) = 0
    ∧ win3_1.index t (0 : Fin 2) = win3_9.index t (0 : Fin 2)
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (1 : Fin 2) = 0 :=
  (by decide +kernel : ∀ t : Fin grid3.N, _)

/-- Every block of rows is some point's. -/
theorem onto : ∀ q : Fin 20, ∃ t : Fin cfg3.N, win3_9.index t = ![q.val, 0] :=
  (by decide +kernel : ∀ q : Fin 20, ∃ t : Fin grid3.N, win3_9.index t = ![q.val, 0])

/-- Window 2's block is its whole array. -/
theorem whole_2 (c : Dev nD) (t : Fin cfg3.N) : iblk3 V c 2 t = V c main_v80 := by
  obtain ⟨e0, e1, e2, e3, e4, e5, e6, e7, e8, e9, e10, e11, e12, e13, e14, e15, e16, e17, e18⟩ := maps t
  funext y
  show V c main_v80 (((cfg3.win 2).blk t).view.emb y) = V c main_v80 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 1 + 1 * (y 1).val = (y 1).val; omega

/-- Window 3's block is its whole array. -/
theorem whole_3 (c : Dev nD) (t : Fin cfg3.N) : iblk3 V c 3 t = V c main_v65 := by
  obtain ⟨e0, e1, e2, e3, e4, e5, e6, e7, e8, e9, e10, e11, e12, e13, e14, e15, e16, e17, e18⟩ := maps t
  funext y
  show V c main_v65 (((cfg3.win 3).blk t).view.emb y) = V c main_v65 y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- Window 4's block is its whole array. -/
theorem whole_4 (c : Dev nD) (t : Fin cfg3.N) : iblk3 V c 4 t = V c main_v76 := by
  obtain ⟨e0, e1, e2, e3, e4, e5, e6, e7, e8, e9, e10, e11, e12, e13, e14, e15, e16, e17, e18⟩ := maps t
  funext y
  show V c main_v76 (((cfg3.win 4).blk t).view.emb y) = V c main_v76 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Window 5's block is its whole array. -/
theorem whole_5 (c : Dev nD) (t : Fin cfg3.N) : iblk3 V c 5 t = V c main_v69 := by
  obtain ⟨e0, e1, e2, e3, e4, e5, e6, e7, e8, e9, e10, e11, e12, e13, e14, e15, e16, e17, e18⟩ := maps t
  funext y
  show V c main_v69 (((cfg3.win 5).blk t).view.emb y) = V c main_v69 y
  refine congrArg _ (funext fun a => Fin.ext ?_)
  match a with
  | ⟨0, _⟩ => show win3_5.index t (0 : Fin 2) * 128 + 1 * (y 0).val = (y 0).val; omega
  | ⟨1, _⟩ => show win3_5.index t (1 : Fin 2) * 128 + 1 * (y 1).val = (y 1).val; omega

/-- Window 6's block is its whole array. -/
theorem whole_6 (c : Dev nD) (t : Fin cfg3.N) : iblk3 V c 6 t = V c main_v77 := by
  obtain ⟨e0, e1, e2, e3, e4, e5, e6, e7, e8, e9, e10, e11, e12, e13, e14, e15, e16, e17, e18⟩ := maps t
  funext y
  show V c main_v77 (((cfg3.win 6).blk t).view.emb y) = V c main_v77 y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 128 + 1 * (y 1).val = (y 1).val; omega

/-- Window 7's block is its whole array. -/
theorem whole_7 (c : Dev nD) (t : Fin cfg3.N) : iblk3 V c 7 t = V c main_v78 := by
  obtain ⟨e0, e1, e2, e3, e4, e5, e6, e7, e8, e9, e10, e11, e12, e13, e14, e15, e16, e17, e18⟩ := maps t
  funext y
  show V c main_v78 (((cfg3.win 7).blk t).view.emb y) = V c main_v78 y
  refine congrArg _ (funext fun a => Fin.ext ?_)
  match a with
  | ⟨0, _⟩ => show win3_7.index t (0 : Fin 2) * 1 + 1 * (y 0).val = (y 0).val; omega
  | ⟨1, _⟩ => show win3_7.index t (1 : Fin 2) * 128 + 1 * (y 1).val = (y 1).val; omega

/-- Window 8's block is its whole array. -/
theorem whole_8 (c : Dev nD) (t : Fin cfg3.N) : iblk3 V c 8 t = V c main_v79 := by
  obtain ⟨e0, e1, e2, e3, e4, e5, e6, e7, e8, e9, e10, e11, e12, e13, e14, e15, e16, e17, e18⟩ := maps t
  funext y
  show V c main_v79 (((cfg3.win 8).blk t).view.emb y) = V c main_v79 y
  refine congrArg _ (funext fun a => Fin.ext ?_)
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- The update of the whole tables as the region finds them. -/
abbrev G (c : Dev nD) : S100000x128.Idx → EReal :=
  ginArr (V c main_v5) (V c main_v39) (V c main_v80) (V c main_v65) (V c main_v76) (V c main_v69) (V c main_v77) (V c main_v78) (V c main_v79)

/-- What point `t` writes back is block `t` of the update of the whole tables. -/
theorem flushed_eq (c : Dev nD) (t : Fin cfg3.N) :
    (dat3 V c).flushed 9 t = ((cfg3.win 9).blk t).view.read (Elt Ideal) (G V c) := by
  show (cfg3.win 9).cut (grid3.coords t) ((dat3 V c).after 9 t) = _
  rw [after3_9, whole_2 V c t, whole_3 V c t, whole_4 V c t, whole_5 V c t, whole_6 V c t, whole_7 V c t, whole_8 V c t]
  unfold out3_9
  rw [View.canon_unit_zero zeros]
  simp only [View.ld_unit_zero (S := S5000x128) zeros, View.ld_unit_zero (S := S1x1) zeros,
    View.ld_unit_zero (S := S128x128) zeros, View.ld_unit_zero (S := S1x128) zeros]
  rw [Cert.KernelIdeal.BodyValue.gin3_eq]
  obtain ⟨e0, e1, e2, e3, e4, e5, e6, e7, e8, e9, e10, e11, e12, e13, e14, e15, e16, e17, e18⟩ := maps t
  funext j
  show ginArr (iblk3 V c 0 t) (iblk3 V c 1 t) (V c main_v80) (V c main_v65) (V c main_v76) (V c main_v69) (V c main_v77) (V c main_v78) (V c main_v79) j
    = ginArr (V c main_v5) (V c main_v39) (V c main_v80) (V c main_v65) (V c main_v76) (V c main_v69) (V c main_v77) (V c main_v78) (V c main_v79) (((cfg3.win 9).blk t).view.emb j)
  refine ginArr_congr _ _ _ _ _ _ _ _ _ _ _ _ _ ?_ ?_ ?_
  · funext k
    show V c main_v5 (((cfg3.win 0).blk t).view.emb (ix2 (j 0) k)) = V c main_v5 (ix2 ((((cfg3.win 9).blk t).view.emb j) 0) k)
    refine congrArg _ (funext fun a => Fin.ext ?_)
    match a with
    | ⟨0, _⟩ => show win3_0.index t (0 : Fin 2) * 5000 + 1 * (j 0).val = win3_9.index t (0 : Fin 2) * 5000 + 1 * (j 0).val; omega
    | ⟨1, _⟩ => show win3_0.index t (1 : Fin 2) * 128 + 1 * k.val = k.val; omega
  · funext k
    show V c main_v39 (((cfg3.win 1).blk t).view.emb (ix2 (j 0) k)) = V c main_v39 (ix2 ((((cfg3.win 9).blk t).view.emb j) 0) k)
    refine congrArg _ (funext fun a => Fin.ext ?_)
    match a with
    | ⟨0, _⟩ => show win3_1.index t (0 : Fin 2) * 5000 + 1 * (j 0).val = win3_9.index t (0 : Fin 2) * 5000 + 1 * (j 0).val; omega
    | ⟨1, _⟩ => show win3_1.index t (1 : Fin 2) * 128 + 1 * k.val = k.val; omega
  · refine Fin.ext ?_
    show (j 1).val = win3_9.index t (1 : Fin 2) * 128 + 1 * (j 1).val
    omega

/-- An index of the result array is in point `t`'s block iff each coordinate is in the block's range. -/
theorem mem_blk (t : Fin cfg3.N) (i : S100000x128.Idx) :
    i ∈ ((cfg3.win 9).blk t).view.set ↔ ∀ a : Fin 2, win3_9.index t a * S5000x128.size a ≤ (i a).val ∧ (i a).val < win3_9.index t a * S5000x128.size a + S5000x128.size a := by
  show i ∈ ((View.whole main_v81).slice (win3_9.rect t)).set ↔ _
  rw [View.set_slice_whole, Rect.mem_set_unit]
  exact Iff.rfl

/-- Row `r` is in the block of point `r / 5000`. -/
theorem cover (i : S100000x128.Idx) : ∃ t : Fin cfg3.N, (cfg3.win 9).flush t = true ∧ i ∈ ((cfg3.win 9).blk t).view.set := by
  have hi0 : (i 0).val < 100000 := (i 0).isLt
  have hi1 : (i 1).val < 128 := (i 1).isLt
  obtain ⟨t, ht⟩ := onto ⟨(i 0).val / 5000, by omega⟩
  have q0 : win3_9.index t (0 : Fin 2) = (i 0).val / 5000 := congrFun ht 0
  have q1 : win3_9.index t (1 : Fin 2) = 0 := congrFun ht 1
  refine ⟨t, flush3_9 t, ?_⟩
  rw [mem_blk]
  intro a
  match a with
  | ⟨0, _⟩ => show win3_9.index t (0 : Fin 2) * 5000 ≤ (i 0).val ∧ (i 0).val < win3_9.index t (0 : Fin 2) * 5000 + 5000; omega
  | ⟨1, _⟩ => show win3_9.index t (1 : Fin 2) * 128 ≤ (i 1).val ∧ (i 1).val < win3_9.index t (1 : Fin 2) * 128 + 128; omega

/-- The result array after the region: the layer's update of the whole tables as the region finds them. -/
theorem final (c : Dev nD) : (dat3 V c).arrAt 9 cfg3.N = G V c :=
  (dat3 V c).arrAt_eq_of_cover 9 (G V c) (fun t _ => flushed_eq V c t) cover

end Cert.KernelIdeal.Region3

end
-- ==== Proof.AggS2.lean ====
/-
  Host stretch 2 computes both aggregated tables of its layer: each is the aggregation of the table the stretch is
  entered with along the edge table the stretch is entered with.
-/
import proofs.«132706_j49976239456902_1_alg».proof.Proof.Agg

noncomputable section

namespace Cert.KernelIdeal.Agg

open Cert.KernelIdeal Cert.KernelIdeal.Gen
open Idealize.ShloMosaic Idealize.ShloMosaic.TcCoe Idealize.ShloMosaic.StableHlo

variable (W : Valuation τ sig (Elt Ideal))

set_option maxHeartbeats 4000000 in
/-- The first layer's aggregated item table is the aggregation of the user table the stretch is entered with. -/
theorem s2_items : StableHlo.after hostOps2 W (Proc.devRef .tc main_v25)
    = toItems (W (Proc.devRef .tc main_v5)) (W (Proc.devRef .tc main_arg9)) := by
  dsimp only [hostOps2]
  after_results_simp
  rfl

set_option maxHeartbeats 4000000 in
/-- The first layer's aggregated user table is the aggregation of the item table the stretch is entered with. -/
theorem s2_users : StableHlo.after hostOps2 W (Proc.devRef .tc main_v39)
    = toUsers (W (Proc.devRef .tc main_v11)) (W (Proc.devRef .tc main_arg10)) := by
  dsimp only [hostOps2]
  after_results_simp
  rfl

end Cert.KernelIdeal.Agg

end
-- ==== Proof.Chain1.lean ====
/-
  The first layer.

  Host stretch 2 aggregates both projected tables along the edges and cuts out the item update's parameters; region 2
  updates the item table. Host stretch 3 cuts out the user update's parameters; region 3 updates the user table. After
  region 3 the item table's buffer holds `xi1` and the user table's `xu1` of the launch arguments.
-/
import proofs.«132706_j49976239456902_1_alg».proof.Proof.Chain0
import proofs.«132706_j49976239456902_1_alg».proof.Proof.Region2
import proofs.«132706_j49976239456902_1_alg».proof.Proof.Region3
import proofs.«132706_j49976239456902_1_alg».proof.Proof.AggS2
import proofs.«132706_j49976239456902_1_alg».proof.Proof.Net

set_option maxRecDepth 16384

noncomputable section

namespace Cert.KernelIdeal.Chain

open Cert.KernelIdeal Cert.KernelIdeal.Gen Cert.Gin Cert.Net Cert.KernelIdeal.Agg
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)
theorem v5_xu0 : (W5 m ρ c (Proc.devRef .tc main_v5) : S100000x128.Idx → EReal) = xu0 (m ((c : Thread nD τ).loc main_arg0)) (m ((c : Thread nD τ).loc main_arg2)) (m ((c : Thread nD τ).loc main_arg3)) :=
  (Glue.s2_keep_main_v5 (W4 m ρ c)).trans (v4_xu0 m ρ c)
theorem v5_xi0 : (W5 m ρ c (Proc.devRef .tc main_v11) : S50000x128.Idx → EReal) = xi0 (m ((c : Thread nD τ).loc main_arg1)) (m ((c : Thread nD τ).loc main_arg2)) (m ((c : Thread nD τ).loc main_arg3)) :=
  (Glue.s2_keep_main_v11 (W4 m ρ c)).trans (v4_xi0 m ρ c)
theorem v5_aggI : (W5 m ρ c (Proc.devRef .tc main_v25) : S50000x128.Idx → EReal) = toItems (xu0 (m ((c : Thread nD τ).loc main_arg0)) (m ((c : Thread nD τ).loc main_arg2)) (m ((c : Thread nD τ).loc main_arg3))) (m ((c : Thread nD τ).loc main_arg9)) :=
  (Agg.s2_items (W4 m ρ c)).trans (by rw [v4_xu0 m ρ c, arg4_9 m ρ c])
theorem v5_aggU : (W5 m ρ c (Proc.devRef .tc main_v39) : S100000x128.Idx → EReal) = toUsers (xi0 (m ((c : Thread nD τ).loc main_arg1)) (m ((c : Thread nD τ).loc main_arg2)) (m ((c : Thread nD τ).loc main_arg3))) (m ((c : Thread nD τ).loc main_arg10)) :=
  (Agg.s2_users (W4 m ρ c)).trans (by rw [v4_xi0 m ρ c, arg4_10 m ρ c])
theorem v5_scaleU : (W5 m ρ c (Proc.devRef .tc main_v45) : S_.Idx → EReal) = fun _ => oneW + ((m ((c : Thread nD τ).loc main_arg6)) : S2x2.Idx → EReal) (ix2 0 1) :=
  (Glue.s2_scaleU (W4 m ρ c)).trans (by rw [arg4_6 m ρ c])
theorem v5_scale : (W5 m ρ c (Proc.devRef .tc main_v62) : S1x1.Idx → EReal) = scaleOf (m ((c : Thread nD τ).loc main_arg6)) 0 0 :=
  (Glue.s2_scale (W4 m ρ c)).trans (by rw [arg4_6 m ρ c])
theorem v5_w0 : (W5 m ρ c (Proc.devRef .tc main_v47) : S128x128.Idx → EReal) = mlpW (m ((c : Thread nD τ).loc main_arg4)) 0 0 0 :=
  (Glue.s2_w0 (W4 m ρ c)).trans (by rw [arg4_4 m ρ c])
theorem v5_b0 : (W5 m ρ c (Proc.devRef .tc main_v58) : S1x128.Idx → EReal) = mlpB (m ((c : Thread nD τ).loc main_arg5)) 0 0 0 :=
  (Glue.s2_b0 (W4 m ρ c)).trans (by rw [arg4_5 m ρ c])
theorem v5_w1 : (W5 m ρ c (Proc.devRef .tc main_v51) : S128x128.Idx → EReal) = mlpW (m ((c : Thread nD τ).loc main_arg4)) 0 0 1 :=
  (Glue.s2_w1 (W4 m ρ c)).trans (by rw [arg4_4 m ρ c])
theorem v5_b1 : (W5 m ρ c (Proc.devRef .tc main_v59) : S1x128.Idx → EReal) = mlpB (m ((c : Thread nD τ).loc main_arg5)) 0 0 1 :=
  (Glue.s2_b1 (W4 m ρ c)).trans (by rw [arg4_5 m ρ c])
theorem v5_g : (W5 m ρ c (Proc.devRef .tc main_v60) : S1x128.Idx → EReal) = lnP (m ((c : Thread nD τ).loc main_arg7)) 0 1 :=
  (Glue.s2_g (W4 m ρ c)).trans (by rw [arg4_7 m ρ c])
theorem v5_beta : (W5 m ρ c (Proc.devRef .tc main_v61) : S1x128.Idx → EReal) = lnP (m ((c : Thread nD τ).loc main_arg8)) 0 1 :=
  (Glue.s2_beta (W4 m ρ c)).trans (by rw [arg4_8 m ρ c])
/-- Region 2 leaves the item table after the first layer. -/
theorem v6_xi1 : (W6 m ρ c (Proc.devRef .tc main_v63) : S50000x128.Idx → EReal) = xi1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 9).trans ((Region2.final (V5 m ρ) c).trans ?_)
  unfold xi1
  show ginArr (W5 m ρ c (Proc.devRef .tc main_v11)) (W5 m ρ c (Proc.devRef .tc main_v25)) (W5 m ρ c (Proc.devRef .tc main_v62)) (W5 m ρ c (Proc.devRef .tc main_v47)) (W5 m ρ c (Proc.devRef .tc main_v58)) (W5 m ρ c (Proc.devRef .tc main_v51)) (W5 m ρ c (Proc.devRef .tc main_v59)) (W5 m ρ c (Proc.devRef .tc main_v60)) (W5 m ρ c (Proc.devRef .tc main_v61)) = _
  rw [v5_xi0 m ρ c, v5_aggI m ρ c, v5_scale m ρ c, v5_w0 m ρ c, v5_b0 m ρ c, v5_w1 m ρ c, v5_b1 m ρ c, v5_g m ρ c, v5_beta m ρ c]
theorem v6_xu0 : (W6 m ρ c (Proc.devRef .tc main_v5) : S100000x128.Idx → EReal) = xu0 (m ((c : Thread nD τ).loc main_arg0)) (m ((c : Thread nD τ).loc main_arg2)) (m ((c : Thread nD τ).loc main_arg3)) :=
  (W6_of_ne m ρ c main_v5 (by decide)).trans (v5_xu0 m ρ c)
theorem v6_aggU : (W6 m ρ c (Proc.devRef .tc main_v39) : S100000x128.Idx → EReal) = toUsers (xi0 (m ((c : Thread nD τ).loc main_arg1)) (m ((c : Thread nD τ).loc main_arg2)) (m ((c : Thread nD τ).loc main_arg3))) (m ((c : Thread nD τ).loc main_arg10)) :=
  (W6_of_ne m ρ c main_v39 (by decide)).trans (v5_aggU m ρ c)
theorem v6_scaleU : (W6 m ρ c (Proc.devRef .tc main_v45) : S_.Idx → EReal) = fun _ => oneW + ((m ((c : Thread nD τ).loc main_arg6)) : S2x2.Idx → EReal) (ix2 0 1) :=
  (W6_of_ne m ρ c main_v45 (by decide)).trans (v5_scaleU m ρ c)
theorem v7_xu0 : (W7 m ρ c (Proc.devRef .tc main_v5) : S100000x128.Idx → EReal) = xu0 (m ((c : Thread nD τ).loc main_arg0)) (m ((c : Thread nD τ).loc main_arg2)) (m ((c : Thread nD τ).loc main_arg3)) :=
  (Glue.s3_keep_main_v5 (W6 m ρ c)).trans (v6_xu0 m ρ c)
theorem v7_aggU : (W7 m ρ c (Proc.devRef .tc main_v39) : S100000x128.Idx → EReal) = toUsers (xi0 (m ((c : Thread nD τ).loc main_arg1)) (m ((c : Thread nD τ).loc main_arg2)) (m ((c : Thread nD τ).loc main_arg3))) (m ((c : Thread nD τ).loc main_arg10)) :=
  (Glue.s3_keep_main_v39 (W6 m ρ c)).trans (v6_aggU m ρ c)
theorem v7_xi1 : (W7 m ρ c (Proc.devRef .tc main_v63) : S50000x128.Idx → EReal) = xi1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (Glue.s3_keep_main_v63 (W6 m ρ c)).trans (v6_xi1 m ρ c)
theorem v7_scale : (W7 m ρ c (Proc.devRef .tc main_v80) : S1x1.Idx → EReal) = scaleOf (m ((c : Thread nD τ).loc main_arg6)) 0 1 :=
  (Glue.s3_scale (W6 m ρ c)).trans (by rw [v6_scaleU m ρ c]; rfl)
theorem v7_w0 : (W7 m ρ c (Proc.devRef .tc main_v65) : S128x128.Idx → EReal) = mlpW (m ((c : Thread nD τ).loc main_arg4)) 0 1 0 :=
  (Glue.s3_w0 (W6 m ρ c)).trans (by rw [arg6_4 m ρ c])
theorem v7_b0 : (W7 m ρ c (Proc.devRef .tc main_v76) : S1x128.Idx → EReal) = mlpB (m ((c : Thread nD τ).loc main_arg5)) 0 1 0 :=
  (Glue.s3_b0 (W6 m ρ c)).trans (by rw [arg6_5 m ρ c])
theorem v7_w1 : (W7 m ρ c (Proc.devRef .tc main_v69) : S128x128.Idx → EReal) = mlpW (m ((c : Thread nD τ).loc main_arg4)) 0 1 1 :=
  (Glue.s3_w1 (W6 m ρ c)).trans (by rw [arg6_4 m ρ c])
theorem v7_b1 : (W7 m ρ c (Proc.devRef .tc main_v77) : S1x128.Idx → EReal) = mlpB (m ((c : Thread nD τ).loc main_arg5)) 0 1 1 :=
  (Glue.s3_b1 (W6 m ρ c)).trans (by rw [arg6_5 m ρ c])
theorem v7_g : (W7 m ρ c (Proc.devRef .tc main_v78) : S1x128.Idx → EReal) = lnP (m ((c : Thread nD τ).loc main_arg7)) 0 0 :=
  (Glue.s3_g (W6 m ρ c)).trans (by rw [arg6_7 m ρ c])
theorem v7_beta : (W7 m ρ c (Proc.devRef .tc main_v79) : S1x128.Idx → EReal) = lnP (m ((c : Thread nD τ).loc main_arg8)) 0 0 :=
  (Glue.s3_beta (W6 m ρ c)).trans (by rw [arg6_8 m ρ c])
/-- Region 3 leaves the user table after the first layer. -/
theorem v8_xu1 : (W8 m ρ c (Proc.devRef .tc main_v81) : S100000x128.Idx → EReal) = xu1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) := by
  refine (W8_arr m ρ c 9).trans ((Region3.final (V7 m ρ) c).trans ?_)
  unfold xu1
  show ginArr (W7 m ρ c (Proc.devRef .tc main_v5)) (W7 m ρ c (Proc.devRef .tc main_v39)) (W7 m ρ c (Proc.devRef .tc main_v80)) (W7 m ρ c (Proc.devRef .tc main_v65)) (W7 m ρ c (Proc.devRef .tc main_v76)) (W7 m ρ c (Proc.devRef .tc main_v69)) (W7 m ρ c (Proc.devRef .tc main_v77)) (W7 m ρ c (Proc.devRef .tc main_v78)) (W7 m ρ c (Proc.devRef .tc main_v79)) = _
  rw [v7_xu0 m ρ c, v7_aggU m ρ c, v7_scale m ρ c, v7_w0 m ρ c, v7_b0 m ρ c, v7_w1 m ρ c, v7_b1 m ρ c, v7_g m ρ c, v7_beta m ρ c]
theorem v8_xi1 : (W8 m ρ c (Proc.devRef .tc main_v63) : S50000x128.Idx → EReal) = xi1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W8_of_ne m ρ c main_v63 (by decide)).trans (v7_xi1 m ρ c)

end Cert.KernelIdeal.Chain

end
-- ==== Proof.Region4.lean ====
/-
  Kernel region 4: one layer's update of the 50000-node table, computed block of 5000 nodes by block.

  Grid point `t` fetches rows `5000·t … 5000·t + 4999` of the node table and of the aggregated table, the whole of
  each parameter array, and writes back the layer's update of those rows. The update of a node depends on that node's
  two rows only, so what point `t` writes back is block `t` of the update of the WHOLE tables; the 10 blocks tile the
  50000 rows, so the result array ends as the update of the whole tables as the region finds them.
-/
import proofs.«132706_j49976239456902_1_alg».proof.Proof.Gen.KernelIdeal.Frame
import proofs.«132706_j49976239456902_1_alg».proof.Proof.Spec
import proofs.«132706_j49976239456902_1_alg».proof.Proof.Body
import Idealize.ShloMosaic.Lib.Pipeline.Value

set_option maxRecDepth 16384

noncomputable section

namespace Cert.KernelIdeal.Region4

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the two tables' blocks move with the result's block along the rows, every
    parameter block stays at the origin, and no block moves along the channels. -/
theorem maps : ∀ t : Fin cfg4.N,
      win4_0.index t (0 : Fin 2) = win4_9.index t (0 : Fin 2)
    ∧ win4_0.index t (1 : Fin 2) = 0
    ∧ win4_1.index t (0 : Fin 2) = win4_9.index t (0 : Fin 2)
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (1 : Fin 2) = 0 :=
  (by decide +kernel : ∀ t : Fin grid4.N, _)

/-- Every block of rows is some point's. -/
theorem onto : ∀ q : Fin 10, ∃ t : Fin cfg4.N, win4_9.index t = ![q.val, 0] :=
  (by decide +kernel : ∀ q : Fin 10, ∃ t : Fin grid4.N, win4_9.index t = ![q.val, 0])

/-- Window 2's block is its whole array. -/
theorem whole_2 (c : Dev nD) (t : Fin cfg4.N) : iblk4 V c 2 t = V c main_v132 := by
  obtain ⟨e0, e1, e2, e3, e4, e5, e6, e7, e8, e9, e10, e11, e12, e13, e14, e15, e16, e17, e18⟩ := maps t
  funext y
  show V c main_v132 (((cfg4.win 2).blk t).view.emb y) = V c main_v132 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 1 + 1 * (y 1).val = (y 1).val; omega

/-- Window 3's block is its whole array. -/
theorem whole_3 (c : Dev nD) (t : Fin cfg4.N) : iblk4 V c 3 t = V c main_v117 := by
  obtain ⟨e0, e1, e2, e3, e4, e5, e6, e7, e8, e9, e10, e11, e12, e13, e14, e15, e16, e17, e18⟩ := maps t
  funext y
  show V c main_v117 (((cfg4.win 3).blk t).view.emb y) = V c main_v117 y
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Window 4's block is its whole array. -/
theorem whole_4 (c : Dev nD) (t : Fin cfg4.N) : iblk4 V c 4 t = V c main_v128 := by
  obtain ⟨e0, e1, e2, e3, e4, e5, e6, e7, e8, e9, e10, e11, e12, e13, e14, e15, e16, e17, e18⟩ := maps t
  funext y
  show V c main_v128 (((cfg4.win 4).blk t).view.emb y) = V c main_v128 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Window 5's block is its whole array. -/
theorem whole_5 (c : Dev nD) (t : Fin cfg4.N) : iblk4 V c 5 t = V c main_v121 := by
  obtain ⟨e0, e1, e2, e3, e4, e5, e6, e7, e8, e9, e10, e11, e12, e13, e14, e15, e16, e17, e18⟩ := maps t
  funext y
  show V c main_v121 (((cfg4.win 5).blk t).view.emb y) = V c main_v121 y
  refine congrArg _ (funext fun a => Fin.ext ?_)
  match a with
  | ⟨0, _⟩ => show win4_5.index t (0 : Fin 2) * 128 + 1 * (y 0).val = (y 0).val; omega
  | ⟨1, _⟩ => show win4_5.index t (1 : Fin 2) * 128 + 1 * (y 1).val = (y 1).val; omega

/-- Window 6's block is its whole array. -/
theorem whole_6 (c : Dev nD) (t : Fin cfg4.N) : iblk4 V c 6 t = V c main_v129 := by
  obtain ⟨e0, e1, e2, e3, e4, e5, e6, e7, e8, e9, e10, e11, e12, e13, e14, e15, e16, e17, e18⟩ := maps t
  funext y
  show V c main_v129 (((cfg4.win 6).blk t).view.emb y) = V c main_v129 y
  refine congrArg _ (funext fun a => Fin.ext ?_)
  match a with
  | ⟨0, _⟩ => show win4_6.index t (0 : Fin 2) * 1 + 1 * (y 0).val = (y 0).val; omega
  | ⟨1, _⟩ => show win4_6.index t (1 : Fin 2) * 128 + 1 * (y 1).val = (y 1).val; omega

/-- Window 7's block is its whole array. -/
theorem whole_7 (c : Dev nD) (t : Fin cfg4.N) : iblk4 V c 7 t = V c main_v130 := by
  obtain ⟨e0, e1, e2, e3, e4, e5, e6, e7, e8, e9, e10, e11, e12, e13, e14, e15, e16, e17, e18⟩ := maps t
  funext y
  show V c main_v130 (((cfg4.win 7).blk t).view.emb y) = V c main_v130 y
  refine congrArg _ (funext fun a => Fin.ext ?_)
  match a with
  | ⟨0, _⟩ => show win4_7.index t (0 : Fin 2) * 1 + 1 * (y 0).val = (y 0).val; omega
  | ⟨1, _⟩ => show win4_7.index t (1 : Fin 2) * 128 + 1 * (y 1).val = (y 1).val; omega

/-- Window 8's block is its whole array. -/
theorem whole_8 (c : Dev nD) (t : Fin cfg4.N) : iblk4 V c 8 t = V c main_v131 := by
  obtain ⟨e0, e1, e2, e3, e4, e5, e6, e7, e8, e9, e10, e11, e12, e13, e14, e15, e16, e17, e18⟩ := maps t
  funext y
  show V c main_v131 (((cfg4.win 8).blk t).view.emb y) = V c main_v131 y
  refine congrArg _ (funext fun a => Fin.ext ?_)
  match a with
  | ⟨0, _⟩ => show win4_8.index t (0 : Fin 2) * 1 + 1 * (y 0).val = (y 0).val; omega
  | ⟨1, _⟩ => show win4_8.index t (1 : Fin 2) * 128 + 1 * (y 1).val = (y 1).val; omega

/-- The update of the whole tables as the region finds them. -/
abbrev G (c : Dev nD) : S50000x128.Idx → EReal :=
  ginArr (V c main_v63) (V c main_v95) (V c main_v132) (V c main_v117) (V c main_v128) (V c main_v121) (V c main_v129) (V c main_v130) (V c main_v131)

/-- What point `t` writes back is block `t` of the update of the whole tables. -/
theorem flushed_eq (c : Dev nD) (t : Fin cfg4.N) :
    (dat4 V c).flushed 9 t = ((cfg4.win 9).blk t).view.read (Elt Ideal) (G V c) := by
  show (cfg4.win 9).cut (grid4.coords t) ((dat4 V c).after 9 t) = _
  rw [after4_9, whole_2 V c t, whole_3 V c t, whole_4 V c t, whole_5 V c t, whole_6 V c t, whole_7 V c t, whole_8 V c t]
  unfold out4_9
  rw [View.canon_unit_zero zeros]
  simp only [View.ld_unit_zero (S := S5000x128) zeros, View.ld_unit_zero (S := S1x1) zeros,
    View.ld_unit_zero (S := S128x128) zeros, View.ld_unit_zero (S := S1x128) zeros]
  rw [Cert.KernelIdeal.BodyValue.gin4_eq]
  obtain ⟨e0, e1, e2, e3, e4, e5, e6, e7, e8, e9, e10, e11, e12, e13, e14, e15, e16, e17, e18⟩ := maps t
  funext j
  show ginArr (iblk4 V c 0 t) (iblk4 V c 1 t) (V c main_v132) (V c main_v117) (V c main_v128) (V c main_v121) (V c main_v129) (V c main_v130) (V c main_v131) j
    = ginArr (V c main_v63) (V c main_v95) (V c main_v132) (V c main_v117) (V c main_v128) (V c main_v121) (V c main_v129) (V c main_v130) (V c main_v131) (((cfg4.win 9).blk t).view.emb j)
  refine ginArr_congr _ _ _ _ _ _ _ _ _ _ _ _ _ ?_ ?_ ?_
  · funext k
    show V c main_v63 (((cfg4.win 0).blk t).view.emb (ix2 (j 0) k)) = V c main_v63 (ix2 ((((cfg4.win 9).blk t).view.emb j) 0) k)
    refine congrArg _ (funext fun a => Fin.ext ?_)
    match a with
    | ⟨0, _⟩ => show win4_0.index t (0 : Fin 2) * 5000 + 1 * (j 0).val = win4_9.index t (0 : Fin 2) * 5000 + 1 * (j 0).val; omega
    | ⟨1, _⟩ => show win4_0.index t (1 : Fin 2) * 128 + 1 * k.val = k.val; omega
  · funext k
    show V c main_v95 (((cfg4.win 1).blk t).view.emb (ix2 (j 0) k)) = V c main_v95 (ix2 ((((cfg4.win 9).blk t).view.emb j) 0) k)
    refine congrArg _ (funext fun a => Fin.ext ?_)
    match a with
    | ⟨0, _⟩ => show win4_1.index t (0 : Fin 2) * 5000 + 1 * (j 0).val = win4_9.index t (0 : Fin 2) * 5000 + 1 * (j 0).val; omega
    | ⟨1, _⟩ => show win4_1.index t (1 : Fin 2) * 128 + 1 * k.val = k.val; omega
  · refine Fin.ext ?_
    show (j 1).val = win4_9.index t (1 : Fin 2) * 128 + 1 * (j 1).val
    omega

/-- An index of the result array is in point `t`'s block iff each coordinate is in the block's range. -/
theorem mem_blk (t : Fin cfg4.N) (i : S50000x128.Idx) :
    i ∈ ((cfg4.win 9).blk t).view.set ↔ ∀ a : Fin 2, win4_9.index t a * S5000x128.size a ≤ (i a).val ∧ (i a).val < win4_9.index t a * S5000x128.size a + S5000x128.size a := by
  show i ∈ ((View.whole main_v133).slice (win4_9.rect t)).set ↔ _
  rw [View.set_slice_whole, Rect.mem_set_unit]
  exact Iff.rfl

/-- Row `r` is in the block of point `r / 5000`. -/
theorem cover (i : S50000x128.Idx) : ∃ t : Fin cfg4.N, (cfg4.win 9).flush t = true ∧ i ∈ ((cfg4.win 9).blk t).view.set := by
  have hi0 : (i 0).val < 50000 := (i 0).isLt
  have hi1 : (i 1).val < 128 := (i 1).isLt
  obtain ⟨t, ht⟩ := onto ⟨(i 0).val / 5000, by omega⟩
  have q0 : win4_9.index t (0 : Fin 2) = (i 0).val / 5000 := congrFun ht 0
  have q1 : win4_9.index t (1 : Fin 2) = 0 := congrFun ht 1
  refine ⟨t, flush4_9 t, ?_⟩
  rw [mem_blk]
  intro a
  match a with
  | ⟨0, _⟩ => show win4_9.index t (0 : Fin 2) * 5000 ≤ (i 0).val ∧ (i 0).val < win4_9.index t (0 : Fin 2) * 5000 + 5000; omega
  | ⟨1, _⟩ => show win4_9.index t (1 : Fin 2) * 128 ≤ (i 1).val ∧ (i 1).val < win4_9.index t (1 : Fin 2) * 128 + 128; omega

/-- The result array after the region: the layer's update of the whole tables as the region finds them. -/
theorem final (c : Dev nD) : (dat4 V c).arrAt 9 cfg4.N = G V c :=
  (dat4 V c).arrAt_eq_of_cover 9 (G V c) (fun t _ => flushed_eq V c t) cover

end Cert.KernelIdeal.Region4

end
-- ==== Proof.Region5.lean ====
/-
  Kernel region 5: one layer's update of the 100000-node table, computed block of 5000 nodes by block.

  Grid point `t` fetches rows `5000·t … 5000·t + 4999` of the node table and of the aggregated table, the whole of
  each parameter array, and writes back the layer's update of those rows. The update of a node depends on that node's
  two rows only, so what point `t` writes back is block `t` of the update of the WHOLE tables; the 20 blocks tile the
  100000 rows, so the result array ends as the update of the whole tables as the region finds them.
-/
import proofs.«132706_j49976239456902_1_alg».proof.Proof.Gen.KernelIdeal.Frame
import proofs.«132706_j49976239456902_1_alg».proof.Proof.Spec
import proofs.«132706_j49976239456902_1_alg».proof.Proof.Body
import Idealize.ShloMosaic.Lib.Pipeline.Value

set_option maxRecDepth 16384

noncomputable section

namespace Cert.KernelIdeal.Region5

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the two tables' blocks move with the result's block along the rows, every
    parameter block stays at the origin, and no block moves along the channels. -/
theorem maps : ∀ t : Fin cfg5.N,
      win5_0.index t (0 : Fin 2) = win5_9.index t (0 : Fin 2)
    ∧ win5_0.index t (1 : Fin 2) = 0
    ∧ win5_1.index t (0 : Fin 2) = win5_9.index t (0 : Fin 2)
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0
    ∧ win5_9.index t (1 : Fin 2) = 0 :=
  (by decide +kernel : ∀ t : Fin grid5.N, _)

/-- Every block of rows is some point's. -/
theorem onto : ∀ q : Fin 20, ∃ t : Fin cfg5.N, win5_9.index t = ![q.val, 0] :=
  (by decide +kernel : ∀ q : Fin 20, ∃ t : Fin grid5.N, win5_9.index t = ![q.val, 0])

/-- Window 2's block is its whole array. -/
theorem whole_2 (c : Dev nD) (t : Fin cfg5.N) : iblk5 V c 2 t = V c main_v150 := by
  obtain ⟨e0, e1, e2, e3, e4, e5, e6, e7, e8, e9, e10, e11, e12, e13, e14, e15, e16, e17, e18⟩ := maps t
  funext y
  show V c main_v150 (((cfg5.win 2).blk t).view.emb y) = V c main_v150 y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 1 + 1 * (y 1).val = (y 1).val; omega

/-- Window 3's block is its whole array. -/
theorem whole_3 (c : Dev nD) (t : Fin cfg5.N) : iblk5 V c 3 t = V c main_v135 := by
  obtain ⟨e0, e1, e2, e3, e4, e5, e6, e7, e8, e9, e10, e11, e12, e13, e14, e15, e16, e17, e18⟩ := maps t
  funext y
  show V c main_v135 (((cfg5.win 3).blk t).view.emb y) = V c main_v135 y
  refine congrArg _ (funext fun a => Fin.ext ?_)
  match a with
  | ⟨0, _⟩ => show win5_3.index t (0 : Fin 2) * 128 + 1 * (y 0).val = (y 0).val; omega
  | ⟨1, _⟩ => show win5_3.index t (1 : Fin 2) * 128 + 1 * (y 1).val = (y 1).val; omega

/-- Window 4's block is its whole array. -/
theorem whole_4 (c : Dev nD) (t : Fin cfg5.N) : iblk5 V c 4 t = V c main_v146 := by
  obtain ⟨e0, e1, e2, e3, e4, e5, e6, e7, e8, e9, e10, e11, e12, e13, e14, e15, e16, e17, e18⟩ := maps t
  funext y
  show V c main_v146 (((cfg5.win 4).blk t).view.emb y) = V c main_v146 y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- Window 5's block is its whole array. -/
theorem whole_5 (c : Dev nD) (t : Fin cfg5.N) : iblk5 V c 5 t = V c main_v139 := by
  obtain ⟨e0, e1, e2, e3, e4, e5, e6, e7, e8, e9, e10, e11, e12, e13, e14, e15, e16, e17, e18⟩ := maps t
  funext y
  show V c main_v139 (((cfg5.win 5).blk t).view.emb y) = V c main_v139 y
  refine congrArg _ (funext fun a => Fin.ext ?_)
  match a with
  | ⟨0, _⟩ => show win5_5.index t (0 : Fin 2) * 128 + 1 * (y 0).val = (y 0).val; omega
  | ⟨1, _⟩ => show win5_5.index t (1 : Fin 2) * 128 + 1 * (y 1).val = (y 1).val; omega

/-- Window 6's block is its whole array. -/
theorem whole_6 (c : Dev nD) (t : Fin cfg5.N) : iblk5 V c 6 t = V c main_v147 := by
  obtain ⟨e0, e1, e2, e3, e4, e5, e6, e7, e8, e9, e10, e11, e12, e13, e14, e15, e16, e17, e18⟩ := maps t
  funext y
  show V c main_v147 (((cfg5.win 6).blk t).view.emb y) = V c main_v147 y
  refine congrArg _ (funext fun a => Fin.ext ?_)
  match a with
  | ⟨0, _⟩ => show win5_6.index t (0 : Fin 2) * 1 + 1 * (y 0).val = (y 0).val; omega
  | ⟨1, _⟩ => show win5_6.index t (1 : Fin 2) * 128 + 1 * (y 1).val = (y 1).val; omega

/-- Window 7's block is its whole array. -/
theorem whole_7 (c : Dev nD) (t : Fin cfg5.N) : iblk5 V c 7 t = V c main_v148 := by
  obtain ⟨e0, e1, e2, e3, e4, e5, e6, e7, e8, e9, e10, e11, e12, e13, e14, e15, e16, e17, e18⟩ := maps t
  funext y
  show V c main_v148 (((cfg5.win 7).blk t).view.emb y) = V c main_v148 y
  refine congrArg _ (funext fun a => Fin.ext ?_)
  match a with
  | ⟨0, _⟩ => show win5_7.index t (0 : Fin 2) * 1 + 1 * (y 0).val = (y 0).val; omega
  | ⟨1, _⟩ => show win5_7.index t (1 : Fin 2) * 128 + 1 * (y 1).val = (y 1).val; omega

/-- Window 8's block is its whole array. -/
theorem whole_8 (c : Dev nD) (t : Fin cfg5.N) : iblk5 V c 8 t = V c main_v149 := by
  obtain ⟨e0, e1, e2, e3, e4, e5, e6, e7, e8, e9, e10, e11, e12, e13, e14, e15, e16, e17, e18⟩ := maps t
  funext y
  show V c main_v149 (((cfg5.win 8).blk t).view.emb y) = V c main_v149 y
  refine congrArg _ (funext fun a => Fin.ext ?_)
  match a with
  | ⟨0, _⟩ => show win5_8.index t (0 : Fin 2) * 1 + 1 * (y 0).val = (y 0).val; omega
  | ⟨1, _⟩ => show win5_8.index t (1 : Fin 2) * 128 + 1 * (y 1).val = (y 1).val; omega

/-- The update of the whole tables as the region finds them. -/
abbrev G (c : Dev nD) : S100000x128.Idx → EReal :=
  ginArr (V c main_v81) (V c main_v109) (V c main_v150) (V c main_v135) (V c main_v146) (V c main_v139) (V c main_v147) (V c main_v148) (V c main_v149)

/-- What point `t` writes back is block `t` of the update of the whole tables. -/
theorem flushed_eq (c : Dev nD) (t : Fin cfg5.N) :
    (dat5 V c).flushed 9 t = ((cfg5.win 9).blk t).view.read (Elt Ideal) (G V c) := by
  show (cfg5.win 9).cut (grid5.coords t) ((dat5 V c).after 9 t) = _
  rw [after5_9, whole_2 V c t, whole_3 V c t, whole_4 V c t, whole_5 V c t, whole_6 V c t, whole_7 V c t, whole_8 V c t]
  unfold out5_9
  rw [View.canon_unit_zero zeros]
  simp only [View.ld_unit_zero (S := S5000x128) zeros, View.ld_unit_zero (S := S1x1) zeros,
    View.ld_unit_zero (S := S128x128) zeros, View.ld_unit_zero (S := S1x128) zeros]
  rw [Cert.KernelIdeal.BodyValue.gin5_eq]
  obtain ⟨e0, e1, e2, e3, e4, e5, e6, e7, e8, e9, e10, e11, e12, e13, e14, e15, e16, e17, e18⟩ := maps t
  funext j
  show ginArr (iblk5 V c 0 t) (iblk5 V c 1 t) (V c main_v150) (V c main_v135) (V c main_v146) (V c main_v139) (V c main_v147) (V c main_v148) (V c main_v149) j
    = ginArr (V c main_v81) (V c main_v109) (V c main_v150) (V c main_v135) (V c main_v146) (V c main_v139) (V c main_v147) (V c main_v148) (V c main_v149) (((cfg5.win 9).blk t).view.emb j)
  refine ginArr_congr _ _ _ _ _ _ _ _ _ _ _ _ _ ?_ ?_ ?_
  · funext k
    show V c main_v81 (((cfg5.win 0).blk t).view.emb (ix2 (j 0) k)) = V c main_v81 (ix2 ((((cfg5.win 9).blk t).view.emb j) 0) k)
    refine congrArg _ (funext fun a => Fin.ext ?_)
    match a with
    | ⟨0, _⟩ => show win5_0.index t (0 : Fin 2) * 5000 + 1 * (j 0).val = win5_9.index t (0 : Fin 2) * 5000 + 1 * (j 0).val; omega
    | ⟨1, _⟩ => show win5_0.index t (1 : Fin 2) * 128 + 1 * k.val = k.val; omega
  · funext k
    show V c main_v109 (((cfg5.win 1).blk t).view.emb (ix2 (j 0) k)) = V c main_v109 (ix2 ((((cfg5.win 9).blk t).view.emb j) 0) k)
    refine congrArg _ (funext fun a => Fin.ext ?_)
    match a with
    | ⟨0, _⟩ => show win5_1.index t (0 : Fin 2) * 5000 + 1 * (j 0).val = win5_9.index t (0 : Fin 2) * 5000 + 1 * (j 0).val; omega
    | ⟨1, _⟩ => show win5_1.index t (1 : Fin 2) * 128 + 1 * k.val = k.val; omega
  · refine Fin.ext ?_
    show (j 1).val = win5_9.index t (1 : Fin 2) * 128 + 1 * (j 1).val
    omega

/-- An index of the result array is in point `t`'s block iff each coordinate is in the block's range. -/
theorem mem_blk (t : Fin cfg5.N) (i : S100000x128.Idx) :
    i ∈ ((cfg5.win 9).blk t).view.set ↔ ∀ a : Fin 2, win5_9.index t a * S5000x128.size a ≤ (i a).val ∧ (i a).val < win5_9.index t a * S5000x128.size a + S5000x128.size a := by
  show i ∈ ((View.whole main_v151).slice (win5_9.rect t)).set ↔ _
  rw [View.set_slice_whole, Rect.mem_set_unit]
  exact Iff.rfl

/-- Row `r` is in the block of point `r / 5000`. -/
theorem cover (i : S100000x128.Idx) : ∃ t : Fin cfg5.N, (cfg5.win 9).flush t = true ∧ i ∈ ((cfg5.win 9).blk t).view.set := by
  have hi0 : (i 0).val < 100000 := (i 0).isLt
  have hi1 : (i 1).val < 128 := (i 1).isLt
  obtain ⟨t, ht⟩ := onto ⟨(i 0).val / 5000, by omega⟩
  have q0 : win5_9.index t (0 : Fin 2) = (i 0).val / 5000 := congrFun ht 0
  have q1 : win5_9.index t (1 : Fin 2) = 0 := congrFun ht 1
  refine ⟨t, flush5_9 t, ?_⟩
  rw [mem_blk]
  intro a
  match a with
  | ⟨0, _⟩ => show win5_9.index t (0 : Fin 2) * 5000 ≤ (i 0).val ∧ (i 0).val < win5_9.index t (0 : Fin 2) * 5000 + 5000; omega
  | ⟨1, _⟩ => show win5_9.index t (1 : Fin 2) * 128 ≤ (i 1).val ∧ (i 1).val < win5_9.index t (1 : Fin 2) * 128 + 128; omega

/-- The result array after the region: the layer's update of the whole tables as the region finds them. -/
theorem final (c : Dev nD) : (dat5 V c).arrAt 9 cfg5.N = G V c :=
  (dat5 V c).arrAt_eq_of_cover 9 (G V c) (fun t _ => flushed_eq V c t) cover

end Cert.KernelIdeal.Region5

end
-- ==== Proof.AggS4.lean ====
/-
  Host stretch 4 computes both aggregated tables of its layer: each is the aggregation of the table the stretch is
  entered with along the edge table the stretch is entered with.
-/
import proofs.«132706_j49976239456902_1_alg».proof.Proof.Agg

noncomputable section

namespace Cert.KernelIdeal.Agg

open Cert.KernelIdeal Cert.KernelIdeal.Gen
open Idealize.ShloMosaic Idealize.ShloMosaic.TcCoe Idealize.ShloMosaic.StableHlo

variable (W : Valuation τ sig (Elt Ideal))

set_option maxHeartbeats 4000000 in
/-- The second layer's aggregated item table is the aggregation of the user table the stretch is entered with. -/
theorem s4_items : StableHlo.after hostOps4 W (Proc.devRef .tc main_v95)
    = toItems (W (Proc.devRef .tc main_v81)) (W (Proc.devRef .tc main_arg9)) := by
  dsimp only [hostOps4]
  after_results_simp
  rfl

set_option maxHeartbeats 4000000 in
/-- The second layer's aggregated user table is the aggregation of the item table the stretch is entered with. -/
theorem s4_users : StableHlo.after hostOps4 W (Proc.devRef .tc main_v109)
    = toUsers (W (Proc.devRef .tc main_v63)) (W (Proc.devRef .tc main_arg10)) := by
  dsimp only [hostOps4]
  after_results_simp
  rfl

end Cert.KernelIdeal.Agg

end
-- ==== Proof.Chain2.lean ====
/-
  The second layer, and the two results.

  Host stretch 4 aggregates both first-layer tables along the edges and cuts out the item update's parameters; region
  4 updates the item table. Host stretch 5 cuts out the user update's parameters; region 5 updates the user table. At
  the last boundary the user result's buffer holds `xu2` and the item result's `xi2` of the launch arguments.
-/
import proofs.«132706_j49976239456902_1_alg».proof.Proof.Chain1
import proofs.«132706_j49976239456902_1_alg».proof.Proof.Region4
import proofs.«132706_j49976239456902_1_alg».proof.Proof.Region5
import proofs.«132706_j49976239456902_1_alg».proof.Proof.AggS4
import proofs.«132706_j49976239456902_1_alg».proof.Proof.Net

set_option maxRecDepth 16384

noncomputable section

namespace Cert.KernelIdeal.Chain

open Cert.KernelIdeal Cert.KernelIdeal.Gen Cert.Gin Cert.Net Cert.KernelIdeal.Agg
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)
theorem v9_xi1 : (W9 m ρ c (Proc.devRef .tc main_v63) : S50000x128.Idx → EReal) = xi1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (Glue.s4_keep_main_v63 (W8 m ρ c)).trans (v8_xi1 m ρ c)
theorem v9_xu1 : (W9 m ρ c (Proc.devRef .tc main_v81) : S100000x128.Idx → EReal) = xu1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) :=
  (Glue.s4_keep_main_v81 (W8 m ρ c)).trans (v8_xu1 m ρ c)
theorem v9_aggI : (W9 m ρ c (Proc.devRef .tc main_v95) : S50000x128.Idx → EReal) = toItems (xu1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10))) (m ((c : Thread nD τ).loc main_arg9)) :=
  (Agg.s4_items (W8 m ρ c)).trans (by rw [v8_xu1 m ρ c, arg8_9 m ρ c])
theorem v9_aggU : (W9 m ρ c (Proc.devRef .tc main_v109) : S100000x128.Idx → EReal) = toUsers (xi1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) :=
  (Agg.s4_users (W8 m ρ c)).trans (by rw [v8_xi1 m ρ c, arg8_10 m ρ c])
theorem v9_scaleU : (W9 m ρ c (Proc.devRef .tc main_v115) : S_.Idx → EReal) = fun _ => oneW + ((m ((c : Thread nD τ).loc main_arg6)) : S2x2.Idx → EReal) (ix2 1 1) :=
  (Glue.s4_scaleU (W8 m ρ c)).trans (by rw [arg8_6 m ρ c])
theorem v9_scale : (W9 m ρ c (Proc.devRef .tc main_v132) : S1x1.Idx → EReal) = scaleOf (m ((c : Thread nD τ).loc main_arg6)) 1 0 :=
  (Glue.s4_scale (W8 m ρ c)).trans (by rw [arg8_6 m ρ c])
theorem v9_w0 : (W9 m ρ c (Proc.devRef .tc main_v117) : S128x128.Idx → EReal) = mlpW (m ((c : Thread nD τ).loc main_arg4)) 1 0 0 :=
  (Glue.s4_w0 (W8 m ρ c)).trans (by rw [arg8_4 m ρ c])
theorem v9_b0 : (W9 m ρ c (Proc.devRef .tc main_v128) : S1x128.Idx → EReal) = mlpB (m ((c : Thread nD τ).loc main_arg5)) 1 0 0 :=
  (Glue.s4_b0 (W8 m ρ c)).trans (by rw [arg8_5 m ρ c])
theorem v9_w1 : (W9 m ρ c (Proc.devRef .tc main_v121) : S128x128.Idx → EReal) = mlpW (m ((c : Thread nD τ).loc main_arg4)) 1 0 1 :=
  (Glue.s4_w1 (W8 m ρ c)).trans (by rw [arg8_4 m ρ c])
theorem v9_b1 : (W9 m ρ c (Proc.devRef .tc main_v129) : S1x128.Idx → EReal) = mlpB (m ((c : Thread nD τ).loc main_arg5)) 1 0 1 :=
  (Glue.s4_b1 (W8 m ρ c)).trans (by rw [arg8_5 m ρ c])
theorem v9_g : (W9 m ρ c (Proc.devRef .tc main_v130) : S1x128.Idx → EReal) = lnP (m ((c : Thread nD τ).loc main_arg7)) 1 1 :=
  (Glue.s4_g (W8 m ρ c)).trans (by rw [arg8_7 m ρ c])
theorem v9_beta : (W9 m ρ c (Proc.devRef .tc main_v131) : S1x128.Idx → EReal) = lnP (m ((c : Thread nD τ).loc main_arg8)) 1 1 :=
  (Glue.s4_beta (W8 m ρ c)).trans (by rw [arg8_8 m ρ c])
/-- Region 4 leaves the item table after the second layer. -/
theorem v10_xi2 : (W10 m ρ c (Proc.devRef .tc main_v133) : S50000x128.Idx → EReal) = xi2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 9).trans ((Region4.final (V9 m ρ) c).trans ?_)
  unfold xi2
  show ginArr (W9 m ρ c (Proc.devRef .tc main_v63)) (W9 m ρ c (Proc.devRef .tc main_v95)) (W9 m ρ c (Proc.devRef .tc main_v132)) (W9 m ρ c (Proc.devRef .tc main_v117)) (W9 m ρ c (Proc.devRef .tc main_v128)) (W9 m ρ c (Proc.devRef .tc main_v121)) (W9 m ρ c (Proc.devRef .tc main_v129)) (W9 m ρ c (Proc.devRef .tc main_v130)) (W9 m ρ c (Proc.devRef .tc main_v131)) = _
  rw [v9_xi1 m ρ c, v9_aggI m ρ c, v9_scale m ρ c, v9_w0 m ρ c, v9_b0 m ρ c, v9_w1 m ρ c, v9_b1 m ρ c, v9_g m ρ c, v9_beta m ρ c]
theorem v10_xu1 : (W10 m ρ c (Proc.devRef .tc main_v81) : S100000x128.Idx → EReal) = xu1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) :=
  (W10_of_ne m ρ c main_v81 (by decide)).trans (v9_xu1 m ρ c)
theorem v10_aggU : (W10 m ρ c (Proc.devRef .tc main_v109) : S100000x128.Idx → EReal) = toUsers (xi1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) :=
  (W10_of_ne m ρ c main_v109 (by decide)).trans (v9_aggU m ρ c)
theorem v10_scaleU : (W10 m ρ c (Proc.devRef .tc main_v115) : S_.Idx → EReal) = fun _ => oneW + ((m ((c : Thread nD τ).loc main_arg6)) : S2x2.Idx → EReal) (ix2 1 1) :=
  (W10_of_ne m ρ c main_v115 (by decide)).trans (v9_scaleU m ρ c)
theorem v11_xu1 : (W11 m ρ c (Proc.devRef .tc main_v81) : S100000x128.Idx → EReal) = xu1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) :=
  (Glue.s5_keep_main_v81 (W10 m ρ c)).trans (v10_xu1 m ρ c)
theorem v11_aggU : (W11 m ρ c (Proc.devRef .tc main_v109) : S100000x128.Idx → EReal) = toUsers (xi1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) :=
  (Glue.s5_keep_main_v109 (W10 m ρ c)).trans (v10_aggU m ρ c)
theorem v11_xi2 : (W11 m ρ c (Proc.devRef .tc main_v133) : S50000x128.Idx → EReal) = xi2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Glue.s5_keep_main_v133 (W10 m ρ c)).trans (v10_xi2 m ρ c)
theorem v11_scale : (W11 m ρ c (Proc.devRef .tc main_v150) : S1x1.Idx → EReal) = scaleOf (m ((c : Thread nD τ).loc main_arg6)) 1 1 :=
  (Glue.s5_scale (W10 m ρ c)).trans (by rw [v10_scaleU m ρ c]; rfl)
theorem v11_w0 : (W11 m ρ c (Proc.devRef .tc main_v135) : S128x128.Idx → EReal) = mlpW (m ((c : Thread nD τ).loc main_arg4)) 1 1 0 :=
  (Glue.s5_w0 (W10 m ρ c)).trans (by rw [arg10_4 m ρ c])
theorem v11_b0 : (W11 m ρ c (Proc.devRef .tc main_v146) : S1x128.Idx → EReal) = mlpB (m ((c : Thread nD τ).loc main_arg5)) 1 1 0 :=
  (Glue.s5_b0 (W10 m ρ c)).trans (by rw [arg10_5 m ρ c])
theorem v11_w1 : (W11 m ρ c (Proc.devRef .tc main_v139) : S128x128.Idx → EReal) = mlpW (m ((c : Thread nD τ).loc main_arg4)) 1 1 1 :=
  (Glue.s5_w1 (W10 m ρ c)).trans (by rw [arg10_4 m ρ c])
theorem v11_b1 : (W11 m ρ c (Proc.devRef .tc main_v147) : S1x128.Idx → EReal) = mlpB (m ((c : Thread nD τ).loc main_arg5)) 1 1 1 :=
  (Glue.s5_b1 (W10 m ρ c)).trans (by rw [arg10_5 m ρ c])
theorem v11_g : (W11 m ρ c (Proc.devRef .tc main_v148) : S1x128.Idx → EReal) = lnP (m ((c : Thread nD τ).loc main_arg7)) 1 0 :=
  (Glue.s5_g (W10 m ρ c)).trans (by rw [arg10_7 m ρ c])
theorem v11_beta : (W11 m ρ c (Proc.devRef .tc main_v149) : S1x128.Idx → EReal) = lnP (m ((c : Thread nD τ).loc main_arg8)) 1 0 :=
  (Glue.s5_beta (W10 m ρ c)).trans (by rw [arg10_8 m ρ c])
/-- Region 5 leaves the user table after the second layer. -/
theorem v12_xu2 : (W12 m ρ c (Proc.devRef .tc main_v151) : S100000x128.Idx → EReal) = xu2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 9).trans ((Region5.final (V11 m ρ) c).trans ?_)
  unfold xu2
  show ginArr (W11 m ρ c (Proc.devRef .tc main_v81)) (W11 m ρ c (Proc.devRef .tc main_v109)) (W11 m ρ c (Proc.devRef .tc main_v150)) (W11 m ρ c (Proc.devRef .tc main_v135)) (W11 m ρ c (Proc.devRef .tc main_v146)) (W11 m ρ c (Proc.devRef .tc main_v139)) (W11 m ρ c (Proc.devRef .tc main_v147)) (W11 m ρ c (Proc.devRef .tc main_v148)) (W11 m ρ c (Proc.devRef .tc main_v149)) = _
  rw [v11_xu1 m ρ c, v11_aggU m ρ c, v11_scale m ρ c, v11_w0 m ρ c, v11_b0 m ρ c, v11_w1 m ρ c, v11_b1 m ρ c, v11_g m ρ c, v11_beta m ρ c]
theorem v12_xi2 : (W12 m ρ c (Proc.devRef .tc main_v133) : S50000x128.Idx → EReal) = xi2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W12_of_ne m ρ c main_v133 (by decide)).trans (v11_xi2 m ρ c)

end Cert.KernelIdeal.Chain

end
-- ==== Proof.RefProj.lean ====
/-
  The reference's two input projections, read as whole arrays.

  Each projected table is `x·W + b` row by row: the weight is one `128 × 128` slice of the stacked weight table and the
  bias one row of the stacked bias table. The program cuts the slice out, drops its unit axis, multiplies, and adds the
  bias row broadcast over the nodes; read at node `p`, channel `q`, that is the sum over `k` of `x[p, k] · W[t, k, q]`
  plus `b[t, q]`, which is `projArr` of the spec at the same index.
-/
import proofs.«132706_j49976239456902_1_alg».proof.Proof.RefReadP
import proofs.«132706_j49976239456902_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.ReadP Cert.Gin Idealize.ShloMosaic Idealize.ShloMosaic.ValueIdx

variable (x0 : (⟨S100000x128, .f32⟩ : BufTy).Contents (Elt Ideal)) (x1 : (⟨S50000x128, .f32⟩ : BufTy).Contents (Elt Ideal))
  (x2 : (⟨S2x128x128, .f32⟩ : BufTy).Contents (Elt Ideal)) (x3 : (⟨S2x128, .f32⟩ : BufTy).Contents (Elt Ideal))

/-- The user weight at row `k`, column `q`: entry `[0, k, q]` of the stacked table. -/
theorem w_user (k q : Fin 128) : val_main_v1 (F := Ideal) x2 (ix2 k q) = projW x2 0 (ix2 k q) := by
  have hk := k.isLt; have hq := q.isLt
  rw [val_main_v1_apply, val_main_v0_apply]
  refine congrArg x2 (funext fun a => Fin.ext ?_)
  match a with
  | ⟨0, _⟩ => rfl
  | ⟨1, _⟩ => show (k.val * 128 + q.val) / 128 % 128 = k.val; omega
  | ⟨2, _⟩ => show (k.val * 128 + q.val) % 128 = q.val; omega

/-- The item weight at row `k`, column `q`: entry `[1, k, q]` of the stacked table. -/
theorem w_item (k q : Fin 128) : val_main_v9 (F := Ideal) x2 (ix2 k q) = projW x2 1 (ix2 k q) := by
  have hk := k.isLt; have hq := q.isLt
  rw [val_main_v9_apply, val_main_v8_apply]
  refine congrArg x2 (funext fun a => Fin.ext ?_)
  match a with
  | ⟨0, _⟩ => rfl
  | ⟨1, _⟩ => show (k.val * 128 + q.val) / 128 % 128 = k.val; omega
  | ⟨2, _⟩ => show (k.val * 128 + q.val) % 128 = q.val; omega

/-- The user bias broadcast over the nodes: at node `p`, channel `q` it is entry `[0, q]` of the stacked table. -/
theorem b_user (p : Fin 100000) (q : Fin 128) : val_main_v6 (F := Ideal) x3 (ix2 p q) = projB x3 0 (ix2 0 q) := by
  have hq := q.isLt
  rw [val_main_v6_apply, val_main_v5_apply, val_main_v4_apply, val_main_v3_apply]
  refine congrArg x3 (funext fun a => Fin.ext ?_)
  match a with
  | ⟨0, _⟩ => rfl
  | ⟨1, _⟩ => show q.val % 128 = q.val; omega

/-- The item bias broadcast over the nodes: at node `p`, channel `q` it is entry `[1, q]` of the stacked table. -/
theorem b_item (p : Fin 50000) (q : Fin 128) : val_main_v14 (F := Ideal) x3 (ix2 p q) = projB x3 1 (ix2 0 q) := by
  have hq := q.isLt
  rw [val_main_v14_apply, val_main_v13_apply, val_main_v12_apply, val_main_v11_apply]
  refine congrArg x3 (funext fun a => Fin.ext ?_)
  match a with
  | ⟨0, _⟩ => rfl
  | ⟨1, _⟩ => show q.val % 128 = q.val; omega

/-- The projected user table is the spec's projection of the raw user table with node type 0's weight and bias. -/
theorem xu0_eq : val_main_v7 (F := Ideal) x0 x2 x3 = projArr x0 (projW x2 0) (projB x3 0) := by
  funext j
  obtain ⟨p, q, rfl⟩ : ∃ (p : Fin 100000) (q : Fin 128), j = ix2 p q := ⟨j 0, j 1, eq_ix2 j⟩
  rw [val_main_v7_apply, val_main_v2_apply, b_user, Ideal.addf_def]
  show _ = (∑ k : Fin 128, x0 (ix2 p k) * projW x2 0 (ix2 k q)) + projB x3 0 (ix2 0 q)
  refine congrArg (· + projB x3 0 (ix2 0 q)) (Finset.sum_congr rfl fun k _ => ?_)
  rw [show lidx_main_v2 (ix2 p q) k = ix2 p k from funext fun a => by match a with | ⟨0, _⟩ => rfl | ⟨1, _⟩ => rfl,
    show ridx_main_v2 (ix2 p q) k = ix2 k q from funext fun a => by match a with | ⟨0, _⟩ => rfl | ⟨1, _⟩ => rfl,
    w_user]

/-- The projected item table is the spec's projection of the raw item table with node type 1's weight and bias. -/
theorem xi0_eq : val_main_v15 (F := Ideal) x1 x2 x3 = projArr x1 (projW x2 1) (projB x3 1) := by
  funext j
  obtain ⟨p, q, rfl⟩ : ∃ (p : Fin 50000) (q : Fin 128), j = ix2 p q := ⟨j 0, j 1, eq_ix2 j⟩
  rw [val_main_v15_apply, val_main_v10_apply, b_item, Ideal.addf_def]
  show _ = (∑ k : Fin 128, x1 (ix2 p k) * projW x2 1 (ix2 k q)) + projB x3 1 (ix2 0 q)
  refine congrArg (· + projB x3 1 (ix2 0 q)) (Finset.sum_congr rfl fun k _ => ?_)
  rw [show lidx_main_v10 (ix2 p q) k = ix2 p k from funext fun a => by match a with | ⟨0, _⟩ => rfl | ⟨1, _⟩ => rfl,
    show ridx_main_v10 (ix2 p q) k = ix2 k q from funext fun a => by match a with | ⟨0, _⟩ => rfl | ⟨1, _⟩ => rfl,
    w_item]

end Cert.ReferenceIdeal.RefValue

end
-- ==== Proof.RefLayer0I.lean ====
/-
  The reference's update of the item table in layer 0, read as a whole array.

  At node `p` the program forms `s·x + a` from the node's row `x` of the item table and its row `a` of the aggregated
  neighbour table, with `s = 1 + eps[0, 0]`; applies two linear maps, each followed by a relu, with the weights
  `W[0, 0, n]` and biases `b[0, 0, n]`; normalises the 128 channels (mean, centred row, mean of the squares, reciprocal
  square root, scale `g[0, 1]` and shift `β[0, 1]`); and applies a last relu. Each stage is read at node `p`, channel `q`
  from the stage before it, the parameter slices are identified with the stacked tables' entries by their coordinates, and
  the result is `ginArr` of the spec at the same index. The aggregated table stays an opaque array throughout.
-/
import proofs.«132706_j49976239456902_1_alg».proof.Proof.RefReadP
import proofs.«132706_j49976239456902_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.ReadP Cert.Gin Idealize.ShloMosaic Idealize.ShloMosaic.ValueIdx

variable {x0 : (⟨S100000x128, .f32⟩ : BufTy).Contents (Elt Ideal)} {x1 : (⟨S50000x128, .f32⟩ : BufTy).Contents (Elt Ideal)}
  {x2 : (⟨S2x128x128, .f32⟩ : BufTy).Contents (Elt Ideal)} {x3 : (⟨S2x128, .f32⟩ : BufTy).Contents (Elt Ideal)}
  {x4 : (⟨S2x2x2x128x128, .f32⟩ : BufTy).Contents (Elt Ideal)} {x5 : (⟨S2x2x2x128, .f32⟩ : BufTy).Contents (Elt Ideal)}
  {x6 : (⟨S2x2, .f32⟩ : BufTy).Contents (Elt Ideal)} {x7 x8 : (⟨S2x2x128, .f32⟩ : BufTy).Contents (Elt Ideal)}
  {x9 x10 : (⟨S2x600000, .i32⟩ : BufTy).Contents (Elt Ideal)}

/-! ## The parameters by their coordinates -/

/-- The scalar `eps[0, 0]`: the `1 × 1` slice of the table read as a rank-0 array. -/
theorem eps_i1 : val_main_v45 (F := Ideal) x6 ix0 = x6 (ix2 0 0) := by
  unfold val_main_v45
  refine (shapeCast_apply _ _ ix0 (ix2 0 0) ?_).trans ?_
  · rw [Shape.rowMajor_val_two]; show 0 * 1 + 0 = (Shape.rowMajorPi _ _).val; rw [Shape.rowMajorPi_zero]
  · rw [val_main_v44_apply]
    refine congrArg x6 (funext fun a => Fin.ext ?_)
    match a with
    | ⟨0, _⟩ => rfl
    | ⟨1, _⟩ => rfl

/-- The self-loop scale `1 + eps[0, 0]`. -/
theorem scale_i1 : val_main_v46 (F := Ideal) x6 ix0 = scaleOf x6 0 0 (ix2 0 0) := by
  unfold scaleOf
  rw [val_main_v46_apply, val_main_cst_4_apply, eps_i1]
  simp only [Ideal.addf_def, Ideal.ofBits_def]

/-- The first inner weight at row `k`, column `q`: entry `[0, 0, 0, k, q]` of the stacked table. -/
theorem w0_i1 (k q : Fin 128) : val_main_v55 (F := Ideal) x4 (ix2 k q) = mlpW x4 0 0 0 (ix2 k q) := by
  have hk := k.isLt; have hq := q.isLt
  rw [val_main_v55_apply, val_main_v54_apply, val_main_v51_apply, val_main_v50_apply]
  refine congrArg x4 (funext fun a => Fin.ext ?_)
  match a with
  | ⟨0, _⟩ => rfl
  | ⟨1, _⟩ => rfl
  | ⟨2, _⟩ => show ((0 * 128 + (k.val * 128 + q.val) / 128 % 128) * 128 + (k.val * 128 + q.val) % 128) / 16384 % 2 = 0; omega
  | ⟨3, _⟩ => show ((0 * 128 + (k.val * 128 + q.val) / 128 % 128) * 128 + (k.val * 128 + q.val) % 128) / 128 % 128 = k.val; omega
  | ⟨4, _⟩ => show ((0 * 128 + (k.val * 128 + q.val) / 128 % 128) * 128 + (k.val * 128 + q.val) % 128) % 128 = q.val; omega

/-- The second inner weight at row `k`, column `q`: entry `[0, 0, 1, k, q]` of the stacked table. -/
theorem w1_i1 (k q : Fin 128) : val_main_v64 (F := Ideal) x4 (ix2 k q) = mlpW x4 0 0 1 (ix2 k q) := by
  have hk := k.isLt; have hq := q.isLt
  rw [val_main_v64_apply, val_main_v63_apply, val_main_v51_apply, val_main_v50_apply]
  refine congrArg x4 (funext fun a => Fin.ext ?_)
  match a with
  | ⟨0, _⟩ => rfl
  | ⟨1, _⟩ => rfl
  | ⟨2, _⟩ => show ((1 * 128 + (k.val * 128 + q.val) / 128 % 128) * 128 + (k.val * 128 + q.val) % 128) / 16384 % 2 = 1; omega
  | ⟨3, _⟩ => show ((1 * 128 + (k.val * 128 + q.val) / 128 % 128) * 128 + (k.val * 128 + q.val) % 128) / 128 % 128 = k.val; omega
  | ⟨4, _⟩ => show ((1 * 128 + (k.val * 128 + q.val) / 128 % 128) * 128 + (k.val * 128 + q.val) % 128) % 128 = q.val; omega

/-- The first inner bias broadcast over the nodes: at node `p`, channel `q` it is entry `[0, 0, 0, q]` of the stacked table. -/
theorem b0_i1 (p : Fin 50000) (q : Fin 128) : val_main_v60 (F := Ideal) x5 (ix2 p q) = mlpB x5 0 0 0 (ix2 0 q) := by
  have hq := q.isLt
  rw [val_main_v60_apply, val_main_v59_apply, val_main_v58_apply, val_main_v57_apply, val_main_v53_apply, val_main_v52_apply]
  refine congrArg x5 (funext fun a => Fin.ext ?_)
  match a with
  | ⟨0, _⟩ => rfl
  | ⟨1, _⟩ => rfl
  | ⟨2, _⟩ => show (0 * 128 + q.val % 128) / 128 % 2 = 0; omega
  | ⟨3, _⟩ => show (0 * 128 + q.val % 128) % 128 = q.val; omega

/-- The second inner bias broadcast over the nodes: at node `p`, channel `q` it is entry `[0, 0, 1, q]` of the stacked table. -/
theorem b1_i1 (p : Fin 50000) (q : Fin 128) : val_main_v69 (F := Ideal) x5 (ix2 p q) = mlpB x5 0 0 1 (ix2 0 q) := by
  have hq := q.isLt
  rw [val_main_v69_apply, val_main_v68_apply, val_main_v67_apply, val_main_v66_apply, val_main_v53_apply, val_main_v52_apply]
  refine congrArg x5 (funext fun a => Fin.ext ?_)
  match a with
  | ⟨0, _⟩ => rfl
  | ⟨1, _⟩ => rfl
  | ⟨2, _⟩ => show (1 * 128 + q.val % 128) / 128 % 2 = 1; omega
  | ⟨3, _⟩ => show (1 * 128 + q.val % 128) % 128 = q.val; omega

/-- The layer norm's scale broadcast over the nodes: at node `p`, channel `q` it is entry `[0, 1, q]` of the stacked table. -/
theorem g_i1 (p : Fin 50000) (q : Fin 128) : val_main_v152 (F := Ideal) x7 (ix2 p q) = lnP x7 0 1 (ix2 0 q) := by
  have hq := q.isLt
  rw [val_main_v152_apply, val_main_v151_apply, val_main_v130_apply, val_main_v129_apply]
  refine congrArg x7 (funext fun a => Fin.ext ?_)
  match a with
  | ⟨0, _⟩ => rfl
  | ⟨1, _⟩ => rfl
  | ⟨2, _⟩ => show q.val % 128 = q.val; omega

/-- The layer norm's shift broadcast over the nodes: at node `p`, channel `q` it is entry `[0, 1, q]` of the stacked table. -/
theorem be_i1 (p : Fin 50000) (q : Fin 128) : val_main_v155 (F := Ideal) x8 (ix2 p q) = lnP x8 0 1 (ix2 0 q) := by
  have hq := q.isLt
  rw [val_main_v155_apply, val_main_v154_apply, val_main_v132_apply, val_main_v131_apply]
  refine congrArg x8 (funext fun a => Fin.ext ?_)
  match a with
  | ⟨0, _⟩ => rfl
  | ⟨1, _⟩ => rfl
  | ⟨2, _⟩ => show q.val % 128 = q.val; omega

/-! ## The stages at a node -/

/-- The row entering the MLP: `s·x + a`. -/
theorem hid_i1 (p : Fin 50000) (k : Fin 128) :
    val_main_v49 (F := Ideal) x0 x1 x2 x3 x6 x9 (ix2 p k)
      = combineRow (scaleOf x6 0 0 (ix2 0 0)) (row (val_main_v15 (F := Ideal) x1 x2 x3) p) (row (val_main_v29 (F := Ideal) x0 x2 x3 x9) p) k := by
  unfold combineRow row
  rw [val_main_v49_apply, val_main_v48_apply, val_main_v47_apply, eq_ix0 (idx_main_v47 (ix2 p k)), scale_i1]
  simp only [Ideal.addf_def, Ideal.mulf_def]

/-- The first linear map and its relu at node `p`: if the incoming table's row `p` is `h`, the result's row `p` is `relu (h·W + b)`. -/
theorem lin0_i1 (p : Fin 50000) (q : Fin 128) (h : Row) (hh : ∀ k, val_main_v49 (F := Ideal) x0 x1 x2 x3 x6 x9 (ix2 p k) = h k) :
    val_main_v62 (F := Ideal) x0 x1 x2 x3 x4 x5 x6 x9 (ix2 p q) = reluRow (affineRow h (mlpW x4 0 0 0) (mlpB x5 0 0 0)) q := by
  rw [val_main_v62_apply, val_main_v61_apply, val_main_v56_apply, val_main_call0_v0_apply, val_main_call0_cst_apply, b0_i1]
  simp only [Ideal.maximumf_def, Ideal.addf_def, Ideal.ofBits_def]
  refine congrArg₂ max (congrArg₂ (· + ·) (Finset.sum_congr rfl fun k _ => ?_) rfl) rfl
  rw [show lidx_main_v56 (ix2 p q) k = ix2 p k from funext fun a => by match a with | ⟨0, _⟩ => rfl | ⟨1, _⟩ => rfl,
    show ridx_main_v56 (ix2 p q) k = ix2 k q from funext fun a => by match a with | ⟨0, _⟩ => rfl | ⟨1, _⟩ => rfl,
    hh k, w0_i1]

/-- The second linear map and its relu at node `p`: if the incoming table's row `p` is `h`, the result's row `p` is `relu (h·W + b)`. -/
theorem lin1_i1 (p : Fin 50000) (q : Fin 128) (h : Row) (hh : ∀ k, val_main_v62 (F := Ideal) x0 x1 x2 x3 x4 x5 x6 x9 (ix2 p k) = h k) :
    val_main_v71 (F := Ideal) x0 x1 x2 x3 x4 x5 x6 x9 (ix2 p q) = reluRow (affineRow h (mlpW x4 0 0 1) (mlpB x5 0 0 1)) q := by
  rw [val_main_v71_apply, val_main_v70_apply, val_main_v65_apply, val_main_call1_v0_apply, val_main_call1_cst_apply, b1_i1]
  simp only [Ideal.maximumf_def, Ideal.addf_def, Ideal.ofBits_def]
  refine congrArg₂ max (congrArg₂ (· + ·) (Finset.sum_congr rfl fun k _ => ?_) rfl) rfl
  rw [show lidx_main_v65 (ix2 p q) k = ix2 p k from funext fun a => by match a with | ⟨0, _⟩ => rfl | ⟨1, _⟩ => rfl,
    show ridx_main_v65 (ix2 p q) k = ix2 k q from funext fun a => by match a with | ⟨0, _⟩ => rfl | ⟨1, _⟩ => rfl,
    hh k, w1_i1]

/-- The mean of the MLP's output row `r` at node `p`. -/
theorem mean_i1 (p : Fin 50000) (r : Row) (hr : ∀ k, val_main_v71 (F := Ideal) x0 x1 x2 x3 x4 x5 x6 x9 (ix2 p k) = r k) :
    val_main_v136 (F := Ideal) x0 x1 x2 x3 x4 x5 x6 x9 (ix2 p 0) = meanRow r := by
  rw [val_main_v136_apply, val_main_v134_apply, val_main_v133_apply, val_main_cst_11_apply, val_main_v135_apply, val_main_cst_12_apply]
  simp only [Ideal.hostDivf_def, Ideal.ofBits_def, Ideal.ofBits_zero_f32, zero_add]
  refine congrArg (fun t => Ideal.div t c128) (Finset.sum_congr rfl fun k _ => ?_)
  rw [show idx_main_v133 (idx_main_v134 (ix2 p 0)) k = ix2 p k from funext fun a => by match a with | ⟨0, _⟩ => rfl | ⟨1, _⟩ => rfl]
  exact hr k

/-- The centred row, as the variance reads it. -/
theorem cen_i1 (p : Fin 50000) (q : Fin 128) (r : Row) (hr : ∀ k, val_main_v71 (F := Ideal) x0 x1 x2 x3 x4 x5 x6 x9 (ix2 p k) = r k) :
    val_main_v138 (F := Ideal) x0 x1 x2 x3 x4 x5 x6 x9 (ix2 p q) = centredRow r q := by
  unfold centredRow
  rw [val_main_v138_apply, val_main_v137_apply, Ideal.subf_def, hr q,
    show idx_main_v137 (ix2 p q) = ix2 p 0 from funext fun a => by match a with | ⟨0, _⟩ => rfl | ⟨1, _⟩ => rfl,
    mean_i1 p r hr]

/-- The centred row, as the normalisation reads it. -/
theorem cen2_i1 (p : Fin 50000) (q : Fin 128) (r : Row) (hr : ∀ k, val_main_v71 (F := Ideal) x0 x1 x2 x3 x4 x5 x6 x9 (ix2 p k) = r k) :
    val_main_v145 (F := Ideal) x0 x1 x2 x3 x4 x5 x6 x9 (ix2 p q) = centredRow r q := by
  unfold centredRow
  rw [val_main_v145_apply, val_main_v144_apply, Ideal.subf_def, hr q,
    show idx_main_v144 (ix2 p q) = ix2 p 0 from funext fun a => by match a with | ⟨0, _⟩ => rfl | ⟨1, _⟩ => rfl,
    mean_i1 p r hr]

/-- The mean of the squares of the centred row. -/
theorem var_i1 (p : Fin 50000) (r : Row) (hr : ∀ k, val_main_v71 (F := Ideal) x0 x1 x2 x3 x4 x5 x6 x9 (ix2 p k) = r k) :
    val_main_v143 (F := Ideal) x0 x1 x2 x3 x4 x5 x6 x9 (ix2 p 0) = meanRow (fun k => centredRow r k * centredRow r k) := by
  rw [val_main_v143_apply, val_main_v141_apply, val_main_v140_apply, val_main_cst_13_apply, val_main_v142_apply, val_main_cst_14_apply]
  simp only [Ideal.hostDivf_def, Ideal.ofBits_def, Ideal.ofBits_zero_f32, zero_add]
  refine congrArg (fun t => Ideal.div t c128) (Finset.sum_congr rfl fun k _ => ?_)
  rw [show idx_main_v140 (idx_main_v141 (ix2 p 0)) k = ix2 p k from funext fun a => by match a with | ⟨0, _⟩ => rfl | ⟨1, _⟩ => rfl,
    val_main_v139_apply, Ideal.mulf_def, cen_i1 p k r hr]

/-- The normalised, scaled, shifted row and the last relu. -/
theorem out_i1 (p : Fin 50000) (q : Fin 128) (r : Row) (hr : ∀ k, val_main_v71 (F := Ideal) x0 x1 x2 x3 x4 x5 x6 x9 (ix2 p k) = r k) :
    val_main_v157 (F := Ideal) x0 x1 x2 x3 x4 x5 x6 x7 x8 x9 (ix2 p q) = reluRow (normRow r (lnP x7 0 1) (lnP x8 0 1)) q := by
  unfold reluRow normRow
  rw [val_main_v157_apply, val_main_v156_apply, val_main_v153_apply, val_main_v150_apply, val_main_v149_apply, val_main_v148_apply, val_main_v147_apply, val_main_v146_apply, val_main_cst_15_apply,
    val_main_call5_v0_apply, val_main_call5_cst_apply]
  simp only [Ideal.maximumf_def, Ideal.addf_def, Ideal.mulf_def, Ideal.hostUnary_rsqrt_def, Ideal.ofBits_def]
  rw [cen2_i1 p q r hr, show idx_main_v149 (ix2 p q) = ix2 p 0 from funext fun a => by match a with | ⟨0, _⟩ => rfl | ⟨1, _⟩ => rfl,
    var_i1 p r hr, g_i1, be_i1]

/-! ## The whole array -/

variable (x0 x1 x2 x3 x4 x5 x6 x7 x8 x9 x10) in
/-- The item table after layer 0 is the spec's update of the item table before it and the aggregated neighbour table. -/
theorem xi1_eq : val_main_v157 (F := Ideal) x0 x1 x2 x3 x4 x5 x6 x7 x8 x9
    = ginArr (val_main_v15 (F := Ideal) x1 x2 x3) (val_main_v29 (F := Ideal) x0 x2 x3 x9) (scaleOf x6 0 0) (mlpW x4 0 0 0) (mlpB x5 0 0 0) (mlpW x4 0 0 1) (mlpB x5 0 0 1) (lnP x7 0 1) (lnP x8 0 1) := by
  funext j
  obtain ⟨p, q, rfl⟩ : ∃ (p : Fin 50000) (q : Fin 128), j = ix2 p q := ⟨j 0, j 1, eq_ix2 j⟩
  exact out_i1 p q _ fun k => lin1_i1 p k _ fun k' => lin0_i1 p k' _ fun k'' => hid_i1 p k''

end Cert.ReferenceIdeal.RefValue

end
-- ==== Proof.RefLayer0U.lean ====
/-
  The reference's update of the user table in layer 0, read as a whole array.

  At node `p` the program forms `s·x + a` from the node's row `x` of the user table and its row `a` of the aggregated
  neighbour table, with `s = 1 + eps[0, 1]`; applies two linear maps, each followed by a relu, with the weights
  `W[0, 1, n]` and biases `b[0, 1, n]`; normalises the 128 channels (mean, centred row, mean of the squares, reciprocal
  square root, scale `g[0, 0]` and shift `β[0, 0]`); and applies a last relu. Each stage is read at node `p`, channel `q`
  from the stage before it, the parameter slices are identified with the stacked tables' entries by their coordinates, and
  the result is `ginArr` of the spec at the same index. The aggregated table stays an opaque array throughout.
-/
import proofs.«132706_j49976239456902_1_alg».proof.Proof.RefReadP
import proofs.«132706_j49976239456902_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.ReadP Cert.Gin Idealize.ShloMosaic Idealize.ShloMosaic.ValueIdx

variable {x0 : (⟨S100000x128, .f32⟩ : BufTy).Contents (Elt Ideal)} {x1 : (⟨S50000x128, .f32⟩ : BufTy).Contents (Elt Ideal)}
  {x2 : (⟨S2x128x128, .f32⟩ : BufTy).Contents (Elt Ideal)} {x3 : (⟨S2x128, .f32⟩ : BufTy).Contents (Elt Ideal)}
  {x4 : (⟨S2x2x2x128x128, .f32⟩ : BufTy).Contents (Elt Ideal)} {x5 : (⟨S2x2x2x128, .f32⟩ : BufTy).Contents (Elt Ideal)}
  {x6 : (⟨S2x2, .f32⟩ : BufTy).Contents (Elt Ideal)} {x7 x8 : (⟨S2x2x128, .f32⟩ : BufTy).Contents (Elt Ideal)}
  {x9 x10 : (⟨S2x600000, .i32⟩ : BufTy).Contents (Elt Ideal)}

/-! ## The parameters by their coordinates -/

/-- The scalar `eps[0, 1]`: the `1 × 1` slice of the table read as a rank-0 array. -/
theorem eps_u1 : val_main_v73 (F := Ideal) x6 ix0 = x6 (ix2 0 1) := by
  unfold val_main_v73
  refine (shapeCast_apply _ _ ix0 (ix2 0 0) ?_).trans ?_
  · rw [Shape.rowMajor_val_two]; show 0 * 1 + 0 = (Shape.rowMajorPi _ _).val; rw [Shape.rowMajorPi_zero]
  · rw [val_main_v72_apply]
    refine congrArg x6 (funext fun a => Fin.ext ?_)
    match a with
    | ⟨0, _⟩ => rfl
    | ⟨1, _⟩ => rfl

/-- The self-loop scale `1 + eps[0, 1]`. -/
theorem scale_u1 : val_main_v74 (F := Ideal) x6 ix0 = scaleOf x6 0 1 (ix2 0 0) := by
  unfold scaleOf
  rw [val_main_v74_apply, val_main_cst_5_apply, eps_u1]
  simp only [Ideal.addf_def, Ideal.ofBits_def]

/-- The first inner weight at row `k`, column `q`: entry `[0, 1, 0, k, q]` of the stacked table. -/
theorem w0_u1 (k q : Fin 128) : val_main_v83 (F := Ideal) x4 (ix2 k q) = mlpW x4 0 1 0 (ix2 k q) := by
  have hk := k.isLt; have hq := q.isLt
  rw [val_main_v83_apply, val_main_v82_apply, val_main_v79_apply, val_main_v78_apply]
  refine congrArg x4 (funext fun a => Fin.ext ?_)
  match a with
  | ⟨0, _⟩ => rfl
  | ⟨1, _⟩ => rfl
  | ⟨2, _⟩ => show ((0 * 128 + (k.val * 128 + q.val) / 128 % 128) * 128 + (k.val * 128 + q.val) % 128) / 16384 % 2 = 0; omega
  | ⟨3, _⟩ => show ((0 * 128 + (k.val * 128 + q.val) / 128 % 128) * 128 + (k.val * 128 + q.val) % 128) / 128 % 128 = k.val; omega
  | ⟨4, _⟩ => show ((0 * 128 + (k.val * 128 + q.val) / 128 % 128) * 128 + (k.val * 128 + q.val) % 128) % 128 = q.val; omega

/-- The second inner weight at row `k`, column `q`: entry `[0, 1, 1, k, q]` of the stacked table. -/
theorem w1_u1 (k q : Fin 128) : val_main_v92 (F := Ideal) x4 (ix2 k q) = mlpW x4 0 1 1 (ix2 k q) := by
  have hk := k.isLt; have hq := q.isLt
  rw [val_main_v92_apply, val_main_v91_apply, val_main_v79_apply, val_main_v78_apply]
  refine congrArg x4 (funext fun a => Fin.ext ?_)
  match a with
  | ⟨0, _⟩ => rfl
  | ⟨1, _⟩ => rfl
  | ⟨2, _⟩ => show ((1 * 128 + (k.val * 128 + q.val) / 128 % 128) * 128 + (k.val * 128 + q.val) % 128) / 16384 % 2 = 1; omega
  | ⟨3, _⟩ => show ((1 * 128 + (k.val * 128 + q.val) / 128 % 128) * 128 + (k.val * 128 + q.val) % 128) / 128 % 128 = k.val; omega
  | ⟨4, _⟩ => show ((1 * 128 + (k.val * 128 + q.val) / 128 % 128) * 128 + (k.val * 128 + q.val) % 128) % 128 = q.val; omega

/-- The first inner bias broadcast over the nodes: at node `p`, channel `q` it is entry `[0, 1, 0, q]` of the stacked table. -/
theorem b0_u1 (p : Fin 100000) (q : Fin 128) : val_main_v88 (F := Ideal) x5 (ix2 p q) = mlpB x5 0 1 0 (ix2 0 q) := by
  have hq := q.isLt
  rw [val_main_v88_apply, val_main_v87_apply, val_main_v86_apply, val_main_v85_apply, val_main_v81_apply, val_main_v80_apply]
  refine congrArg x5 (funext fun a => Fin.ext ?_)
  match a with
  | ⟨0, _⟩ => rfl
  | ⟨1, _⟩ => rfl
  | ⟨2, _⟩ => show (0 * 128 + q.val % 128) / 128 % 2 = 0; omega
  | ⟨3, _⟩ => show (0 * 128 + q.val % 128) % 128 = q.val; omega

/-- The second inner bias broadcast over the nodes: at node `p`, channel `q` it is entry `[0, 1, 1, q]` of the stacked table. -/
theorem b1_u1 (p : Fin 100000) (q : Fin 128) : val_main_v97 (F := Ideal) x5 (ix2 p q) = mlpB x5 0 1 1 (ix2 0 q) := by
  have hq := q.isLt
  rw [val_main_v97_apply, val_main_v96_apply, val_main_v95_apply, val_main_v94_apply, val_main_v81_apply, val_main_v80_apply]
  refine congrArg x5 (funext fun a => Fin.ext ?_)
  match a with
  | ⟨0, _⟩ => rfl
  | ⟨1, _⟩ => rfl
  | ⟨2, _⟩ => show (1 * 128 + q.val % 128) / 128 % 2 = 1; omega
  | ⟨3, _⟩ => show (1 * 128 + q.val % 128) % 128 = q.val; omega

/-- The layer norm's scale broadcast over the nodes: at node `p`, channel `q` it is entry `[0, 0, q]` of the stacked table. -/
theorem g_u1 (p : Fin 100000) (q : Fin 128) : val_main_v123 (F := Ideal) x7 (ix2 p q) = lnP x7 0 0 (ix2 0 q) := by
  have hq := q.isLt
  rw [val_main_v123_apply, val_main_v122_apply, val_main_v101_apply, val_main_v100_apply]
  refine congrArg x7 (funext fun a => Fin.ext ?_)
  match a with
  | ⟨0, _⟩ => rfl
  | ⟨1, _⟩ => rfl
  | ⟨2, _⟩ => show q.val % 128 = q.val; omega

/-- The layer norm's shift broadcast over the nodes: at node `p`, channel `q` it is entry `[0, 0, q]` of the stacked table. -/
theorem be_u1 (p : Fin 100000) (q : Fin 128) : val_main_v126 (F := Ideal) x8 (ix2 p q) = lnP x8 0 0 (ix2 0 q) := by
  have hq := q.isLt
  rw [val_main_v126_apply, val_main_v125_apply, val_main_v103_apply, val_main_v102_apply]
  refine congrArg x8 (funext fun a => Fin.ext ?_)
  match a with
  | ⟨0, _⟩ => rfl
  | ⟨1, _⟩ => rfl
  | ⟨2, _⟩ => show q.val % 128 = q.val; omega

/-! ## The stages at a node -/

/-- The row entering the MLP: `s·x + a`. -/
theorem hid_u1 (p : Fin 100000) (k : Fin 128) :
    val_main_v77 (F := Ideal) x0 x1 x2 x3 x6 x10 (ix2 p k)
      = combineRow (scaleOf x6 0 1 (ix2 0 0)) (row (val_main_v7 (F := Ideal) x0 x2 x3) p) (row (val_main_v43 (F := Ideal) x1 x2 x3 x10) p) k := by
  unfold combineRow row
  rw [val_main_v77_apply, val_main_v76_apply, val_main_v75_apply, eq_ix0 (idx_main_v75 (ix2 p k)), scale_u1]
  simp only [Ideal.addf_def, Ideal.mulf_def]

/-- The first linear map and its relu at node `p`: if the incoming table's row `p` is `h`, the result's row `p` is `relu (h·W + b)`. -/
theorem lin0_u1 (p : Fin 100000) (q : Fin 128) (h : Row) (hh : ∀ k, val_main_v77 (F := Ideal) x0 x1 x2 x3 x6 x10 (ix2 p k) = h k) :
    val_main_v90 (F := Ideal) x0 x1 x2 x3 x4 x5 x6 x10 (ix2 p q) = reluRow (affineRow h (mlpW x4 0 1 0) (mlpB x5 0 1 0)) q := by
  rw [val_main_v90_apply, val_main_v89_apply, val_main_v84_apply, val_main_call2_v0_apply, val_main_call2_cst_apply, b0_u1]
  simp only [Ideal.maximumf_def, Ideal.addf_def, Ideal.ofBits_def]
  refine congrArg₂ max (congrArg₂ (· + ·) (Finset.sum_congr rfl fun k _ => ?_) rfl) rfl
  rw [show lidx_main_v84 (ix2 p q) k = ix2 p k from funext fun a => by match a with | ⟨0, _⟩ => rfl | ⟨1, _⟩ => rfl,
    show ridx_main_v84 (ix2 p q) k = ix2 k q from funext fun a => by match a with | ⟨0, _⟩ => rfl | ⟨1, _⟩ => rfl,
    hh k, w0_u1]

/-- The second linear map and its relu at node `p`: if the incoming table's row `p` is `h`, the result's row `p` is `relu (h·W + b)`. -/
theorem lin1_u1 (p : Fin 100000) (q : Fin 128) (h : Row) (hh : ∀ k, val_main_v90 (F := Ideal) x0 x1 x2 x3 x4 x5 x6 x10 (ix2 p k) = h k) :
    val_main_v99 (F := Ideal) x0 x1 x2 x3 x4 x5 x6 x10 (ix2 p q) = reluRow (affineRow h (mlpW x4 0 1 1) (mlpB x5 0 1 1)) q := by
  rw [val_main_v99_apply, val_main_v98_apply, val_main_v93_apply, val_main_call3_v0_apply, val_main_call3_cst_apply, b1_u1]
  simp only [Ideal.maximumf_def, Ideal.addf_def, Ideal.ofBits_def]
  refine congrArg₂ max (congrArg₂ (· + ·) (Finset.sum_congr rfl fun k _ => ?_) rfl) rfl
  rw [show lidx_main_v93 (ix2 p q) k = ix2 p k from funext fun a => by match a with | ⟨0, _⟩ => rfl | ⟨1, _⟩ => rfl,
    show ridx_main_v93 (ix2 p q) k = ix2 k q from funext fun a => by match a with | ⟨0, _⟩ => rfl | ⟨1, _⟩ => rfl,
    hh k, w1_u1]

/-- The mean of the MLP's output row `r` at node `p`. -/
theorem mean_u1 (p : Fin 100000) (r : Row) (hr : ∀ k, val_main_v99 (F := Ideal) x0 x1 x2 x3 x4 x5 x6 x10 (ix2 p k) = r k) :
    val_main_v107 (F := Ideal) x0 x1 x2 x3 x4 x5 x6 x10 (ix2 p 0) = meanRow r := by
  rw [val_main_v107_apply, val_main_v105_apply, val_main_v104_apply, val_main_cst_6_apply, val_main_v106_apply, val_main_cst_7_apply]
  simp only [Ideal.hostDivf_def, Ideal.ofBits_def, Ideal.ofBits_zero_f32, zero_add]
  refine congrArg (fun t => Ideal.div t c128) (Finset.sum_congr rfl fun k _ => ?_)
  rw [show idx_main_v104 (idx_main_v105 (ix2 p 0)) k = ix2 p k from funext fun a => by match a with | ⟨0, _⟩ => rfl | ⟨1, _⟩ => rfl]
  exact hr k

/-- The centred row, as the variance reads it. -/
theorem cen_u1 (p : Fin 100000) (q : Fin 128) (r : Row) (hr : ∀ k, val_main_v99 (F := Ideal) x0 x1 x2 x3 x4 x5 x6 x10 (ix2 p k) = r k) :
    val_main_v109 (F := Ideal) x0 x1 x2 x3 x4 x5 x6 x10 (ix2 p q) = centredRow r q := by
  unfold centredRow
  rw [val_main_v109_apply, val_main_v108_apply, Ideal.subf_def, hr q,
    show idx_main_v108 (ix2 p q) = ix2 p 0 from funext fun a => by match a with | ⟨0, _⟩ => rfl | ⟨1, _⟩ => rfl,
    mean_u1 p r hr]

/-- The centred row, as the normalisation reads it. -/
theorem cen2_u1 (p : Fin 100000) (q : Fin 128) (r : Row) (hr : ∀ k, val_main_v99 (F := Ideal) x0 x1 x2 x3 x4 x5 x6 x10 (ix2 p k) = r k) :
    val_main_v116 (F := Ideal) x0 x1 x2 x3 x4 x5 x6 x10 (ix2 p q) = centredRow r q := by
  unfold centredRow
  rw [val_main_v116_apply, val_main_v115_apply, Ideal.subf_def, hr q,
    show idx_main_v115 (ix2 p q) = ix2 p 0 from funext fun a => by match a with | ⟨0, _⟩ => rfl | ⟨1, _⟩ => rfl,
    mean_u1 p r hr]

/-- The mean of the squares of the centred row. -/
theorem var_u1 (p : Fin 100000) (r : Row) (hr : ∀ k, val_main_v99 (F := Ideal) x0 x1 x2 x3 x4 x5 x6 x10 (ix2 p k) = r k) :
    val_main_v114 (F := Ideal) x0 x1 x2 x3 x4 x5 x6 x10 (ix2 p 0) = meanRow (fun k => centredRow r k * centredRow r k) := by
  rw [val_main_v114_apply, val_main_v112_apply, val_main_v111_apply, val_main_cst_8_apply, val_main_v113_apply, val_main_cst_9_apply]
  simp only [Ideal.hostDivf_def, Ideal.ofBits_def, Ideal.ofBits_zero_f32, zero_add]
  refine congrArg (fun t => Ideal.div t c128) (Finset.sum_congr rfl fun k _ => ?_)
  rw [show idx_main_v111 (idx_main_v112 (ix2 p 0)) k = ix2 p k from funext fun a => by match a with | ⟨0, _⟩ => rfl | ⟨1, _⟩ => rfl,
    val_main_v110_apply, Ideal.mulf_def, cen_u1 p k r hr]

/-- The normalised, scaled, shifted row and the last relu. -/
theorem out_u1 (p : Fin 100000) (q : Fin 128) (r : Row) (hr : ∀ k, val_main_v99 (F := Ideal) x0 x1 x2 x3 x4 x5 x6 x10 (ix2 p k) = r k) :
    val_main_v128 (F := Ideal) x0 x1 x2 x3 x4 x5 x6 x7 x8 x10 (ix2 p q) = reluRow (normRow r (lnP x7 0 0) (lnP x8 0 0)) q := by
  unfold reluRow normRow
  rw [val_main_v128_apply, val_main_v127_apply, val_main_v124_apply, val_main_v121_apply, val_main_v120_apply, val_main_v119_apply, val_main_v118_apply, val_main_v117_apply, val_main_cst_10_apply,
    val_main_call4_v0_apply, val_main_call4_cst_apply]
  simp only [Ideal.maximumf_def, Ideal.addf_def, Ideal.mulf_def, Ideal.hostUnary_rsqrt_def, Ideal.ofBits_def]
  rw [cen2_u1 p q r hr, show idx_main_v120 (ix2 p q) = ix2 p 0 from funext fun a => by match a with | ⟨0, _⟩ => rfl | ⟨1, _⟩ => rfl,
    var_u1 p r hr, g_u1, be_u1]

/-! ## The whole array -/

variable (x0 x1 x2 x3 x4 x5 x6 x7 x8 x9 x10) in
/-- The user table after layer 0 is the spec's update of the user table before it and the aggregated neighbour table. -/
theorem xu1_eq : val_main_v128 (F := Ideal) x0 x1 x2 x3 x4 x5 x6 x7 x8 x10
    = ginArr (val_main_v7 (F := Ideal) x0 x2 x3) (val_main_v43 (F := Ideal) x1 x2 x3 x10) (scaleOf x6 0 1) (mlpW x4 0 1 0) (mlpB x5 0 1 0) (mlpW x4 0 1 1) (mlpB x5 0 1 1) (lnP x7 0 0) (lnP x8 0 0) := by
  funext j
  obtain ⟨p, q, rfl⟩ : ∃ (p : Fin 100000) (q : Fin 128), j = ix2 p q := ⟨j 0, j 1, eq_ix2 j⟩
  exact out_u1 p q _ fun k => lin1_u1 p k _ fun k' => lin0_u1 p k' _ fun k'' => hid_u1 p k''

end Cert.ReferenceIdeal.RefValue

end
-- ==== Proof.RefLayer1I.lean ====
/-
  The reference's update of the item table in layer 1, read as a whole array.

  At node `p` the program forms `s·x + a` from the node's row `x` of the item table and its row `a` of the aggregated
  neighbour table, with `s = 1 + eps[1, 0]`; applies two linear maps, each followed by a relu, with the weights
  `W[1, 0, n]` and biases `b[1, 0, n]`; normalises the 128 channels (mean, centred row, mean of the squares, reciprocal
  square root, scale `g[1, 1]` and shift `β[1, 1]`); and applies a last relu. Each stage is read at node `p`, channel `q`
  from the stage before it, the parameter slices are identified with the stacked tables' entries by their coordinates, and
  the result is `ginArr` of the spec at the same index. The aggregated table stays an opaque array throughout.
-/
import proofs.«132706_j49976239456902_1_alg».proof.Proof.RefReadP
import proofs.«132706_j49976239456902_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.ReadP Cert.Gin Idealize.ShloMosaic Idealize.ShloMosaic.ValueIdx

variable {x0 : (⟨S100000x128, .f32⟩ : BufTy).Contents (Elt Ideal)} {x1 : (⟨S50000x128, .f32⟩ : BufTy).Contents (Elt Ideal)}
  {x2 : (⟨S2x128x128, .f32⟩ : BufTy).Contents (Elt Ideal)} {x3 : (⟨S2x128, .f32⟩ : BufTy).Contents (Elt Ideal)}
  {x4 : (⟨S2x2x2x128x128, .f32⟩ : BufTy).Contents (Elt Ideal)} {x5 : (⟨S2x2x2x128, .f32⟩ : BufTy).Contents (Elt Ideal)}
  {x6 : (⟨S2x2, .f32⟩ : BufTy).Contents (Elt Ideal)} {x7 x8 : (⟨S2x2x128, .f32⟩ : BufTy).Contents (Elt Ideal)}
  {x9 x10 : (⟨S2x600000, .i32⟩ : BufTy).Contents (Elt Ideal)}

/-! ## The parameters by their coordinates -/

/-- The scalar `eps[1, 0]`: the `1 × 1` slice of the table read as a rank-0 array. -/
theorem eps_i2 : val_main_v187 (F := Ideal) x6 ix0 = x6 (ix2 1 0) := by
  unfold val_main_v187
  refine (shapeCast_apply _ _ ix0 (ix2 0 0) ?_).trans ?_
  · rw [Shape.rowMajor_val_two]; show 0 * 1 + 0 = (Shape.rowMajorPi _ _).val; rw [Shape.rowMajorPi_zero]
  · rw [val_main_v186_apply]
    refine congrArg x6 (funext fun a => Fin.ext ?_)
    match a with
    | ⟨0, _⟩ => rfl
    | ⟨1, _⟩ => rfl

/-- The self-loop scale `1 + eps[1, 0]`. -/
theorem scale_i2 : val_main_v188 (F := Ideal) x6 ix0 = scaleOf x6 1 0 (ix2 0 0) := by
  unfold scaleOf
  rw [val_main_v188_apply, val_main_cst_22_apply, eps_i2]
  simp only [Ideal.addf_def, Ideal.ofBits_def]

/-- The first inner weight at row `k`, column `q`: entry `[1, 0, 0, k, q]` of the stacked table. -/
theorem w0_i2 (k q : Fin 128) : val_main_v197 (F := Ideal) x4 (ix2 k q) = mlpW x4 1 0 0 (ix2 k q) := by
  have hk := k.isLt; have hq := q.isLt
  rw [val_main_v197_apply, val_main_v196_apply, val_main_v193_apply, val_main_v192_apply]
  refine congrArg x4 (funext fun a => Fin.ext ?_)
  match a with
  | ⟨0, _⟩ => rfl
  | ⟨1, _⟩ => rfl
  | ⟨2, _⟩ => show ((0 * 128 + (k.val * 128 + q.val) / 128 % 128) * 128 + (k.val * 128 + q.val) % 128) / 16384 % 2 = 0; omega
  | ⟨3, _⟩ => show ((0 * 128 + (k.val * 128 + q.val) / 128 % 128) * 128 + (k.val * 128 + q.val) % 128) / 128 % 128 = k.val; omega
  | ⟨4, _⟩ => show ((0 * 128 + (k.val * 128 + q.val) / 128 % 128) * 128 + (k.val * 128 + q.val) % 128) % 128 = q.val; omega

/-- The second inner weight at row `k`, column `q`: entry `[1, 0, 1, k, q]` of the stacked table. -/
theorem w1_i2 (k q : Fin 128) : val_main_v206 (F := Ideal) x4 (ix2 k q) = mlpW x4 1 0 1 (ix2 k q) := by
  have hk := k.isLt; have hq := q.isLt
  rw [val_main_v206_apply, val_main_v205_apply, val_main_v193_apply, val_main_v192_apply]
  refine congrArg x4 (funext fun a => Fin.ext ?_)
  match a with
  | ⟨0, _⟩ => rfl
  | ⟨1, _⟩ => rfl
  | ⟨2, _⟩ => show ((1 * 128 + (k.val * 128 + q.val) / 128 % 128) * 128 + (k.val * 128 + q.val) % 128) / 16384 % 2 = 1; omega
  | ⟨3, _⟩ => show ((1 * 128 + (k.val * 128 + q.val) / 128 % 128) * 128 + (k.val * 128 + q.val) % 128) / 128 % 128 = k.val; omega
  | ⟨4, _⟩ => show ((1 * 128 + (k.val * 128 + q.val) / 128 % 128) * 128 + (k.val * 128 + q.val) % 128) % 128 = q.val; omega

/-- The first inner bias broadcast over the nodes: at node `p`, channel `q` it is entry `[1, 0, 0, q]` of the stacked table. -/
theorem b0_i2 (p : Fin 50000) (q : Fin 128) : val_main_v202 (F := Ideal) x5 (ix2 p q) = mlpB x5 1 0 0 (ix2 0 q) := by
  have hq := q.isLt
  rw [val_main_v202_apply, val_main_v201_apply, val_main_v200_apply, val_main_v199_apply, val_main_v195_apply, val_main_v194_apply]
  refine congrArg x5 (funext fun a => Fin.ext ?_)
  match a with
  | ⟨0, _⟩ => rfl
  | ⟨1, _⟩ => rfl
  | ⟨2, _⟩ => show (0 * 128 + q.val % 128) / 128 % 2 = 0; omega
  | ⟨3, _⟩ => show (0 * 128 + q.val % 128) % 128 = q.val; omega

/-- The second inner bias broadcast over the nodes: at node `p`, channel `q` it is entry `[1, 0, 1, q]` of the stacked table. -/
theorem b1_i2 (p : Fin 50000) (q : Fin 128) : val_main_v211 (F := Ideal) x5 (ix2 p q) = mlpB x5 1 0 1 (ix2 0 q) := by
  have hq := q.isLt
  rw [val_main_v211_apply, val_main_v210_apply, val_main_v209_apply, val_main_v208_apply, val_main_v195_apply, val_main_v194_apply]
  refine congrArg x5 (funext fun a => Fin.ext ?_)
  match a with
  | ⟨0, _⟩ => rfl
  | ⟨1, _⟩ => rfl
  | ⟨2, _⟩ => show (1 * 128 + q.val % 128) / 128 % 2 = 1; omega
  | ⟨3, _⟩ => show (1 * 128 + q.val % 128) % 128 = q.val; omega

/-- The layer norm's scale broadcast over the nodes: at node `p`, channel `q` it is entry `[1, 1, q]` of the stacked table. -/
theorem g_i2 (p : Fin 50000) (q : Fin 128) : val_main_v294 (F := Ideal) x7 (ix2 p q) = lnP x7 1 1 (ix2 0 q) := by
  have hq := q.isLt
  rw [val_main_v294_apply, val_main_v293_apply, val_main_v272_apply, val_main_v271_apply]
  refine congrArg x7 (funext fun a => Fin.ext ?_)
  match a with
  | ⟨0, _⟩ => rfl
  | ⟨1, _⟩ => rfl
  | ⟨2, _⟩ => show q.val % 128 = q.val; omega

/-- The layer norm's shift broadcast over the nodes: at node `p`, channel `q` it is entry `[1, 1, q]` of the stacked table. -/
theorem be_i2 (p : Fin 50000) (q : Fin 128) : val_main_v297 (F := Ideal) x8 (ix2 p q) = lnP x8 1 1 (ix2 0 q) := by
  have hq := q.isLt
  rw [val_main_v297_apply, val_main_v296_apply, val_main_v274_apply, val_main_v273_apply]
  refine congrArg x8 (funext fun a => Fin.ext ?_)
  match a with
  | ⟨0, _⟩ => rfl
  | ⟨1, _⟩ => rfl
  | ⟨2, _⟩ => show q.val % 128 = q.val; omega

/-! ## The stages at a node -/

/-- The row entering the MLP: `s·x + a`. -/
theorem hid_i2 (p : Fin 50000) (k : Fin 128) :
    val_main_v191 (F := Ideal) x0 x1 x2 x3 x4 x5 x6 x7 x8 x9 x10 (ix2 p k)
      = combineRow (scaleOf x6 1 0 (ix2 0 0)) (row (val_main_v157 (F := Ideal) x0 x1 x2 x3 x4 x5 x6 x7 x8 x9) p) (row (val_main_v171 (F := Ideal) x0 x1 x2 x3 x4 x5 x6 x7 x8 x9 x10) p) k := by
  unfold combineRow row
  rw [val_main_v191_apply, val_main_v190_apply, val_main_v189_apply, eq_ix0 (idx_main_v189 (ix2 p k)), scale_i2]
  simp only [Ideal.addf_def, Ideal.mulf_def]

/-- The first linear map and its relu at node `p`: if the incoming table's row `p` is `h`, the result's row `p` is `relu (h·W + b)`. -/
theorem lin0_i2 (p : Fin 50000) (q : Fin 128) (h : Row) (hh : ∀ k, val_main_v191 (F := Ideal) x0 x1 x2 x3 x4 x5 x6 x7 x8 x9 x10 (ix2 p k) = h k) :
    val_main_v204 (F := Ideal) x0 x1 x2 x3 x4 x5 x6 x7 x8 x9 x10 (ix2 p q) = reluRow (affineRow h (mlpW x4 1 0 0) (mlpB x5 1 0 0)) q := by
  rw [val_main_v204_apply, val_main_v203_apply, val_main_v198_apply, val_main_call6_v0_apply, val_main_call6_cst_apply, b0_i2]
  simp only [Ideal.maximumf_def, Ideal.addf_def, Ideal.ofBits_def]
  refine congrArg₂ max (congrArg₂ (· + ·) (Finset.sum_congr rfl fun k _ => ?_) rfl) rfl
  rw [show lidx_main_v198 (ix2 p q) k = ix2 p k from funext fun a => by match a with | ⟨0, _⟩ => rfl | ⟨1, _⟩ => rfl,
    show ridx_main_v198 (ix2 p q) k = ix2 k q from funext fun a => by match a with | ⟨0, _⟩ => rfl | ⟨1, _⟩ => rfl,
    hh k, w0_i2]

/-- The second linear map and its relu at node `p`: if the incoming table's row `p` is `h`, the result's row `p` is `relu (h·W + b)`. -/
theorem lin1_i2 (p : Fin 50000) (q : Fin 128) (h : Row) (hh : ∀ k, val_main_v204 (F := Ideal) x0 x1 x2 x3 x4 x5 x6 x7 x8 x9 x10 (ix2 p k) = h k) :
    val_main_v213 (F := Ideal) x0 x1 x2 x3 x4 x5 x6 x7 x8 x9 x10 (ix2 p q) = reluRow (affineRow h (mlpW x4 1 0 1) (mlpB x5 1 0 1)) q := by
  rw [val_main_v213_apply, val_main_v212_apply, val_main_v207_apply, val_main_call7_v0_apply, val_main_call7_cst_apply, b1_i2]
  simp only [Ideal.maximumf_def, Ideal.addf_def, Ideal.ofBits_def]
  refine congrArg₂ max (congrArg₂ (· + ·) (Finset.sum_congr rfl fun k _ => ?_) rfl) rfl
  rw [show lidx_main_v207 (ix2 p q) k = ix2 p k from funext fun a => by match a with | ⟨0, _⟩ => rfl | ⟨1, _⟩ => rfl,
    show ridx_main_v207 (ix2 p q) k = ix2 k q from funext fun a => by match a with | ⟨0, _⟩ => rfl | ⟨1, _⟩ => rfl,
    hh k, w1_i2]

/-- The mean of the MLP's output row `r` at node `p`. -/
theorem mean_i2 (p : Fin 50000) (r : Row) (hr : ∀ k, val_main_v213 (F := Ideal) x0 x1 x2 x3 x4 x5 x6 x7 x8 x9 x10 (ix2 p k) = r k) :
    val_main_v278 (F := Ideal) x0 x1 x2 x3 x4 x5 x6 x7 x8 x9 x10 (ix2 p 0) = meanRow r := by
  rw [val_main_v278_apply, val_main_v276_apply, val_main_v275_apply, val_main_cst_29_apply, val_main_v277_apply, val_main_cst_30_apply]
  simp only [Ideal.hostDivf_def, Ideal.ofBits_def, Ideal.ofBits_zero_f32, zero_add]
  refine congrArg (fun t => Ideal.div t c128) (Finset.sum_congr rfl fun k _ => ?_)
  rw [show idx_main_v275 (idx_main_v276 (ix2 p 0)) k = ix2 p k from funext fun a => by match a with | ⟨0, _⟩ => rfl | ⟨1, _⟩ => rfl]
  exact hr k

/-- The centred row, as the variance reads it. -/
theorem cen_i2 (p : Fin 50000) (q : Fin 128) (r : Row) (hr : ∀ k, val_main_v213 (F := Ideal) x0 x1 x2 x3 x4 x5 x6 x7 x8 x9 x10 (ix2 p k) = r k) :
    val_main_v280 (F := Ideal) x0 x1 x2 x3 x4 x5 x6 x7 x8 x9 x10 (ix2 p q) = centredRow r q := by
  unfold centredRow
  rw [val_main_v280_apply, val_main_v279_apply, Ideal.subf_def, hr q,
    show idx_main_v279 (ix2 p q) = ix2 p 0 from funext fun a => by match a with | ⟨0, _⟩ => rfl | ⟨1, _⟩ => rfl,
    mean_i2 p r hr]

/-- The centred row, as the normalisation reads it. -/
theorem cen2_i2 (p : Fin 50000) (q : Fin 128) (r : Row) (hr : ∀ k, val_main_v213 (F := Ideal) x0 x1 x2 x3 x4 x5 x6 x7 x8 x9 x10 (ix2 p k) = r k) :
    val_main_v287 (F := Ideal) x0 x1 x2 x3 x4 x5 x6 x7 x8 x9 x10 (ix2 p q) = centredRow r q := by
  unfold centredRow
  rw [val_main_v287_apply, val_main_v286_apply, Ideal.subf_def, hr q,
    show idx_main_v286 (ix2 p q) = ix2 p 0 from funext fun a => by match a with | ⟨0, _⟩ => rfl | ⟨1, _⟩ => rfl,
    mean_i2 p r hr]

/-- The mean of the squares of the centred row. -/
theorem var_i2 (p : Fin 50000) (r : Row) (hr : ∀ k, val_main_v213 (F := Ideal) x0 x1 x2 x3 x4 x5 x6 x7 x8 x9 x10 (ix2 p k) = r k) :
    val_main_v285 (F := Ideal) x0 x1 x2 x3 x4 x5 x6 x7 x8 x9 x10 (ix2 p 0) = meanRow (fun k => centredRow r k * centredRow r k) := by
  rw [val_main_v285_apply, val_main_v283_apply, val_main_v282_apply, val_main_cst_31_apply, val_main_v284_apply, val_main_cst_32_apply]
  simp only [Ideal.hostDivf_def, Ideal.ofBits_def, Ideal.ofBits_zero_f32, zero_add]
  refine congrArg (fun t => Ideal.div t c128) (Finset.sum_congr rfl fun k _ => ?_)
  rw [show idx_main_v282 (idx_main_v283 (ix2 p 0)) k = ix2 p k from funext fun a => by match a with | ⟨0, _⟩ => rfl | ⟨1, _⟩ => rfl,
    val_main_v281_apply, Ideal.mulf_def, cen_i2 p k r hr]

/-- The normalised, scaled, shifted row and the last relu. -/
theorem out_i2 (p : Fin 50000) (q : Fin 128) (r : Row) (hr : ∀ k, val_main_v213 (F := Ideal) x0 x1 x2 x3 x4 x5 x6 x7 x8 x9 x10 (ix2 p k) = r k) :
    val_main_v299 (F := Ideal) x0 x1 x2 x3 x4 x5 x6 x7 x8 x9 x10 (ix2 p q) = reluRow (normRow r (lnP x7 1 1) (lnP x8 1 1)) q := by
  unfold reluRow normRow
  rw [val_main_v299_apply, val_main_v298_apply, val_main_v295_apply, val_main_v292_apply, val_main_v291_apply, val_main_v290_apply, val_main_v289_apply, val_main_v288_apply, val_main_cst_33_apply,
    val_main_call11_v0_apply, val_main_call11_cst_apply]
  simp only [Ideal.maximumf_def, Ideal.addf_def, Ideal.mulf_def, Ideal.hostUnary_rsqrt_def, Ideal.ofBits_def]
  rw [cen2_i2 p q r hr, show idx_main_v291 (ix2 p q) = ix2 p 0 from funext fun a => by match a with | ⟨0, _⟩ => rfl | ⟨1, _⟩ => rfl,
    var_i2 p r hr, g_i2, be_i2]

/-! ## The whole array -/

variable (x0 x1 x2 x3 x4 x5 x6 x7 x8 x9 x10) in
/-- The item table after layer 1 is the spec's update of the item table before it and the aggregated neighbour table. -/
theorem xi2_eq : val_main_v299 (F := Ideal) x0 x1 x2 x3 x4 x5 x6 x7 x8 x9 x10
    = ginArr (val_main_v157 (F := Ideal) x0 x1 x2 x3 x4 x5 x6 x7 x8 x9) (val_main_v171 (F := Ideal) x0 x1 x2 x3 x4 x5 x6 x7 x8 x9 x10) (scaleOf x6 1 0) (mlpW x4 1 0 0) (mlpB x5 1 0 0) (mlpW x4 1 0 1) (mlpB x5 1 0 1) (lnP x7 1 1) (lnP x8 1 1) := by
  funext j
  obtain ⟨p, q, rfl⟩ : ∃ (p : Fin 50000) (q : Fin 128), j = ix2 p q := ⟨j 0, j 1, eq_ix2 j⟩
  exact out_i2 p q _ fun k => lin1_i2 p k _ fun k' => lin0_i2 p k' _ fun k'' => hid_i2 p k''

end Cert.ReferenceIdeal.RefValue

end
-- ==== Proof.RefLayer1U.lean ====
/-
  The reference's update of the user table in layer 1, read as a whole array.

  At node `p` the program forms `s·x + a` from the node's row `x` of the user table and its row `a` of the aggregated
  neighbour table, with `s = 1 + eps[1, 1]`; applies two linear maps, each followed by a relu, with the weights
  `W[1, 1, n]` and biases `b[1, 1, n]`; normalises the 128 channels (mean, centred row, mean of the squares, reciprocal
  square root, scale `g[1, 0]` and shift `β[1, 0]`); and applies a last relu. Each stage is read at node `p`, channel `q`
  from the stage before it, the parameter slices are identified with the stacked tables' entries by their coordinates, and
  the result is `ginArr` of the spec at the same index. The aggregated table stays an opaque array throughout.
-/
import proofs.«132706_j49976239456902_1_alg».proof.Proof.RefReadP
import proofs.«132706_j49976239456902_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.ReadP Cert.Gin Idealize.ShloMosaic Idealize.ShloMosaic.ValueIdx

variable {x0 : (⟨S100000x128, .f32⟩ : BufTy).Contents (Elt Ideal)} {x1 : (⟨S50000x128, .f32⟩ : BufTy).Contents (Elt Ideal)}
  {x2 : (⟨S2x128x128, .f32⟩ : BufTy).Contents (Elt Ideal)} {x3 : (⟨S2x128, .f32⟩ : BufTy).Contents (Elt Ideal)}
  {x4 : (⟨S2x2x2x128x128, .f32⟩ : BufTy).Contents (Elt Ideal)} {x5 : (⟨S2x2x2x128, .f32⟩ : BufTy).Contents (Elt Ideal)}
  {x6 : (⟨S2x2, .f32⟩ : BufTy).Contents (Elt Ideal)} {x7 x8 : (⟨S2x2x128, .f32⟩ : BufTy).Contents (Elt Ideal)}
  {x9 x10 : (⟨S2x600000, .i32⟩ : BufTy).Contents (Elt Ideal)}

/-! ## The parameters by their coordinates -/

/-- The scalar `eps[1, 1]`: the `1 × 1` slice of the table read as a rank-0 array. -/
theorem eps_u2 : val_main_v215 (F := Ideal) x6 ix0 = x6 (ix2 1 1) := by
  unfold val_main_v215
  refine (shapeCast_apply _ _ ix0 (ix2 0 0) ?_).trans ?_
  · rw [Shape.rowMajor_val_two]; show 0 * 1 + 0 = (Shape.rowMajorPi _ _).val; rw [Shape.rowMajorPi_zero]
  · rw [val_main_v214_apply]
    refine congrArg x6 (funext fun a => Fin.ext ?_)
    match a with
    | ⟨0, _⟩ => rfl
    | ⟨1, _⟩ => rfl

/-- The self-loop scale `1 + eps[1, 1]`. -/
theorem scale_u2 : val_main_v216 (F := Ideal) x6 ix0 = scaleOf x6 1 1 (ix2 0 0) := by
  unfold scaleOf
  rw [val_main_v216_apply, val_main_cst_23_apply, eps_u2]
  simp only [Ideal.addf_def, Ideal.ofBits_def]

/-- The first inner weight at row `k`, column `q`: entry `[1, 1, 0, k, q]` of the stacked table. -/
theorem w0_u2 (k q : Fin 128) : val_main_v225 (F := Ideal) x4 (ix2 k q) = mlpW x4 1 1 0 (ix2 k q) := by
  have hk := k.isLt; have hq := q.isLt
  rw [val_main_v225_apply, val_main_v224_apply, val_main_v221_apply, val_main_v220_apply]
  refine congrArg x4 (funext fun a => Fin.ext ?_)
  match a with
  | ⟨0, _⟩ => rfl
  | ⟨1, _⟩ => rfl
  | ⟨2, _⟩ => show ((0 * 128 + (k.val * 128 + q.val) / 128 % 128) * 128 + (k.val * 128 + q.val) % 128) / 16384 % 2 = 0; omega
  | ⟨3, _⟩ => show ((0 * 128 + (k.val * 128 + q.val) / 128 % 128) * 128 + (k.val * 128 + q.val) % 128) / 128 % 128 = k.val; omega
  | ⟨4, _⟩ => show ((0 * 128 + (k.val * 128 + q.val) / 128 % 128) * 128 + (k.val * 128 + q.val) % 128) % 128 = q.val; omega

/-- The second inner weight at row `k`, column `q`: entry `[1, 1, 1, k, q]` of the stacked table. -/
theorem w1_u2 (k q : Fin 128) : val_main_v234 (F := Ideal) x4 (ix2 k q) = mlpW x4 1 1 1 (ix2 k q) := by
  have hk := k.isLt; have hq := q.isLt
  rw [val_main_v234_apply, val_main_v233_apply, val_main_v221_apply, val_main_v220_apply]
  refine congrArg x4 (funext fun a => Fin.ext ?_)
  match a with
  | ⟨0, _⟩ => rfl
  | ⟨1, _⟩ => rfl
  | ⟨2, _⟩ => show ((1 * 128 + (k.val * 128 + q.val) / 128 % 128) * 128 + (k.val * 128 + q.val) % 128) / 16384 % 2 = 1; omega
  | ⟨3, _⟩ => show ((1 * 128 + (k.val * 128 + q.val) / 128 % 128) * 128 + (k.val * 128 + q.val) % 128) / 128 % 128 = k.val; omega
  | ⟨4, _⟩ => show ((1 * 128 + (k.val * 128 + q.val) / 128 % 128) * 128 + (k.val * 128 + q.val) % 128) % 128 = q.val; omega

/-- The first inner bias broadcast over the nodes: at node `p`, channel `q` it is entry `[1, 1, 0, q]` of the stacked table. -/
theorem b0_u2 (p : Fin 100000) (q : Fin 128) : val_main_v230 (F := Ideal) x5 (ix2 p q) = mlpB x5 1 1 0 (ix2 0 q) := by
  have hq := q.isLt
  rw [val_main_v230_apply, val_main_v229_apply, val_main_v228_apply, val_main_v227_apply, val_main_v223_apply, val_main_v222_apply]
  refine congrArg x5 (funext fun a => Fin.ext ?_)
  match a with
  | ⟨0, _⟩ => rfl
  | ⟨1, _⟩ => rfl
  | ⟨2, _⟩ => show (0 * 128 + q.val % 128) / 128 % 2 = 0; omega
  | ⟨3, _⟩ => show (0 * 128 + q.val % 128) % 128 = q.val; omega

/-- The second inner bias broadcast over the nodes: at node `p`, channel `q` it is entry `[1, 1, 1, q]` of the stacked table. -/
theorem b1_u2 (p : Fin 100000) (q : Fin 128) : val_main_v239 (F := Ideal) x5 (ix2 p q) = mlpB x5 1 1 1 (ix2 0 q) := by
  have hq := q.isLt
  rw [val_main_v239_apply, val_main_v238_apply, val_main_v237_apply, val_main_v236_apply, val_main_v223_apply, val_main_v222_apply]
  refine congrArg x5 (funext fun a => Fin.ext ?_)
  match a with
  | ⟨0, _⟩ => rfl
  | ⟨1, _⟩ => rfl
  | ⟨2, _⟩ => show (1 * 128 + q.val % 128) / 128 % 2 = 1; omega
  | ⟨3, _⟩ => show (1 * 128 + q.val % 128) % 128 = q.val; omega

/-- The layer norm's scale broadcast over the nodes: at node `p`, channel `q` it is entry `[1, 0, q]` of the stacked table. -/
theorem g_u2 (p : Fin 100000) (q : Fin 128) : val_main_v265 (F := Ideal) x7 (ix2 p q) = lnP x7 1 0 (ix2 0 q) := by
  have hq := q.isLt
  rw [val_main_v265_apply, val_main_v264_apply, val_main_v243_apply, val_main_v242_apply]
  refine congrArg x7 (funext fun a => Fin.ext ?_)
  match a with
  | ⟨0, _⟩ => rfl
  | ⟨1, _⟩ => rfl
  | ⟨2, _⟩ => show q.val % 128 = q.val; omega

/-- The layer norm's shift broadcast over the nodes: at node `p`, channel `q` it is entry `[1, 0, q]` of the stacked table. -/
theorem be_u2 (p : Fin 100000) (q : Fin 128) : val_main_v268 (F := Ideal) x8 (ix2 p q) = lnP x8 1 0 (ix2 0 q) := by
  have hq := q.isLt
  rw [val_main_v268_apply, val_main_v267_apply, val_main_v245_apply, val_main_v244_apply]
  refine congrArg x8 (funext fun a => Fin.ext ?_)
  match a with
  | ⟨0, _⟩ => rfl
  | ⟨1, _⟩ => rfl
  | ⟨2, _⟩ => show q.val % 128 = q.val; omega

/-! ## The stages at a node -/

/-- The row entering the MLP: `s·x + a`. -/
theorem hid_u2 (p : Fin 100000) (k : Fin 128) :
    val_main_v219 (F := Ideal) x0 x1 x2 x3 x4 x5 x6 x7 x8 x9 x10 (ix2 p k)
      = combineRow (scaleOf x6 1 1 (ix2 0 0)) (row (val_main_v128 (F := Ideal) x0 x1 x2 x3 x4 x5 x6 x7 x8 x10) p) (row (val_main_v185 (F := Ideal) x0 x1 x2 x3 x4 x5 x6 x7 x8 x9 x10) p) k := by
  unfold combineRow row
  rw [val_main_v219_apply, val_main_v218_apply, val_main_v217_apply, eq_ix0 (idx_main_v217 (ix2 p k)), scale_u2]
  simp only [Ideal.addf_def, Ideal.mulf_def]

/-- The first linear map and its relu at node `p`: if the incoming table's row `p` is `h`, the result's row `p` is `relu (h·W + b)`. -/
theorem lin0_u2 (p : Fin 100000) (q : Fin 128) (h : Row) (hh : ∀ k, val_main_v219 (F := Ideal) x0 x1 x2 x3 x4 x5 x6 x7 x8 x9 x10 (ix2 p k) = h k) :
    val_main_v232 (F := Ideal) x0 x1 x2 x3 x4 x5 x6 x7 x8 x9 x10 (ix2 p q) = reluRow (affineRow h (mlpW x4 1 1 0) (mlpB x5 1 1 0)) q := by
  rw [val_main_v232_apply, val_main_v231_apply, val_main_v226_apply, val_main_call8_v0_apply, val_main_call8_cst_apply, b0_u2]
  simp only [Ideal.maximumf_def, Ideal.addf_def, Ideal.ofBits_def]
  refine congrArg₂ max (congrArg₂ (· + ·) (Finset.sum_congr rfl fun k _ => ?_) rfl) rfl
  rw [show lidx_main_v226 (ix2 p q) k = ix2 p k from funext fun a => by match a with | ⟨0, _⟩ => rfl | ⟨1, _⟩ => rfl,
    show ridx_main_v226 (ix2 p q) k = ix2 k q from funext fun a => by match a with | ⟨0, _⟩ => rfl | ⟨1, _⟩ => rfl,
    hh k, w0_u2]

/-- The second linear map and its relu at node `p`: if the incoming table's row `p` is `h`, the result's row `p` is `relu (h·W + b)`. -/
theorem lin1_u2 (p : Fin 100000) (q : Fin 128) (h : Row) (hh : ∀ k, val_main_v232 (F := Ideal) x0 x1 x2 x3 x4 x5 x6 x7 x8 x9 x10 (ix2 p k) = h k) :
    val_main_v241 (F := Ideal) x0 x1 x2 x3 x4 x5 x6 x7 x8 x9 x10 (ix2 p q) = reluRow (affineRow h (mlpW x4 1 1 1) (mlpB x5 1 1 1)) q := by
  rw [val_main_v241_apply, val_main_v240_apply, val_main_v235_apply, val_main_call9_v0_apply, val_main_call9_cst_apply, b1_u2]
  simp only [Ideal.maximumf_def, Ideal.addf_def, Ideal.ofBits_def]
  refine congrArg₂ max (congrArg₂ (· + ·) (Finset.sum_congr rfl fun k _ => ?_) rfl) rfl
  rw [show lidx_main_v235 (ix2 p q) k = ix2 p k from funext fun a => by match a with | ⟨0, _⟩ => rfl | ⟨1, _⟩ => rfl,
    show ridx_main_v235 (ix2 p q) k = ix2 k q from funext fun a => by match a with | ⟨0, _⟩ => rfl | ⟨1, _⟩ => rfl,
    hh k, w1_u2]

/-- The mean of the MLP's output row `r` at node `p`. -/
theorem mean_u2 (p : Fin 100000) (r : Row) (hr : ∀ k, val_main_v241 (F := Ideal) x0 x1 x2 x3 x4 x5 x6 x7 x8 x9 x10 (ix2 p k) = r k) :
    val_main_v249 (F := Ideal) x0 x1 x2 x3 x4 x5 x6 x7 x8 x9 x10 (ix2 p 0) = meanRow r := by
  rw [val_main_v249_apply, val_main_v247_apply, val_main_v246_apply, val_main_cst_24_apply, val_main_v248_apply, val_main_cst_25_apply]
  simp only [Ideal.hostDivf_def, Ideal.ofBits_def, Ideal.ofBits_zero_f32, zero_add]
  refine congrArg (fun t => Ideal.div t c128) (Finset.sum_congr rfl fun k _ => ?_)
  rw [show idx_main_v246 (idx_main_v247 (ix2 p 0)) k = ix2 p k from funext fun a => by match a with | ⟨0, _⟩ => rfl | ⟨1, _⟩ => rfl]
  exact hr k

/-- The centred row, as the variance reads it. -/
theorem cen_u2 (p : Fin 100000) (q : Fin 128) (r : Row) (hr : ∀ k, val_main_v241 (F := Ideal) x0 x1 x2 x3 x4 x5 x6 x7 x8 x9 x10 (ix2 p k) = r k) :
    val_main_v251 (F := Ideal) x0 x1 x2 x3 x4 x5 x6 x7 x8 x9 x10 (ix2 p q) = centredRow r q := by
  unfold centredRow
  rw [val_main_v251_apply, val_main_v250_apply, Ideal.subf_def, hr q,
    show idx_main_v250 (ix2 p q) = ix2 p 0 from funext fun a => by match a with | ⟨0, _⟩ => rfl | ⟨1, _⟩ => rfl,
    mean_u2 p r hr]

/-- The centred row, as the normalisation reads it. -/
theorem cen2_u2 (p : Fin 100000) (q : Fin 128) (r : Row) (hr : ∀ k, val_main_v241 (F := Ideal) x0 x1 x2 x3 x4 x5 x6 x7 x8 x9 x10 (ix2 p k) = r k) :
    val_main_v258 (F := Ideal) x0 x1 x2 x3 x4 x5 x6 x7 x8 x9 x10 (ix2 p q) = centredRow r q := by
  unfold centredRow
  rw [val_main_v258_apply, val_main_v257_apply, Ideal.subf_def, hr q,
    show idx_main_v257 (ix2 p q) = ix2 p 0 from funext fun a => by match a with | ⟨0, _⟩ => rfl | ⟨1, _⟩ => rfl,
    mean_u2 p r hr]

/-- The mean of the squares of the centred row. -/
theorem var_u2 (p : Fin 100000) (r : Row) (hr : ∀ k, val_main_v241 (F := Ideal) x0 x1 x2 x3 x4 x5 x6 x7 x8 x9 x10 (ix2 p k) = r k) :
    val_main_v256 (F := Ideal) x0 x1 x2 x3 x4 x5 x6 x7 x8 x9 x10 (ix2 p 0) = meanRow (fun k => centredRow r k * centredRow r k) := by
  rw [val_main_v256_apply, val_main_v254_apply, val_main_v253_apply, val_main_cst_26_apply, val_main_v255_apply, val_main_cst_27_apply]
  simp only [Ideal.hostDivf_def, Ideal.ofBits_def, Ideal.ofBits_zero_f32, zero_add]
  refine congrArg (fun t => Ideal.div t c128) (Finset.sum_congr rfl fun k _ => ?_)
  rw [show idx_main_v253 (idx_main_v254 (ix2 p 0)) k = ix2 p k from funext fun a => by match a with | ⟨0, _⟩ => rfl | ⟨1, _⟩ => rfl,
    val_main_v252_apply, Ideal.mulf_def, cen_u2 p k r hr]

/-- The normalised, scaled, shifted row and the last relu. -/
theorem out_u2 (p : Fin 100000) (q : Fin 128) (r : Row) (hr : ∀ k, val_main_v241 (F := Ideal) x0 x1 x2 x3 x4 x5 x6 x7 x8 x9 x10 (ix2 p k) = r k) :
    val_main_v270 (F := Ideal) x0 x1 x2 x3 x4 x5 x6 x7 x8 x9 x10 (ix2 p q) = reluRow (normRow r (lnP x7 1 0) (lnP x8 1 0)) q := by
  unfold reluRow normRow
  rw [val_main_v270_apply, val_main_v269_apply, val_main_v266_apply, val_main_v263_apply, val_main_v262_apply, val_main_v261_apply, val_main_v260_apply, val_main_v259_apply, val_main_cst_28_apply,
    val_main_call10_v0_apply, val_main_call10_cst_apply]
  simp only [Ideal.maximumf_def, Ideal.addf_def, Ideal.mulf_def, Ideal.hostUnary_rsqrt_def, Ideal.ofBits_def]
  rw [cen2_u2 p q r hr, show idx_main_v262 (ix2 p q) = ix2 p 0 from funext fun a => by match a with | ⟨0, _⟩ => rfl | ⟨1, _⟩ => rfl,
    var_u2 p r hr, g_u2, be_u2]

/-! ## The whole array -/

variable (x0 x1 x2 x3 x4 x5 x6 x7 x8 x9 x10) in
/-- The user table after layer 1 is the spec's update of the user table before it and the aggregated neighbour table. -/
theorem xu2_eq : val_main_v270 (F := Ideal) x0 x1 x2 x3 x4 x5 x6 x7 x8 x9 x10
    = ginArr (val_main_v128 (F := Ideal) x0 x1 x2 x3 x4 x5 x6 x7 x8 x10) (val_main_v185 (F := Ideal) x0 x1 x2 x3 x4 x5 x6 x7 x8 x9 x10) (scaleOf x6 1 1) (mlpW x4 1 1 0) (mlpB x5 1 1 0) (mlpW x4 1 1 1) (mlpB x5 1 1 1) (lnP x7 1 0) (lnP x8 1 0) := by
  funext j
  obtain ⟨p, q, rfl⟩ : ∃ (p : Fin 100000) (q : Fin 128), j = ix2 p q := ⟨j 0, j 1, eq_ix2 j⟩
  exact out_u2 p q _ fun k => lin1_u2 p k _ fun k' => lin0_u2 p k' _ fun k'' => hid_u2 p k''

end Cert.ReferenceIdeal.RefValue

end
-- ==== Proof.RefNet.lean ====
/-
  The reference program's two results are the network's two final tables.

  The reference aggregates with the same gather and scatter-add as the kernel program, so each of its four aggregated
  tables is the shared aggregation function of the table it gathers from. With the six stage equations (each stage the
  projection or the layer update of the stages before it) the result stages unfold, stage by stage, to the network's
  closed form of the arguments.
-/
import proofs.«132706_j49976239456902_1_alg».proof.Proof.RefReadP
import proofs.«132706_j49976239456902_1_alg».proof.Proof.Net
import proofs.«132706_j49976239456902_1_alg».proof.Proof.RefProj
import proofs.«132706_j49976239456902_1_alg».proof.Proof.RefLayer0I
import proofs.«132706_j49976239456902_1_alg».proof.Proof.RefLayer0U
import proofs.«132706_j49976239456902_1_alg».proof.Proof.RefLayer1I
import proofs.«132706_j49976239456902_1_alg».proof.Proof.RefLayer1U

noncomputable section

namespace Cert.ReferenceIdeal.RefValue

open Cert.ReferenceIdeal Cert.ReferenceIdeal.ReadP Cert.Gin Cert.Net Cert.KernelIdeal.Agg Idealize.ShloMosaic

variable (x0 : (⟨S100000x128, .f32⟩ : BufTy).Contents (Elt Ideal)) (x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x2x2x128x128, .f32⟩ : BufTy).Contents (Elt Ideal)) (x5 : (⟨S2x2x2x128, .f32⟩ : BufTy).Contents (Elt Ideal)) (x6 : (⟨S2x2, .f32⟩ : BufTy).Contents (Elt Ideal)) (x7 : (⟨S2x2x128, .f32⟩ : BufTy).Contents (Elt Ideal)) (x8 : (⟨S2x2x128, .f32⟩ : BufTy).Contents (Elt Ideal)) (x9 : (⟨S2x600000, .i32⟩ : BufTy).Contents (Elt Ideal)) (x10 : (⟨S2x600000, .i32⟩ : BufTy).Contents (Elt Ideal))

/-- The first layer's aggregated item table is the aggregation of the projected user table. -/
theorem aggItems0 : val_main_v29 (F := Ideal) x0 x2 x3 x9 = toItems (val_main_v7 (F := Ideal) x0 x2 x3) x9 := rfl
/-- The first layer's aggregated user table is the aggregation of the projected item table. -/
theorem aggUsers0 : val_main_v43 (F := Ideal) x1 x2 x3 x10 = toUsers (val_main_v15 (F := Ideal) x1 x2 x3) x10 := rfl
/-- The second layer's aggregated item table is the aggregation of the first layer's user table. -/
theorem aggItems1 : val_main_v171 (F := Ideal) x0 x1 x2 x3 x4 x5 x6 x7 x8 x9 x10 = toItems (val_main_v128 (F := Ideal) x0 x1 x2 x3 x4 x5 x6 x7 x8 x10) x9 := rfl
/-- The second layer's aggregated user table is the aggregation of the first layer's item table. -/
theorem aggUsers1 : val_main_v185 (F := Ideal) x0 x1 x2 x3 x4 x5 x6 x7 x8 x9 x10 = toUsers (val_main_v157 (F := Ideal) x0 x1 x2 x3 x4 x5 x6 x7 x8 x9) x10 := rfl

/-- The item table after the first layer. -/
theorem xi1_net : val_main_v157 (F := Ideal) x0 x1 x2 x3 x4 x5 x6 x7 x8 x9 = xi1 x0 x1 x2 x3 x4 x5 x6 x7 x8 x9 := by
  rw [xi1_eq, aggItems0, xu0_eq, xi0_eq]; rfl
/-- The user table after the first layer. -/
theorem xu1_net : val_main_v128 (F := Ideal) x0 x1 x2 x3 x4 x5 x6 x7 x8 x10 = xu1 x0 x1 x2 x3 x4 x5 x6 x7 x8 x10 := by
  rw [xu1_eq, aggUsers0, xu0_eq, xi0_eq]; rfl
/-- The reference's second result: the item table after the second layer. -/
theorem xi2_net : val_main_v299 (F := Ideal) x0 x1 x2 x3 x4 x5 x6 x7 x8 x9 x10 = xi2 x0 x1 x2 x3 x4 x5 x6 x7 x8 x9 x10 := by
  rw [xi2_eq, aggItems1, xi1_net, xu1_net]; rfl
/-- The reference's first result: the user table after the second layer. -/
theorem xu2_net : val_main_v270 (F := Ideal) x0 x1 x2 x3 x4 x5 x6 x7 x8 x9 x10 = xu2 x0 x1 x2 x3 x4 x5 x6 x7 x8 x9 x10 := by
  rw [xu2_eq, aggUsers1, xi1_net, xu1_net]; rfl

end Cert.ReferenceIdeal.RefValue

end
-- ==== Proof.RefGroups.lean ====
/-
  The reference program's 360 host operations, cut into eleven consecutive groups.

  Group 1 projects the two tables; groups 2 and 7 aggregate them along the edges (layer 1, layer 2); for each layer and
  each table one group applies the two linear-and-rectify steps (3, 4 and 8, 9) and one the layer norm and the final
  rectify (6, 5 and 11, 10). The contents after a list of operations fold over the list, so the contents after the
  whole program are the groups' folds composed.
-/
import proofs.«132706_j49976239456902_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lists of operations in a row: the second list's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Operations 0 … 15 of @main. -/
abbrev g1 : List (HloOp τ sig (Elt F)) :=
  [
    unary main_arg2 main_v0 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v0 main_v1 rfl shapeCasts_S1x128x128_S128x128,
    binary main_arg0 main_v1 main_v2 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v3 ((extractStridedSlice S1x128 ![0, 0] · slices_S2x128_S1x128_0_0) : (⟨S2x128, .f32⟩ : BufTy).Contents (Elt F) → (⟨S1x128, .f32⟩ : BufTy).Contents (Elt F)),
    reshape main_v3 main_v4 rfl shapeCasts_S1x128_S128,
    unary main_v4 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v2 main_v6 main_v7 (addf : (⟨S100000x128, .f32⟩ : BufTy).Contents (Elt F) → (⟨S100000x128, .f32⟩ : BufTy).Contents (Elt F) → (⟨S100000x128, .f32⟩ : BufTy).Contents (Elt F)),
    unary main_arg2 main_v8 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v8 main_v9 rfl shapeCasts_S1x128x128_S128x128,
    binary main_arg1 main_v9 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v11 ((extractStridedSlice S1x128 ![1, 0] · slices_S2x128_S1x128_1_0) : (⟨S2x128, .f32⟩ : BufTy).Contents (Elt F) → (⟨S1x128, .f32⟩ : BufTy).Contents (Elt F)),
    reshape main_v11 main_v12 rfl shapeCasts_S1x128_S128,
    unary main_v12 main_v13 (broadcastInDim S1x128 ![1] bcast_S128_S1x128_1 : (⟨S128, .f32⟩ : BufTy).Contents (Elt F) → (⟨S1x128, .f32⟩ : BufTy).Contents (Elt F)),
    unary main_v13 main_v14 (broadcastInDim S50000x128 ![0, 1] bcast_S1x128_S50000x128_0_1 : (⟨S1x128, .f32⟩ : BufTy).Contents (Elt F) → (⟨S50000x128, .f32⟩ : BufTy).Contents (Elt F)),
    binary main_v10 main_v14 main_v15 (addf : (⟨S50000x128, .f32⟩ : BufTy).Contents (Elt F) → (⟨S50000x128, .f32⟩ : BufTy).Contents (Elt F) → (⟨S50000x128, .f32⟩ : BufTy).Contents (Elt F)) ]

/-- Operations 16 … 49 of @main. -/
abbrev g2 : List (HloOp τ sig (Elt F)) :=
  [
    unary main_arg9 main_v16 ((extractStridedSlice S1x600000 ![0, 0] · slices_S2x600000_S1x600000_0_0) : (⟨S2x600000, .i32⟩ : BufTy).Contents (Elt F) → (⟨S1x600000, .i32⟩ : BufTy).Contents (Elt F)),
    reshape main_v16 main_v17 rfl shapeCasts_S1x600000_S600000,
    nullary main_c (constantI S_ 32 0#32),
    unary main_c main_v18 (broadcastInDim S600000 ![] bcast_S_S600000 : (⟨S_, .i32⟩ : BufTy).Contents (Elt F) → (⟨S600000, .i32⟩ : BufTy).Contents (Elt F)),
    binary main_v17 main_v18 main_v19 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v20 (broadcastInDim S600000 ![] bcast_S_S600000 : (⟨S_, .i32⟩ : BufTy).Contents (Elt F) → (⟨S600000, .i32⟩ : BufTy).Contents (Elt F)),
    binary main_v17 main_v20 main_v21 (addi : (⟨S600000, .i32⟩ : BufTy).Contents (Elt F) → (⟨S600000, .i32⟩ : BufTy).Contents (Elt F) → (⟨S600000, .i32⟩ : BufTy).Contents (Elt F)),
    ternary main_v19 main_v21 main_v17 main_v22 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v22 main_v23 (broadcastInDim S600000x1 ![0] bcast_S600000_S600000x1_0 : (⟨S600000, .i32⟩ : BufTy).Contents (Elt F) → (⟨S600000x1, .i32⟩ : BufTy).Contents (Elt F)),
    binary main_v7 main_v23 main_v24 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg9 main_v25 ((extractStridedSlice S1x600000 ![1, 0] · slices_S2x600000_S1x600000_1_0) : (⟨S2x600000, .i32⟩ : BufTy).Contents (Elt F) → (⟨S1x600000, .i32⟩ : BufTy).Contents (Elt F)),
    reshape main_v25 main_v26 rfl shapeCasts_S1x600000_S600000,
    nullary main_cst (constant S_ .f32 0x00000000#32),
    unary main_cst main_v27 (broadcastInDim S50000x128 ![] bcast_S_S50000x128 : (⟨S_, .f32⟩ : BufTy).Contents (Elt F) → (⟨S50000x128, .f32⟩ : BufTy).Contents (Elt F)),
    unary main_v26 main_v28 (broadcastInDim S600000x1 ![0] bcast_S600000_S600000x1_0 : (⟨S600000, .i32⟩ : BufTy).Contents (Elt F) → (⟨S600000x1, .i32⟩ : BufTy).Contents (Elt F)),
    ternary main_v27 main_v28 main_v24 main_v29 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg10 main_v30 ((extractStridedSlice S1x600000 ![0, 0] · slices_S2x600000_S1x600000_0_0) : (⟨S2x600000, .i32⟩ : BufTy).Contents (Elt F) → (⟨S1x600000, .i32⟩ : BufTy).Contents (Elt F)),
    reshape main_v30 main_v31 rfl shapeCasts_S1x600000_S600000,
    nullary main_c_1 (constantI S_ 32 0#32),
    unary main_c_1 main_v32 (broadcastInDim S600000 ![] bcast_S_S600000 : (⟨S_, .i32⟩ : BufTy).Contents (Elt F) → (⟨S600000, .i32⟩ : BufTy).Contents (Elt F)),
    binary main_v31 main_v32 main_v33 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v34 (broadcastInDim S600000 ![] bcast_S_S600000 : (⟨S_, .i32⟩ : BufTy).Contents (Elt F) → (⟨S600000, .i32⟩ : BufTy).Contents (Elt F)),
    binary main_v31 main_v34 main_v35 (addi : (⟨S600000, .i32⟩ : BufTy).Contents (Elt F) → (⟨S600000, .i32⟩ : BufTy).Contents (Elt F) → (⟨S600000, .i32⟩ : BufTy).Contents (Elt F)),
    ternary main_v33 main_v35 main_v31 main_v36 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v36 main_v37 (broadcastInDim S600000x1 ![0] bcast_S600000_S600000x1_0 : (⟨S600000, .i32⟩ : BufTy).Contents (Elt F) → (⟨S600000x1, .i32⟩ : BufTy).Contents (Elt F)),
    binary main_v15 main_v37 main_v38 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg10 main_v39 ((extractStridedSlice S1x600000 ![1, 0] · slices_S2x600000_S1x600000_1_0) : (⟨S2x600000, .i32⟩ : BufTy).Contents (Elt F) → (⟨S1x600000, .i32⟩ : BufTy).Contents (Elt F)),
    reshape main_v39 main_v40 rfl shapeCasts_S1x600000_S600000,
    nullary main_cst_3 (constant S_ .f32 0x00000000#32),
    unary main_cst_3 main_v41 (broadcastInDim S100000x128 ![] bcast_S_S100000x128 : (⟨S_, .f32⟩ : BufTy).Contents (Elt F) → (⟨S100000x128, .f32⟩ : BufTy).Contents (Elt F)),
    unary main_v40 main_v42 (broadcastInDim S600000x1 ![0] bcast_S600000_S600000x1_0 : (⟨S600000, .i32⟩ : BufTy).Contents (Elt F) → (⟨S600000x1, .i32⟩ : BufTy).Contents (Elt F)),
    ternary main_v41 main_v42 main_v38 main_v43 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- Operations 50 … 82 of @main. -/
abbrev g3 : List (HloOp τ sig (Elt F)) :=
  [
    unary main_arg6 main_v44 ((extractStridedSlice S1x1 ![0, 0] · slices_S2x2_S1x1_0_0) : (⟨S2x2, .f32⟩ : BufTy).Contents (Elt F) → (⟨S1x1, .f32⟩ : BufTy).Contents (Elt F)),
    reshape main_v44 main_v45 rfl shapeCasts_S1x1_S_,
    nullary main_cst_4 (constant S_ .f32 0x3F800000#32),
    binary main_cst_4 main_v45 main_v46 (addf : (⟨S_, .f32⟩ : BufTy).Contents (Elt F) → (⟨S_, .f32⟩ : BufTy).Contents (Elt F) → (⟨S_, .f32⟩ : BufTy).Contents (Elt F)),
    unary main_v46 main_v47 (broadcastInDim S50000x128 ![] bcast_S_S50000x128 : (⟨S_, .f32⟩ : BufTy).Contents (Elt F) → (⟨S50000x128, .f32⟩ : BufTy).Contents (Elt F)),
    binary main_v47 main_v15 main_v48 (mulf : (⟨S50000x128, .f32⟩ : BufTy).Contents (Elt F) → (⟨S50000x128, .f32⟩ : BufTy).Contents (Elt F) → (⟨S50000x128, .f32⟩ : BufTy).Contents (Elt F)),
    binary main_v48 main_v29 main_v49 (addf : (⟨S50000x128, .f32⟩ : BufTy).Contents (Elt F) → (⟨S50000x128, .f32⟩ : BufTy).Contents (Elt F) → (⟨S50000x128, .f32⟩ : BufTy).Contents (Elt F)),
    unary main_arg4 main_v50 ((extractStridedSlice S1x1x2x128x128 ![0, 0, 0, 0, 0] · slices_S2x2x2x128x128_S1x1x2x128x128_0_0_0_0_0) : (⟨S2x2x2x128x128, .f32⟩ : BufTy).Contents (Elt F) → (⟨S1x1x2x128x128, .f32⟩ : BufTy).Contents (Elt F)),
    reshape main_v50 main_v51 rfl shapeCasts_S1x1x2x128x128_S2x128x128,
    unary main_arg5 main_v52 ((extractStridedSlice S1x1x2x128 ![0, 0, 0, 0] · slices_S2x2x2x128_S1x1x2x128_0_0_0_0) : (⟨S2x2x2x128, .f32⟩ : BufTy).Contents (Elt F) → (⟨S1x1x2x128, .f32⟩ : BufTy).Contents (Elt F)),
    reshape main_v52 main_v53 rfl shapeCasts_S1x1x2x128_S2x128,
    unary main_v51 main_v54 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v54 main_v55 rfl shapeCasts_S1x128x128_S128x128,
    binary main_v49 main_v55 main_v56 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v53 main_v57 ((extractStridedSlice S1x128 ![0, 0] · slices_S2x128_S1x128_0_0) : (⟨S2x128, .f32⟩ : BufTy).Contents (Elt F) → (⟨S1x128, .f32⟩ : BufTy).Contents (Elt F)),
    reshape main_v57 main_v58 rfl shapeCasts_S1x128_S128,
    unary main_v58 main_v59 (broadcastInDim S1x128 ![1] bcast_S128_S1x128_1 : (⟨S128, .f32⟩ : BufTy).Contents (Elt F) → (⟨S1x128, .f32⟩ : BufTy).Contents (Elt F)),
    unary main_v59 main_v60 (broadcastInDim S50000x128 ![0, 1] bcast_S1x128_S50000x128_0_1 : (⟨S1x128, .f32⟩ : BufTy).Contents (Elt F) → (⟨S50000x128, .f32⟩ : BufTy).Contents (Elt F)),
    binary main_v56 main_v60 main_v61 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v61) (TRef.of (T := ⟨S50000x128, .f32⟩) main_call0_v0) (TRef.of (T := ⟨S50000x128, .f32⟩) main_v62) maximumf,
    unary main_v51 main_v63 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v63 main_v64 rfl shapeCasts_S1x128x128_S128x128,
    binary main_v62 main_v64 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v53 main_v66 ((extractStridedSlice S1x128 ![1, 0] · slices_S2x128_S1x128_1_0) : (⟨S2x128, .f32⟩ : BufTy).Contents (Elt F) → (⟨S1x128, .f32⟩ : BufTy).Contents (Elt F)),
    reshape main_v66 main_v67 rfl shapeCasts_S1x128_S128,
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v65 main_v69 main_v70 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v70) (TRef.of (T := ⟨S50000x128, .f32⟩) main_call1_v0) (TRef.of (T := ⟨S50000x128, .f32⟩) main_v71) maximumf ]

/-- Operations 83 … 115 of @main. -/
abbrev g4 : List (HloOp τ sig (Elt F)) :=
  [
    unary main_arg6 main_v72 ((extractStridedSlice S1x1 ![0, 1] · slices_S2x2_S1x1_0_1) : (⟨S2x2, .f32⟩ : BufTy).Contents (Elt F) → (⟨S1x1, .f32⟩ : BufTy).Contents (Elt F)),
    reshape main_v72 main_v73 rfl shapeCasts_S1x1_S_,
    nullary main_cst_5 (constant S_ .f32 0x3F800000#32),
    binary main_cst_5 main_v73 main_v74 (addf : (⟨S_, .f32⟩ : BufTy).Contents (Elt F) → (⟨S_, .f32⟩ : BufTy).Contents (Elt F) → (⟨S_, .f32⟩ : BufTy).Contents (Elt F)),
    unary main_v74 main_v75 (broadcastInDim S100000x128 ![] bcast_S_S100000x128 : (⟨S_, .f32⟩ : BufTy).Contents (Elt F) → (⟨S100000x128, .f32⟩ : BufTy).Contents (Elt F)),
    binary main_v75 main_v7 main_v76 (mulf : (⟨S100000x128, .f32⟩ : BufTy).Contents (Elt F) → (⟨S100000x128, .f32⟩ : BufTy).Contents (Elt F) → (⟨S100000x128, .f32⟩ : BufTy).Contents (Elt F)),
    binary main_v76 main_v43 main_v77 (addf : (⟨S100000x128, .f32⟩ : BufTy).Contents (Elt F) → (⟨S100000x128, .f32⟩ : BufTy).Contents (Elt F) → (⟨S100000x128, .f32⟩ : BufTy).Contents (Elt F)),
    unary main_arg4 main_v78 ((extractStridedSlice S1x1x2x128x128 ![0, 1, 0, 0, 0] · slices_S2x2x2x128x128_S1x1x2x128x128_0_1_0_0_0) : (⟨S2x2x2x128x128, .f32⟩ : BufTy).Contents (Elt F) → (⟨S1x1x2x128x128, .f32⟩ : BufTy).Contents (Elt F)),
    reshape main_v78 main_v79 rfl shapeCasts_S1x1x2x128x128_S2x128x128,
    unary main_arg5 main_v80 ((extractStridedSlice S1x1x2x128 ![0, 1, 0, 0] · slices_S2x2x2x128_S1x1x2x128_0_1_0_0) : (⟨S2x2x2x128, .f32⟩ : BufTy).Contents (Elt F) → (⟨S1x1x2x128, .f32⟩ : BufTy).Contents (Elt F)),
    reshape main_v80 main_v81 rfl shapeCasts_S1x1x2x128_S2x128,
    unary main_v79 main_v82 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v82 main_v83 rfl shapeCasts_S1x128x128_S128x128,
    binary main_v77 main_v83 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v81 main_v85 ((extractStridedSlice S1x128 ![0, 0] · slices_S2x128_S1x128_0_0) : (⟨S2x128, .f32⟩ : BufTy).Contents (Elt F) → (⟨S1x128, .f32⟩ : BufTy).Contents (Elt F)),
    reshape main_v85 main_v86 rfl shapeCasts_S1x128_S128,
    unary main_v86 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v84 main_v88 main_v89 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v89) (TRef.of (T := ⟨S100000x128, .f32⟩) main_call2_v0) (TRef.of (T := ⟨S100000x128, .f32⟩) main_v90) maximumf,
    unary main_v79 main_v91 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v91 main_v92 rfl shapeCasts_S1x128x128_S128x128,
    binary main_v90 main_v92 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v81 main_v94 ((extractStridedSlice S1x128 ![1, 0] · slices_S2x128_S1x128_1_0) : (⟨S2x128, .f32⟩ : BufTy).Contents (Elt F) → (⟨S1x128, .f32⟩ : BufTy).Contents (Elt F)),
    reshape main_v94 main_v95 rfl shapeCasts_S1x128_S128,
    unary main_v95 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v93 main_v97 main_v98 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v98) (TRef.of (T := ⟨S100000x128, .f32⟩) main_call3_v0) (TRef.of (T := ⟨S100000x128, .f32⟩) main_v99) maximumf ]

/-- Operations 116 … 151 of @main. -/
abbrev g5 : List (HloOp τ sig (Elt F)) :=
  [
    unary main_arg7 main_v100 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v100 main_v101 rfl shapeCasts_S1x1x128_S128,
    unary main_arg8 main_v102 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v102 main_v103 rfl shapeCasts_S1x1x128_S128,
    nullary main_cst_6 (constant S_ .f32 0x00000000#32),
    binary main_v99 main_cst_6 main_v104 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v104 main_v105 (broadcastInDim S100000x1 ![0] bcast_S100000_S100000x1_0 : (⟨S100000, .f32⟩ : BufTy).Contents (Elt F) → (⟨S100000x1, .f32⟩ : BufTy).Contents (Elt F)),
    nullary main_cst_7 (constant S_ .f32 0x43000000#32),
    unary main_cst_7 main_v106 (broadcastInDim S100000x1 ![] bcast_S_S100000x1 : (⟨S_, .f32⟩ : BufTy).Contents (Elt F) → (⟨S100000x1, .f32⟩ : BufTy).Contents (Elt F)),
    binary main_v105 main_v106 main_v107 (Host.divf : (⟨S100000x1, .f32⟩ : BufTy).Contents (Elt F) → (⟨S100000x1, .f32⟩ : BufTy).Contents (Elt F) → (⟨S100000x1, .f32⟩ : BufTy).Contents (Elt F)),
    unary main_v107 main_v108 (broadcastInDim S100000x128 ![0, 1] bcast_S100000x1_S100000x128_0_1 : (⟨S100000x1, .f32⟩ : BufTy).Contents (Elt F) → (⟨S100000x128, .f32⟩ : BufTy).Contents (Elt F)),
    binary main_v99 main_v108 main_v109 (subf : (⟨S100000x128, .f32⟩ : BufTy).Contents (Elt F) → (⟨S100000x128, .f32⟩ : BufTy).Contents (Elt F) → (⟨S100000x128, .f32⟩ : BufTy).Contents (Elt F)),
    binary main_v109 main_v109 main_v110 (mulf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v110 main_cst_8 main_v111 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v111 main_v112 (broadcastInDim S100000x1 ![0] bcast_S100000_S100000x1_0 : (⟨S100000, .f32⟩ : BufTy).Contents (Elt F) → (⟨S100000x1, .f32⟩ : BufTy).Contents (Elt F)),
    nullary main_cst_9 (constant S_ .f32 0x43000000#32),
    unary main_cst_9 main_v113 (broadcastInDim S100000x1 ![] bcast_S_S100000x1 : (⟨S_, .f32⟩ : BufTy).Contents (Elt F) → (⟨S100000x1, .f32⟩ : BufTy).Contents (Elt F)),
    binary main_v112 main_v113 main_v114 (Host.divf : (⟨S100000x1, .f32⟩ : BufTy).Contents (Elt F) → (⟨S100000x1, .f32⟩ : BufTy).Contents (Elt F) → (⟨S100000x1, .f32⟩ : BufTy).Contents (Elt F)),
    unary main_v107 main_v115 (broadcastInDim S100000x128 ![0, 1] bcast_S100000x1_S100000x128_0_1 : (⟨S100000x1, .f32⟩ : BufTy).Contents (Elt F) → (⟨S100000x128, .f32⟩ : BufTy).Contents (Elt F)),
    binary main_v99 main_v115 main_v116 (subf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3727C5AC#32),
    unary main_cst_10 main_v117 (broadcastInDim S100000x1 ![] bcast_S_S100000x1 : (⟨S_, .f32⟩ : BufTy).Contents (Elt F) → (⟨S100000x1, .f32⟩ : BufTy).Contents (Elt F)),
    binary main_v114 main_v117 main_v118 (addf : (⟨S100000x1, .f32⟩ : BufTy).Contents (Elt F) → (⟨S100000x1, .f32⟩ : BufTy).Contents (Elt F) → (⟨S100000x1, .f32⟩ : BufTy).Contents (Elt F)),
    unary main_v118 main_v119 (Host.rsqrt : (⟨S100000x1, .f32⟩ : BufTy).Contents (Elt F) → (⟨S100000x1, .f32⟩ : BufTy).Contents (Elt F)),
    unary main_v119 main_v120 (broadcastInDim S100000x128 ![0, 1] bcast_S100000x1_S100000x128_0_1 : (⟨S100000x1, .f32⟩ : BufTy).Contents (Elt F) → (⟨S100000x128, .f32⟩ : BufTy).Contents (Elt F)),
    binary main_v116 main_v120 main_v121 (mulf : (⟨S100000x128, .f32⟩ : BufTy).Contents (Elt F) → (⟨S100000x128, .f32⟩ : BufTy).Contents (Elt F) → (⟨S100000x128, .f32⟩ : BufTy).Contents (Elt F)),
    unary main_v101 main_v122 (broadcastInDim S1x128 ![1] bcast_S128_S1x128_1 : (⟨S128, .f32⟩ : BufTy).Contents (Elt F) → (⟨S1x128, .f32⟩ : BufTy).Contents (Elt F)),
    unary main_v122 main_v123 (broadcastInDim S100000x128 ![0, 1] bcast_S1x128_S100000x128_0_1 : (⟨S1x128, .f32⟩ : BufTy).Contents (Elt F) → (⟨S100000x128, .f32⟩ : BufTy).Contents (Elt F)),
    binary main_v121 main_v123 main_v124 (mulf : (⟨S100000x128, .f32⟩ : BufTy).Contents (Elt F) → (⟨S100000x128, .f32⟩ : BufTy).Contents (Elt F) → (⟨S100000x128, .f32⟩ : BufTy).Contents (Elt F)),
    unary main_v103 main_v125 (broadcastInDim S1x128 ![1] bcast_S128_S1x128_1 : (⟨S128, .f32⟩ : BufTy).Contents (Elt F) → (⟨S1x128, .f32⟩ : BufTy).Contents (Elt F)),
    unary main_v125 main_v126 (broadcastInDim S100000x128 ![0, 1] bcast_S1x128_S100000x128_0_1 : (⟨S1x128, .f32⟩ : BufTy).Contents (Elt F) → (⟨S100000x128, .f32⟩ : BufTy).Contents (Elt F)),
    binary main_v124 main_v126 main_v127 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v127) (TRef.of (T := ⟨S100000x128, .f32⟩) main_call4_v0) (TRef.of (T := ⟨S100000x128, .f32⟩) main_v128) maximumf ]

/-- Operations 152 … 187 of @main. -/
abbrev g6 : List (HloOp τ sig (Elt F)) :=
  [
    unary main_arg7 main_v129 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v129 main_v130 rfl shapeCasts_S1x1x128_S128,
    unary main_arg8 main_v131 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v131 main_v132 rfl shapeCasts_S1x1x128_S128,
    nullary main_cst_11 (constant S_ .f32 0x00000000#32),
    binary main_v71 main_cst_11 main_v133 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v133 main_v134 (broadcastInDim S50000x1 ![0] bcast_S50000_S50000x1_0 : (⟨S50000, .f32⟩ : BufTy).Contents (Elt F) → (⟨S50000x1, .f32⟩ : BufTy).Contents (Elt F)),
    nullary main_cst_12 (constant S_ .f32 0x43000000#32),
    unary main_cst_12 main_v135 (broadcastInDim S50000x1 ![] bcast_S_S50000x1 : (⟨S_, .f32⟩ : BufTy).Contents (Elt F) → (⟨S50000x1, .f32⟩ : BufTy).Contents (Elt F)),
    binary main_v134 main_v135 main_v136 (Host.divf : (⟨S50000x1, .f32⟩ : BufTy).Contents (Elt F) → (⟨S50000x1, .f32⟩ : BufTy).Contents (Elt F) → (⟨S50000x1, .f32⟩ : BufTy).Contents (Elt F)),
    unary main_v136 main_v137 (broadcastInDim S50000x128 ![0, 1] bcast_S50000x1_S50000x128_0_1 : (⟨S50000x1, .f32⟩ : BufTy).Contents (Elt F) → (⟨S50000x128, .f32⟩ : BufTy).Contents (Elt F)),
    binary main_v71 main_v137 main_v138 (subf : (⟨S50000x128, .f32⟩ : BufTy).Contents (Elt F) → (⟨S50000x128, .f32⟩ : BufTy).Contents (Elt F) → (⟨S50000x128, .f32⟩ : BufTy).Contents (Elt F)),
    binary main_v138 main_v138 main_v139 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    binary main_v139 main_cst_13 main_v140 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v140 main_v141 (broadcastInDim S50000x1 ![0] bcast_S50000_S50000x1_0 : (⟨S50000, .f32⟩ : BufTy).Contents (Elt F) → (⟨S50000x1, .f32⟩ : BufTy).Contents (Elt F)),
    nullary main_cst_14 (constant S_ .f32 0x43000000#32),
    unary main_cst_14 main_v142 (broadcastInDim S50000x1 ![] bcast_S_S50000x1 : (⟨S_, .f32⟩ : BufTy).Contents (Elt F) → (⟨S50000x1, .f32⟩ : BufTy).Contents (Elt F)),
    binary main_v141 main_v142 main_v143 (Host.divf : (⟨S50000x1, .f32⟩ : BufTy).Contents (Elt F) → (⟨S50000x1, .f32⟩ : BufTy).Contents (Elt F) → (⟨S50000x1, .f32⟩ : BufTy).Contents (Elt F)),
    unary main_v136 main_v144 (broadcastInDim S50000x128 ![0, 1] bcast_S50000x1_S50000x128_0_1 : (⟨S50000x1, .f32⟩ : BufTy).Contents (Elt F) → (⟨S50000x128, .f32⟩ : BufTy).Contents (Elt F)),
    binary main_v71 main_v144 main_v145 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v146 (broadcastInDim S50000x1 ![] bcast_S_S50000x1 : (⟨S_, .f32⟩ : BufTy).Contents (Elt F) → (⟨S50000x1, .f32⟩ : BufTy).Contents (Elt F)),
    binary main_v143 main_v146 main_v147 (addf : (⟨S50000x1, .f32⟩ : BufTy).Contents (Elt F) → (⟨S50000x1, .f32⟩ : BufTy).Contents (Elt F) → (⟨S50000x1, .f32⟩ : BufTy).Contents (Elt F)),
    unary main_v147 main_v148 (Host.rsqrt : (⟨S50000x1, .f32⟩ : BufTy).Contents (Elt F) → (⟨S50000x1, .f32⟩ : BufTy).Contents (Elt F)),
    unary main_v148 main_v149 (broadcastInDim S50000x128 ![0, 1] bcast_S50000x1_S50000x128_0_1 : (⟨S50000x1, .f32⟩ : BufTy).Contents (Elt F) → (⟨S50000x128, .f32⟩ : BufTy).Contents (Elt F)),
    binary main_v145 main_v149 main_v150 (mulf : (⟨S50000x128, .f32⟩ : BufTy).Contents (Elt F) → (⟨S50000x128, .f32⟩ : BufTy).Contents (Elt F) → (⟨S50000x128, .f32⟩ : BufTy).Contents (Elt F)),
    unary main_v130 main_v151 (broadcastInDim S1x128 ![1] bcast_S128_S1x128_1 : (⟨S128, .f32⟩ : BufTy).Contents (Elt F) → (⟨S1x128, .f32⟩ : BufTy).Contents (Elt F)),
    unary main_v151 main_v152 (broadcastInDim S50000x128 ![0, 1] bcast_S1x128_S50000x128_0_1 : (⟨S1x128, .f32⟩ : BufTy).Contents (Elt F) → (⟨S50000x128, .f32⟩ : BufTy).Contents (Elt F)),
    binary main_v150 main_v152 main_v153 (mulf : (⟨S50000x128, .f32⟩ : BufTy).Contents (Elt F) → (⟨S50000x128, .f32⟩ : BufTy).Contents (Elt F) → (⟨S50000x128, .f32⟩ : BufTy).Contents (Elt F)),
    unary main_v132 main_v154 (broadcastInDim S1x128 ![1] bcast_S128_S1x128_1 : (⟨S128, .f32⟩ : BufTy).Contents (Elt F) → (⟨S1x128, .f32⟩ : BufTy).Contents (Elt F)),
    unary main_v154 main_v155 (broadcastInDim S50000x128 ![0, 1] bcast_S1x128_S50000x128_0_1 : (⟨S1x128, .f32⟩ : BufTy).Contents (Elt F) → (⟨S50000x128, .f32⟩ : BufTy).Contents (Elt F)),
    binary main_v153 main_v155 main_v156 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v156) (TRef.of (T := ⟨S50000x128, .f32⟩) main_call5_v0) (TRef.of (T := ⟨S50000x128, .f32⟩) main_v157) maximumf ]

/-- Operations 188 … 221 of @main. -/
abbrev g7 : List (HloOp τ sig (Elt F)) :=
  [
    unary main_arg9 main_v158 ((extractStridedSlice S1x600000 ![0, 0] · slices_S2x600000_S1x600000_0_0) : (⟨S2x600000, .i32⟩ : BufTy).Contents (Elt F) → (⟨S1x600000, .i32⟩ : BufTy).Contents (Elt F)),
    reshape main_v158 main_v159 rfl shapeCasts_S1x600000_S600000,
    nullary main_c_16 (constantI S_ 32 0#32),
    unary main_c_16 main_v160 (broadcastInDim S600000 ![] bcast_S_S600000 : (⟨S_, .i32⟩ : BufTy).Contents (Elt F) → (⟨S600000, .i32⟩ : BufTy).Contents (Elt F)),
    binary main_v159 main_v160 main_v161 (cmpi .slt : (⟨S600000, .i32⟩ : BufTy).Contents (Elt F) → (⟨S600000, .i32⟩ : BufTy).Contents (Elt F) → (⟨S600000, .i1⟩ : BufTy).Contents (Elt F)),
    nullary main_c_17 (constantI S_ 32 100000#32),
    unary main_c_17 main_v162 (broadcastInDim S600000 ![] bcast_S_S600000 : (⟨S_, .i32⟩ : BufTy).Contents (Elt F) → (⟨S600000, .i32⟩ : BufTy).Contents (Elt F)),
    binary main_v159 main_v162 main_v163 (addi : (⟨S600000, .i32⟩ : BufTy).Contents (Elt F) → (⟨S600000, .i32⟩ : BufTy).Contents (Elt F) → (⟨S600000, .i32⟩ : BufTy).Contents (Elt F)),
    ternary main_v161 main_v163 main_v159 main_v164 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v164 main_v165 (broadcastInDim S600000x1 ![0] bcast_S600000_S600000x1_0 : (⟨S600000, .i32⟩ : BufTy).Contents (Elt F) → (⟨S600000x1, .i32⟩ : BufTy).Contents (Elt F)),
    binary main_v128 main_v165 main_v166 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg9 main_v167 ((extractStridedSlice S1x600000 ![1, 0] · slices_S2x600000_S1x600000_1_0) : (⟨S2x600000, .i32⟩ : BufTy).Contents (Elt F) → (⟨S1x600000, .i32⟩ : BufTy).Contents (Elt F)),
    reshape main_v167 main_v168 rfl shapeCasts_S1x600000_S600000,
    nullary main_cst_18 (constant S_ .f32 0x00000000#32),
    unary main_cst_18 main_v169 (broadcastInDim S50000x128 ![] bcast_S_S50000x128 : (⟨S_, .f32⟩ : BufTy).Contents (Elt F) → (⟨S50000x128, .f32⟩ : BufTy).Contents (Elt F)),
    unary main_v168 main_v170 (broadcastInDim S600000x1 ![0] bcast_S600000_S600000x1_0 : (⟨S600000, .i32⟩ : BufTy).Contents (Elt F) → (⟨S600000x1, .i32⟩ : BufTy).Contents (Elt F)),
    ternary main_v169 main_v170 main_v166 main_v171 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg10 main_v172 ((extractStridedSlice S1x600000 ![0, 0] · slices_S2x600000_S1x600000_0_0) : (⟨S2x600000, .i32⟩ : BufTy).Contents (Elt F) → (⟨S1x600000, .i32⟩ : BufTy).Contents (Elt F)),
    reshape main_v172 main_v173 rfl shapeCasts_S1x600000_S600000,
    nullary main_c_19 (constantI S_ 32 0#32),
    unary main_c_19 main_v174 (broadcastInDim S600000 ![] bcast_S_S600000 : (⟨S_, .i32⟩ : BufTy).Contents (Elt F) → (⟨S600000, .i32⟩ : BufTy).Contents (Elt F)),
    binary main_v173 main_v174 main_v175 (cmpi .slt : (⟨S600000, .i32⟩ : BufTy).Contents (Elt F) → (⟨S600000, .i32⟩ : BufTy).Contents (Elt F) → (⟨S600000, .i1⟩ : BufTy).Contents (Elt F)),
    nullary main_c_20 (constantI S_ 32 50000#32),
    unary main_c_20 main_v176 (broadcastInDim S600000 ![] bcast_S_S600000 : (⟨S_, .i32⟩ : BufTy).Contents (Elt F) → (⟨S600000, .i32⟩ : BufTy).Contents (Elt F)),
    binary main_v173 main_v176 main_v177 (addi : (⟨S600000, .i32⟩ : BufTy).Contents (Elt F) → (⟨S600000, .i32⟩ : BufTy).Contents (Elt F) → (⟨S600000, .i32⟩ : BufTy).Contents (Elt F)),
    ternary main_v175 main_v177 main_v173 main_v178 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v178 main_v179 (broadcastInDim S600000x1 ![0] bcast_S600000_S600000x1_0 : (⟨S600000, .i32⟩ : BufTy).Contents (Elt F) → (⟨S600000x1, .i32⟩ : BufTy).Contents (Elt F)),
    binary main_v157 main_v179 main_v180 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg10 main_v181 ((extractStridedSlice S1x600000 ![1, 0] · slices_S2x600000_S1x600000_1_0) : (⟨S2x600000, .i32⟩ : BufTy).Contents (Elt F) → (⟨S1x600000, .i32⟩ : BufTy).Contents (Elt F)),
    reshape main_v181 main_v182 rfl shapeCasts_S1x600000_S600000,
    nullary main_cst_21 (constant S_ .f32 0x00000000#32),
    unary main_cst_21 main_v183 (broadcastInDim S100000x128 ![] bcast_S_S100000x128 : (⟨S_, .f32⟩ : BufTy).Contents (Elt F) → (⟨S100000x128, .f32⟩ : BufTy).Contents (Elt F)),
    unary main_v182 main_v184 (broadcastInDim S600000x1 ![0] bcast_S600000_S600000x1_0 : (⟨S600000, .i32⟩ : BufTy).Contents (Elt F) → (⟨S600000x1, .i32⟩ : BufTy).Contents (Elt F)),
    ternary main_v183 main_v184 main_v180 main_v185 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- Operations 222 … 254 of @main. -/
abbrev g8 : List (HloOp τ sig (Elt F)) :=
  [
    unary main_arg6 main_v186 ((extractStridedSlice S1x1 ![1, 0] · slices_S2x2_S1x1_1_0) : (⟨S2x2, .f32⟩ : BufTy).Contents (Elt F) → (⟨S1x1, .f32⟩ : BufTy).Contents (Elt F)),
    reshape main_v186 main_v187 rfl shapeCasts_S1x1_S_,
    nullary main_cst_22 (constant S_ .f32 0x3F800000#32),
    binary main_cst_22 main_v187 main_v188 (addf : (⟨S_, .f32⟩ : BufTy).Contents (Elt F) → (⟨S_, .f32⟩ : BufTy).Contents (Elt F) → (⟨S_, .f32⟩ : BufTy).Contents (Elt F)),
    unary main_v188 main_v189 (broadcastInDim S50000x128 ![] bcast_S_S50000x128 : (⟨S_, .f32⟩ : BufTy).Contents (Elt F) → (⟨S50000x128, .f32⟩ : BufTy).Contents (Elt F)),
    binary main_v189 main_v157 main_v190 (mulf : (⟨S50000x128, .f32⟩ : BufTy).Contents (Elt F) → (⟨S50000x128, .f32⟩ : BufTy).Contents (Elt F) → (⟨S50000x128, .f32⟩ : BufTy).Contents (Elt F)),
    binary main_v190 main_v171 main_v191 (addf : (⟨S50000x128, .f32⟩ : BufTy).Contents (Elt F) → (⟨S50000x128, .f32⟩ : BufTy).Contents (Elt F) → (⟨S50000x128, .f32⟩ : BufTy).Contents (Elt F)),
    unary main_arg4 main_v192 ((extractStridedSlice S1x1x2x128x128 ![1, 0, 0, 0, 0] · slices_S2x2x2x128x128_S1x1x2x128x128_1_0_0_0_0) : (⟨S2x2x2x128x128, .f32⟩ : BufTy).Contents (Elt F) → (⟨S1x1x2x128x128, .f32⟩ : BufTy).Contents (Elt F)),
    reshape main_v192 main_v193 rfl shapeCasts_S1x1x2x128x128_S2x128x128,
    unary main_arg5 main_v194 ((extractStridedSlice S1x1x2x128 ![1, 0, 0, 0] · slices_S2x2x2x128_S1x1x2x128_1_0_0_0) : (⟨S2x2x2x128, .f32⟩ : BufTy).Contents (Elt F) → (⟨S1x1x2x128, .f32⟩ : BufTy).Contents (Elt F)),
    reshape main_v194 main_v195 rfl shapeCasts_S1x1x2x128_S2x128,
    unary main_v193 main_v196 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v196 main_v197 rfl shapeCasts_S1x128x128_S128x128,
    binary main_v191 main_v197 main_v198 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v195 main_v199 ((extractStridedSlice S1x128 ![0, 0] · slices_S2x128_S1x128_0_0) : (⟨S2x128, .f32⟩ : BufTy).Contents (Elt F) → (⟨S1x128, .f32⟩ : BufTy).Contents (Elt F)),
    reshape main_v199 main_v200 rfl shapeCasts_S1x128_S128,
    unary main_v200 main_v201 (broadcastInDim S1x128 ![1] bcast_S128_S1x128_1 : (⟨S128, .f32⟩ : BufTy).Contents (Elt F) → (⟨S1x128, .f32⟩ : BufTy).Contents (Elt F)),
    unary main_v201 main_v202 (broadcastInDim S50000x128 ![0, 1] bcast_S1x128_S50000x128_0_1 : (⟨S1x128, .f32⟩ : BufTy).Contents (Elt F) → (⟨S50000x128, .f32⟩ : BufTy).Contents (Elt F)),
    binary main_v198 main_v202 main_v203 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v203) (TRef.of (T := ⟨S50000x128, .f32⟩) main_call6_v0) (TRef.of (T := ⟨S50000x128, .f32⟩) main_v204) maximumf,
    unary main_v193 main_v205 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v205 main_v206 rfl shapeCasts_S1x128x128_S128x128,
    binary main_v204 main_v206 main_v207 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v195 main_v208 ((extractStridedSlice S1x128 ![1, 0] · slices_S2x128_S1x128_1_0) : (⟨S2x128, .f32⟩ : BufTy).Contents (Elt F) → (⟨S1x128, .f32⟩ : BufTy).Contents (Elt F)),
    reshape main_v208 main_v209 rfl shapeCasts_S1x128_S128,
    unary main_v209 main_v210 (broadcastInDim S1x128 ![1] bcast_S128_S1x128_1 : (⟨S128, .f32⟩ : BufTy).Contents (Elt F) → (⟨S1x128, .f32⟩ : BufTy).Contents (Elt F)),
    unary main_v210 main_v211 (broadcastInDim S50000x128 ![0, 1] bcast_S1x128_S50000x128_0_1 : (⟨S1x128, .f32⟩ : BufTy).Contents (Elt F) → (⟨S50000x128, .f32⟩ : BufTy).Contents (Elt F)),
    binary main_v207 main_v211 main_v212 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v212) (TRef.of (T := ⟨S50000x128, .f32⟩) main_call7_v0) (TRef.of (T := ⟨S50000x128, .f32⟩) main_v213) maximumf ]

/-- Operations 255 … 287 of @main. -/
abbrev g9 : List (HloOp τ sig (Elt F)) :=
  [
    unary main_arg6 main_v214 ((extractStridedSlice S1x1 ![1, 1] · slices_S2x2_S1x1_1_1) : (⟨S2x2, .f32⟩ : BufTy).Contents (Elt F) → (⟨S1x1, .f32⟩ : BufTy).Contents (Elt F)),
    reshape main_v214 main_v215 rfl shapeCasts_S1x1_S_,
    nullary main_cst_23 (constant S_ .f32 0x3F800000#32),
    binary main_cst_23 main_v215 main_v216 (addf : (⟨S_, .f32⟩ : BufTy).Contents (Elt F) → (⟨S_, .f32⟩ : BufTy).Contents (Elt F) → (⟨S_, .f32⟩ : BufTy).Contents (Elt F)),
    unary main_v216 main_v217 (broadcastInDim S100000x128 ![] bcast_S_S100000x128 : (⟨S_, .f32⟩ : BufTy).Contents (Elt F) → (⟨S100000x128, .f32⟩ : BufTy).Contents (Elt F)),
    binary main_v217 main_v128 main_v218 (mulf : (⟨S100000x128, .f32⟩ : BufTy).Contents (Elt F) → (⟨S100000x128, .f32⟩ : BufTy).Contents (Elt F) → (⟨S100000x128, .f32⟩ : BufTy).Contents (Elt F)),
    binary main_v218 main_v185 main_v219 (addf : (⟨S100000x128, .f32⟩ : BufTy).Contents (Elt F) → (⟨S100000x128, .f32⟩ : BufTy).Contents (Elt F) → (⟨S100000x128, .f32⟩ : BufTy).Contents (Elt F)),
    unary main_arg4 main_v220 ((extractStridedSlice S1x1x2x128x128 ![1, 1, 0, 0, 0] · slices_S2x2x2x128x128_S1x1x2x128x128_1_1_0_0_0) : (⟨S2x2x2x128x128, .f32⟩ : BufTy).Contents (Elt F) → (⟨S1x1x2x128x128, .f32⟩ : BufTy).Contents (Elt F)),
    reshape main_v220 main_v221 rfl shapeCasts_S1x1x2x128x128_S2x128x128,
    unary main_arg5 main_v222 ((extractStridedSlice S1x1x2x128 ![1, 1, 0, 0] · slices_S2x2x2x128_S1x1x2x128_1_1_0_0) : (⟨S2x2x2x128, .f32⟩ : BufTy).Contents (Elt F) → (⟨S1x1x2x128, .f32⟩ : BufTy).Contents (Elt F)),
    reshape main_v222 main_v223 rfl shapeCasts_S1x1x2x128_S2x128,
    unary main_v221 main_v224 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v224 main_v225 rfl shapeCasts_S1x128x128_S128x128,
    binary main_v219 main_v225 main_v226 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v223 main_v227 ((extractStridedSlice S1x128 ![0, 0] · slices_S2x128_S1x128_0_0) : (⟨S2x128, .f32⟩ : BufTy).Contents (Elt F) → (⟨S1x128, .f32⟩ : BufTy).Contents (Elt F)),
    reshape main_v227 main_v228 rfl shapeCasts_S1x128_S128,
    unary main_v228 main_v229 (broadcastInDim S1x128 ![1] bcast_S128_S1x128_1 : (⟨S128, .f32⟩ : BufTy).Contents (Elt F) → (⟨S1x128, .f32⟩ : BufTy).Contents (Elt F)),
    unary main_v229 main_v230 (broadcastInDim S100000x128 ![0, 1] bcast_S1x128_S100000x128_0_1 : (⟨S1x128, .f32⟩ : BufTy).Contents (Elt F) → (⟨S100000x128, .f32⟩ : BufTy).Contents (Elt F)),
    binary main_v226 main_v230 main_v231 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v231) (TRef.of (T := ⟨S100000x128, .f32⟩) main_call8_v0) (TRef.of (T := ⟨S100000x128, .f32⟩) main_v232) maximumf,
    unary main_v221 main_v233 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v233 main_v234 rfl shapeCasts_S1x128x128_S128x128,
    binary main_v232 main_v234 main_v235 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v223 main_v236 ((extractStridedSlice S1x128 ![1, 0] · slices_S2x128_S1x128_1_0) : (⟨S2x128, .f32⟩ : BufTy).Contents (Elt F) → (⟨S1x128, .f32⟩ : BufTy).Contents (Elt F)),
    reshape main_v236 main_v237 rfl shapeCasts_S1x128_S128,
    unary main_v237 main_v238 (broadcastInDim S1x128 ![1] bcast_S128_S1x128_1 : (⟨S128, .f32⟩ : BufTy).Contents (Elt F) → (⟨S1x128, .f32⟩ : BufTy).Contents (Elt F)),
    unary main_v238 main_v239 (broadcastInDim S100000x128 ![0, 1] bcast_S1x128_S100000x128_0_1 : (⟨S1x128, .f32⟩ : BufTy).Contents (Elt F) → (⟨S100000x128, .f32⟩ : BufTy).Contents (Elt F)),
    binary main_v235 main_v239 main_v240 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x128, .f32⟩) main_call9_v0) (broadcastInDim S100000x128 ![] bcast_S_S100000x128),
    TRef.binary (TRef.of (T := ⟨S100000x128, .f32⟩) main_v240) (TRef.of (T := ⟨S100000x128, .f32⟩) main_call9_v0) (TRef.of (T := ⟨S100000x128, .f32⟩) main_v241) maximumf ]

/-- Operations 288 … 323 of @main. -/
abbrev g10 : List (HloOp τ sig (Elt F)) :=
  [
    unary main_arg7 main_v242 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v242 main_v243 rfl shapeCasts_S1x1x128_S128,
    unary main_arg8 main_v244 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v244 main_v245 rfl shapeCasts_S1x1x128_S128,
    nullary main_cst_24 (constant S_ .f32 0x00000000#32),
    binary main_v241 main_cst_24 main_v246 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v246 main_v247 (broadcastInDim S100000x1 ![0] bcast_S100000_S100000x1_0 : (⟨S100000, .f32⟩ : BufTy).Contents (Elt F) → (⟨S100000x1, .f32⟩ : BufTy).Contents (Elt F)),
    nullary main_cst_25 (constant S_ .f32 0x43000000#32),
    unary main_cst_25 main_v248 (broadcastInDim S100000x1 ![] bcast_S_S100000x1 : (⟨S_, .f32⟩ : BufTy).Contents (Elt F) → (⟨S100000x1, .f32⟩ : BufTy).Contents (Elt F)),
    binary main_v247 main_v248 main_v249 (Host.divf : (⟨S100000x1, .f32⟩ : BufTy).Contents (Elt F) → (⟨S100000x1, .f32⟩ : BufTy).Contents (Elt F) → (⟨S100000x1, .f32⟩ : BufTy).Contents (Elt F)),
    unary main_v249 main_v250 (broadcastInDim S100000x128 ![0, 1] bcast_S100000x1_S100000x128_0_1 : (⟨S100000x1, .f32⟩ : BufTy).Contents (Elt F) → (⟨S100000x128, .f32⟩ : BufTy).Contents (Elt F)),
    binary main_v241 main_v250 main_v251 (subf : (⟨S100000x128, .f32⟩ : BufTy).Contents (Elt F) → (⟨S100000x128, .f32⟩ : BufTy).Contents (Elt F) → (⟨S100000x128, .f32⟩ : BufTy).Contents (Elt F)),
    binary main_v251 main_v251 main_v252 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x00000000#32),
    binary main_v252 main_cst_26 main_v253 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v253 main_v254 (broadcastInDim S100000x1 ![0] bcast_S100000_S100000x1_0 : (⟨S100000, .f32⟩ : BufTy).Contents (Elt F) → (⟨S100000x1, .f32⟩ : BufTy).Contents (Elt F)),
    nullary main_cst_27 (constant S_ .f32 0x43000000#32),
    unary main_cst_27 main_v255 (broadcastInDim S100000x1 ![] bcast_S_S100000x1 : (⟨S_, .f32⟩ : BufTy).Contents (Elt F) → (⟨S100000x1, .f32⟩ : BufTy).Contents (Elt F)),
    binary main_v254 main_v255 main_v256 (Host.divf : (⟨S100000x1, .f32⟩ : BufTy).Contents (Elt F) → (⟨S100000x1, .f32⟩ : BufTy).Contents (Elt F) → (⟨S100000x1, .f32⟩ : BufTy).Contents (Elt F)),
    unary main_v249 main_v257 (broadcastInDim S100000x128 ![0, 1] bcast_S100000x1_S100000x128_0_1 : (⟨S100000x1, .f32⟩ : BufTy).Contents (Elt F) → (⟨S100000x128, .f32⟩ : BufTy).Contents (Elt F)),
    binary main_v241 main_v257 main_v258 (subf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x3727C5AC#32),
    unary main_cst_28 main_v259 (broadcastInDim S100000x1 ![] bcast_S_S100000x1 : (⟨S_, .f32⟩ : BufTy).Contents (Elt F) → (⟨S100000x1, .f32⟩ : BufTy).Contents (Elt F)),
    binary main_v256 main_v259 main_v260 (addf : (⟨S100000x1, .f32⟩ : BufTy).Contents (Elt F) → (⟨S100000x1, .f32⟩ : BufTy).Contents (Elt F) → (⟨S100000x1, .f32⟩ : BufTy).Contents (Elt F)),
    unary main_v260 main_v261 (Host.rsqrt : (⟨S100000x1, .f32⟩ : BufTy).Contents (Elt F) → (⟨S100000x1, .f32⟩ : BufTy).Contents (Elt F)),
    unary main_v261 main_v262 (broadcastInDim S100000x128 ![0, 1] bcast_S100000x1_S100000x128_0_1 : (⟨S100000x1, .f32⟩ : BufTy).Contents (Elt F) → (⟨S100000x128, .f32⟩ : BufTy).Contents (Elt F)),
    binary main_v258 main_v262 main_v263 (mulf : (⟨S100000x128, .f32⟩ : BufTy).Contents (Elt F) → (⟨S100000x128, .f32⟩ : BufTy).Contents (Elt F) → (⟨S100000x128, .f32⟩ : BufTy).Contents (Elt F)),
    unary main_v243 main_v264 (broadcastInDim S1x128 ![1] bcast_S128_S1x128_1 : (⟨S128, .f32⟩ : BufTy).Contents (Elt F) → (⟨S1x128, .f32⟩ : BufTy).Contents (Elt F)),
    unary main_v264 main_v265 (broadcastInDim S100000x128 ![0, 1] bcast_S1x128_S100000x128_0_1 : (⟨S1x128, .f32⟩ : BufTy).Contents (Elt F) → (⟨S100000x128, .f32⟩ : BufTy).Contents (Elt F)),
    binary main_v263 main_v265 main_v266 (mulf : (⟨S100000x128, .f32⟩ : BufTy).Contents (Elt F) → (⟨S100000x128, .f32⟩ : BufTy).Contents (Elt F) → (⟨S100000x128, .f32⟩ : BufTy).Contents (Elt F)),
    unary main_v245 main_v267 (broadcastInDim S1x128 ![1] bcast_S128_S1x128_1 : (⟨S128, .f32⟩ : BufTy).Contents (Elt F) → (⟨S1x128, .f32⟩ : BufTy).Contents (Elt F)),
    unary main_v267 main_v268 (broadcastInDim S100000x128 ![0, 1] bcast_S1x128_S100000x128_0_1 : (⟨S1x128, .f32⟩ : BufTy).Contents (Elt F) → (⟨S100000x128, .f32⟩ : BufTy).Contents (Elt F)),
    binary main_v266 main_v268 main_v269 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x128, .f32⟩) main_call10_v0) (broadcastInDim S100000x128 ![] bcast_S_S100000x128),
    TRef.binary (TRef.of (T := ⟨S100000x128, .f32⟩) main_v269) (TRef.of (T := ⟨S100000x128, .f32⟩) main_call10_v0) (TRef.of (T := ⟨S100000x128, .f32⟩) main_v270) maximumf ]

/-- Operations 324 … 359 of @main. -/
abbrev g11 : List (HloOp τ sig (Elt F)) :=
  [
    unary main_arg7 main_v271 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v271 main_v272 rfl shapeCasts_S1x1x128_S128,
    unary main_arg8 main_v273 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v273 main_v274 rfl shapeCasts_S1x1x128_S128,
    nullary main_cst_29 (constant S_ .f32 0x00000000#32),
    binary main_v213 main_cst_29 main_v275 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v275 main_v276 (broadcastInDim S50000x1 ![0] bcast_S50000_S50000x1_0 : (⟨S50000, .f32⟩ : BufTy).Contents (Elt F) → (⟨S50000x1, .f32⟩ : BufTy).Contents (Elt F)),
    nullary main_cst_30 (constant S_ .f32 0x43000000#32),
    unary main_cst_30 main_v277 (broadcastInDim S50000x1 ![] bcast_S_S50000x1 : (⟨S_, .f32⟩ : BufTy).Contents (Elt F) → (⟨S50000x1, .f32⟩ : BufTy).Contents (Elt F)),
    binary main_v276 main_v277 main_v278 (Host.divf : (⟨S50000x1, .f32⟩ : BufTy).Contents (Elt F) → (⟨S50000x1, .f32⟩ : BufTy).Contents (Elt F) → (⟨S50000x1, .f32⟩ : BufTy).Contents (Elt F)),
    unary main_v278 main_v279 (broadcastInDim S50000x128 ![0, 1] bcast_S50000x1_S50000x128_0_1 : (⟨S50000x1, .f32⟩ : BufTy).Contents (Elt F) → (⟨S50000x128, .f32⟩ : BufTy).Contents (Elt F)),
    binary main_v213 main_v279 main_v280 (subf : (⟨S50000x128, .f32⟩ : BufTy).Contents (Elt F) → (⟨S50000x128, .f32⟩ : BufTy).Contents (Elt F) → (⟨S50000x128, .f32⟩ : BufTy).Contents (Elt F)),
    binary main_v280 main_v280 main_v281 (mulf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32),
    binary main_v281 main_cst_31 main_v282 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v282 main_v283 (broadcastInDim S50000x1 ![0] bcast_S50000_S50000x1_0 : (⟨S50000, .f32⟩ : BufTy).Contents (Elt F) → (⟨S50000x1, .f32⟩ : BufTy).Contents (Elt F)),
    nullary main_cst_32 (constant S_ .f32 0x43000000#32),
    unary main_cst_32 main_v284 (broadcastInDim S50000x1 ![] bcast_S_S50000x1 : (⟨S_, .f32⟩ : BufTy).Contents (Elt F) → (⟨S50000x1, .f32⟩ : BufTy).Contents (Elt F)),
    binary main_v283 main_v284 main_v285 (Host.divf : (⟨S50000x1, .f32⟩ : BufTy).Contents (Elt F) → (⟨S50000x1, .f32⟩ : BufTy).Contents (Elt F) → (⟨S50000x1, .f32⟩ : BufTy).Contents (Elt F)),
    unary main_v278 main_v286 (broadcastInDim S50000x128 ![0, 1] bcast_S50000x1_S50000x128_0_1 : (⟨S50000x1, .f32⟩ : BufTy).Contents (Elt F) → (⟨S50000x128, .f32⟩ : BufTy).Contents (Elt F)),
    binary main_v213 main_v286 main_v287 (subf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3727C5AC#32),
    unary main_cst_33 main_v288 (broadcastInDim S50000x1 ![] bcast_S_S50000x1 : (⟨S_, .f32⟩ : BufTy).Contents (Elt F) → (⟨S50000x1, .f32⟩ : BufTy).Contents (Elt F)),
    binary main_v285 main_v288 main_v289 (addf : (⟨S50000x1, .f32⟩ : BufTy).Contents (Elt F) → (⟨S50000x1, .f32⟩ : BufTy).Contents (Elt F) → (⟨S50000x1, .f32⟩ : BufTy).Contents (Elt F)),
    unary main_v289 main_v290 (Host.rsqrt : (⟨S50000x1, .f32⟩ : BufTy).Contents (Elt F) → (⟨S50000x1, .f32⟩ : BufTy).Contents (Elt F)),
    unary main_v290 main_v291 (broadcastInDim S50000x128 ![0, 1] bcast_S50000x1_S50000x128_0_1 : (⟨S50000x1, .f32⟩ : BufTy).Contents (Elt F) → (⟨S50000x128, .f32⟩ : BufTy).Contents (Elt F)),
    binary main_v287 main_v291 main_v292 (mulf : (⟨S50000x128, .f32⟩ : BufTy).Contents (Elt F) → (⟨S50000x128, .f32⟩ : BufTy).Contents (Elt F) → (⟨S50000x128, .f32⟩ : BufTy).Contents (Elt F)),
    unary main_v272 main_v293 (broadcastInDim S1x128 ![1] bcast_S128_S1x128_1 : (⟨S128, .f32⟩ : BufTy).Contents (Elt F) → (⟨S1x128, .f32⟩ : BufTy).Contents (Elt F)),
    unary main_v293 main_v294 (broadcastInDim S50000x128 ![0, 1] bcast_S1x128_S50000x128_0_1 : (⟨S1x128, .f32⟩ : BufTy).Contents (Elt F) → (⟨S50000x128, .f32⟩ : BufTy).Contents (Elt F)),
    binary main_v292 main_v294 main_v295 (mulf : (⟨S50000x128, .f32⟩ : BufTy).Contents (Elt F) → (⟨S50000x128, .f32⟩ : BufTy).Contents (Elt F) → (⟨S50000x128, .f32⟩ : BufTy).Contents (Elt F)),
    unary main_v274 main_v296 (broadcastInDim S1x128 ![1] bcast_S128_S1x128_1 : (⟨S128, .f32⟩ : BufTy).Contents (Elt F) → (⟨S1x128, .f32⟩ : BufTy).Contents (Elt F)),
    unary main_v296 main_v297 (broadcastInDim S50000x128 ![0, 1] bcast_S1x128_S50000x128_0_1 : (⟨S1x128, .f32⟩ : BufTy).Contents (Elt F) → (⟨S50000x128, .f32⟩ : BufTy).Contents (Elt F)),
    binary main_v295 main_v297 main_v298 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x128, .f32⟩) main_call11_v0) (broadcastInDim S50000x128 ![] bcast_S_S50000x128),
    TRef.binary (TRef.of (T := ⟨S50000x128, .f32⟩) main_v298) (TRef.of (T := ⟨S50000x128, .f32⟩) main_call11_v0) (TRef.of (T := ⟨S50000x128, .f32⟩) main_v299) maximumf ]

end Cert.ReferenceIdeal.RefRun

end
-- ==== Proof.RefParts.lean ====
/-
  The reference program as six lists of operations in a row.

  The printed program is six blocks of about sixty host operations each, run one after the other; a call of the
  rectifier stands for its two operations. Each block IS the straight line of its list of operations, so the program
  is the straight line of the six lists in a row — and that list is the eleven groups of RefGroups in a row, the same
  360 operations cut at other places. Every operation touches TensorCore buffers only and allocates nothing.
-/
import proofs.«132706_j49976239456902_1_alg».proof.Proof.RefGroups

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's block 0. -/
abbrev q0 : List (HloOp τ sig (Elt F)) :=
  [
    unary main_arg2 main_v0 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v0 main_v1 rfl shapeCasts_S1x128x128_S128x128,
    binary main_arg0 main_v1 main_v2 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v3 ((extractStridedSlice S1x128 ![0, 0] · slices_S2x128_S1x128_0_0) : (⟨S2x128, .f32⟩ : BufTy).Contents (Elt F) → (⟨S1x128, .f32⟩ : BufTy).Contents (Elt F)),
    reshape main_v3 main_v4 rfl shapeCasts_S1x128_S128,
    unary main_v4 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v2 main_v6 main_v7 (addf : (⟨S100000x128, .f32⟩ : BufTy).Contents (Elt F) → (⟨S100000x128, .f32⟩ : BufTy).Contents (Elt F) → (⟨S100000x128, .f32⟩ : BufTy).Contents (Elt F)),
    unary main_arg2 main_v8 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v8 main_v9 rfl shapeCasts_S1x128x128_S128x128,
    binary main_arg1 main_v9 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v11 ((extractStridedSlice S1x128 ![1, 0] · slices_S2x128_S1x128_1_0) : (⟨S2x128, .f32⟩ : BufTy).Contents (Elt F) → (⟨S1x128, .f32⟩ : BufTy).Contents (Elt F)),
    reshape main_v11 main_v12 rfl shapeCasts_S1x128_S128,
    unary main_v12 main_v13 (broadcastInDim S1x128 ![1] bcast_S128_S1x128_1 : (⟨S128, .f32⟩ : BufTy).Contents (Elt F) → (⟨S1x128, .f32⟩ : BufTy).Contents (Elt F)),
    unary main_v13 main_v14 (broadcastInDim S50000x128 ![0, 1] bcast_S1x128_S50000x128_0_1 : (⟨S1x128, .f32⟩ : BufTy).Contents (Elt F) → (⟨S50000x128, .f32⟩ : BufTy).Contents (Elt F)),
    binary main_v10 main_v14 main_v15 (addf : (⟨S50000x128, .f32⟩ : BufTy).Contents (Elt F) → (⟨S50000x128, .f32⟩ : BufTy).Contents (Elt F) → (⟨S50000x128, .f32⟩ : BufTy).Contents (Elt F)),
    unary main_arg9 main_v16 ((extractStridedSlice S1x600000 ![0, 0] · slices_S2x600000_S1x600000_0_0) : (⟨S2x600000, .i32⟩ : BufTy).Contents (Elt F) → (⟨S1x600000, .i32⟩ : BufTy).Contents (Elt F)),
    reshape main_v16 main_v17 rfl shapeCasts_S1x600000_S600000,
    nullary main_c (constantI S_ 32 0#32),
    unary main_c main_v18 (broadcastInDim S600000 ![] bcast_S_S600000 : (⟨S_, .i32⟩ : BufTy).Contents (Elt F) → (⟨S600000, .i32⟩ : BufTy).Contents (Elt F)),
    binary main_v17 main_v18 main_v19 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v20 (broadcastInDim S600000 ![] bcast_S_S600000 : (⟨S_, .i32⟩ : BufTy).Contents (Elt F) → (⟨S600000, .i32⟩ : BufTy).Contents (Elt F)),
    binary main_v17 main_v20 main_v21 (addi : (⟨S600000, .i32⟩ : BufTy).Contents (Elt F) → (⟨S600000, .i32⟩ : BufTy).Contents (Elt F) → (⟨S600000, .i32⟩ : BufTy).Contents (Elt F)),
    ternary main_v19 main_v21 main_v17 main_v22 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v22 main_v23 (broadcastInDim S600000x1 ![0] bcast_S600000_S600000x1_0 : (⟨S600000, .i32⟩ : BufTy).Contents (Elt F) → (⟨S600000x1, .i32⟩ : BufTy).Contents (Elt F)),
    binary main_v7 main_v23 main_v24 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg9 main_v25 ((extractStridedSlice S1x600000 ![1, 0] · slices_S2x600000_S1x600000_1_0) : (⟨S2x600000, .i32⟩ : BufTy).Contents (Elt F) → (⟨S1x600000, .i32⟩ : BufTy).Contents (Elt F)),
    reshape main_v25 main_v26 rfl shapeCasts_S1x600000_S600000,
    nullary main_cst (constant S_ .f32 0x00000000#32),
    unary main_cst main_v27 (broadcastInDim S50000x128 ![] bcast_S_S50000x128 : (⟨S_, .f32⟩ : BufTy).Contents (Elt F) → (⟨S50000x128, .f32⟩ : BufTy).Contents (Elt F)),
    unary main_v26 main_v28 (broadcastInDim S600000x1 ![0] bcast_S600000_S600000x1_0 : (⟨S600000, .i32⟩ : BufTy).Contents (Elt F) → (⟨S600000x1, .i32⟩ : BufTy).Contents (Elt F)),
    ternary main_v27 main_v28 main_v24 main_v29 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg10 main_v30 ((extractStridedSlice S1x600000 ![0, 0] · slices_S2x600000_S1x600000_0_0) : (⟨S2x600000, .i32⟩ : BufTy).Contents (Elt F) → (⟨S1x600000, .i32⟩ : BufTy).Contents (Elt F)),
    reshape main_v30 main_v31 rfl shapeCasts_S1x600000_S600000,
    nullary main_c_1 (constantI S_ 32 0#32),
    unary main_c_1 main_v32 (broadcastInDim S600000 ![] bcast_S_S600000 : (⟨S_, .i32⟩ : BufTy).Contents (Elt F) → (⟨S600000, .i32⟩ : BufTy).Contents (Elt F)),
    binary main_v31 main_v32 main_v33 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v34 (broadcastInDim S600000 ![] bcast_S_S600000 : (⟨S_, .i32⟩ : BufTy).Contents (Elt F) → (⟨S600000, .i32⟩ : BufTy).Contents (Elt F)),
    binary main_v31 main_v34 main_v35 (addi : (⟨S600000, .i32⟩ : BufTy).Contents (Elt F) → (⟨S600000, .i32⟩ : BufTy).Contents (Elt F) → (⟨S600000, .i32⟩ : BufTy).Contents (Elt F)),
    ternary main_v33 main_v35 main_v31 main_v36 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v36 main_v37 (broadcastInDim S600000x1 ![0] bcast_S600000_S600000x1_0 : (⟨S600000, .i32⟩ : BufTy).Contents (Elt F) → (⟨S600000x1, .i32⟩ : BufTy).Contents (Elt F)),
    binary main_v15 main_v37 main_v38 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg10 main_v39 ((extractStridedSlice S1x600000 ![1, 0] · slices_S2x600000_S1x600000_1_0) : (⟨S2x600000, .i32⟩ : BufTy).Contents (Elt F) → (⟨S1x600000, .i32⟩ : BufTy).Contents (Elt F)),
    reshape main_v39 main_v40 rfl shapeCasts_S1x600000_S600000,
    nullary main_cst_3 (constant S_ .f32 0x00000000#32),
    unary main_cst_3 main_v41 (broadcastInDim S100000x128 ![] bcast_S_S100000x128 : (⟨S_, .f32⟩ : BufTy).Contents (Elt F) → (⟨S100000x128, .f32⟩ : BufTy).Contents (Elt F)),
    unary main_v40 main_v42 (broadcastInDim S600000x1 ![0] bcast_S600000_S600000x1_0 : (⟨S600000, .i32⟩ : BufTy).Contents (Elt F) → (⟨S600000x1, .i32⟩ : BufTy).Contents (Elt F)),
    ternary main_v41 main_v42 main_v38 main_v43 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg6 main_v44 ((extractStridedSlice S1x1 ![0, 0] · slices_S2x2_S1x1_0_0) : (⟨S2x2, .f32⟩ : BufTy).Contents (Elt F) → (⟨S1x1, .f32⟩ : BufTy).Contents (Elt F)),
    reshape main_v44 main_v45 rfl shapeCasts_S1x1_S_,
    nullary main_cst_4 (constant S_ .f32 0x3F800000#32),
    binary main_cst_4 main_v45 main_v46 (addf : (⟨S_, .f32⟩ : BufTy).Contents (Elt F) → (⟨S_, .f32⟩ : BufTy).Contents (Elt F) → (⟨S_, .f32⟩ : BufTy).Contents (Elt F)),
    unary main_v46 main_v47 (broadcastInDim S50000x128 ![] bcast_S_S50000x128 : (⟨S_, .f32⟩ : BufTy).Contents (Elt F) → (⟨S50000x128, .f32⟩ : BufTy).Contents (Elt F)),
    binary main_v47 main_v15 main_v48 (mulf : (⟨S50000x128, .f32⟩ : BufTy).Contents (Elt F) → (⟨S50000x128, .f32⟩ : BufTy).Contents (Elt F) → (⟨S50000x128, .f32⟩ : BufTy).Contents (Elt F)),
    binary main_v48 main_v29 main_v49 (addf : (⟨S50000x128, .f32⟩ : BufTy).Contents (Elt F) → (⟨S50000x128, .f32⟩ : BufTy).Contents (Elt F) → (⟨S50000x128, .f32⟩ : BufTy).Contents (Elt F)),
    unary main_arg4 main_v50 ((extractStridedSlice S1x1x2x128x128 ![0, 0, 0, 0, 0] · slices_S2x2x2x128x128_S1x1x2x128x128_0_0_0_0_0) : (⟨S2x2x2x128x128, .f32⟩ : BufTy).Contents (Elt F) → (⟨S1x1x2x128x128, .f32⟩ : BufTy).Contents (Elt F)),
    reshape main_v50 main_v51 rfl shapeCasts_S1x1x2x128x128_S2x128x128,
    unary main_arg5 main_v52 ((extractStridedSlice S1x1x2x128 ![0, 0, 0, 0] · slices_S2x2x2x128_S1x1x2x128_0_0_0_0) : (⟨S2x2x2x128, .f32⟩ : BufTy).Contents (Elt F) → (⟨S1x1x2x128, .f32⟩ : BufTy).Contents (Elt F)) ]

set_option maxRecDepth 8192 in
set_option maxHeartbeats 4000000 in
/-- Block 0 is the straight line of its operations. -/
theorem part0_eq (d : Dev nD) : main_part0 (F := F) d = seq q0 := rfl

set_option maxRecDepth 8192 in
theorem q0_sub : (q0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., unary_bufs_sub ..⟩

set_option maxRecDepth 8192 in
theorem q0_fresh : ∀ op ∈ (q0 : List (HloOp τ sig (Elt F))), op.fresh = ∅ := by
  intro _ h; (repeat (cases h with | head => rfl | tail _ h => ?_)); exact nomatch h

/-- The operations of the program's block 1. -/
abbrev q1 : List (HloOp τ sig (Elt F)) :=
  [
    reshape main_v52 main_v53 rfl shapeCasts_S1x1x2x128_S2x128,
    unary main_v51 main_v54 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v54 main_v55 rfl shapeCasts_S1x128x128_S128x128,
    binary main_v49 main_v55 main_v56 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v53 main_v57 ((extractStridedSlice S1x128 ![0, 0] · slices_S2x128_S1x128_0_0) : (⟨S2x128, .f32⟩ : BufTy).Contents (Elt F) → (⟨S1x128, .f32⟩ : BufTy).Contents (Elt F)),
    reshape main_v57 main_v58 rfl shapeCasts_S1x128_S128,
    unary main_v58 main_v59 (broadcastInDim S1x128 ![1] bcast_S128_S1x128_1 : (⟨S128, .f32⟩ : BufTy).Contents (Elt F) → (⟨S1x128, .f32⟩ : BufTy).Contents (Elt F)),
    unary main_v59 main_v60 (broadcastInDim S50000x128 ![0, 1] bcast_S1x128_S50000x128_0_1 : (⟨S1x128, .f32⟩ : BufTy).Contents (Elt F) → (⟨S50000x128, .f32⟩ : BufTy).Contents (Elt F)),
    binary main_v56 main_v60 main_v61 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v61) (TRef.of (T := ⟨S50000x128, .f32⟩) main_call0_v0) (TRef.of (T := ⟨S50000x128, .f32⟩) main_v62) maximumf,
    unary main_v51 main_v63 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v63 main_v64 rfl shapeCasts_S1x128x128_S128x128,
    binary main_v62 main_v64 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v53 main_v66 ((extractStridedSlice S1x128 ![1, 0] · slices_S2x128_S1x128_1_0) : (⟨S2x128, .f32⟩ : BufTy).Contents (Elt F) → (⟨S1x128, .f32⟩ : BufTy).Contents (Elt F)),
    reshape main_v66 main_v67 rfl shapeCasts_S1x128_S128,
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v65 main_v69 main_v70 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v70) (TRef.of (T := ⟨S50000x128, .f32⟩) main_call1_v0) (TRef.of (T := ⟨S50000x128, .f32⟩) main_v71) maximumf,
    unary main_arg6 main_v72 ((extractStridedSlice S1x1 ![0, 1] · slices_S2x2_S1x1_0_1) : (⟨S2x2, .f32⟩ : BufTy).Contents (Elt F) → (⟨S1x1, .f32⟩ : BufTy).Contents (Elt F)),
    reshape main_v72 main_v73 rfl shapeCasts_S1x1_S_,
    nullary main_cst_5 (constant S_ .f32 0x3F800000#32),
    binary main_cst_5 main_v73 main_v74 (addf : (⟨S_, .f32⟩ : BufTy).Contents (Elt F) → (⟨S_, .f32⟩ : BufTy).Contents (Elt F) → (⟨S_, .f32⟩ : BufTy).Contents (Elt F)),
    unary main_v74 main_v75 (broadcastInDim S100000x128 ![] bcast_S_S100000x128 : (⟨S_, .f32⟩ : BufTy).Contents (Elt F) → (⟨S100000x128, .f32⟩ : BufTy).Contents (Elt F)),
    binary main_v75 main_v7 main_v76 (mulf : (⟨S100000x128, .f32⟩ : BufTy).Contents (Elt F) → (⟨S100000x128, .f32⟩ : BufTy).Contents (Elt F) → (⟨S100000x128, .f32⟩ : BufTy).Contents (Elt F)),
    binary main_v76 main_v43 main_v77 (addf : (⟨S100000x128, .f32⟩ : BufTy).Contents (Elt F) → (⟨S100000x128, .f32⟩ : BufTy).Contents (Elt F) → (⟨S100000x128, .f32⟩ : BufTy).Contents (Elt F)),
    unary main_arg4 main_v78 ((extractStridedSlice S1x1x2x128x128 ![0, 1, 0, 0, 0] · slices_S2x2x2x128x128_S1x1x2x128x128_0_1_0_0_0) : (⟨S2x2x2x128x128, .f32⟩ : BufTy).Contents (Elt F) → (⟨S1x1x2x128x128, .f32⟩ : BufTy).Contents (Elt F)),
    reshape main_v78 main_v79 rfl shapeCasts_S1x1x2x128x128_S2x128x128,
    unary main_arg5 main_v80 ((extractStridedSlice S1x1x2x128 ![0, 1, 0, 0] · slices_S2x2x2x128_S1x1x2x128_0_1_0_0) : (⟨S2x2x2x128, .f32⟩ : BufTy).Contents (Elt F) → (⟨S1x1x2x128, .f32⟩ : BufTy).Contents (Elt F)),
    reshape main_v80 main_v81 rfl shapeCasts_S1x1x2x128_S2x128,
    unary main_v79 main_v82 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v82 main_v83 rfl shapeCasts_S1x128x128_S128x128,
    binary main_v77 main_v83 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v81 main_v85 ((extractStridedSlice S1x128 ![0, 0] · slices_S2x128_S1x128_0_0) : (⟨S2x128, .f32⟩ : BufTy).Contents (Elt F) → (⟨S1x128, .f32⟩ : BufTy).Contents (Elt F)),
    reshape main_v85 main_v86 rfl shapeCasts_S1x128_S128,
    unary main_v86 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v84 main_v88 main_v89 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v89) (TRef.of (T := ⟨S100000x128, .f32⟩) main_call2_v0) (TRef.of (T := ⟨S100000x128, .f32⟩) main_v90) maximumf,
    unary main_v79 main_v91 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v91 main_v92 rfl shapeCasts_S1x128x128_S128x128,
    binary main_v90 main_v92 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v81 main_v94 ((extractStridedSlice S1x128 ![1, 0] · slices_S2x128_S1x128_1_0) : (⟨S2x128, .f32⟩ : BufTy).Contents (Elt F) → (⟨S1x128, .f32⟩ : BufTy).Contents (Elt F)),
    reshape main_v94 main_v95 rfl shapeCasts_S1x128_S128,
    unary main_v95 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v93 main_v97 main_v98 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v98) (TRef.of (T := ⟨S100000x128, .f32⟩) main_call3_v0) (TRef.of (T := ⟨S100000x128, .f32⟩) main_v99) maximumf,
    unary main_arg7 main_v100 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v100 main_v101 rfl shapeCasts_S1x1x128_S128,
    unary main_arg8 main_v102 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v102 main_v103 rfl shapeCasts_S1x1x128_S128,
    nullary main_cst_6 (constant S_ .f32 0x00000000#32),
    binary main_v99 main_cst_6 main_v104 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v104 main_v105 (broadcastInDim S100000x1 ![0] bcast_S100000_S100000x1_0 : (⟨S100000, .f32⟩ : BufTy).Contents (Elt F) → (⟨S100000x1, .f32⟩ : BufTy).Contents (Elt F)),
    nullary main_cst_7 (constant S_ .f32 0x43000000#32),
    unary main_cst_7 main_v106 (broadcastInDim S100000x1 ![] bcast_S_S100000x1 : (⟨S_, .f32⟩ : BufTy).Contents (Elt F) → (⟨S100000x1, .f32⟩ : BufTy).Contents (Elt F)),
    binary main_v105 main_v106 main_v107 (Host.divf : (⟨S100000x1, .f32⟩ : BufTy).Contents (Elt F) → (⟨S100000x1, .f32⟩ : BufTy).Contents (Elt F) → (⟨S100000x1, .f32⟩ : BufTy).Contents (Elt F)),
    unary main_v107 main_v108 (broadcastInDim S100000x128 ![0, 1] bcast_S100000x1_S100000x128_0_1 : (⟨S100000x1, .f32⟩ : BufTy).Contents (Elt F) → (⟨S100000x128, .f32⟩ : BufTy).Contents (Elt F)),
    binary main_v99 main_v108 main_v109 (subf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
/-- Block 1 is the straight line of its operations. -/
theorem part1_eq (d : Dev nD) : main_part1 (F := F) d = seq q1 := rfl

set_option maxRecDepth 8192 in
theorem q1_sub : (q1 : List (HloOp τ sig (Elt F))).Forall fun op => op.bufs ⊆ tcRefs τ sig :=
  ⟨reshape_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., nullary_bufs_sub .., binary_bufs_sub .., unary_bufs_sub .., binary_bufs_sub .., binary_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub ..⟩

set_option maxRecDepth 8192 in
theorem q1_fresh : ∀ op ∈ (q1 : List (HloOp τ sig (Elt F))), op.fresh = ∅ := by
  intro _ h; (repeat (cases h with | head => rfl | tail _ h => ?_)); exact nomatch h

/-- The operations of the program's block 2. -/
abbrev q2 : List (HloOp τ sig (Elt F)) :=
  [
    binary main_v109 main_v109 main_v110 (mulf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v110 main_cst_8 main_v111 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v111 main_v112 (broadcastInDim S100000x1 ![0] bcast_S100000_S100000x1_0 : (⟨S100000, .f32⟩ : BufTy).Contents (Elt F) → (⟨S100000x1, .f32⟩ : BufTy).Contents (Elt F)),
    nullary main_cst_9 (constant S_ .f32 0x43000000#32),
    unary main_cst_9 main_v113 (broadcastInDim S100000x1 ![] bcast_S_S100000x1 : (⟨S_, .f32⟩ : BufTy).Contents (Elt F) → (⟨S100000x1, .f32⟩ : BufTy).Contents (Elt F)),
    binary main_v112 main_v113 main_v114 (Host.divf : (⟨S100000x1, .f32⟩ : BufTy).Contents (Elt F) → (⟨S100000x1, .f32⟩ : BufTy).Contents (Elt F) → (⟨S100000x1, .f32⟩ : BufTy).Contents (Elt F)),
    unary main_v107 main_v115 (broadcastInDim S100000x128 ![0, 1] bcast_S100000x1_S100000x128_0_1 : (⟨S100000x1, .f32⟩ : BufTy).Contents (Elt F) → (⟨S100000x128, .f32⟩ : BufTy).Contents (Elt F)),
    binary main_v99 main_v115 main_v116 (subf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3727C5AC#32),
    unary main_cst_10 main_v117 (broadcastInDim S100000x1 ![] bcast_S_S100000x1 : (⟨S_, .f32⟩ : BufTy).Contents (Elt F) → (⟨S100000x1, .f32⟩ : BufTy).Contents (Elt F)),
    binary main_v114 main_v117 main_v118 (addf : (⟨S100000x1, .f32⟩ : BufTy).Contents (Elt F) → (⟨S100000x1, .f32⟩ : BufTy).Contents (Elt F) → (⟨S100000x1, .f32⟩ : BufTy).Contents (Elt F)),
    unary main_v118 main_v119 (Host.rsqrt : (⟨S100000x1, .f32⟩ : BufTy).Contents (Elt F) → (⟨S100000x1, .f32⟩ : BufTy).Contents (Elt F)),
    unary main_v119 main_v120 (broadcastInDim S100000x128 ![0, 1] bcast_S100000x1_S100000x128_0_1 : (⟨S100000x1, .f32⟩ : BufTy).Contents (Elt F) → (⟨S100000x128, .f32⟩ : BufTy).Contents (Elt F)),
    binary main_v116 main_v120 main_v121 (mulf : (⟨S100000x128, .f32⟩ : BufTy).Contents (Elt F) → (⟨S100000x128, .f32⟩ : BufTy).Contents (Elt F) → (⟨S100000x128, .f32⟩ : BufTy).Contents (Elt F)),
    unary main_v101 main_v122 (broadcastInDim S1x128 ![1] bcast_S128_S1x128_1 : (⟨S128, .f32⟩ : BufTy).Contents (Elt F) → (⟨S1x128, .f32⟩ : BufTy).Contents (Elt F)),
    unary main_v122 main_v123 (broadcastInDim S100000x128 ![0, 1] bcast_S1x128_S100000x128_0_1 : (⟨S1x128, .f32⟩ : BufTy).Contents (Elt F) → (⟨S100000x128, .f32⟩ : BufTy).Contents (Elt F)),
    binary main_v121 main_v123 main_v124 (mulf : (⟨S100000x128, .f32⟩ : BufTy).Contents (Elt F) → (⟨S100000x128, .f32⟩ : BufTy).Contents (Elt F) → (⟨S100000x128, .f32⟩ : BufTy).Contents (Elt F)),
    unary main_v103 main_v125 (broadcastInDim S1x128 ![1] bcast_S128_S1x128_1 : (⟨S128, .f32⟩ : BufTy).Contents (Elt F) → (⟨S1x128, .f32⟩ : BufTy).Contents (Elt F)),
    unary main_v125 main_v126 (broadcastInDim S100000x128 ![0, 1] bcast_S1x128_S100000x128_0_1 : (⟨S1x128, .f32⟩ : BufTy).Contents (Elt F) → (⟨S100000x128, .f32⟩ : BufTy).Contents (Elt F)),
    binary main_v124 main_v126 main_v127 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v127) (TRef.of (T := ⟨S100000x128, .f32⟩) main_call4_v0) (TRef.of (T := ⟨S100000x128, .f32⟩) main_v128) maximumf,
    unary main_arg7 main_v129 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v129 main_v130 rfl shapeCasts_S1x1x128_S128,
    unary main_arg8 main_v131 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v131 main_v132 rfl shapeCasts_S1x1x128_S128,
    nullary main_cst_11 (constant S_ .f32 0x00000000#32),
    binary main_v71 main_cst_11 main_v133 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v133 main_v134 (broadcastInDim S50000x1 ![0] bcast_S50000_S50000x1_0 : (⟨S50000, .f32⟩ : BufTy).Contents (Elt F) → (⟨S50000x1, .f32⟩ : BufTy).Contents (Elt F)),
    nullary main_cst_12 (constant S_ .f32 0x43000000#32),
    unary main_cst_12 main_v135 (broadcastInDim S50000x1 ![] bcast_S_S50000x1 : (⟨S_, .f32⟩ : BufTy).Contents (Elt F) → (⟨S50000x1, .f32⟩ : BufTy).Contents (Elt F)),
    binary main_v134 main_v135 main_v136 (Host.divf : (⟨S50000x1, .f32⟩ : BufTy).Contents (Elt F) → (⟨S50000x1, .f32⟩ : BufTy).Contents (Elt F) → (⟨S50000x1, .f32⟩ : BufTy).Contents (Elt F)),
    unary main_v136 main_v137 (broadcastInDim S50000x128 ![0, 1] bcast_S50000x1_S50000x128_0_1 : (⟨S50000x1, .f32⟩ : BufTy).Contents (Elt F) → (⟨S50000x128, .f32⟩ : BufTy).Contents (Elt F)),
    binary main_v71 main_v137 main_v138 (subf : (⟨S50000x128, .f32⟩ : BufTy).Contents (Elt F) → (⟨S50000x128, .f32⟩ : BufTy).Contents (Elt F) → (⟨S50000x128, .f32⟩ : BufTy).Contents (Elt F)),
    binary main_v138 main_v138 main_v139 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    binary main_v139 main_cst_13 main_v140 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v140 main_v141 (broadcastInDim S50000x1 ![0] bcast_S50000_S50000x1_0 : (⟨S50000, .f32⟩ : BufTy).Contents (Elt F) → (⟨S50000x1, .f32⟩ : BufTy).Contents (Elt F)),
    nullary main_cst_14 (constant S_ .f32 0x43000000#32),
    unary main_cst_14 main_v142 (broadcastInDim S50000x1 ![] bcast_S_S50000x1 : (⟨S_, .f32⟩ : BufTy).Contents (Elt F) → (⟨S50000x1, .f32⟩ : BufTy).Contents (Elt F)),
    binary main_v141 main_v142 main_v143 (Host.divf : (⟨S50000x1, .f32⟩ : BufTy).Contents (Elt F) → (⟨S50000x1, .f32⟩ : BufTy).Contents (Elt F) → (⟨S50000x1, .f32⟩ : BufTy).Contents (Elt F)),
    unary main_v136 main_v144 (broadcastInDim S50000x128 ![0, 1] bcast_S50000x1_S50000x128_0_1 : (⟨S50000x1, .f32⟩ : BufTy).Contents (Elt F) → (⟨S50000x128, .f32⟩ : BufTy).Contents (Elt F)),
    binary main_v71 main_v144 main_v145 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v146 (broadcastInDim S50000x1 ![] bcast_S_S50000x1 : (⟨S_, .f32⟩ : BufTy).Contents (Elt F) → (⟨S50000x1, .f32⟩ : BufTy).Contents (Elt F)),
    binary main_v143 main_v146 main_v147 (addf : (⟨S50000x1, .f32⟩ : BufTy).Contents (Elt F) → (⟨S50000x1, .f32⟩ : BufTy).Contents (Elt F) → (⟨S50000x1, .f32⟩ : BufTy).Contents (Elt F)),
    unary main_v147 main_v148 (Host.rsqrt : (⟨S50000x1, .f32⟩ : BufTy).Contents (Elt F) → (⟨S50000x1, .f32⟩ : BufTy).Contents (Elt F)),
    unary main_v148 main_v149 (broadcastInDim S50000x128 ![0, 1] bcast_S50000x1_S50000x128_0_1 : (⟨S50000x1, .f32⟩ : BufTy).Contents (Elt F) → (⟨S50000x128, .f32⟩ : BufTy).Contents (Elt F)),
    binary main_v145 main_v149 main_v150 (mulf : (⟨S50000x128, .f32⟩ : BufTy).Contents (Elt F) → (⟨S50000x128, .f32⟩ : BufTy).Contents (Elt F) → (⟨S50000x128, .f32⟩ : BufTy).Contents (Elt F)),
    unary main_v130 main_v151 (broadcastInDim S1x128 ![1] bcast_S128_S1x128_1 : (⟨S128, .f32⟩ : BufTy).Contents (Elt F) → (⟨S1x128, .f32⟩ : BufTy).Contents (Elt F)),
    unary main_v151 main_v152 (broadcastInDim S50000x128 ![0, 1] bcast_S1x128_S50000x128_0_1 : (⟨S1x128, .f32⟩ : BufTy).Contents (Elt F) → (⟨S50000x128, .f32⟩ : BufTy).Contents (Elt F)),
    binary main_v150 main_v152 main_v153 (mulf : (⟨S50000x128, .f32⟩ : BufTy).Contents (Elt F) → (⟨S50000x128, .f32⟩ : BufTy).Contents (Elt F) → (⟨S50000x128, .f32⟩ : BufTy).Contents (Elt F)),
    unary main_v132 main_v154 (broadcastInDim S1x128 ![1] bcast_S128_S1x128_1 : (⟨S128, .f32⟩ : BufTy).Contents (Elt F) → (⟨S1x128, .f32⟩ : BufTy).Contents (Elt F)),
    unary main_v154 main_v155 (broadcastInDim S50000x128 ![0, 1] bcast_S1x128_S50000x128_0_1 : (⟨S1x128, .f32⟩ : BufTy).Contents (Elt F) → (⟨S50000x128, .f32⟩ : BufTy).Contents (Elt F)),
    binary main_v153 main_v155 main_v156 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v156) (TRef.of (T := ⟨S50000x128, .f32⟩) main_call5_v0) (TRef.of (T := ⟨S50000x128, .f32⟩) main_v157) maximumf,
    unary main_arg9 main_v158 ((extractStridedSlice S1x600000 ![0, 0] · slices_S2x600000_S1x600000_0_0) : (⟨S2x600000, .i32⟩ : BufTy).Contents (Elt F) → (⟨S1x600000, .i32⟩ : BufTy).Contents (Elt F)),
    reshape main_v158 main_v159 rfl shapeCasts_S1x600000_S600000,
    nullary main_c_16 (constantI S_ 32 0#32),
    unary main_c_16 main_v160 (broadcastInDim S600000 ![] bcast_S_S600000 : (⟨S_, .i32⟩ : BufTy).Contents (Elt F) → (⟨S600000, .i32⟩ : BufTy).Contents (Elt F)) ]

set_option maxRecDepth 8192 in
set_option maxHeartbeats 4000000 in
/-- Block 2 is the straight line of its operations. -/
theorem part2_eq (d : Dev nD) : main_part2 (F := F) d = seq q2 := rfl

set_option maxRecDepth 8192 in
theorem q2_sub : (q2 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., nullary_bufs_sub .., unary_bufs_sub ..⟩

set_option maxRecDepth 8192 in
theorem q2_fresh : ∀ op ∈ (q2 : List (HloOp τ sig (Elt F))), op.fresh = ∅ := by
  intro _ h; (repeat (cases h with | head => rfl | tail _ h => ?_)); exact nomatch h

/-- The operations of the program's block 3. -/
abbrev q3 : List (HloOp τ sig (Elt F)) :=
  [
    binary main_v159 main_v160 main_v161 (cmpi .slt : (⟨S600000, .i32⟩ : BufTy).Contents (Elt F) → (⟨S600000, .i32⟩ : BufTy).Contents (Elt F) → (⟨S600000, .i1⟩ : BufTy).Contents (Elt F)),
    nullary main_c_17 (constantI S_ 32 100000#32),
    unary main_c_17 main_v162 (broadcastInDim S600000 ![] bcast_S_S600000 : (⟨S_, .i32⟩ : BufTy).Contents (Elt F) → (⟨S600000, .i32⟩ : BufTy).Contents (Elt F)),
    binary main_v159 main_v162 main_v163 (addi : (⟨S600000, .i32⟩ : BufTy).Contents (Elt F) → (⟨S600000, .i32⟩ : BufTy).Contents (Elt F) → (⟨S600000, .i32⟩ : BufTy).Contents (Elt F)),
    ternary main_v161 main_v163 main_v159 main_v164 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v164 main_v165 (broadcastInDim S600000x1 ![0] bcast_S600000_S600000x1_0 : (⟨S600000, .i32⟩ : BufTy).Contents (Elt F) → (⟨S600000x1, .i32⟩ : BufTy).Contents (Elt F)),
    binary main_v128 main_v165 main_v166 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg9 main_v167 ((extractStridedSlice S1x600000 ![1, 0] · slices_S2x600000_S1x600000_1_0) : (⟨S2x600000, .i32⟩ : BufTy).Contents (Elt F) → (⟨S1x600000, .i32⟩ : BufTy).Contents (Elt F)),
    reshape main_v167 main_v168 rfl shapeCasts_S1x600000_S600000,
    nullary main_cst_18 (constant S_ .f32 0x00000000#32),
    unary main_cst_18 main_v169 (broadcastInDim S50000x128 ![] bcast_S_S50000x128 : (⟨S_, .f32⟩ : BufTy).Contents (Elt F) → (⟨S50000x128, .f32⟩ : BufTy).Contents (Elt F)),
    unary main_v168 main_v170 (broadcastInDim S600000x1 ![0] bcast_S600000_S600000x1_0 : (⟨S600000, .i32⟩ : BufTy).Contents (Elt F) → (⟨S600000x1, .i32⟩ : BufTy).Contents (Elt F)),
    ternary main_v169 main_v170 main_v166 main_v171 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg10 main_v172 ((extractStridedSlice S1x600000 ![0, 0] · slices_S2x600000_S1x600000_0_0) : (⟨S2x600000, .i32⟩ : BufTy).Contents (Elt F) → (⟨S1x600000, .i32⟩ : BufTy).Contents (Elt F)),
    reshape main_v172 main_v173 rfl shapeCasts_S1x600000_S600000,
    nullary main_c_19 (constantI S_ 32 0#32),
    unary main_c_19 main_v174 (broadcastInDim S600000 ![] bcast_S_S600000 : (⟨S_, .i32⟩ : BufTy).Contents (Elt F) → (⟨S600000, .i32⟩ : BufTy).Contents (Elt F)),
    binary main_v173 main_v174 main_v175 (cmpi .slt : (⟨S600000, .i32⟩ : BufTy).Contents (Elt F) → (⟨S600000, .i32⟩ : BufTy).Contents (Elt F) → (⟨S600000, .i1⟩ : BufTy).Contents (Elt F)),
    nullary main_c_20 (constantI S_ 32 50000#32),
    unary main_c_20 main_v176 (broadcastInDim S600000 ![] bcast_S_S600000 : (⟨S_, .i32⟩ : BufTy).Contents (Elt F) → (⟨S600000, .i32⟩ : BufTy).Contents (Elt F)),
    binary main_v173 main_v176 main_v177 (addi : (⟨S600000, .i32⟩ : BufTy).Contents (Elt F) → (⟨S600000, .i32⟩ : BufTy).Contents (Elt F) → (⟨S600000, .i32⟩ : BufTy).Contents (Elt F)),
    ternary main_v175 main_v177 main_v173 main_v178 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v178 main_v179 (broadcastInDim S600000x1 ![0] bcast_S600000_S600000x1_0 : (⟨S600000, .i32⟩ : BufTy).Contents (Elt F) → (⟨S600000x1, .i32⟩ : BufTy).Contents (Elt F)),
    binary main_v157 main_v179 main_v180 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg10 main_v181 ((extractStridedSlice S1x600000 ![1, 0] · slices_S2x600000_S1x600000_1_0) : (⟨S2x600000, .i32⟩ : BufTy).Contents (Elt F) → (⟨S1x600000, .i32⟩ : BufTy).Contents (Elt F)),
    reshape main_v181 main_v182 rfl shapeCasts_S1x600000_S600000,
    nullary main_cst_21 (constant S_ .f32 0x00000000#32),
    unary main_cst_21 main_v183 (broadcastInDim S100000x128 ![] bcast_S_S100000x128 : (⟨S_, .f32⟩ : BufTy).Contents (Elt F) → (⟨S100000x128, .f32⟩ : BufTy).Contents (Elt F)),
    unary main_v182 main_v184 (broadcastInDim S600000x1 ![0] bcast_S600000_S600000x1_0 : (⟨S600000, .i32⟩ : BufTy).Contents (Elt F) → (⟨S600000x1, .i32⟩ : BufTy).Contents (Elt F)),
    ternary main_v183 main_v184 main_v180 main_v185 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg6 main_v186 ((extractStridedSlice S1x1 ![1, 0] · slices_S2x2_S1x1_1_0) : (⟨S2x2, .f32⟩ : BufTy).Contents (Elt F) → (⟨S1x1, .f32⟩ : BufTy).Contents (Elt F)),
    reshape main_v186 main_v187 rfl shapeCasts_S1x1_S_,
    nullary main_cst_22 (constant S_ .f32 0x3F800000#32),
    binary main_cst_22 main_v187 main_v188 (addf : (⟨S_, .f32⟩ : BufTy).Contents (Elt F) → (⟨S_, .f32⟩ : BufTy).Contents (Elt F) → (⟨S_, .f32⟩ : BufTy).Contents (Elt F)),
    unary main_v188 main_v189 (broadcastInDim S50000x128 ![] bcast_S_S50000x128 : (⟨S_, .f32⟩ : BufTy).Contents (Elt F) → (⟨S50000x128, .f32⟩ : BufTy).Contents (Elt F)),
    binary main_v189 main_v157 main_v190 (mulf : (⟨S50000x128, .f32⟩ : BufTy).Contents (Elt F) → (⟨S50000x128, .f32⟩ : BufTy).Contents (Elt F) → (⟨S50000x128, .f32⟩ : BufTy).Contents (Elt F)),
    binary main_v190 main_v171 main_v191 (addf : (⟨S50000x128, .f32⟩ : BufTy).Contents (Elt F) → (⟨S50000x128, .f32⟩ : BufTy).Contents (Elt F) → (⟨S50000x128, .f32⟩ : BufTy).Contents (Elt F)),
    unary main_arg4 main_v192 ((extractStridedSlice S1x1x2x128x128 ![1, 0, 0, 0, 0] · slices_S2x2x2x128x128_S1x1x2x128x128_1_0_0_0_0) : (⟨S2x2x2x128x128, .f32⟩ : BufTy).Contents (Elt F) → (⟨S1x1x2x128x128, .f32⟩ : BufTy).Contents (Elt F)),
    reshape main_v192 main_v193 rfl shapeCasts_S1x1x2x128x128_S2x128x128,
    unary main_arg5 main_v194 ((extractStridedSlice S1x1x2x128 ![1, 0, 0, 0] · slices_S2x2x2x128_S1x1x2x128_1_0_0_0) : (⟨S2x2x2x128, .f32⟩ : BufTy).Contents (Elt F) → (⟨S1x1x2x128, .f32⟩ : BufTy).Contents (Elt F)),
    reshape main_v194 main_v195 rfl shapeCasts_S1x1x2x128_S2x128,
    unary main_v193 main_v196 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v196 main_v197 rfl shapeCasts_S1x128x128_S128x128,
    binary main_v191 main_v197 main_v198 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v195 main_v199 ((extractStridedSlice S1x128 ![0, 0] · slices_S2x128_S1x128_0_0) : (⟨S2x128, .f32⟩ : BufTy).Contents (Elt F) → (⟨S1x128, .f32⟩ : BufTy).Contents (Elt F)),
    reshape main_v199 main_v200 rfl shapeCasts_S1x128_S128,
    unary main_v200 main_v201 (broadcastInDim S1x128 ![1] bcast_S128_S1x128_1 : (⟨S128, .f32⟩ : BufTy).Contents (Elt F) → (⟨S1x128, .f32⟩ : BufTy).Contents (Elt F)),
    unary main_v201 main_v202 (broadcastInDim S50000x128 ![0, 1] bcast_S1x128_S50000x128_0_1 : (⟨S1x128, .f32⟩ : BufTy).Contents (Elt F) → (⟨S50000x128, .f32⟩ : BufTy).Contents (Elt F)),
    binary main_v198 main_v202 main_v203 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v203) (TRef.of (T := ⟨S50000x128, .f32⟩) main_call6_v0) (TRef.of (T := ⟨S50000x128, .f32⟩) main_v204) maximumf,
    unary main_v193 main_v205 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v205 main_v206 rfl shapeCasts_S1x128x128_S128x128,
    binary main_v204 main_v206 main_v207 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v195 main_v208 ((extractStridedSlice S1x128 ![1, 0] · slices_S2x128_S1x128_1_0) : (⟨S2x128, .f32⟩ : BufTy).Contents (Elt F) → (⟨S1x128, .f32⟩ : BufTy).Contents (Elt F)),
    reshape main_v208 main_v209 rfl shapeCasts_S1x128_S128,
    unary main_v209 main_v210 (broadcastInDim S1x128 ![1] bcast_S128_S1x128_1 : (⟨S128, .f32⟩ : BufTy).Contents (Elt F) → (⟨S1x128, .f32⟩ : BufTy).Contents (Elt F)),
    unary main_v210 main_v211 (broadcastInDim S50000x128 ![0, 1] bcast_S1x128_S50000x128_0_1 : (⟨S1x128, .f32⟩ : BufTy).Contents (Elt F) → (⟨S50000x128, .f32⟩ : BufTy).Contents (Elt F)),
    binary main_v207 main_v211 main_v212 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v212) (TRef.of (T := ⟨S50000x128, .f32⟩) main_call7_v0) (TRef.of (T := ⟨S50000x128, .f32⟩) main_v213) maximumf,
    unary main_arg6 main_v214 ((extractStridedSlice S1x1 ![1, 1] · slices_S2x2_S1x1_1_1) : (⟨S2x2, .f32⟩ : BufTy).Contents (Elt F) → (⟨S1x1, .f32⟩ : BufTy).Contents (Elt F)) ]

set_option maxRecDepth 8192 in
set_option maxHeartbeats 4000000 in
/-- Block 3 is the straight line of its operations. -/
theorem part3_eq (d : Dev nD) : main_part3 (F := F) d = seq q3 := rfl

set_option maxRecDepth 8192 in
theorem q3_sub : (q3 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub ..⟩

set_option maxRecDepth 8192 in
theorem q3_fresh : ∀ op ∈ (q3 : List (HloOp τ sig (Elt F))), op.fresh = ∅ := by
  intro _ h; (repeat (cases h with | head => rfl | tail _ h => ?_)); exact nomatch h

/-- The operations of the program's block 4. -/
abbrev q4 : List (HloOp τ sig (Elt F)) :=
  [
    reshape main_v214 main_v215 rfl shapeCasts_S1x1_S_,
    nullary main_cst_23 (constant S_ .f32 0x3F800000#32),
    binary main_cst_23 main_v215 main_v216 (addf : (⟨S_, .f32⟩ : BufTy).Contents (Elt F) → (⟨S_, .f32⟩ : BufTy).Contents (Elt F) → (⟨S_, .f32⟩ : BufTy).Contents (Elt F)),
    unary main_v216 main_v217 (broadcastInDim S100000x128 ![] bcast_S_S100000x128 : (⟨S_, .f32⟩ : BufTy).Contents (Elt F) → (⟨S100000x128, .f32⟩ : BufTy).Contents (Elt F)),
    binary main_v217 main_v128 main_v218 (mulf : (⟨S100000x128, .f32⟩ : BufTy).Contents (Elt F) → (⟨S100000x128, .f32⟩ : BufTy).Contents (Elt F) → (⟨S100000x128, .f32⟩ : BufTy).Contents (Elt F)),
    binary main_v218 main_v185 main_v219 (addf : (⟨S100000x128, .f32⟩ : BufTy).Contents (Elt F) → (⟨S100000x128, .f32⟩ : BufTy).Contents (Elt F) → (⟨S100000x128, .f32⟩ : BufTy).Contents (Elt F)),
    unary main_arg4 main_v220 ((extractStridedSlice S1x1x2x128x128 ![1, 1, 0, 0, 0] · slices_S2x2x2x128x128_S1x1x2x128x128_1_1_0_0_0) : (⟨S2x2x2x128x128, .f32⟩ : BufTy).Contents (Elt F) → (⟨S1x1x2x128x128, .f32⟩ : BufTy).Contents (Elt F)),
    reshape main_v220 main_v221 rfl shapeCasts_S1x1x2x128x128_S2x128x128,
    unary main_arg5 main_v222 ((extractStridedSlice S1x1x2x128 ![1, 1, 0, 0] · slices_S2x2x2x128_S1x1x2x128_1_1_0_0) : (⟨S2x2x2x128, .f32⟩ : BufTy).Contents (Elt F) → (⟨S1x1x2x128, .f32⟩ : BufTy).Contents (Elt F)),
    reshape main_v222 main_v223 rfl shapeCasts_S1x1x2x128_S2x128,
    unary main_v221 main_v224 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v224 main_v225 rfl shapeCasts_S1x128x128_S128x128,
    binary main_v219 main_v225 main_v226 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v223 main_v227 ((extractStridedSlice S1x128 ![0, 0] · slices_S2x128_S1x128_0_0) : (⟨S2x128, .f32⟩ : BufTy).Contents (Elt F) → (⟨S1x128, .f32⟩ : BufTy).Contents (Elt F)),
    reshape main_v227 main_v228 rfl shapeCasts_S1x128_S128,
    unary main_v228 main_v229 (broadcastInDim S1x128 ![1] bcast_S128_S1x128_1 : (⟨S128, .f32⟩ : BufTy).Contents (Elt F) → (⟨S1x128, .f32⟩ : BufTy).Contents (Elt F)),
    unary main_v229 main_v230 (broadcastInDim S100000x128 ![0, 1] bcast_S1x128_S100000x128_0_1 : (⟨S1x128, .f32⟩ : BufTy).Contents (Elt F) → (⟨S100000x128, .f32⟩ : BufTy).Contents (Elt F)),
    binary main_v226 main_v230 main_v231 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v231) (TRef.of (T := ⟨S100000x128, .f32⟩) main_call8_v0) (TRef.of (T := ⟨S100000x128, .f32⟩) main_v232) maximumf,
    unary main_v221 main_v233 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v233 main_v234 rfl shapeCasts_S1x128x128_S128x128,
    binary main_v232 main_v234 main_v235 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v223 main_v236 ((extractStridedSlice S1x128 ![1, 0] · slices_S2x128_S1x128_1_0) : (⟨S2x128, .f32⟩ : BufTy).Contents (Elt F) → (⟨S1x128, .f32⟩ : BufTy).Contents (Elt F)),
    reshape main_v236 main_v237 rfl shapeCasts_S1x128_S128,
    unary main_v237 main_v238 (broadcastInDim S1x128 ![1] bcast_S128_S1x128_1 : (⟨S128, .f32⟩ : BufTy).Contents (Elt F) → (⟨S1x128, .f32⟩ : BufTy).Contents (Elt F)),
    unary main_v238 main_v239 (broadcastInDim S100000x128 ![0, 1] bcast_S1x128_S100000x128_0_1 : (⟨S1x128, .f32⟩ : BufTy).Contents (Elt F) → (⟨S100000x128, .f32⟩ : BufTy).Contents (Elt F)),
    binary main_v235 main_v239 main_v240 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x128, .f32⟩) main_call9_v0) (broadcastInDim S100000x128 ![] bcast_S_S100000x128),
    TRef.binary (TRef.of (T := ⟨S100000x128, .f32⟩) main_v240) (TRef.of (T := ⟨S100000x128, .f32⟩) main_call9_v0) (TRef.of (T := ⟨S100000x128, .f32⟩) main_v241) maximumf,
    unary main_arg7 main_v242 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v242 main_v243 rfl shapeCasts_S1x1x128_S128,
    unary main_arg8 main_v244 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v244 main_v245 rfl shapeCasts_S1x1x128_S128,
    nullary main_cst_24 (constant S_ .f32 0x00000000#32),
    binary main_v241 main_cst_24 main_v246 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v246 main_v247 (broadcastInDim S100000x1 ![0] bcast_S100000_S100000x1_0 : (⟨S100000, .f32⟩ : BufTy).Contents (Elt F) → (⟨S100000x1, .f32⟩ : BufTy).Contents (Elt F)),
    nullary main_cst_25 (constant S_ .f32 0x43000000#32),
    unary main_cst_25 main_v248 (broadcastInDim S100000x1 ![] bcast_S_S100000x1 : (⟨S_, .f32⟩ : BufTy).Contents (Elt F) → (⟨S100000x1, .f32⟩ : BufTy).Contents (Elt F)),
    binary main_v247 main_v248 main_v249 (Host.divf : (⟨S100000x1, .f32⟩ : BufTy).Contents (Elt F) → (⟨S100000x1, .f32⟩ : BufTy).Contents (Elt F) → (⟨S100000x1, .f32⟩ : BufTy).Contents (Elt F)),
    unary main_v249 main_v250 (broadcastInDim S100000x128 ![0, 1] bcast_S100000x1_S100000x128_0_1 : (⟨S100000x1, .f32⟩ : BufTy).Contents (Elt F) → (⟨S100000x128, .f32⟩ : BufTy).Contents (Elt F)),
    binary main_v241 main_v250 main_v251 (subf : (⟨S100000x128, .f32⟩ : BufTy).Contents (Elt F) → (⟨S100000x128, .f32⟩ : BufTy).Contents (Elt F) → (⟨S100000x128, .f32⟩ : BufTy).Contents (Elt F)),
    binary main_v251 main_v251 main_v252 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x00000000#32),
    binary main_v252 main_cst_26 main_v253 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v253 main_v254 (broadcastInDim S100000x1 ![0] bcast_S100000_S100000x1_0 : (⟨S100000, .f32⟩ : BufTy).Contents (Elt F) → (⟨S100000x1, .f32⟩ : BufTy).Contents (Elt F)),
    nullary main_cst_27 (constant S_ .f32 0x43000000#32),
    unary main_cst_27 main_v255 (broadcastInDim S100000x1 ![] bcast_S_S100000x1 : (⟨S_, .f32⟩ : BufTy).Contents (Elt F) → (⟨S100000x1, .f32⟩ : BufTy).Contents (Elt F)),
    binary main_v254 main_v255 main_v256 (Host.divf : (⟨S100000x1, .f32⟩ : BufTy).Contents (Elt F) → (⟨S100000x1, .f32⟩ : BufTy).Contents (Elt F) → (⟨S100000x1, .f32⟩ : BufTy).Contents (Elt F)),
    unary main_v249 main_v257 (broadcastInDim S100000x128 ![0, 1] bcast_S100000x1_S100000x128_0_1 : (⟨S100000x1, .f32⟩ : BufTy).Contents (Elt F) → (⟨S100000x128, .f32⟩ : BufTy).Contents (Elt F)),
    binary main_v241 main_v257 main_v258 (subf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x3727C5AC#32),
    unary main_cst_28 main_v259 (broadcastInDim S100000x1 ![] bcast_S_S100000x1 : (⟨S_, .f32⟩ : BufTy).Contents (Elt F) → (⟨S100000x1, .f32⟩ : BufTy).Contents (Elt F)),
    binary main_v256 main_v259 main_v260 (addf : (⟨S100000x1, .f32⟩ : BufTy).Contents (Elt F) → (⟨S100000x1, .f32⟩ : BufTy).Contents (Elt F) → (⟨S100000x1, .f32⟩ : BufTy).Contents (Elt F)),
    unary main_v260 main_v261 (Host.rsqrt : (⟨S100000x1, .f32⟩ : BufTy).Contents (Elt F) → (⟨S100000x1, .f32⟩ : BufTy).Contents (Elt F)),
    unary main_v261 main_v262 (broadcastInDim S100000x128 ![0, 1] bcast_S100000x1_S100000x128_0_1 : (⟨S100000x1, .f32⟩ : BufTy).Contents (Elt F) → (⟨S100000x128, .f32⟩ : BufTy).Contents (Elt F)),
    binary main_v258 main_v262 main_v263 (mulf : (⟨S100000x128, .f32⟩ : BufTy).Contents (Elt F) → (⟨S100000x128, .f32⟩ : BufTy).Contents (Elt F) → (⟨S100000x128, .f32⟩ : BufTy).Contents (Elt F)),
    unary main_v243 main_v264 (broadcastInDim S1x128 ![1] bcast_S128_S1x128_1 : (⟨S128, .f32⟩ : BufTy).Contents (Elt F) → (⟨S1x128, .f32⟩ : BufTy).Contents (Elt F)),
    unary main_v264 main_v265 (broadcastInDim S100000x128 ![0, 1] bcast_S1x128_S100000x128_0_1 : (⟨S1x128, .f32⟩ : BufTy).Contents (Elt F) → (⟨S100000x128, .f32⟩ : BufTy).Contents (Elt F)),
    binary main_v263 main_v265 main_v266 (mulf : (⟨S100000x128, .f32⟩ : BufTy).Contents (Elt F) → (⟨S100000x128, .f32⟩ : BufTy).Contents (Elt F) → (⟨S100000x128, .f32⟩ : BufTy).Contents (Elt F)),
    unary main_v245 main_v267 (broadcastInDim S1x128 ![1] bcast_S128_S1x128_1 : (⟨S128, .f32⟩ : BufTy).Contents (Elt F) → (⟨S1x128, .f32⟩ : BufTy).Contents (Elt F)),
    unary main_v267 main_v268 (broadcastInDim S100000x128 ![0, 1] bcast_S1x128_S100000x128_0_1 : (⟨S1x128, .f32⟩ : BufTy).Contents (Elt F) → (⟨S100000x128, .f32⟩ : BufTy).Contents (Elt F)) ]

set_option maxRecDepth 8192 in
set_option maxHeartbeats 4000000 in
/-- Block 4 is the straight line of its operations. -/
theorem part4_eq (d : Dev nD) : main_part4 (F := F) d = seq q4 := rfl

set_option maxRecDepth 8192 in
theorem q4_sub : (q4 : List (HloOp τ sig (Elt F))).Forall fun op => op.bufs ⊆ tcRefs τ sig :=
  ⟨reshape_bufs_sub .., nullary_bufs_sub .., binary_bufs_sub .., unary_bufs_sub .., binary_bufs_sub .., binary_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub ..⟩

set_option maxRecDepth 8192 in
theorem q4_fresh : ∀ op ∈ (q4 : List (HloOp τ sig (Elt F))), op.fresh = ∅ := by
  intro _ h; (repeat (cases h with | head => rfl | tail _ h => ?_)); exact nomatch h

/-- The operations of the program's block 5. -/
abbrev q5 : List (HloOp τ sig (Elt F)) :=
  [
    binary main_v266 main_v268 main_v269 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x128, .f32⟩) main_call10_v0) (broadcastInDim S100000x128 ![] bcast_S_S100000x128),
    TRef.binary (TRef.of (T := ⟨S100000x128, .f32⟩) main_v269) (TRef.of (T := ⟨S100000x128, .f32⟩) main_call10_v0) (TRef.of (T := ⟨S100000x128, .f32⟩) main_v270) maximumf,
    unary main_arg7 main_v271 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v271 main_v272 rfl shapeCasts_S1x1x128_S128,
    unary main_arg8 main_v273 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v273 main_v274 rfl shapeCasts_S1x1x128_S128,
    nullary main_cst_29 (constant S_ .f32 0x00000000#32),
    binary main_v213 main_cst_29 main_v275 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v275 main_v276 (broadcastInDim S50000x1 ![0] bcast_S50000_S50000x1_0 : (⟨S50000, .f32⟩ : BufTy).Contents (Elt F) → (⟨S50000x1, .f32⟩ : BufTy).Contents (Elt F)),
    nullary main_cst_30 (constant S_ .f32 0x43000000#32),
    unary main_cst_30 main_v277 (broadcastInDim S50000x1 ![] bcast_S_S50000x1 : (⟨S_, .f32⟩ : BufTy).Contents (Elt F) → (⟨S50000x1, .f32⟩ : BufTy).Contents (Elt F)),
    binary main_v276 main_v277 main_v278 (Host.divf : (⟨S50000x1, .f32⟩ : BufTy).Contents (Elt F) → (⟨S50000x1, .f32⟩ : BufTy).Contents (Elt F) → (⟨S50000x1, .f32⟩ : BufTy).Contents (Elt F)),
    unary main_v278 main_v279 (broadcastInDim S50000x128 ![0, 1] bcast_S50000x1_S50000x128_0_1 : (⟨S50000x1, .f32⟩ : BufTy).Contents (Elt F) → (⟨S50000x128, .f32⟩ : BufTy).Contents (Elt F)),
    binary main_v213 main_v279 main_v280 (subf : (⟨S50000x128, .f32⟩ : BufTy).Contents (Elt F) → (⟨S50000x128, .f32⟩ : BufTy).Contents (Elt F) → (⟨S50000x128, .f32⟩ : BufTy).Contents (Elt F)),
    binary main_v280 main_v280 main_v281 (mulf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32),
    binary main_v281 main_cst_31 main_v282 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v282 main_v283 (broadcastInDim S50000x1 ![0] bcast_S50000_S50000x1_0 : (⟨S50000, .f32⟩ : BufTy).Contents (Elt F) → (⟨S50000x1, .f32⟩ : BufTy).Contents (Elt F)),
    nullary main_cst_32 (constant S_ .f32 0x43000000#32),
    unary main_cst_32 main_v284 (broadcastInDim S50000x1 ![] bcast_S_S50000x1 : (⟨S_, .f32⟩ : BufTy).Contents (Elt F) → (⟨S50000x1, .f32⟩ : BufTy).Contents (Elt F)),
    binary main_v283 main_v284 main_v285 (Host.divf : (⟨S50000x1, .f32⟩ : BufTy).Contents (Elt F) → (⟨S50000x1, .f32⟩ : BufTy).Contents (Elt F) → (⟨S50000x1, .f32⟩ : BufTy).Contents (Elt F)),
    unary main_v278 main_v286 (broadcastInDim S50000x128 ![0, 1] bcast_S50000x1_S50000x128_0_1 : (⟨S50000x1, .f32⟩ : BufTy).Contents (Elt F) → (⟨S50000x128, .f32⟩ : BufTy).Contents (Elt F)),
    binary main_v213 main_v286 main_v287 (subf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3727C5AC#32),
    unary main_cst_33 main_v288 (broadcastInDim S50000x1 ![] bcast_S_S50000x1 : (⟨S_, .f32⟩ : BufTy).Contents (Elt F) → (⟨S50000x1, .f32⟩ : BufTy).Contents (Elt F)),
    binary main_v285 main_v288 main_v289 (addf : (⟨S50000x1, .f32⟩ : BufTy).Contents (Elt F) → (⟨S50000x1, .f32⟩ : BufTy).Contents (Elt F) → (⟨S50000x1, .f32⟩ : BufTy).Contents (Elt F)),
    unary main_v289 main_v290 (Host.rsqrt : (⟨S50000x1, .f32⟩ : BufTy).Contents (Elt F) → (⟨S50000x1, .f32⟩ : BufTy).Contents (Elt F)),
    unary main_v290 main_v291 (broadcastInDim S50000x128 ![0, 1] bcast_S50000x1_S50000x128_0_1 : (⟨S50000x1, .f32⟩ : BufTy).Contents (Elt F) → (⟨S50000x128, .f32⟩ : BufTy).Contents (Elt F)),
    binary main_v287 main_v291 main_v292 (mulf : (⟨S50000x128, .f32⟩ : BufTy).Contents (Elt F) → (⟨S50000x128, .f32⟩ : BufTy).Contents (Elt F) → (⟨S50000x128, .f32⟩ : BufTy).Contents (Elt F)),
    unary main_v272 main_v293 (broadcastInDim S1x128 ![1] bcast_S128_S1x128_1 : (⟨S128, .f32⟩ : BufTy).Contents (Elt F) → (⟨S1x128, .f32⟩ : BufTy).Contents (Elt F)),
    unary main_v293 main_v294 (broadcastInDim S50000x128 ![0, 1] bcast_S1x128_S50000x128_0_1 : (⟨S1x128, .f32⟩ : BufTy).Contents (Elt F) → (⟨S50000x128, .f32⟩ : BufTy).Contents (Elt F)),
    binary main_v292 main_v294 main_v295 (mulf : (⟨S50000x128, .f32⟩ : BufTy).Contents (Elt F) → (⟨S50000x128, .f32⟩ : BufTy).Contents (Elt F) → (⟨S50000x128, .f32⟩ : BufTy).Contents (Elt F)),
    unary main_v274 main_v296 (broadcastInDim S1x128 ![1] bcast_S128_S1x128_1 : (⟨S128, .f32⟩ : BufTy).Contents (Elt F) → (⟨S1x128, .f32⟩ : BufTy).Contents (Elt F)),
    unary main_v296 main_v297 (broadcastInDim S50000x128 ![0, 1] bcast_S1x128_S50000x128_0_1 : (⟨S1x128, .f32⟩ : BufTy).Contents (Elt F) → (⟨S50000x128, .f32⟩ : BufTy).Contents (Elt F)),
    binary main_v295 main_v297 main_v298 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x128, .f32⟩) main_call11_v0) (broadcastInDim S50000x128 ![] bcast_S_S50000x128),
    TRef.binary (TRef.of (T := ⟨S50000x128, .f32⟩) main_v298) (TRef.of (T := ⟨S50000x128, .f32⟩) main_call11_v0) (TRef.of (T := ⟨S50000x128, .f32⟩) main_v299) maximumf ]

set_option maxRecDepth 8192 in
set_option maxHeartbeats 4000000 in
/-- Block 5 is the straight line of its operations. -/
theorem part5_eq (d : Dev nD) : main_part5 (F := F) d = seq q5 := rfl

set_option maxRecDepth 8192 in
theorem q5_sub : (q5 : List (HloOp τ sig (Elt F))).Forall fun op => op.bufs ⊆ tcRefs τ sig :=
  ⟨binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem q5_fresh : ∀ op ∈ (q5 : List (HloOp τ sig (Elt F))), op.fresh = ∅ := by
  intro _ h; (repeat (cases h with | head => rfl | tail _ h => ?_)); exact nomatch h

/-- The whole program's operations: the six blocks' lists in a row. -/
abbrev ops : List (HloOp τ sig (Elt F)) := q0 ++ (q1 ++ (q2 ++ (q3 ++ (q4 ++ q5))))

/-- The program is the straight line of its operations. -/
theorem main_eq (d : Dev nD) : main (F := F) d = seq ops := by
  rw [seq_append, seq_append, seq_append, seq_append, seq_append,
    ← part0_eq d, ← part1_eq d, ← part2_eq d, ← part3_eq d, ← part4_eq d, ← part5_eq d]
  rfl

theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ (q0 : List (HloOp τ sig (Elt F))) ∨ op ∈ (q1 : List (HloOp τ sig (Elt F))) ∨ op ∈ (q2 : List (HloOp τ sig (Elt F)))
      ∨ op ∈ (q3 : List (HloOp τ sig (Elt F))) ∨ op ∈ (q4 : List (HloOp τ sig (Elt F))) ∨ op ∈ (q5 : List (HloOp τ sig (Elt F))) := by
  simpa only [ops, List.mem_append] using h

/-- Every operation touches TensorCore buffers only. -/
theorem ops_sub : (ops : List (HloOp τ sig (Elt F))).Forall fun op => op.bufs ⊆ tcRefs τ sig :=
  List.forall_iff_forall_mem.mpr fun op h => by
    rcases mem_ops h with h | h | h | h | h | h
    · exact (List.forall_iff_forall_mem.mp q0_sub) op h
    · exact (List.forall_iff_forall_mem.mp q1_sub) op h
    · exact (List.forall_iff_forall_mem.mp q2_sub) op h
    · exact (List.forall_iff_forall_mem.mp q3_sub) op h
    · exact (List.forall_iff_forall_mem.mp q4_sub) op h
    · exact (List.forall_iff_forall_mem.mp q5_sub) op h

/-- No operation allocates a buffer. -/
theorem ops_fresh : ∀ op ∈ (ops : List (HloOp τ sig (Elt F))), op.fresh = ∅ := fun op h => by
  rcases mem_ops h with h | h | h | h | h | h
  · exact q0_fresh op h
  · exact q1_fresh op h
  · exact q2_fresh op h
  · exact q3_fresh op h
  · exact q4_fresh op h
  · exact q5_fresh op h

set_option maxRecDepth 8192 in
set_option maxHeartbeats 4000000 in
/-- The six blocks' lists in a row are the eleven groups in a row. -/
theorem ops_groups : (ops : List (HloOp τ sig (Elt F))) = g1 ++ g2 ++ g3 ++ g4 ++ g5 ++ g6 ++ g7 ++ g8 ++ g9 ++ g10 ++ g11 := rfl

end Cert.ReferenceIdeal.RefRun

end
-- ==== Proof.RefStage1.lean ====
/-
  Group 1 of the reference program's operations, read against the stage functions.

  From any contents `V` that hold, at the buffers the group reads, the stages computed before it (and the arguments),
  the group leaves each of its result buffers at the next stage of the same arguments: the group's operations applied
  to those contents ARE that stage's definition, one operation at a time. The buffers it does not write keep `V`.
-/
import proofs.«132706_j49976239456902_1_alg».proof.Proof.RefGroups
import proofs.«132706_j49976239456902_1_alg».proof.Proof.RefReadP

set_option maxRecDepth 8192

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable (V : Valuation τ sig (Elt Ideal))

set_option maxHeartbeats 4000000 in
/-- The group leaves stage 7. -/
theorem g1_v7 (x0 : (⟨S100000x128, .f32⟩ : BufTy).Contents (Elt Ideal)) (x2 : (⟨S2x128x128, .f32⟩ : BufTy).Contents (Elt Ideal)) (x3 : (⟨S2x128, .f32⟩ : BufTy).Contents (Elt Ideal))
    (a0 : V (Proc.devRef .tc main_arg0) = x0)
    (a2 : V (Proc.devRef .tc main_arg2) = x2)
    (a3 : V (Proc.devRef .tc main_arg3) = x3) :
    after (g1 (F := Ideal)) V (Proc.devRef .tc main_v7) = val_main_v7 (F := Ideal) x0 x2 x3 := by
  dsimp only [g1]
  after_results_simp
  rw [a0, a2, a3]
  rfl

set_option maxHeartbeats 4000000 in
/-- The group leaves stage 15. -/
theorem g1_v15 (x1 : (⟨S50000x128, .f32⟩ : BufTy).Contents (Elt Ideal)) (x2 : (⟨S2x128x128, .f32⟩ : BufTy).Contents (Elt Ideal)) (x3 : (⟨S2x128, .f32⟩ : BufTy).Contents (Elt Ideal))
    (a1 : V (Proc.devRef .tc main_arg1) = x1)
    (a2 : V (Proc.devRef .tc main_arg2) = x2)
    (a3 : V (Proc.devRef .tc main_arg3) = x3) :
    after (g1 (F := Ideal)) V (Proc.devRef .tc main_v15) = val_main_v15 (F := Ideal) x1 x2 x3 := by
  dsimp only [g1]
  after_results_simp
  rw [a1, a2, a3]
  rfl

set_option maxHeartbeats 4000000 in
theorem g1_keep_main_arg0 : after (g1 (F := Ideal)) V (Proc.devRef .tc main_arg0) = V (Proc.devRef .tc main_arg0) := by
  dsimp only [g1]
  after_results_simp <;> rfl

set_option maxHeartbeats 4000000 in
theorem g1_keep_main_arg1 : after (g1 (F := Ideal)) V (Proc.devRef .tc main_arg1) = V (Proc.devRef .tc main_arg1) := by
  dsimp only [g1]
  after_results_simp <;> rfl

set_option maxHeartbeats 4000000 in
theorem g1_keep_main_arg2 : after (g1 (F := Ideal)) V (Proc.devRef .tc main_arg2) = V (Proc.devRef .tc main_arg2) := by
  dsimp only [g1]
  after_results_simp <;> rfl

set_option maxHeartbeats 4000000 in
theorem g1_keep_main_arg3 : after (g1 (F := Ideal)) V (Proc.devRef .tc main_arg3) = V (Proc.devRef .tc main_arg3) := by
  dsimp only [g1]
  after_results_simp <;> rfl

set_option maxHeartbeats 4000000 in
theorem g1_keep_main_arg4 : after (g1 (F := Ideal)) V (Proc.devRef .tc main_arg4) = V (Proc.devRef .tc main_arg4) := by
  dsimp only [g1]
  after_results_simp <;> rfl

set_option maxHeartbeats 4000000 in
theorem g1_keep_main_arg5 : after (g1 (F := Ideal)) V (Proc.devRef .tc main_arg5) = V (Proc.devRef .tc main_arg5) := by
  dsimp only [g1]
  after_results_simp <;> rfl

set_option maxHeartbeats 4000000 in
theorem g1_keep_main_arg6 : after (g1 (F := Ideal)) V (Proc.devRef .tc main_arg6) = V (Proc.devRef .tc main_arg6) := by
  dsimp only [g1]
  after_results_simp <;> rfl

set_option maxHeartbeats 4000000 in
theorem g1_keep_main_arg7 : after (g1 (F := Ideal)) V (Proc.devRef .tc main_arg7) = V (Proc.devRef .tc main_arg7) := by
  dsimp only [g1]
  after_results_simp <;> rfl

set_option maxHeartbeats 4000000 in
theorem g1_keep_main_arg8 : after (g1 (F := Ideal)) V (Proc.devRef .tc main_arg8) = V (Proc.devRef .tc main_arg8) := by
  dsimp only [g1]
  after_results_simp <;> rfl

set_option maxHeartbeats 4000000 in
theorem g1_keep_main_arg9 : after (g1 (F := Ideal)) V (Proc.devRef .tc main_arg9) = V (Proc.devRef .tc main_arg9) := by
  dsimp only [g1]
  after_results_simp <;> rfl

set_option maxHeartbeats 4000000 in
theorem g1_keep_main_arg10 : after (g1 (F := Ideal)) V (Proc.devRef .tc main_arg10) = V (Proc.devRef .tc main_arg10) := by
  dsimp only [g1]
  after_results_simp <;> rfl

end Cert.ReferenceIdeal.RefRun

end
-- ==== Proof.RefStage2.lean ====
/-
  Group 2 of the reference program's operations, read against the stage functions.

  From any contents `V` that hold, at the buffers the group reads, the stages computed before it (and the arguments),
  the group leaves each of its result buffers at the next stage of the same arguments: the group's operations applied
  to those contents ARE that stage's definition, one operation at a time. The buffers it does not write keep `V`.
-/
import proofs.«132706_j49976239456902_1_alg».proof.Proof.RefGroups
import proofs.«132706_j49976239456902_1_alg».proof.Proof.RefReadP

set_option maxRecDepth 8192

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable (V : Valuation τ sig (Elt Ideal))

set_option maxHeartbeats 4000000 in
/-- The group leaves stage 29. -/
theorem g2_v29 (x0 : (⟨S100000x128, .f32⟩ : BufTy).Contents (Elt Ideal)) (x2 : (⟨S2x128x128, .f32⟩ : BufTy).Contents (Elt Ideal)) (x3 : (⟨S2x128, .f32⟩ : BufTy).Contents (Elt Ideal)) (x9 : (⟨S2x600000, .i32⟩ : BufTy).Contents (Elt Ideal))
    (h7 : V (Proc.devRef .tc main_v7) = val_main_v7 (F := Ideal) x0 x2 x3)
    (a9 : V (Proc.devRef .tc main_arg9) = x9) :
    after (g2 (F := Ideal)) V (Proc.devRef .tc main_v29) = val_main_v29 (F := Ideal) x0 x2 x3 x9 := by
  dsimp only [g2]
  after_results_simp
  rw [h7, a9]
  rfl

set_option maxHeartbeats 4000000 in
/-- The group leaves stage 43. -/
theorem g2_v43 (x1 : (⟨S50000x128, .f32⟩ : BufTy).Contents (Elt Ideal)) (x2 : (⟨S2x128x128, .f32⟩ : BufTy).Contents (Elt Ideal)) (x3 : (⟨S2x128, .f32⟩ : BufTy).Contents (Elt Ideal)) (x10 : (⟨S2x600000, .i32⟩ : BufTy).Contents (Elt Ideal))
    (h15 : V (Proc.devRef .tc main_v15) = val_main_v15 (F := Ideal) x1 x2 x3)
    (a10 : V (Proc.devRef .tc main_arg10) = x10) :
    after (g2 (F := Ideal)) V (Proc.devRef .tc main_v43) = val_main_v43 (F := Ideal) x1 x2 x3 x10 := by
  dsimp only [g2]
  after_results_simp
  rw [h15, a10]
  rfl

set_option maxHeartbeats 4000000 in
theorem g2_keep_main_arg0 : after (g2 (F := Ideal)) V (Proc.devRef .tc main_arg0) = V (Proc.devRef .tc main_arg0) := by
  dsimp only [g2]
  after_results_simp <;> rfl

set_option maxHeartbeats 4000000 in
theorem g2_keep_main_arg1 : after (g2 (F := Ideal)) V (Proc.devRef .tc main_arg1) = V (Proc.devRef .tc main_arg1) := by
  dsimp only [g2]
  after_results_simp <;> rfl

set_option maxHeartbeats 4000000 in
theorem g2_keep_main_arg2 : after (g2 (F := Ideal)) V (Proc.devRef .tc main_arg2) = V (Proc.devRef .tc main_arg2) := by
  dsimp only [g2]
  after_results_simp <;> rfl

set_option maxHeartbeats 4000000 in
theorem g2_keep_main_arg3 : after (g2 (F := Ideal)) V (Proc.devRef .tc main_arg3) = V (Proc.devRef .tc main_arg3) := by
  dsimp only [g2]
  after_results_simp <;> rfl

set_option maxHeartbeats 4000000 in
theorem g2_keep_main_arg4 : after (g2 (F := Ideal)) V (Proc.devRef .tc main_arg4) = V (Proc.devRef .tc main_arg4) := by
  dsimp only [g2]
  after_results_simp <;> rfl

set_option maxHeartbeats 4000000 in
theorem g2_keep_main_arg5 : after (g2 (F := Ideal)) V (Proc.devRef .tc main_arg5) = V (Proc.devRef .tc main_arg5) := by
  dsimp only [g2]
  after_results_simp <;> rfl

set_option maxHeartbeats 4000000 in
theorem g2_keep_main_arg6 : after (g2 (F := Ideal)) V (Proc.devRef .tc main_arg6) = V (Proc.devRef .tc main_arg6) := by
  dsimp only [g2]
  after_results_simp <;> rfl

set_option maxHeartbeats 4000000 in
theorem g2_keep_main_arg7 : after (g2 (F := Ideal)) V (Proc.devRef .tc main_arg7) = V (Proc.devRef .tc main_arg7) := by
  dsimp only [g2]
  after_results_simp <;> rfl

set_option maxHeartbeats 4000000 in
theorem g2_keep_main_arg8 : after (g2 (F := Ideal)) V (Proc.devRef .tc main_arg8) = V (Proc.devRef .tc main_arg8) := by
  dsimp only [g2]
  after_results_simp <;> rfl

set_option maxHeartbeats 4000000 in
theorem g2_keep_main_arg9 : after (g2 (F := Ideal)) V (Proc.devRef .tc main_arg9) = V (Proc.devRef .tc main_arg9) := by
  dsimp only [g2]
  after_results_simp <;> rfl

set_option maxHeartbeats 4000000 in
theorem g2_keep_main_arg10 : after (g2 (F := Ideal)) V (Proc.devRef .tc main_arg10) = V (Proc.devRef .tc main_arg10) := by
  dsimp only [g2]
  after_results_simp <;> rfl

set_option maxHeartbeats 4000000 in
theorem g2_keep_main_v7 : after (g2 (F := Ideal)) V (Proc.devRef .tc main_v7) = V (Proc.devRef .tc main_v7) := by
  dsimp only [g2]
  after_results_simp <;> rfl

set_option maxHeartbeats 4000000 in
theorem g2_keep_main_v15 : after (g2 (F := Ideal)) V (Proc.devRef .tc main_v15) = V (Proc.devRef .tc main_v15) := by
  dsimp only [g2]
  after_results_simp <;> rfl

end Cert.ReferenceIdeal.RefRun

end
-- ==== Proof.RefStage3.lean ====
/-
  Group 3 of the reference program's operations, read against the stage functions.

  From any contents `V` that hold, at the buffers the group reads, the stages computed before it (and the arguments),
  the group leaves each of its result buffers at the next stage of the same arguments: the group's operations applied
  to those contents ARE that stage's definition, one operation at a time. The buffers it does not write keep `V`.
-/
import proofs.«132706_j49976239456902_1_alg».proof.Proof.RefGroups
import proofs.«132706_j49976239456902_1_alg».proof.Proof.RefReadP

set_option maxRecDepth 8192

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable (V : Valuation τ sig (Elt Ideal))

set_option maxHeartbeats 4000000 in
/-- The group leaves stage 71. -/
theorem g3_v71 (x0 : (⟨S100000x128, .f32⟩ : BufTy).Contents (Elt Ideal)) (x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x2x2x128x128, .f32⟩ : BufTy).Contents (Elt Ideal)) (x5 : (⟨S2x2x2x128, .f32⟩ : BufTy).Contents (Elt Ideal)) (x6 : (⟨S2x2, .f32⟩ : BufTy).Contents (Elt Ideal)) (x9 : (⟨S2x600000, .i32⟩ : BufTy).Contents (Elt Ideal))
    (h15 : V (Proc.devRef .tc main_v15) = val_main_v15 (F := Ideal) x1 x2 x3)
    (h29 : V (Proc.devRef .tc main_v29) = val_main_v29 (F := Ideal) x0 x2 x3 x9)
    (a4 : V (Proc.devRef .tc main_arg4) = x4)
    (a5 : V (Proc.devRef .tc main_arg5) = x5)
    (a6 : V (Proc.devRef .tc main_arg6) = x6) :
    after (g3 (F := Ideal)) V (Proc.devRef .tc main_v71) = val_main_v71 (F := Ideal) x0 x1 x2 x3 x4 x5 x6 x9 := by
  dsimp only [g3]
  after_results_simp
  rw [h15, h29, a4, a5, a6]
  rfl

set_option maxHeartbeats 4000000 in
theorem g3_keep_main_arg0 : after (g3 (F := Ideal)) V (Proc.devRef .tc main_arg0) = V (Proc.devRef .tc main_arg0) := by
  dsimp only [g3]
  after_results_simp <;> rfl

set_option maxHeartbeats 4000000 in
theorem g3_keep_main_arg1 : after (g3 (F := Ideal)) V (Proc.devRef .tc main_arg1) = V (Proc.devRef .tc main_arg1) := by
  dsimp only [g3]
  after_results_simp <;> rfl

set_option maxHeartbeats 4000000 in
theorem g3_keep_main_arg2 : after (g3 (F := Ideal)) V (Proc.devRef .tc main_arg2) = V (Proc.devRef .tc main_arg2) := by
  dsimp only [g3]
  after_results_simp <;> rfl

set_option maxHeartbeats 4000000 in
theorem g3_keep_main_arg3 : after (g3 (F := Ideal)) V (Proc.devRef .tc main_arg3) = V (Proc.devRef .tc main_arg3) := by
  dsimp only [g3]
  after_results_simp <;> rfl

set_option maxHeartbeats 4000000 in
theorem g3_keep_main_arg4 : after (g3 (F := Ideal)) V (Proc.devRef .tc main_arg4) = V (Proc.devRef .tc main_arg4) := by
  dsimp only [g3]
  after_results_simp <;> rfl

set_option maxHeartbeats 4000000 in
theorem g3_keep_main_arg5 : after (g3 (F := Ideal)) V (Proc.devRef .tc main_arg5) = V (Proc.devRef .tc main_arg5) := by
  dsimp only [g3]
  after_results_simp <;> rfl

set_option maxHeartbeats 4000000 in
theorem g3_keep_main_arg6 : after (g3 (F := Ideal)) V (Proc.devRef .tc main_arg6) = V (Proc.devRef .tc main_arg6) := by
  dsimp only [g3]
  after_results_simp <;> rfl

set_option maxHeartbeats 4000000 in
theorem g3_keep_main_arg7 : after (g3 (F := Ideal)) V (Proc.devRef .tc main_arg7) = V (Proc.devRef .tc main_arg7) := by
  dsimp only [g3]
  after_results_simp <;> rfl

set_option maxHeartbeats 4000000 in
theorem g3_keep_main_arg8 : after (g3 (F := Ideal)) V (Proc.devRef .tc main_arg8) = V (Proc.devRef .tc main_arg8) := by
  dsimp only [g3]
  after_results_simp <;> rfl

set_option maxHeartbeats 4000000 in
theorem g3_keep_main_arg9 : after (g3 (F := Ideal)) V (Proc.devRef .tc main_arg9) = V (Proc.devRef .tc main_arg9) := by
  dsimp only [g3]
  after_results_simp <;> rfl

set_option maxHeartbeats 4000000 in
theorem g3_keep_main_arg10 : after (g3 (F := Ideal)) V (Proc.devRef .tc main_arg10) = V (Proc.devRef .tc main_arg10) := by
  dsimp only [g3]
  after_results_simp <;> rfl

set_option maxHeartbeats 4000000 in
theorem g3_keep_main_v7 : after (g3 (F := Ideal)) V (Proc.devRef .tc main_v7) = V (Proc.devRef .tc main_v7) := by
  dsimp only [g3]
  after_results_simp <;> rfl

set_option maxHeartbeats 4000000 in
theorem g3_keep_main_v43 : after (g3 (F := Ideal)) V (Proc.devRef .tc main_v43) = V (Proc.devRef .tc main_v43) := by
  dsimp only [g3]
  after_results_simp <;> rfl

end Cert.ReferenceIdeal.RefRun

end
-- ==== Proof.RefStage4.lean ====
/-
  Group 4 of the reference program's operations, read against the stage functions.

  From any contents `V` that hold, at the buffers the group reads, the stages computed before it (and the arguments),
  the group leaves each of its result buffers at the next stage of the same arguments: the group's operations applied
  to those contents ARE that stage's definition, one operation at a time. The buffers it does not write keep `V`.
-/
import proofs.«132706_j49976239456902_1_alg».proof.Proof.RefGroups
import proofs.«132706_j49976239456902_1_alg».proof.Proof.RefReadP

set_option maxRecDepth 8192

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable (V : Valuation τ sig (Elt Ideal))

set_option maxHeartbeats 4000000 in
/-- The group leaves stage 99. -/
theorem g4_v99 (x0 : (⟨S100000x128, .f32⟩ : BufTy).Contents (Elt Ideal)) (x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x2x2x128x128, .f32⟩ : BufTy).Contents (Elt Ideal)) (x5 : (⟨S2x2x2x128, .f32⟩ : BufTy).Contents (Elt Ideal)) (x6 : (⟨S2x2, .f32⟩ : BufTy).Contents (Elt Ideal)) (x10 : (⟨S2x600000, .i32⟩ : BufTy).Contents (Elt Ideal))
    (h7 : V (Proc.devRef .tc main_v7) = val_main_v7 (F := Ideal) x0 x2 x3)
    (h43 : V (Proc.devRef .tc main_v43) = val_main_v43 (F := Ideal) x1 x2 x3 x10)
    (a4 : V (Proc.devRef .tc main_arg4) = x4)
    (a5 : V (Proc.devRef .tc main_arg5) = x5)
    (a6 : V (Proc.devRef .tc main_arg6) = x6) :
    after (g4 (F := Ideal)) V (Proc.devRef .tc main_v99) = val_main_v99 (F := Ideal) x0 x1 x2 x3 x4 x5 x6 x10 := by
  dsimp only [g4]
  after_results_simp
  rw [h7, h43, a4, a5, a6]
  rfl

set_option maxHeartbeats 4000000 in
theorem g4_keep_main_arg0 : after (g4 (F := Ideal)) V (Proc.devRef .tc main_arg0) = V (Proc.devRef .tc main_arg0) := by
  dsimp only [g4]
  after_results_simp <;> rfl

set_option maxHeartbeats 4000000 in
theorem g4_keep_main_arg1 : after (g4 (F := Ideal)) V (Proc.devRef .tc main_arg1) = V (Proc.devRef .tc main_arg1) := by
  dsimp only [g4]
  after_results_simp <;> rfl

set_option maxHeartbeats 4000000 in
theorem g4_keep_main_arg2 : after (g4 (F := Ideal)) V (Proc.devRef .tc main_arg2) = V (Proc.devRef .tc main_arg2) := by
  dsimp only [g4]
  after_results_simp <;> rfl

set_option maxHeartbeats 4000000 in
theorem g4_keep_main_arg3 : after (g4 (F := Ideal)) V (Proc.devRef .tc main_arg3) = V (Proc.devRef .tc main_arg3) := by
  dsimp only [g4]
  after_results_simp <;> rfl

set_option maxHeartbeats 4000000 in
theorem g4_keep_main_arg4 : after (g4 (F := Ideal)) V (Proc.devRef .tc main_arg4) = V (Proc.devRef .tc main_arg4) := by
  dsimp only [g4]
  after_results_simp <;> rfl

set_option maxHeartbeats 4000000 in
theorem g4_keep_main_arg5 : after (g4 (F := Ideal)) V (Proc.devRef .tc main_arg5) = V (Proc.devRef .tc main_arg5) := by
  dsimp only [g4]
  after_results_simp <;> rfl

set_option maxHeartbeats 4000000 in
theorem g4_keep_main_arg6 : after (g4 (F := Ideal)) V (Proc.devRef .tc main_arg6) = V (Proc.devRef .tc main_arg6) := by
  dsimp only [g4]
  after_results_simp <;> rfl

set_option maxHeartbeats 4000000 in
theorem g4_keep_main_arg7 : after (g4 (F := Ideal)) V (Proc.devRef .tc main_arg7) = V (Proc.devRef .tc main_arg7) := by
  dsimp only [g4]
  after_results_simp <;> rfl

set_option maxHeartbeats 4000000 in
theorem g4_keep_main_arg8 : after (g4 (F := Ideal)) V (Proc.devRef .tc main_arg8) = V (Proc.devRef .tc main_arg8) := by
  dsimp only [g4]
  after_results_simp <;> rfl

set_option maxHeartbeats 4000000 in
theorem g4_keep_main_arg9 : after (g4 (F := Ideal)) V (Proc.devRef .tc main_arg9) = V (Proc.devRef .tc main_arg9) := by
  dsimp only [g4]
  after_results_simp <;> rfl

set_option maxHeartbeats 4000000 in
theorem g4_keep_main_arg10 : after (g4 (F := Ideal)) V (Proc.devRef .tc main_arg10) = V (Proc.devRef .tc main_arg10) := by
  dsimp only [g4]
  after_results_simp <;> rfl

set_option maxHeartbeats 4000000 in
theorem g4_keep_main_v71 : after (g4 (F := Ideal)) V (Proc.devRef .tc main_v71) = V (Proc.devRef .tc main_v71) := by
  dsimp only [g4]
  after_results_simp <;> rfl

end Cert.ReferenceIdeal.RefRun

end
-- ==== Proof.RefStage5.lean ====
/-
  Group 5 of the reference program's operations, read against the stage functions.

  From any contents `V` that hold, at the buffers the group reads, the stages computed before it (and the arguments),
  the group leaves each of its result buffers at the next stage of the same arguments: the group's operations applied
  to those contents ARE that stage's definition, one operation at a time. The buffers it does not write keep `V`.
-/
import proofs.«132706_j49976239456902_1_alg».proof.Proof.RefGroups
import proofs.«132706_j49976239456902_1_alg».proof.Proof.RefReadP

set_option maxRecDepth 8192

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable (V : Valuation τ sig (Elt Ideal))

set_option maxHeartbeats 4000000 in
/-- The group leaves stage 128. -/
theorem g5_v128 (x0 : (⟨S100000x128, .f32⟩ : BufTy).Contents (Elt Ideal)) (x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x2x2x128x128, .f32⟩ : BufTy).Contents (Elt Ideal)) (x5 : (⟨S2x2x2x128, .f32⟩ : BufTy).Contents (Elt Ideal)) (x6 : (⟨S2x2, .f32⟩ : BufTy).Contents (Elt Ideal)) (x7 : (⟨S2x2x128, .f32⟩ : BufTy).Contents (Elt Ideal)) (x8 : (⟨S2x2x128, .f32⟩ : BufTy).Contents (Elt Ideal)) (x10 : (⟨S2x600000, .i32⟩ : BufTy).Contents (Elt Ideal))
    (h99 : V (Proc.devRef .tc main_v99) = val_main_v99 (F := Ideal) x0 x1 x2 x3 x4 x5 x6 x10)
    (a7 : V (Proc.devRef .tc main_arg7) = x7)
    (a8 : V (Proc.devRef .tc main_arg8) = x8) :
    after (g5 (F := Ideal)) V (Proc.devRef .tc main_v128) = val_main_v128 (F := Ideal) x0 x1 x2 x3 x4 x5 x6 x7 x8 x10 := by
  dsimp only [g5]
  after_results_simp
  rw [h99, a7, a8]
  rfl

set_option maxHeartbeats 4000000 in
theorem g5_keep_main_arg0 : after (g5 (F := Ideal)) V (Proc.devRef .tc main_arg0) = V (Proc.devRef .tc main_arg0) := by
  dsimp only [g5]
  after_results_simp <;> rfl

set_option maxHeartbeats 4000000 in
theorem g5_keep_main_arg1 : after (g5 (F := Ideal)) V (Proc.devRef .tc main_arg1) = V (Proc.devRef .tc main_arg1) := by
  dsimp only [g5]
  after_results_simp <;> rfl

set_option maxHeartbeats 4000000 in
theorem g5_keep_main_arg2 : after (g5 (F := Ideal)) V (Proc.devRef .tc main_arg2) = V (Proc.devRef .tc main_arg2) := by
  dsimp only [g5]
  after_results_simp <;> rfl

set_option maxHeartbeats 4000000 in
theorem g5_keep_main_arg3 : after (g5 (F := Ideal)) V (Proc.devRef .tc main_arg3) = V (Proc.devRef .tc main_arg3) := by
  dsimp only [g5]
  after_results_simp <;> rfl

set_option maxHeartbeats 4000000 in
theorem g5_keep_main_arg4 : after (g5 (F := Ideal)) V (Proc.devRef .tc main_arg4) = V (Proc.devRef .tc main_arg4) := by
  dsimp only [g5]
  after_results_simp <;> rfl

set_option maxHeartbeats 4000000 in
theorem g5_keep_main_arg5 : after (g5 (F := Ideal)) V (Proc.devRef .tc main_arg5) = V (Proc.devRef .tc main_arg5) := by
  dsimp only [g5]
  after_results_simp <;> rfl

set_option maxHeartbeats 4000000 in
theorem g5_keep_main_arg6 : after (g5 (F := Ideal)) V (Proc.devRef .tc main_arg6) = V (Proc.devRef .tc main_arg6) := by
  dsimp only [g5]
  after_results_simp <;> rfl

set_option maxHeartbeats 4000000 in
theorem g5_keep_main_arg7 : after (g5 (F := Ideal)) V (Proc.devRef .tc main_arg7) = V (Proc.devRef .tc main_arg7) := by
  dsimp only [g5]
  after_results_simp <;> rfl

set_option maxHeartbeats 4000000 in
theorem g5_keep_main_arg8 : after (g5 (F := Ideal)) V (Proc.devRef .tc main_arg8) = V (Proc.devRef .tc main_arg8) := by
  dsimp only [g5]
  after_results_simp <;> rfl

set_option maxHeartbeats 4000000 in
theorem g5_keep_main_arg9 : after (g5 (F := Ideal)) V (Proc.devRef .tc main_arg9) = V (Proc.devRef .tc main_arg9) := by
  dsimp only [g5]
  after_results_simp <;> rfl

set_option maxHeartbeats 4000000 in
theorem g5_keep_main_arg10 : after (g5 (F := Ideal)) V (Proc.devRef .tc main_arg10) = V (Proc.devRef .tc main_arg10) := by
  dsimp only [g5]
  after_results_simp <;> rfl

set_option maxHeartbeats 4000000 in
theorem g5_keep_main_v71 : after (g5 (F := Ideal)) V (Proc.devRef .tc main_v71) = V (Proc.devRef .tc main_v71) := by
  dsimp only [g5]
  after_results_simp <;> rfl

end Cert.ReferenceIdeal.RefRun

end
-- ==== Proof.RefStage6.lean ====
/-
  Group 6 of the reference program's operations, read against the stage functions.

  From any contents `V` that hold, at the buffers the group reads, the stages computed before it (and the arguments),
  the group leaves each of its result buffers at the next stage of the same arguments: the group's operations applied
  to those contents ARE that stage's definition, one operation at a time. The buffers it does not write keep `V`.
-/
import proofs.«132706_j49976239456902_1_alg».proof.Proof.RefGroups
import proofs.«132706_j49976239456902_1_alg».proof.Proof.RefReadP

set_option maxRecDepth 8192

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable (V : Valuation τ sig (Elt Ideal))

set_option maxHeartbeats 4000000 in
/-- The group leaves stage 157. -/
theorem g6_v157 (x0 : (⟨S100000x128, .f32⟩ : BufTy).Contents (Elt Ideal)) (x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x2x2x128x128, .f32⟩ : BufTy).Contents (Elt Ideal)) (x5 : (⟨S2x2x2x128, .f32⟩ : BufTy).Contents (Elt Ideal)) (x6 : (⟨S2x2, .f32⟩ : BufTy).Contents (Elt Ideal)) (x7 : (⟨S2x2x128, .f32⟩ : BufTy).Contents (Elt Ideal)) (x8 : (⟨S2x2x128, .f32⟩ : BufTy).Contents (Elt Ideal)) (x9 : (⟨S2x600000, .i32⟩ : BufTy).Contents (Elt Ideal))
    (h71 : V (Proc.devRef .tc main_v71) = val_main_v71 (F := Ideal) x0 x1 x2 x3 x4 x5 x6 x9)
    (a7 : V (Proc.devRef .tc main_arg7) = x7)
    (a8 : V (Proc.devRef .tc main_arg8) = x8) :
    after (g6 (F := Ideal)) V (Proc.devRef .tc main_v157) = val_main_v157 (F := Ideal) x0 x1 x2 x3 x4 x5 x6 x7 x8 x9 := by
  dsimp only [g6]
  after_results_simp
  rw [h71, a7, a8]
  rfl

set_option maxHeartbeats 4000000 in
theorem g6_keep_main_arg0 : after (g6 (F := Ideal)) V (Proc.devRef .tc main_arg0) = V (Proc.devRef .tc main_arg0) := by
  dsimp only [g6]
  after_results_simp <;> rfl

set_option maxHeartbeats 4000000 in
theorem g6_keep_main_arg1 : after (g6 (F := Ideal)) V (Proc.devRef .tc main_arg1) = V (Proc.devRef .tc main_arg1) := by
  dsimp only [g6]
  after_results_simp <;> rfl

set_option maxHeartbeats 4000000 in
theorem g6_keep_main_arg2 : after (g6 (F := Ideal)) V (Proc.devRef .tc main_arg2) = V (Proc.devRef .tc main_arg2) := by
  dsimp only [g6]
  after_results_simp <;> rfl

set_option maxHeartbeats 4000000 in
theorem g6_keep_main_arg3 : after (g6 (F := Ideal)) V (Proc.devRef .tc main_arg3) = V (Proc.devRef .tc main_arg3) := by
  dsimp only [g6]
  after_results_simp <;> rfl

set_option maxHeartbeats 4000000 in
theorem g6_keep_main_arg4 : after (g6 (F := Ideal)) V (Proc.devRef .tc main_arg4) = V (Proc.devRef .tc main_arg4) := by
  dsimp only [g6]
  after_results_simp <;> rfl

set_option maxHeartbeats 4000000 in
theorem g6_keep_main_arg5 : after (g6 (F := Ideal)) V (Proc.devRef .tc main_arg5) = V (Proc.devRef .tc main_arg5) := by
  dsimp only [g6]
  after_results_simp <;> rfl

set_option maxHeartbeats 4000000 in
theorem g6_keep_main_arg6 : after (g6 (F := Ideal)) V (Proc.devRef .tc main_arg6) = V (Proc.devRef .tc main_arg6) := by
  dsimp only [g6]
  after_results_simp <;> rfl

set_option maxHeartbeats 4000000 in
theorem g6_keep_main_arg7 : after (g6 (F := Ideal)) V (Proc.devRef .tc main_arg7) = V (Proc.devRef .tc main_arg7) := by
  dsimp only [g6]
  after_results_simp <;> rfl

set_option maxHeartbeats 4000000 in
theorem g6_keep_main_arg8 : after (g6 (F := Ideal)) V (Proc.devRef .tc main_arg8) = V (Proc.devRef .tc main_arg8) := by
  dsimp only [g6]
  after_results_simp <;> rfl

set_option maxHeartbeats 4000000 in
theorem g6_keep_main_arg9 : after (g6 (F := Ideal)) V (Proc.devRef .tc main_arg9) = V (Proc.devRef .tc main_arg9) := by
  dsimp only [g6]
  after_results_simp <;> rfl

set_option maxHeartbeats 4000000 in
theorem g6_keep_main_arg10 : after (g6 (F := Ideal)) V (Proc.devRef .tc main_arg10) = V (Proc.devRef .tc main_arg10) := by
  dsimp only [g6]
  after_results_simp <;> rfl

set_option maxHeartbeats 4000000 in
theorem g6_keep_main_v128 : after (g6 (F := Ideal)) V (Proc.devRef .tc main_v128) = V (Proc.devRef .tc main_v128) := by
  dsimp only [g6]
  after_results_simp <;> rfl

end Cert.ReferenceIdeal.RefRun

end
-- ==== Proof.RefStage7.lean ====
/-
  Group 7 of the reference program's operations, read against the stage functions.

  From any contents `V` that hold, at the buffers the group reads, the stages computed before it (and the arguments),
  the group leaves each of its result buffers at the next stage of the same arguments: the group's operations applied
  to those contents ARE that stage's definition, one operation at a time. The buffers it does not write keep `V`.
-/
import proofs.«132706_j49976239456902_1_alg».proof.Proof.RefGroups
import proofs.«132706_j49976239456902_1_alg».proof.Proof.RefReadP

set_option maxRecDepth 8192

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable (V : Valuation τ sig (Elt Ideal))

set_option maxHeartbeats 4000000 in
/-- The group leaves stage 171. -/
theorem g7_v171 (x0 : (⟨S100000x128, .f32⟩ : BufTy).Contents (Elt Ideal)) (x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x2x2x128x128, .f32⟩ : BufTy).Contents (Elt Ideal)) (x5 : (⟨S2x2x2x128, .f32⟩ : BufTy).Contents (Elt Ideal)) (x6 : (⟨S2x2, .f32⟩ : BufTy).Contents (Elt Ideal)) (x7 : (⟨S2x2x128, .f32⟩ : BufTy).Contents (Elt Ideal)) (x8 : (⟨S2x2x128, .f32⟩ : BufTy).Contents (Elt Ideal)) (x9 : (⟨S2x600000, .i32⟩ : BufTy).Contents (Elt Ideal)) (x10 : (⟨S2x600000, .i32⟩ : BufTy).Contents (Elt Ideal))
    (h128 : V (Proc.devRef .tc main_v128) = val_main_v128 (F := Ideal) x0 x1 x2 x3 x4 x5 x6 x7 x8 x10)
    (a9 : V (Proc.devRef .tc main_arg9) = x9) :
    after (g7 (F := Ideal)) V (Proc.devRef .tc main_v171) = val_main_v171 (F := Ideal) x0 x1 x2 x3 x4 x5 x6 x7 x8 x9 x10 := by
  dsimp only [g7]
  after_results_simp
  rw [h128, a9]
  rfl

set_option maxHeartbeats 4000000 in
/-- The group leaves stage 185. -/
theorem g7_v185 (x0 : (⟨S100000x128, .f32⟩ : BufTy).Contents (Elt Ideal)) (x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x2x2x128x128, .f32⟩ : BufTy).Contents (Elt Ideal)) (x5 : (⟨S2x2x2x128, .f32⟩ : BufTy).Contents (Elt Ideal)) (x6 : (⟨S2x2, .f32⟩ : BufTy).Contents (Elt Ideal)) (x7 : (⟨S2x2x128, .f32⟩ : BufTy).Contents (Elt Ideal)) (x8 : (⟨S2x2x128, .f32⟩ : BufTy).Contents (Elt Ideal)) (x9 : (⟨S2x600000, .i32⟩ : BufTy).Contents (Elt Ideal)) (x10 : (⟨S2x600000, .i32⟩ : BufTy).Contents (Elt Ideal))
    (h157 : V (Proc.devRef .tc main_v157) = val_main_v157 (F := Ideal) x0 x1 x2 x3 x4 x5 x6 x7 x8 x9)
    (a10 : V (Proc.devRef .tc main_arg10) = x10) :
    after (g7 (F := Ideal)) V (Proc.devRef .tc main_v185) = val_main_v185 (F := Ideal) x0 x1 x2 x3 x4 x5 x6 x7 x8 x9 x10 := by
  dsimp only [g7]
  after_results_simp
  rw [h157, a10]
  rfl

set_option maxHeartbeats 4000000 in
theorem g7_keep_main_arg0 : after (g7 (F := Ideal)) V (Proc.devRef .tc main_arg0) = V (Proc.devRef .tc main_arg0) := by
  dsimp only [g7]
  after_results_simp <;> rfl

set_option maxHeartbeats 4000000 in
theorem g7_keep_main_arg1 : after (g7 (F := Ideal)) V (Proc.devRef .tc main_arg1) = V (Proc.devRef .tc main_arg1) := by
  dsimp only [g7]
  after_results_simp <;> rfl

set_option maxHeartbeats 4000000 in
theorem g7_keep_main_arg2 : after (g7 (F := Ideal)) V (Proc.devRef .tc main_arg2) = V (Proc.devRef .tc main_arg2) := by
  dsimp only [g7]
  after_results_simp <;> rfl

set_option maxHeartbeats 4000000 in
theorem g7_keep_main_arg3 : after (g7 (F := Ideal)) V (Proc.devRef .tc main_arg3) = V (Proc.devRef .tc main_arg3) := by
  dsimp only [g7]
  after_results_simp <;> rfl

set_option maxHeartbeats 4000000 in
theorem g7_keep_main_arg4 : after (g7 (F := Ideal)) V (Proc.devRef .tc main_arg4) = V (Proc.devRef .tc main_arg4) := by
  dsimp only [g7]
  after_results_simp <;> rfl

set_option maxHeartbeats 4000000 in
theorem g7_keep_main_arg5 : after (g7 (F := Ideal)) V (Proc.devRef .tc main_arg5) = V (Proc.devRef .tc main_arg5) := by
  dsimp only [g7]
  after_results_simp <;> rfl

set_option maxHeartbeats 4000000 in
theorem g7_keep_main_arg6 : after (g7 (F := Ideal)) V (Proc.devRef .tc main_arg6) = V (Proc.devRef .tc main_arg6) := by
  dsimp only [g7]
  after_results_simp <;> rfl

set_option maxHeartbeats 4000000 in
theorem g7_keep_main_arg7 : after (g7 (F := Ideal)) V (Proc.devRef .tc main_arg7) = V (Proc.devRef .tc main_arg7) := by
  dsimp only [g7]
  after_results_simp <;> rfl

set_option maxHeartbeats 4000000 in
theorem g7_keep_main_arg8 : after (g7 (F := Ideal)) V (Proc.devRef .tc main_arg8) = V (Proc.devRef .tc main_arg8) := by
  dsimp only [g7]
  after_results_simp <;> rfl

set_option maxHeartbeats 4000000 in
theorem g7_keep_main_arg9 : after (g7 (F := Ideal)) V (Proc.devRef .tc main_arg9) = V (Proc.devRef .tc main_arg9) := by
  dsimp only [g7]
  after_results_simp <;> rfl

set_option maxHeartbeats 4000000 in
theorem g7_keep_main_arg10 : after (g7 (F := Ideal)) V (Proc.devRef .tc main_arg10) = V (Proc.devRef .tc main_arg10) := by
  dsimp only [g7]
  after_results_simp <;> rfl

set_option maxHeartbeats 4000000 in
theorem g7_keep_main_v128 : after (g7 (F := Ideal)) V (Proc.devRef .tc main_v128) = V (Proc.devRef .tc main_v128) := by
  dsimp only [g7]
  after_results_simp <;> rfl

set_option maxHeartbeats 4000000 in
theorem g7_keep_main_v157 : after (g7 (F := Ideal)) V (Proc.devRef .tc main_v157) = V (Proc.devRef .tc main_v157) := by
  dsimp only [g7]
  after_results_simp <;> rfl

end Cert.ReferenceIdeal.RefRun

end
-- ==== Proof.RefStage8.lean ====
/-
  Group 8 of the reference program's operations, read against the stage functions.

  From any contents `V` that hold, at the buffers the group reads, the stages computed before it (and the arguments),
  the group leaves each of its result buffers at the next stage of the same arguments: the group's operations applied
  to those contents ARE that stage's definition, one operation at a time. The buffers it does not write keep `V`.
-/
import proofs.«132706_j49976239456902_1_alg».proof.Proof.RefGroups
import proofs.«132706_j49976239456902_1_alg».proof.Proof.RefReadP

set_option maxRecDepth 8192

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable (V : Valuation τ sig (Elt Ideal))

set_option maxHeartbeats 4000000 in
/-- The group leaves stage 213. -/
theorem g8_v213 (x0 : (⟨S100000x128, .f32⟩ : BufTy).Contents (Elt Ideal)) (x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x2x2x128x128, .f32⟩ : BufTy).Contents (Elt Ideal)) (x5 : (⟨S2x2x2x128, .f32⟩ : BufTy).Contents (Elt Ideal)) (x6 : (⟨S2x2, .f32⟩ : BufTy).Contents (Elt Ideal)) (x7 : (⟨S2x2x128, .f32⟩ : BufTy).Contents (Elt Ideal)) (x8 : (⟨S2x2x128, .f32⟩ : BufTy).Contents (Elt Ideal)) (x9 : (⟨S2x600000, .i32⟩ : BufTy).Contents (Elt Ideal)) (x10 : (⟨S2x600000, .i32⟩ : BufTy).Contents (Elt Ideal))
    (h157 : V (Proc.devRef .tc main_v157) = val_main_v157 (F := Ideal) x0 x1 x2 x3 x4 x5 x6 x7 x8 x9)
    (h171 : V (Proc.devRef .tc main_v171) = val_main_v171 (F := Ideal) x0 x1 x2 x3 x4 x5 x6 x7 x8 x9 x10)
    (a4 : V (Proc.devRef .tc main_arg4) = x4)
    (a5 : V (Proc.devRef .tc main_arg5) = x5)
    (a6 : V (Proc.devRef .tc main_arg6) = x6) :
    after (g8 (F := Ideal)) V (Proc.devRef .tc main_v213) = val_main_v213 (F := Ideal) x0 x1 x2 x3 x4 x5 x6 x7 x8 x9 x10 := by
  dsimp only [g8]
  after_results_simp
  rw [h157, h171, a4, a5, a6]
  rfl

set_option maxHeartbeats 4000000 in
theorem g8_keep_main_arg0 : after (g8 (F := Ideal)) V (Proc.devRef .tc main_arg0) = V (Proc.devRef .tc main_arg0) := by
  dsimp only [g8]
  after_results_simp <;> rfl

set_option maxHeartbeats 4000000 in
theorem g8_keep_main_arg1 : after (g8 (F := Ideal)) V (Proc.devRef .tc main_arg1) = V (Proc.devRef .tc main_arg1) := by
  dsimp only [g8]
  after_results_simp <;> rfl

set_option maxHeartbeats 4000000 in
theorem g8_keep_main_arg2 : after (g8 (F := Ideal)) V (Proc.devRef .tc main_arg2) = V (Proc.devRef .tc main_arg2) := by
  dsimp only [g8]
  after_results_simp <;> rfl

set_option maxHeartbeats 4000000 in
theorem g8_keep_main_arg3 : after (g8 (F := Ideal)) V (Proc.devRef .tc main_arg3) = V (Proc.devRef .tc main_arg3) := by
  dsimp only [g8]
  after_results_simp <;> rfl

set_option maxHeartbeats 4000000 in
theorem g8_keep_main_arg4 : after (g8 (F := Ideal)) V (Proc.devRef .tc main_arg4) = V (Proc.devRef .tc main_arg4) := by
  dsimp only [g8]
  after_results_simp <;> rfl

set_option maxHeartbeats 4000000 in
theorem g8_keep_main_arg5 : after (g8 (F := Ideal)) V (Proc.devRef .tc main_arg5) = V (Proc.devRef .tc main_arg5) := by
  dsimp only [g8]
  after_results_simp <;> rfl

set_option maxHeartbeats 4000000 in
theorem g8_keep_main_arg6 : after (g8 (F := Ideal)) V (Proc.devRef .tc main_arg6) = V (Proc.devRef .tc main_arg6) := by
  dsimp only [g8]
  after_results_simp <;> rfl

set_option maxHeartbeats 4000000 in
theorem g8_keep_main_arg7 : after (g8 (F := Ideal)) V (Proc.devRef .tc main_arg7) = V (Proc.devRef .tc main_arg7) := by
  dsimp only [g8]
  after_results_simp <;> rfl

set_option maxHeartbeats 4000000 in
theorem g8_keep_main_arg8 : after (g8 (F := Ideal)) V (Proc.devRef .tc main_arg8) = V (Proc.devRef .tc main_arg8) := by
  dsimp only [g8]
  after_results_simp <;> rfl

set_option maxHeartbeats 4000000 in
theorem g8_keep_main_arg9 : after (g8 (F := Ideal)) V (Proc.devRef .tc main_arg9) = V (Proc.devRef .tc main_arg9) := by
  dsimp only [g8]
  after_results_simp <;> rfl

set_option maxHeartbeats 4000000 in
theorem g8_keep_main_arg10 : after (g8 (F := Ideal)) V (Proc.devRef .tc main_arg10) = V (Proc.devRef .tc main_arg10) := by
  dsimp only [g8]
  after_results_simp <;> rfl

set_option maxHeartbeats 4000000 in
theorem g8_keep_main_v128 : after (g8 (F := Ideal)) V (Proc.devRef .tc main_v128) = V (Proc.devRef .tc main_v128) := by
  dsimp only [g8]
  after_results_simp <;> rfl

set_option maxHeartbeats 4000000 in
theorem g8_keep_main_v185 : after (g8 (F := Ideal)) V (Proc.devRef .tc main_v185) = V (Proc.devRef .tc main_v185) := by
  dsimp only [g8]
  after_results_simp <;> rfl

end Cert.ReferenceIdeal.RefRun

end
-- ==== Proof.RefStage9.lean ====
/-
  Group 9 of the reference program's operations, read against the stage functions.

  From any contents `V` that hold, at the buffers the group reads, the stages computed before it (and the arguments),
  the group leaves each of its result buffers at the next stage of the same arguments: the group's operations applied
  to those contents ARE that stage's definition, one operation at a time. The buffers it does not write keep `V`.
-/
import proofs.«132706_j49976239456902_1_alg».proof.Proof.RefGroups
import proofs.«132706_j49976239456902_1_alg».proof.Proof.RefReadP

set_option maxRecDepth 8192

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable (V : Valuation τ sig (Elt Ideal))

set_option maxHeartbeats 4000000 in
/-- The group leaves stage 241. -/
theorem g9_v241 (x0 : (⟨S100000x128, .f32⟩ : BufTy).Contents (Elt Ideal)) (x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x2x2x128x128, .f32⟩ : BufTy).Contents (Elt Ideal)) (x5 : (⟨S2x2x2x128, .f32⟩ : BufTy).Contents (Elt Ideal)) (x6 : (⟨S2x2, .f32⟩ : BufTy).Contents (Elt Ideal)) (x7 : (⟨S2x2x128, .f32⟩ : BufTy).Contents (Elt Ideal)) (x8 : (⟨S2x2x128, .f32⟩ : BufTy).Contents (Elt Ideal)) (x9 : (⟨S2x600000, .i32⟩ : BufTy).Contents (Elt Ideal)) (x10 : (⟨S2x600000, .i32⟩ : BufTy).Contents (Elt Ideal))
    (h128 : V (Proc.devRef .tc main_v128) = val_main_v128 (F := Ideal) x0 x1 x2 x3 x4 x5 x6 x7 x8 x10)
    (h185 : V (Proc.devRef .tc main_v185) = val_main_v185 (F := Ideal) x0 x1 x2 x3 x4 x5 x6 x7 x8 x9 x10)
    (a4 : V (Proc.devRef .tc main_arg4) = x4)
    (a5 : V (Proc.devRef .tc main_arg5) = x5)
    (a6 : V (Proc.devRef .tc main_arg6) = x6) :
    after (g9 (F := Ideal)) V (Proc.devRef .tc main_v241) = val_main_v241 (F := Ideal) x0 x1 x2 x3 x4 x5 x6 x7 x8 x9 x10 := by
  dsimp only [g9]
  after_results_simp
  rw [h128, h185, a4, a5, a6]
  rfl

set_option maxHeartbeats 4000000 in
theorem g9_keep_main_arg0 : after (g9 (F := Ideal)) V (Proc.devRef .tc main_arg0) = V (Proc.devRef .tc main_arg0) := by
  dsimp only [g9]
  after_results_simp <;> rfl

set_option maxHeartbeats 4000000 in
theorem g9_keep_main_arg1 : after (g9 (F := Ideal)) V (Proc.devRef .tc main_arg1) = V (Proc.devRef .tc main_arg1) := by
  dsimp only [g9]
  after_results_simp <;> rfl

set_option maxHeartbeats 4000000 in
theorem g9_keep_main_arg2 : after (g9 (F := Ideal)) V (Proc.devRef .tc main_arg2) = V (Proc.devRef .tc main_arg2) := by
  dsimp only [g9]
  after_results_simp <;> rfl

set_option maxHeartbeats 4000000 in
theorem g9_keep_main_arg3 : after (g9 (F := Ideal)) V (Proc.devRef .tc main_arg3) = V (Proc.devRef .tc main_arg3) := by
  dsimp only [g9]
  after_results_simp <;> rfl

set_option maxHeartbeats 4000000 in
theorem g9_keep_main_arg4 : after (g9 (F := Ideal)) V (Proc.devRef .tc main_arg4) = V (Proc.devRef .tc main_arg4) := by
  dsimp only [g9]
  after_results_simp <;> rfl

set_option maxHeartbeats 4000000 in
theorem g9_keep_main_arg5 : after (g9 (F := Ideal)) V (Proc.devRef .tc main_arg5) = V (Proc.devRef .tc main_arg5) := by
  dsimp only [g9]
  after_results_simp <;> rfl

set_option maxHeartbeats 4000000 in
theorem g9_keep_main_arg6 : after (g9 (F := Ideal)) V (Proc.devRef .tc main_arg6) = V (Proc.devRef .tc main_arg6) := by
  dsimp only [g9]
  after_results_simp <;> rfl

set_option maxHeartbeats 4000000 in
theorem g9_keep_main_arg7 : after (g9 (F := Ideal)) V (Proc.devRef .tc main_arg7) = V (Proc.devRef .tc main_arg7) := by
  dsimp only [g9]
  after_results_simp <;> rfl

set_option maxHeartbeats 4000000 in
theorem g9_keep_main_arg8 : after (g9 (F := Ideal)) V (Proc.devRef .tc main_arg8) = V (Proc.devRef .tc main_arg8) := by
  dsimp only [g9]
  after_results_simp <;> rfl

set_option maxHeartbeats 4000000 in
theorem g9_keep_main_arg9 : after (g9 (F := Ideal)) V (Proc.devRef .tc main_arg9) = V (Proc.devRef .tc main_arg9) := by
  dsimp only [g9]
  after_results_simp <;> rfl

set_option maxHeartbeats 4000000 in
theorem g9_keep_main_arg10 : after (g9 (F := Ideal)) V (Proc.devRef .tc main_arg10) = V (Proc.devRef .tc main_arg10) := by
  dsimp only [g9]
  after_results_simp <;> rfl

set_option maxHeartbeats 4000000 in
theorem g9_keep_main_v213 : after (g9 (F := Ideal)) V (Proc.devRef .tc main_v213) = V (Proc.devRef .tc main_v213) := by
  dsimp only [g9]
  after_results_simp <;> rfl

end Cert.ReferenceIdeal.RefRun

end
-- ==== Proof.RefStage10.lean ====
/-
  Group 10 of the reference program's operations, read against the stage functions.

  From any contents `V` that hold, at the buffers the group reads, the stages computed before it (and the arguments),
  the group leaves each of its result buffers at the next stage of the same arguments: the group's operations applied
  to those contents ARE that stage's definition, one operation at a time. The buffers it does not write keep `V`.
-/
import proofs.«132706_j49976239456902_1_alg».proof.Proof.RefGroups
import proofs.«132706_j49976239456902_1_alg».proof.Proof.RefReadP

set_option maxRecDepth 8192

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable (V : Valuation τ sig (Elt Ideal))

set_option maxHeartbeats 4000000 in
/-- The group leaves stage 270. -/
theorem g10_v270 (x0 : (⟨S100000x128, .f32⟩ : BufTy).Contents (Elt Ideal)) (x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x2x2x128x128, .f32⟩ : BufTy).Contents (Elt Ideal)) (x5 : (⟨S2x2x2x128, .f32⟩ : BufTy).Contents (Elt Ideal)) (x6 : (⟨S2x2, .f32⟩ : BufTy).Contents (Elt Ideal)) (x7 : (⟨S2x2x128, .f32⟩ : BufTy).Contents (Elt Ideal)) (x8 : (⟨S2x2x128, .f32⟩ : BufTy).Contents (Elt Ideal)) (x9 : (⟨S2x600000, .i32⟩ : BufTy).Contents (Elt Ideal)) (x10 : (⟨S2x600000, .i32⟩ : BufTy).Contents (Elt Ideal))
    (h241 : V (Proc.devRef .tc main_v241) = val_main_v241 (F := Ideal) x0 x1 x2 x3 x4 x5 x6 x7 x8 x9 x10)
    (a7 : V (Proc.devRef .tc main_arg7) = x7)
    (a8 : V (Proc.devRef .tc main_arg8) = x8) :
    after (g10 (F := Ideal)) V (Proc.devRef .tc main_v270) = val_main_v270 (F := Ideal) x0 x1 x2 x3 x4 x5 x6 x7 x8 x9 x10 := by
  dsimp only [g10]
  after_results_simp
  rw [h241, a7, a8]
  rfl

set_option maxHeartbeats 4000000 in
theorem g10_keep_main_arg0 : after (g10 (F := Ideal)) V (Proc.devRef .tc main_arg0) = V (Proc.devRef .tc main_arg0) := by
  dsimp only [g10]
  after_results_simp <;> rfl

set_option maxHeartbeats 4000000 in
theorem g10_keep_main_arg1 : after (g10 (F := Ideal)) V (Proc.devRef .tc main_arg1) = V (Proc.devRef .tc main_arg1) := by
  dsimp only [g10]
  after_results_simp <;> rfl

set_option maxHeartbeats 4000000 in
theorem g10_keep_main_arg2 : after (g10 (F := Ideal)) V (Proc.devRef .tc main_arg2) = V (Proc.devRef .tc main_arg2) := by
  dsimp only [g10]
  after_results_simp <;> rfl

set_option maxHeartbeats 4000000 in
theorem g10_keep_main_arg3 : after (g10 (F := Ideal)) V (Proc.devRef .tc main_arg3) = V (Proc.devRef .tc main_arg3) := by
  dsimp only [g10]
  after_results_simp <;> rfl

set_option maxHeartbeats 4000000 in
theorem g10_keep_main_arg4 : after (g10 (F := Ideal)) V (Proc.devRef .tc main_arg4) = V (Proc.devRef .tc main_arg4) := by
  dsimp only [g10]
  after_results_simp <;> rfl

set_option maxHeartbeats 4000000 in
theorem g10_keep_main_arg5 : after (g10 (F := Ideal)) V (Proc.devRef .tc main_arg5) = V (Proc.devRef .tc main_arg5) := by
  dsimp only [g10]
  after_results_simp <;> rfl

set_option maxHeartbeats 4000000 in
theorem g10_keep_main_arg6 : after (g10 (F := Ideal)) V (Proc.devRef .tc main_arg6) = V (Proc.devRef .tc main_arg6) := by
  dsimp only [g10]
  after_results_simp <;> rfl

set_option maxHeartbeats 4000000 in
theorem g10_keep_main_arg7 : after (g10 (F := Ideal)) V (Proc.devRef .tc main_arg7) = V (Proc.devRef .tc main_arg7) := by
  dsimp only [g10]
  after_results_simp <;> rfl

set_option maxHeartbeats 4000000 in
theorem g10_keep_main_arg8 : after (g10 (F := Ideal)) V (Proc.devRef .tc main_arg8) = V (Proc.devRef .tc main_arg8) := by
  dsimp only [g10]
  after_results_simp <;> rfl

set_option maxHeartbeats 4000000 in
theorem g10_keep_main_arg9 : after (g10 (F := Ideal)) V (Proc.devRef .tc main_arg9) = V (Proc.devRef .tc main_arg9) := by
  dsimp only [g10]
  after_results_simp <;> rfl

set_option maxHeartbeats 4000000 in
theorem g10_keep_main_arg10 : after (g10 (F := Ideal)) V (Proc.devRef .tc main_arg10) = V (Proc.devRef .tc main_arg10) := by
  dsimp only [g10]
  after_results_simp <;> rfl

set_option maxHeartbeats 4000000 in
theorem g10_keep_main_v213 : after (g10 (F := Ideal)) V (Proc.devRef .tc main_v213) = V (Proc.devRef .tc main_v213) := by
  dsimp only [g10]
  after_results_simp <;> rfl

end Cert.ReferenceIdeal.RefRun

end
-- ==== Proof.RefStage11.lean ====
/-
  Group 11 of the reference program's operations, read against the stage functions.

  From any contents `V` that hold, at the buffers the group reads, the stages computed before it (and the arguments),
  the group leaves each of its result buffers at the next stage of the same arguments: the group's operations applied
  to those contents ARE that stage's definition, one operation at a time. The buffers it does not write keep `V`.
-/
import proofs.«132706_j49976239456902_1_alg».proof.Proof.RefGroups
import proofs.«132706_j49976239456902_1_alg».proof.Proof.RefReadP

set_option maxRecDepth 8192

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable (V : Valuation τ sig (Elt Ideal))

set_option maxHeartbeats 4000000 in
/-- The group leaves stage 299. -/
theorem g11_v299 (x0 : (⟨S100000x128, .f32⟩ : BufTy).Contents (Elt Ideal)) (x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x2x2x128x128, .f32⟩ : BufTy).Contents (Elt Ideal)) (x5 : (⟨S2x2x2x128, .f32⟩ : BufTy).Contents (Elt Ideal)) (x6 : (⟨S2x2, .f32⟩ : BufTy).Contents (Elt Ideal)) (x7 : (⟨S2x2x128, .f32⟩ : BufTy).Contents (Elt Ideal)) (x8 : (⟨S2x2x128, .f32⟩ : BufTy).Contents (Elt Ideal)) (x9 : (⟨S2x600000, .i32⟩ : BufTy).Contents (Elt Ideal)) (x10 : (⟨S2x600000, .i32⟩ : BufTy).Contents (Elt Ideal))
    (h213 : V (Proc.devRef .tc main_v213) = val_main_v213 (F := Ideal) x0 x1 x2 x3 x4 x5 x6 x7 x8 x9 x10)
    (a7 : V (Proc.devRef .tc main_arg7) = x7)
    (a8 : V (Proc.devRef .tc main_arg8) = x8) :
    after (g11 (F := Ideal)) V (Proc.devRef .tc main_v299) = val_main_v299 (F := Ideal) x0 x1 x2 x3 x4 x5 x6 x7 x8 x9 x10 := by
  dsimp only [g11]
  after_results_simp
  rw [h213, a7, a8]
  rfl

set_option maxHeartbeats 4000000 in
theorem g11_keep_main_arg0 : after (g11 (F := Ideal)) V (Proc.devRef .tc main_arg0) = V (Proc.devRef .tc main_arg0) := by
  dsimp only [g11]
  after_results_simp <;> rfl

set_option maxHeartbeats 4000000 in
theorem g11_keep_main_arg1 : after (g11 (F := Ideal)) V (Proc.devRef .tc main_arg1) = V (Proc.devRef .tc main_arg1) := by
  dsimp only [g11]
  after_results_simp <;> rfl

set_option maxHeartbeats 4000000 in
theorem g11_keep_main_arg2 : after (g11 (F := Ideal)) V (Proc.devRef .tc main_arg2) = V (Proc.devRef .tc main_arg2) := by
  dsimp only [g11]
  after_results_simp <;> rfl

set_option maxHeartbeats 4000000 in
theorem g11_keep_main_arg3 : after (g11 (F := Ideal)) V (Proc.devRef .tc main_arg3) = V (Proc.devRef .tc main_arg3) := by
  dsimp only [g11]
  after_results_simp <;> rfl

set_option maxHeartbeats 4000000 in
theorem g11_keep_main_arg4 : after (g11 (F := Ideal)) V (Proc.devRef .tc main_arg4) = V (Proc.devRef .tc main_arg4) := by
  dsimp only [g11]
  after_results_simp <;> rfl

set_option maxHeartbeats 4000000 in
theorem g11_keep_main_arg5 : after (g11 (F := Ideal)) V (Proc.devRef .tc main_arg5) = V (Proc.devRef .tc main_arg5) := by
  dsimp only [g11]
  after_results_simp <;> rfl

set_option maxHeartbeats 4000000 in
theorem g11_keep_main_arg6 : after (g11 (F := Ideal)) V (Proc.devRef .tc main_arg6) = V (Proc.devRef .tc main_arg6) := by
  dsimp only [g11]
  after_results_simp <;> rfl

set_option maxHeartbeats 4000000 in
theorem g11_keep_main_arg7 : after (g11 (F := Ideal)) V (Proc.devRef .tc main_arg7) = V (Proc.devRef .tc main_arg7) := by
  dsimp only [g11]
  after_results_simp <;> rfl

set_option maxHeartbeats 4000000 in
theorem g11_keep_main_arg8 : after (g11 (F := Ideal)) V (Proc.devRef .tc main_arg8) = V (Proc.devRef .tc main_arg8) := by
  dsimp only [g11]
  after_results_simp <;> rfl

set_option maxHeartbeats 4000000 in
theorem g11_keep_main_arg9 : after (g11 (F := Ideal)) V (Proc.devRef .tc main_arg9) = V (Proc.devRef .tc main_arg9) := by
  dsimp only [g11]
  after_results_simp <;> rfl

set_option maxHeartbeats 4000000 in
theorem g11_keep_main_arg10 : after (g11 (F := Ideal)) V (Proc.devRef .tc main_arg10) = V (Proc.devRef .tc main_arg10) := by
  dsimp only [g11]
  after_results_simp <;> rfl

set_option maxHeartbeats 4000000 in
theorem g11_keep_main_v270 : after (g11 (F := Ideal)) V (Proc.devRef .tc main_v270) = V (Proc.devRef .tc main_v270) := by
  dsimp only [g11]
  after_results_simp <;> rfl

end Cert.ReferenceIdeal.RefRun

end
-- ==== Proof.RefRun.lean ====
/-
  The reference program's run, read against the stage functions.

  `U j` is the buffer contents after the first `j` groups of operations from contents `W`. Walking the groups in
  order, each stage's buffer holds that stage of `W`'s arguments from the group that computes it until the last group
  that reads it, and no group writes an argument. After the eleventh group — the whole program — the two result
  buffers hold the two last stages. Every weakly fair execution of the straight-line program ends with each buffer at
  the operations' fold over the launch contents, which gives the run.
-/
import proofs.«132706_j49976239456902_1_alg».proof.Proof.RefGroups
import proofs.«132706_j49976239456902_1_alg».proof.Proof.RefParts
import proofs.«132706_j49976239456902_1_alg».proof.Proof.RefReadP
import proofs.«132706_j49976239456902_1_alg».proof.Proof.RefStage1
import proofs.«132706_j49976239456902_1_alg».proof.Proof.RefStage2
import proofs.«132706_j49976239456902_1_alg».proof.Proof.RefStage3
import proofs.«132706_j49976239456902_1_alg».proof.Proof.RefStage4
import proofs.«132706_j49976239456902_1_alg».proof.Proof.RefStage5
import proofs.«132706_j49976239456902_1_alg».proof.Proof.RefStage6
import proofs.«132706_j49976239456902_1_alg».proof.Proof.RefStage7
import proofs.«132706_j49976239456902_1_alg».proof.Proof.RefStage8
import proofs.«132706_j49976239456902_1_alg».proof.Proof.RefStage9
import proofs.«132706_j49976239456902_1_alg».proof.Proof.RefStage10
import proofs.«132706_j49976239456902_1_alg».proof.Proof.RefStage11

set_option maxRecDepth 8192

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

/-- The contents after the first group, from `W`. -/
abbrev U1 (W : Valuation τ sig (Elt Ideal)) : Valuation τ sig (Elt Ideal) := after (g1 (F := Ideal)) W
/-- … after the first 2 groups. -/
abbrev U2 (W : Valuation τ sig (Elt Ideal)) : Valuation τ sig (Elt Ideal) := after (g2 (F := Ideal)) (U1 W)
/-- … after the first 3 groups. -/
abbrev U3 (W : Valuation τ sig (Elt Ideal)) : Valuation τ sig (Elt Ideal) := after (g3 (F := Ideal)) (U2 W)
/-- … after the first 4 groups. -/
abbrev U4 (W : Valuation τ sig (Elt Ideal)) : Valuation τ sig (Elt Ideal) := after (g4 (F := Ideal)) (U3 W)
/-- … after the first 5 groups. -/
abbrev U5 (W : Valuation τ sig (Elt Ideal)) : Valuation τ sig (Elt Ideal) := after (g5 (F := Ideal)) (U4 W)
/-- … after the first 6 groups. -/
abbrev U6 (W : Valuation τ sig (Elt Ideal)) : Valuation τ sig (Elt Ideal) := after (g6 (F := Ideal)) (U5 W)
/-- … after the first 7 groups. -/
abbrev U7 (W : Valuation τ sig (Elt Ideal)) : Valuation τ sig (Elt Ideal) := after (g7 (F := Ideal)) (U6 W)
/-- … after the first 8 groups. -/
abbrev U8 (W : Valuation τ sig (Elt Ideal)) : Valuation τ sig (Elt Ideal) := after (g8 (F := Ideal)) (U7 W)
/-- … after the first 9 groups. -/
abbrev U9 (W : Valuation τ sig (Elt Ideal)) : Valuation τ sig (Elt Ideal) := after (g9 (F := Ideal)) (U8 W)
/-- … after the first 10 groups. -/
abbrev U10 (W : Valuation τ sig (Elt Ideal)) : Valuation τ sig (Elt Ideal) := after (g10 (F := Ideal)) (U9 W)
/-- … after the first 11 groups. -/
abbrev U11 (W : Valuation τ sig (Elt Ideal)) : Valuation τ sig (Elt Ideal) := after (g11 (F := Ideal)) (U10 W)

variable (W : Valuation τ sig (Elt Ideal))

/-! ## The arguments are never written -/
theorem u1_arg0 : U1 W (Proc.devRef .tc main_arg0) = W (Proc.devRef .tc main_arg0) :=
  g1_keep_main_arg0 W
theorem u2_arg0 : U2 W (Proc.devRef .tc main_arg0) = W (Proc.devRef .tc main_arg0) :=
  (g2_keep_main_arg0 (U1 W)).trans (u1_arg0 W)
theorem u3_arg0 : U3 W (Proc.devRef .tc main_arg0) = W (Proc.devRef .tc main_arg0) :=
  (g3_keep_main_arg0 (U2 W)).trans (u2_arg0 W)
theorem u4_arg0 : U4 W (Proc.devRef .tc main_arg0) = W (Proc.devRef .tc main_arg0) :=
  (g4_keep_main_arg0 (U3 W)).trans (u3_arg0 W)
theorem u5_arg0 : U5 W (Proc.devRef .tc main_arg0) = W (Proc.devRef .tc main_arg0) :=
  (g5_keep_main_arg0 (U4 W)).trans (u4_arg0 W)
theorem u6_arg0 : U6 W (Proc.devRef .tc main_arg0) = W (Proc.devRef .tc main_arg0) :=
  (g6_keep_main_arg0 (U5 W)).trans (u5_arg0 W)
theorem u7_arg0 : U7 W (Proc.devRef .tc main_arg0) = W (Proc.devRef .tc main_arg0) :=
  (g7_keep_main_arg0 (U6 W)).trans (u6_arg0 W)
theorem u8_arg0 : U8 W (Proc.devRef .tc main_arg0) = W (Proc.devRef .tc main_arg0) :=
  (g8_keep_main_arg0 (U7 W)).trans (u7_arg0 W)
theorem u9_arg0 : U9 W (Proc.devRef .tc main_arg0) = W (Proc.devRef .tc main_arg0) :=
  (g9_keep_main_arg0 (U8 W)).trans (u8_arg0 W)
theorem u10_arg0 : U10 W (Proc.devRef .tc main_arg0) = W (Proc.devRef .tc main_arg0) :=
  (g10_keep_main_arg0 (U9 W)).trans (u9_arg0 W)
theorem u11_arg0 : U11 W (Proc.devRef .tc main_arg0) = W (Proc.devRef .tc main_arg0) :=
  (g11_keep_main_arg0 (U10 W)).trans (u10_arg0 W)
theorem u1_arg1 : U1 W (Proc.devRef .tc main_arg1) = W (Proc.devRef .tc main_arg1) :=
  g1_keep_main_arg1 W
theorem u2_arg1 : U2 W (Proc.devRef .tc main_arg1) = W (Proc.devRef .tc main_arg1) :=
  (g2_keep_main_arg1 (U1 W)).trans (u1_arg1 W)
theorem u3_arg1 : U3 W (Proc.devRef .tc main_arg1) = W (Proc.devRef .tc main_arg1) :=
  (g3_keep_main_arg1 (U2 W)).trans (u2_arg1 W)
theorem u4_arg1 : U4 W (Proc.devRef .tc main_arg1) = W (Proc.devRef .tc main_arg1) :=
  (g4_keep_main_arg1 (U3 W)).trans (u3_arg1 W)
theorem u5_arg1 : U5 W (Proc.devRef .tc main_arg1) = W (Proc.devRef .tc main_arg1) :=
  (g5_keep_main_arg1 (U4 W)).trans (u4_arg1 W)
theorem u6_arg1 : U6 W (Proc.devRef .tc main_arg1) = W (Proc.devRef .tc main_arg1) :=
  (g6_keep_main_arg1 (U5 W)).trans (u5_arg1 W)
theorem u7_arg1 : U7 W (Proc.devRef .tc main_arg1) = W (Proc.devRef .tc main_arg1) :=
  (g7_keep_main_arg1 (U6 W)).trans (u6_arg1 W)
theorem u8_arg1 : U8 W (Proc.devRef .tc main_arg1) = W (Proc.devRef .tc main_arg1) :=
  (g8_keep_main_arg1 (U7 W)).trans (u7_arg1 W)
theorem u9_arg1 : U9 W (Proc.devRef .tc main_arg1) = W (Proc.devRef .tc main_arg1) :=
  (g9_keep_main_arg1 (U8 W)).trans (u8_arg1 W)
theorem u10_arg1 : U10 W (Proc.devRef .tc main_arg1) = W (Proc.devRef .tc main_arg1) :=
  (g10_keep_main_arg1 (U9 W)).trans (u9_arg1 W)
theorem u11_arg1 : U11 W (Proc.devRef .tc main_arg1) = W (Proc.devRef .tc main_arg1) :=
  (g11_keep_main_arg1 (U10 W)).trans (u10_arg1 W)
theorem u1_arg2 : U1 W (Proc.devRef .tc main_arg2) = W (Proc.devRef .tc main_arg2) :=
  g1_keep_main_arg2 W
theorem u2_arg2 : U2 W (Proc.devRef .tc main_arg2) = W (Proc.devRef .tc main_arg2) :=
  (g2_keep_main_arg2 (U1 W)).trans (u1_arg2 W)
theorem u3_arg2 : U3 W (Proc.devRef .tc main_arg2) = W (Proc.devRef .tc main_arg2) :=
  (g3_keep_main_arg2 (U2 W)).trans (u2_arg2 W)
theorem u4_arg2 : U4 W (Proc.devRef .tc main_arg2) = W (Proc.devRef .tc main_arg2) :=
  (g4_keep_main_arg2 (U3 W)).trans (u3_arg2 W)
theorem u5_arg2 : U5 W (Proc.devRef .tc main_arg2) = W (Proc.devRef .tc main_arg2) :=
  (g5_keep_main_arg2 (U4 W)).trans (u4_arg2 W)
theorem u6_arg2 : U6 W (Proc.devRef .tc main_arg2) = W (Proc.devRef .tc main_arg2) :=
  (g6_keep_main_arg2 (U5 W)).trans (u5_arg2 W)
theorem u7_arg2 : U7 W (Proc.devRef .tc main_arg2) = W (Proc.devRef .tc main_arg2) :=
  (g7_keep_main_arg2 (U6 W)).trans (u6_arg2 W)
theorem u8_arg2 : U8 W (Proc.devRef .tc main_arg2) = W (Proc.devRef .tc main_arg2) :=
  (g8_keep_main_arg2 (U7 W)).trans (u7_arg2 W)
theorem u9_arg2 : U9 W (Proc.devRef .tc main_arg2) = W (Proc.devRef .tc main_arg2) :=
  (g9_keep_main_arg2 (U8 W)).trans (u8_arg2 W)
theorem u10_arg2 : U10 W (Proc.devRef .tc main_arg2) = W (Proc.devRef .tc main_arg2) :=
  (g10_keep_main_arg2 (U9 W)).trans (u9_arg2 W)
theorem u11_arg2 : U11 W (Proc.devRef .tc main_arg2) = W (Proc.devRef .tc main_arg2) :=
  (g11_keep_main_arg2 (U10 W)).trans (u10_arg2 W)
theorem u1_arg3 : U1 W (Proc.devRef .tc main_arg3) = W (Proc.devRef .tc main_arg3) :=
  g1_keep_main_arg3 W
theorem u2_arg3 : U2 W (Proc.devRef .tc main_arg3) = W (Proc.devRef .tc main_arg3) :=
  (g2_keep_main_arg3 (U1 W)).trans (u1_arg3 W)
theorem u3_arg3 : U3 W (Proc.devRef .tc main_arg3) = W (Proc.devRef .tc main_arg3) :=
  (g3_keep_main_arg3 (U2 W)).trans (u2_arg3 W)
theorem u4_arg3 : U4 W (Proc.devRef .tc main_arg3) = W (Proc.devRef .tc main_arg3) :=
  (g4_keep_main_arg3 (U3 W)).trans (u3_arg3 W)
theorem u5_arg3 : U5 W (Proc.devRef .tc main_arg3) = W (Proc.devRef .tc main_arg3) :=
  (g5_keep_main_arg3 (U4 W)).trans (u4_arg3 W)
theorem u6_arg3 : U6 W (Proc.devRef .tc main_arg3) = W (Proc.devRef .tc main_arg3) :=
  (g6_keep_main_arg3 (U5 W)).trans (u5_arg3 W)
theorem u7_arg3 : U7 W (Proc.devRef .tc main_arg3) = W (Proc.devRef .tc main_arg3) :=
  (g7_keep_main_arg3 (U6 W)).trans (u6_arg3 W)
theorem u8_arg3 : U8 W (Proc.devRef .tc main_arg3) = W (Proc.devRef .tc main_arg3) :=
  (g8_keep_main_arg3 (U7 W)).trans (u7_arg3 W)
theorem u9_arg3 : U9 W (Proc.devRef .tc main_arg3) = W (Proc.devRef .tc main_arg3) :=
  (g9_keep_main_arg3 (U8 W)).trans (u8_arg3 W)
theorem u10_arg3 : U10 W (Proc.devRef .tc main_arg3) = W (Proc.devRef .tc main_arg3) :=
  (g10_keep_main_arg3 (U9 W)).trans (u9_arg3 W)
theorem u11_arg3 : U11 W (Proc.devRef .tc main_arg3) = W (Proc.devRef .tc main_arg3) :=
  (g11_keep_main_arg3 (U10 W)).trans (u10_arg3 W)
theorem u1_arg4 : U1 W (Proc.devRef .tc main_arg4) = W (Proc.devRef .tc main_arg4) :=
  g1_keep_main_arg4 W
theorem u2_arg4 : U2 W (Proc.devRef .tc main_arg4) = W (Proc.devRef .tc main_arg4) :=
  (g2_keep_main_arg4 (U1 W)).trans (u1_arg4 W)
theorem u3_arg4 : U3 W (Proc.devRef .tc main_arg4) = W (Proc.devRef .tc main_arg4) :=
  (g3_keep_main_arg4 (U2 W)).trans (u2_arg4 W)
theorem u4_arg4 : U4 W (Proc.devRef .tc main_arg4) = W (Proc.devRef .tc main_arg4) :=
  (g4_keep_main_arg4 (U3 W)).trans (u3_arg4 W)
theorem u5_arg4 : U5 W (Proc.devRef .tc main_arg4) = W (Proc.devRef .tc main_arg4) :=
  (g5_keep_main_arg4 (U4 W)).trans (u4_arg4 W)
theorem u6_arg4 : U6 W (Proc.devRef .tc main_arg4) = W (Proc.devRef .tc main_arg4) :=
  (g6_keep_main_arg4 (U5 W)).trans (u5_arg4 W)
theorem u7_arg4 : U7 W (Proc.devRef .tc main_arg4) = W (Proc.devRef .tc main_arg4) :=
  (g7_keep_main_arg4 (U6 W)).trans (u6_arg4 W)
theorem u8_arg4 : U8 W (Proc.devRef .tc main_arg4) = W (Proc.devRef .tc main_arg4) :=
  (g8_keep_main_arg4 (U7 W)).trans (u7_arg4 W)
theorem u9_arg4 : U9 W (Proc.devRef .tc main_arg4) = W (Proc.devRef .tc main_arg4) :=
  (g9_keep_main_arg4 (U8 W)).trans (u8_arg4 W)
theorem u10_arg4 : U10 W (Proc.devRef .tc main_arg4) = W (Proc.devRef .tc main_arg4) :=
  (g10_keep_main_arg4 (U9 W)).trans (u9_arg4 W)
theorem u11_arg4 : U11 W (Proc.devRef .tc main_arg4) = W (Proc.devRef .tc main_arg4) :=
  (g11_keep_main_arg4 (U10 W)).trans (u10_arg4 W)
theorem u1_arg5 : U1 W (Proc.devRef .tc main_arg5) = W (Proc.devRef .tc main_arg5) :=
  g1_keep_main_arg5 W
theorem u2_arg5 : U2 W (Proc.devRef .tc main_arg5) = W (Proc.devRef .tc main_arg5) :=
  (g2_keep_main_arg5 (U1 W)).trans (u1_arg5 W)
theorem u3_arg5 : U3 W (Proc.devRef .tc main_arg5) = W (Proc.devRef .tc main_arg5) :=
  (g3_keep_main_arg5 (U2 W)).trans (u2_arg5 W)
theorem u4_arg5 : U4 W (Proc.devRef .tc main_arg5) = W (Proc.devRef .tc main_arg5) :=
  (g4_keep_main_arg5 (U3 W)).trans (u3_arg5 W)
theorem u5_arg5 : U5 W (Proc.devRef .tc main_arg5) = W (Proc.devRef .tc main_arg5) :=
  (g5_keep_main_arg5 (U4 W)).trans (u4_arg5 W)
theorem u6_arg5 : U6 W (Proc.devRef .tc main_arg5) = W (Proc.devRef .tc main_arg5) :=
  (g6_keep_main_arg5 (U5 W)).trans (u5_arg5 W)
theorem u7_arg5 : U7 W (Proc.devRef .tc main_arg5) = W (Proc.devRef .tc main_arg5) :=
  (g7_keep_main_arg5 (U6 W)).trans (u6_arg5 W)
theorem u8_arg5 : U8 W (Proc.devRef .tc main_arg5) = W (Proc.devRef .tc main_arg5) :=
  (g8_keep_main_arg5 (U7 W)).trans (u7_arg5 W)
theorem u9_arg5 : U9 W (Proc.devRef .tc main_arg5) = W (Proc.devRef .tc main_arg5) :=
  (g9_keep_main_arg5 (U8 W)).trans (u8_arg5 W)
theorem u10_arg5 : U10 W (Proc.devRef .tc main_arg5) = W (Proc.devRef .tc main_arg5) :=
  (g10_keep_main_arg5 (U9 W)).trans (u9_arg5 W)
theorem u11_arg5 : U11 W (Proc.devRef .tc main_arg5) = W (Proc.devRef .tc main_arg5) :=
  (g11_keep_main_arg5 (U10 W)).trans (u10_arg5 W)
theorem u1_arg6 : U1 W (Proc.devRef .tc main_arg6) = W (Proc.devRef .tc main_arg6) :=
  g1_keep_main_arg6 W
theorem u2_arg6 : U2 W (Proc.devRef .tc main_arg6) = W (Proc.devRef .tc main_arg6) :=
  (g2_keep_main_arg6 (U1 W)).trans (u1_arg6 W)
theorem u3_arg6 : U3 W (Proc.devRef .tc main_arg6) = W (Proc.devRef .tc main_arg6) :=
  (g3_keep_main_arg6 (U2 W)).trans (u2_arg6 W)
theorem u4_arg6 : U4 W (Proc.devRef .tc main_arg6) = W (Proc.devRef .tc main_arg6) :=
  (g4_keep_main_arg6 (U3 W)).trans (u3_arg6 W)
theorem u5_arg6 : U5 W (Proc.devRef .tc main_arg6) = W (Proc.devRef .tc main_arg6) :=
  (g5_keep_main_arg6 (U4 W)).trans (u4_arg6 W)
theorem u6_arg6 : U6 W (Proc.devRef .tc main_arg6) = W (Proc.devRef .tc main_arg6) :=
  (g6_keep_main_arg6 (U5 W)).trans (u5_arg6 W)
theorem u7_arg6 : U7 W (Proc.devRef .tc main_arg6) = W (Proc.devRef .tc main_arg6) :=
  (g7_keep_main_arg6 (U6 W)).trans (u6_arg6 W)
theorem u8_arg6 : U8 W (Proc.devRef .tc main_arg6) = W (Proc.devRef .tc main_arg6) :=
  (g8_keep_main_arg6 (U7 W)).trans (u7_arg6 W)
theorem u9_arg6 : U9 W (Proc.devRef .tc main_arg6) = W (Proc.devRef .tc main_arg6) :=
  (g9_keep_main_arg6 (U8 W)).trans (u8_arg6 W)
theorem u10_arg6 : U10 W (Proc.devRef .tc main_arg6) = W (Proc.devRef .tc main_arg6) :=
  (g10_keep_main_arg6 (U9 W)).trans (u9_arg6 W)
theorem u11_arg6 : U11 W (Proc.devRef .tc main_arg6) = W (Proc.devRef .tc main_arg6) :=
  (g11_keep_main_arg6 (U10 W)).trans (u10_arg6 W)
theorem u1_arg7 : U1 W (Proc.devRef .tc main_arg7) = W (Proc.devRef .tc main_arg7) :=
  g1_keep_main_arg7 W
theorem u2_arg7 : U2 W (Proc.devRef .tc main_arg7) = W (Proc.devRef .tc main_arg7) :=
  (g2_keep_main_arg7 (U1 W)).trans (u1_arg7 W)
theorem u3_arg7 : U3 W (Proc.devRef .tc main_arg7) = W (Proc.devRef .tc main_arg7) :=
  (g3_keep_main_arg7 (U2 W)).trans (u2_arg7 W)
theorem u4_arg7 : U4 W (Proc.devRef .tc main_arg7) = W (Proc.devRef .tc main_arg7) :=
  (g4_keep_main_arg7 (U3 W)).trans (u3_arg7 W)
theorem u5_arg7 : U5 W (Proc.devRef .tc main_arg7) = W (Proc.devRef .tc main_arg7) :=
  (g5_keep_main_arg7 (U4 W)).trans (u4_arg7 W)
theorem u6_arg7 : U6 W (Proc.devRef .tc main_arg7) = W (Proc.devRef .tc main_arg7) :=
  (g6_keep_main_arg7 (U5 W)).trans (u5_arg7 W)
theorem u7_arg7 : U7 W (Proc.devRef .tc main_arg7) = W (Proc.devRef .tc main_arg7) :=
  (g7_keep_main_arg7 (U6 W)).trans (u6_arg7 W)
theorem u8_arg7 : U8 W (Proc.devRef .tc main_arg7) = W (Proc.devRef .tc main_arg7) :=
  (g8_keep_main_arg7 (U7 W)).trans (u7_arg7 W)
theorem u9_arg7 : U9 W (Proc.devRef .tc main_arg7) = W (Proc.devRef .tc main_arg7) :=
  (g9_keep_main_arg7 (U8 W)).trans (u8_arg7 W)
theorem u10_arg7 : U10 W (Proc.devRef .tc main_arg7) = W (Proc.devRef .tc main_arg7) :=
  (g10_keep_main_arg7 (U9 W)).trans (u9_arg7 W)
theorem u11_arg7 : U11 W (Proc.devRef .tc main_arg7) = W (Proc.devRef .tc main_arg7) :=
  (g11_keep_main_arg7 (U10 W)).trans (u10_arg7 W)
theorem u1_arg8 : U1 W (Proc.devRef .tc main_arg8) = W (Proc.devRef .tc main_arg8) :=
  g1_keep_main_arg8 W
theorem u2_arg8 : U2 W (Proc.devRef .tc main_arg8) = W (Proc.devRef .tc main_arg8) :=
  (g2_keep_main_arg8 (U1 W)).trans (u1_arg8 W)
theorem u3_arg8 : U3 W (Proc.devRef .tc main_arg8) = W (Proc.devRef .tc main_arg8) :=
  (g3_keep_main_arg8 (U2 W)).trans (u2_arg8 W)
theorem u4_arg8 : U4 W (Proc.devRef .tc main_arg8) = W (Proc.devRef .tc main_arg8) :=
  (g4_keep_main_arg8 (U3 W)).trans (u3_arg8 W)
theorem u5_arg8 : U5 W (Proc.devRef .tc main_arg8) = W (Proc.devRef .tc main_arg8) :=
  (g5_keep_main_arg8 (U4 W)).trans (u4_arg8 W)
theorem u6_arg8 : U6 W (Proc.devRef .tc main_arg8) = W (Proc.devRef .tc main_arg8) :=
  (g6_keep_main_arg8 (U5 W)).trans (u5_arg8 W)
theorem u7_arg8 : U7 W (Proc.devRef .tc main_arg8) = W (Proc.devRef .tc main_arg8) :=
  (g7_keep_main_arg8 (U6 W)).trans (u6_arg8 W)
theorem u8_arg8 : U8 W (Proc.devRef .tc main_arg8) = W (Proc.devRef .tc main_arg8) :=
  (g8_keep_main_arg8 (U7 W)).trans (u7_arg8 W)
theorem u9_arg8 : U9 W (Proc.devRef .tc main_arg8) = W (Proc.devRef .tc main_arg8) :=
  (g9_keep_main_arg8 (U8 W)).trans (u8_arg8 W)
theorem u10_arg8 : U10 W (Proc.devRef .tc main_arg8) = W (Proc.devRef .tc main_arg8) :=
  (g10_keep_main_arg8 (U9 W)).trans (u9_arg8 W)
theorem u11_arg8 : U11 W (Proc.devRef .tc main_arg8) = W (Proc.devRef .tc main_arg8) :=
  (g11_keep_main_arg8 (U10 W)).trans (u10_arg8 W)
theorem u1_arg9 : U1 W (Proc.devRef .tc main_arg9) = W (Proc.devRef .tc main_arg9) :=
  g1_keep_main_arg9 W
theorem u2_arg9 : U2 W (Proc.devRef .tc main_arg9) = W (Proc.devRef .tc main_arg9) :=
  (g2_keep_main_arg9 (U1 W)).trans (u1_arg9 W)
theorem u3_arg9 : U3 W (Proc.devRef .tc main_arg9) = W (Proc.devRef .tc main_arg9) :=
  (g3_keep_main_arg9 (U2 W)).trans (u2_arg9 W)
theorem u4_arg9 : U4 W (Proc.devRef .tc main_arg9) = W (Proc.devRef .tc main_arg9) :=
  (g4_keep_main_arg9 (U3 W)).trans (u3_arg9 W)
theorem u5_arg9 : U5 W (Proc.devRef .tc main_arg9) = W (Proc.devRef .tc main_arg9) :=
  (g5_keep_main_arg9 (U4 W)).trans (u4_arg9 W)
theorem u6_arg9 : U6 W (Proc.devRef .tc main_arg9) = W (Proc.devRef .tc main_arg9) :=
  (g6_keep_main_arg9 (U5 W)).trans (u5_arg9 W)
theorem u7_arg9 : U7 W (Proc.devRef .tc main_arg9) = W (Proc.devRef .tc main_arg9) :=
  (g7_keep_main_arg9 (U6 W)).trans (u6_arg9 W)
theorem u8_arg9 : U8 W (Proc.devRef .tc main_arg9) = W (Proc.devRef .tc main_arg9) :=
  (g8_keep_main_arg9 (U7 W)).trans (u7_arg9 W)
theorem u9_arg9 : U9 W (Proc.devRef .tc main_arg9) = W (Proc.devRef .tc main_arg9) :=
  (g9_keep_main_arg9 (U8 W)).trans (u8_arg9 W)
theorem u10_arg9 : U10 W (Proc.devRef .tc main_arg9) = W (Proc.devRef .tc main_arg9) :=
  (g10_keep_main_arg9 (U9 W)).trans (u9_arg9 W)
theorem u11_arg9 : U11 W (Proc.devRef .tc main_arg9) = W (Proc.devRef .tc main_arg9) :=
  (g11_keep_main_arg9 (U10 W)).trans (u10_arg9 W)
theorem u1_arg10 : U1 W (Proc.devRef .tc main_arg10) = W (Proc.devRef .tc main_arg10) :=
  g1_keep_main_arg10 W
theorem u2_arg10 : U2 W (Proc.devRef .tc main_arg10) = W (Proc.devRef .tc main_arg10) :=
  (g2_keep_main_arg10 (U1 W)).trans (u1_arg10 W)
theorem u3_arg10 : U3 W (Proc.devRef .tc main_arg10) = W (Proc.devRef .tc main_arg10) :=
  (g3_keep_main_arg10 (U2 W)).trans (u2_arg10 W)
theorem u4_arg10 : U4 W (Proc.devRef .tc main_arg10) = W (Proc.devRef .tc main_arg10) :=
  (g4_keep_main_arg10 (U3 W)).trans (u3_arg10 W)
theorem u5_arg10 : U5 W (Proc.devRef .tc main_arg10) = W (Proc.devRef .tc main_arg10) :=
  (g5_keep_main_arg10 (U4 W)).trans (u4_arg10 W)
theorem u6_arg10 : U6 W (Proc.devRef .tc main_arg10) = W (Proc.devRef .tc main_arg10) :=
  (g6_keep_main_arg10 (U5 W)).trans (u5_arg10 W)
theorem u7_arg10 : U7 W (Proc.devRef .tc main_arg10) = W (Proc.devRef .tc main_arg10) :=
  (g7_keep_main_arg10 (U6 W)).trans (u6_arg10 W)
theorem u8_arg10 : U8 W (Proc.devRef .tc main_arg10) = W (Proc.devRef .tc main_arg10) :=
  (g8_keep_main_arg10 (U7 W)).trans (u7_arg10 W)
theorem u9_arg10 : U9 W (Proc.devRef .tc main_arg10) = W (Proc.devRef .tc main_arg10) :=
  (g9_keep_main_arg10 (U8 W)).trans (u8_arg10 W)
theorem u10_arg10 : U10 W (Proc.devRef .tc main_arg10) = W (Proc.devRef .tc main_arg10) :=
  (g10_keep_main_arg10 (U9 W)).trans (u9_arg10 W)
theorem u11_arg10 : U11 W (Proc.devRef .tc main_arg10) = W (Proc.devRef .tc main_arg10) :=
  (g11_keep_main_arg10 (U10 W)).trans (u10_arg10 W)

/-! ## The stages, from the group that computes each to the last group that reads it -/
theorem u1_v7 : U1 W (Proc.devRef .tc main_v7) = val_main_v7 (F := Ideal) (W (Proc.devRef .tc main_arg0)) (W (Proc.devRef .tc main_arg2)) (W (Proc.devRef .tc main_arg3)) :=
  g1_v7 W (W (Proc.devRef .tc main_arg0)) (W (Proc.devRef .tc main_arg2)) (W (Proc.devRef .tc main_arg3)) rfl rfl rfl
theorem u1_v15 : U1 W (Proc.devRef .tc main_v15) = val_main_v15 (F := Ideal) (W (Proc.devRef .tc main_arg1)) (W (Proc.devRef .tc main_arg2)) (W (Proc.devRef .tc main_arg3)) :=
  g1_v15 W (W (Proc.devRef .tc main_arg1)) (W (Proc.devRef .tc main_arg2)) (W (Proc.devRef .tc main_arg3)) rfl rfl rfl
theorem u2_v29 : U2 W (Proc.devRef .tc main_v29) = val_main_v29 (F := Ideal) (W (Proc.devRef .tc main_arg0)) (W (Proc.devRef .tc main_arg2)) (W (Proc.devRef .tc main_arg3)) (W (Proc.devRef .tc main_arg9)) :=
  g2_v29 (U1 W) (W (Proc.devRef .tc main_arg0)) (W (Proc.devRef .tc main_arg2)) (W (Proc.devRef .tc main_arg3)) (W (Proc.devRef .tc main_arg9)) (u1_v7 W) (u1_arg9 W)
theorem u2_v43 : U2 W (Proc.devRef .tc main_v43) = val_main_v43 (F := Ideal) (W (Proc.devRef .tc main_arg1)) (W (Proc.devRef .tc main_arg2)) (W (Proc.devRef .tc main_arg3)) (W (Proc.devRef .tc main_arg10)) :=
  g2_v43 (U1 W) (W (Proc.devRef .tc main_arg1)) (W (Proc.devRef .tc main_arg2)) (W (Proc.devRef .tc main_arg3)) (W (Proc.devRef .tc main_arg10)) (u1_v15 W) (u1_arg10 W)
theorem u2_v7 : U2 W (Proc.devRef .tc main_v7) = val_main_v7 (F := Ideal) (W (Proc.devRef .tc main_arg0)) (W (Proc.devRef .tc main_arg2)) (W (Proc.devRef .tc main_arg3)) :=
  (g2_keep_main_v7 (U1 W)).trans (u1_v7 W)
theorem u2_v15 : U2 W (Proc.devRef .tc main_v15) = val_main_v15 (F := Ideal) (W (Proc.devRef .tc main_arg1)) (W (Proc.devRef .tc main_arg2)) (W (Proc.devRef .tc main_arg3)) :=
  (g2_keep_main_v15 (U1 W)).trans (u1_v15 W)
theorem u3_v71 : U3 W (Proc.devRef .tc main_v71) = val_main_v71 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) :=
  g3_v71 (U2 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) (u2_v15 W) (u2_v29 W) (u2_arg4 W) (u2_arg5 W) (u2_arg6 W)
theorem u3_v7 : U3 W (Proc.devRef .tc main_v7) = val_main_v7 (F := Ideal) (W (Proc.devRef .tc main_arg0)) (W (Proc.devRef .tc main_arg2)) (W (Proc.devRef .tc main_arg3)) :=
  (g3_keep_main_v7 (U2 W)).trans (u2_v7 W)
theorem u3_v43 : U3 W (Proc.devRef .tc main_v43) = val_main_v43 (F := Ideal) (W (Proc.devRef .tc main_arg1)) (W (Proc.devRef .tc main_arg2)) (W (Proc.devRef .tc main_arg3)) (W (Proc.devRef .tc main_arg10)) :=
  (g3_keep_main_v43 (U2 W)).trans (u2_v43 W)
theorem u4_v99 : U4 W (Proc.devRef .tc main_v99) = val_main_v99 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg10)) :=
  g4_v99 (U3 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg10)) (u3_v7 W) (u3_v43 W) (u3_arg4 W) (u3_arg5 W) (u3_arg6 W)
theorem u4_v71 : U4 W (Proc.devRef .tc main_v71) = val_main_v71 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) :=
  (g4_keep_main_v71 (U3 W)).trans (u3_v71 W)
theorem u5_v128 : U5 W (Proc.devRef .tc main_v128) = val_main_v128 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) :=
  g5_v128 (U4 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) (u4_v99 W) (u4_arg7 W) (u4_arg8 W)
theorem u5_v71 : U5 W (Proc.devRef .tc main_v71) = val_main_v71 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) :=
  (g5_keep_main_v71 (U4 W)).trans (u4_v71 W)
theorem u6_v157 : U6 W (Proc.devRef .tc main_v157) = val_main_v157 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) :=
  g6_v157 (U5 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (u5_v71 W) (u5_arg7 W) (u5_arg8 W)
theorem u6_v128 : U6 W (Proc.devRef .tc main_v128) = val_main_v128 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) :=
  (g6_keep_main_v128 (U5 W)).trans (u5_v128 W)
theorem u7_v171 : U7 W (Proc.devRef .tc main_v171) = val_main_v171 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) :=
  g7_v171 (U6 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (u6_v128 W) (u6_arg9 W)
theorem u7_v185 : U7 W (Proc.devRef .tc main_v185) = val_main_v185 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) :=
  g7_v185 (U6 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (u6_v157 W) (u6_arg10 W)
theorem u7_v128 : U7 W (Proc.devRef .tc main_v128) = val_main_v128 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) :=
  (g7_keep_main_v128 (U6 W)).trans (u6_v128 W)
theorem u7_v157 : U7 W (Proc.devRef .tc main_v157) = val_main_v157 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) :=
  (g7_keep_main_v157 (U6 W)).trans (u6_v157 W)
theorem u8_v213 : U8 W (Proc.devRef .tc main_v213) = val_main_v213 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) :=
  g8_v213 (U7 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (u7_v157 W) (u7_v171 W) (u7_arg4 W) (u7_arg5 W) (u7_arg6 W)
theorem u8_v128 : U8 W (Proc.devRef .tc main_v128) = val_main_v128 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) :=
  (g8_keep_main_v128 (U7 W)).trans (u7_v128 W)
theorem u8_v185 : U8 W (Proc.devRef .tc main_v185) = val_main_v185 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) :=
  (g8_keep_main_v185 (U7 W)).trans (u7_v185 W)
theorem u9_v241 : U9 W (Proc.devRef .tc main_v241) = val_main_v241 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) :=
  g9_v241 (U8 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (u8_v128 W) (u8_v185 W) (u8_arg4 W) (u8_arg5 W) (u8_arg6 W)
theorem u9_v213 : U9 W (Proc.devRef .tc main_v213) = val_main_v213 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) :=
  (g9_keep_main_v213 (U8 W)).trans (u8_v213 W)
theorem u10_v270 : U10 W (Proc.devRef .tc main_v270) = val_main_v270 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) :=
  g10_v270 (U9 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (u9_v241 W) (u9_arg7 W) (u9_arg8 W)
theorem u10_v213 : U10 W (Proc.devRef .tc main_v213) = val_main_v213 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) :=
  (g10_keep_main_v213 (U9 W)).trans (u9_v213 W)
theorem u11_v299 : U11 W (Proc.devRef .tc main_v299) = val_main_v299 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) :=
  g11_v299 (U10 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (u10_v213 W) (u10_arg7 W) (u10_arg8 W)
theorem u11_v270 : U11 W (Proc.devRef .tc main_v270) = val_main_v270 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) :=
  (g11_keep_main_v270 (U10 W)).trans (u10_v270 W)

/-! ## The whole program -/

/-- The contents after the whole list of operations are the contents after the eleventh group. -/
theorem ops_eq : after (ops (F := Ideal)) W = U11 W := by
  rw [ops_groups]
  simp only [after_append]

theorem ops_v270 : after (ops (F := Ideal)) W (Proc.devRef .tc main_v270) = val_main_v270 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [ops_eq]; exact u11_v270 W
theorem ops_v299 : after (ops (F := Ideal)) W (Proc.devRef .tc main_v299) = val_main_v299 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [ops_eq]; exact u11_v299 W
theorem ops_arg0 : after (ops (F := Ideal)) W (Proc.devRef .tc main_arg0) = W (Proc.devRef .tc main_arg0) := by
  rw [ops_eq]; exact u11_arg0 W
theorem ops_arg1 : after (ops (F := Ideal)) W (Proc.devRef .tc main_arg1) = W (Proc.devRef .tc main_arg1) := by
  rw [ops_eq]; exact u11_arg1 W
theorem ops_arg2 : after (ops (F := Ideal)) W (Proc.devRef .tc main_arg2) = W (Proc.devRef .tc main_arg2) := by
  rw [ops_eq]; exact u11_arg2 W
theorem ops_arg3 : after (ops (F := Ideal)) W (Proc.devRef .tc main_arg3) = W (Proc.devRef .tc main_arg3) := by
  rw [ops_eq]; exact u11_arg3 W
theorem ops_arg4 : after (ops (F := Ideal)) W (Proc.devRef .tc main_arg4) = W (Proc.devRef .tc main_arg4) := by
  rw [ops_eq]; exact u11_arg4 W
theorem ops_arg5 : after (ops (F := Ideal)) W (Proc.devRef .tc main_arg5) = W (Proc.devRef .tc main_arg5) := by
  rw [ops_eq]; exact u11_arg5 W
theorem ops_arg6 : after (ops (F := Ideal)) W (Proc.devRef .tc main_arg6) = W (Proc.devRef .tc main_arg6) := by
  rw [ops_eq]; exact u11_arg6 W
theorem ops_arg7 : after (ops (F := Ideal)) W (Proc.devRef .tc main_arg7) = W (Proc.devRef .tc main_arg7) := by
  rw [ops_eq]; exact u11_arg7 W
theorem ops_arg8 : after (ops (F := Ideal)) W (Proc.devRef .tc main_arg8) = W (Proc.devRef .tc main_arg8) := by
  rw [ops_eq]; exact u11_arg8 W
theorem ops_arg9 : after (ops (F := Ideal)) W (Proc.devRef .tc main_arg9) = W (Proc.devRef .tc main_arg9) := by
  rw [ops_eq]; exact u11_arg9 W
theorem ops_arg10 : after (ops (F := Ideal)) W (Proc.devRef .tc main_arg10) = W (Proc.devRef .tc main_arg10) := by
  rw [ops_eq]; exact u11_arg10 W

/-- On every device, from any memory with zero counters: every weakly fair execution of the reference program
    terminates with its two results at the last two stages of the launch arguments and the arguments unchanged. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v270) = val_main_v270 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v299) = val_main_v299 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v270).trans (ops_v270 (launchContents m c)),
      (h c main_v299).trans (ops_v299 (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c)),
      (h c main_arg7).trans (ops_arg7 (launchContents m c)),
      (h c main_arg8).trans (ops_arg8 (launchContents m c)),
      (h c main_arg9).trans (ops_arg9 (launchContents m c)),
      (h c main_arg10).trans (ops_arg10 (launchContents m c))⟩)
    (run_seq scopedRefs_eq scopedSems_eq defs main (fun _ => ops) main_eq (fun _ => ops_sub) m ρ (fun _ => ops_fresh))

end Cert.ReferenceIdeal.RefRun

end
-- ==== Proof.lean ====
/-
  Two bipartite message-passing layers over a user table (100000 × 128) and an item table (50000 × 128), after an
  input projection of each: the kernel program against the plain array program.

  What both compute. Each table is first projected, `x·W + b`. A layer then updates each table from itself and the
  OTHER table summed along the edges (gather the source rows, scatter-add them into the destination rows): a node's
  row `x` and aggregated row `a` go to `relu (layerNorm (relu (relu ((s·x + a)·W₀ + b₀)·W₁ + b₁)))` with
  `s = 1 + eps` and the layer norm over the 128 channels. Two layers; the results are the two final tables.

  Where the programs differ. The kernel program computes the projections and the four updates in six kernel regions,
  each over blocks of 5000 rows, with the matrix operands cast to a narrower float format first; the aggregation and
  the slicing of the stacked parameter arrays are host operations in both programs. On the extended reals a format
  change is the identity, a block matrix product into a zero accumulator and a whole-array product are the same sums,
  and a node's update depends on that node's rows only, so a table updated block by block is the table updated at
  once. No law beyond these is used and the finiteness of the inputs is never needed.

  How the proof goes. `Spec` states the projection and the layer update row by row; `Body` shows each region's body
  computes them on a block; `Region0 … Region5` that each region leaves them on the whole table it finds; `Glue`,
  `Agg` what the host stretches leave; `Chain` walks the program's boundaries from the launch memory to the two
  result buffers, which end at `Net.xu2` and `Net.xi2` of the arguments. On the other side `RefProj`, `RefLayer`,
  `RefNet` read the array program's stages to the same two terms. `Run` is the kernel program's run with the results
  named; `RefRun` the array program's, its operations read back group by group against its stages.
-/
import proofs.«132706_j49976239456902_1_alg».proof.Defs
import proofs.«132706_j49976239456902_1_alg».proof.Proof.Gen.Kernel
import proofs.«132706_j49976239456902_1_alg».proof.Proof.Gen.Kernel.Frame
import proofs.«132706_j49976239456902_1_alg».proof.Proof.Gen.KernelIdeal
import proofs.«132706_j49976239456902_1_alg».proof.Proof.Gen.KernelIdeal.Frame
import proofs.«132706_j49976239456902_1_alg».proof.Proof.Gen.ReferenceIdeal
import proofs.«132706_j49976239456902_1_alg».proof.Proof.Gen.Pre_finite_inputs
import proofs.«132706_j49976239456902_1_alg».proof.Proof.Run
import proofs.«132706_j49976239456902_1_alg».proof.Proof.Chain2
import proofs.«132706_j49976239456902_1_alg».proof.Proof.RefNet
import proofs.«132706_j49976239456902_1_alg».proof.Proof.RefRun
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does it read on the extended reals. -/
theorem frame_kernelIdeal : Cert.frame_KernelIdeal := fun m ρ _ => Cert.KernelIdeal.Gen.frame m ρ

/-- The array program runs and keeps its arguments: its run, the two results dropped. -/
theorem frame_reference : Cert.frame_ReferenceIdeal := fun m ρ _ =>
  (θ_run Cert.ReferenceIdeal.defs _ _).mono (fun _ h c => (h c).2.2) (Cert.ReferenceIdeal.RefRun.run_results m ρ)

/-- On the extended reals both programs end with the user table at `xu2` and the item table at `xi2` of arguments
    that agree. -/
theorem algebraic : Cert.algebraic_KernelIdeal_ReferenceIdeal := by
  intro m ρ m' ρ' _ hagree
  refine ⟨fun c => Cert.Net.xu2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Net.xi2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Gen.run_results (F := Ideal) m ρ)
    obtain ⟨hu, hi, hargs⟩ := h c
    exact ⟨hu.trans (Cert.KernelIdeal.Chain.v12_xu2 m ρ c), hi.trans (Cert.KernelIdeal.Chain.v12_xi2 m ρ c), hargs⟩
  · refine (θ_run Cert.ReferenceIdeal.defs _ _).mono (fun r h c => ?_) (Cert.ReferenceIdeal.RefRun.run_results m' ρ')
    obtain ⟨hu, hi, hargs⟩ := h c
    obtain ⟨e0, e1, e2, e3, e4, e5, e6, e7, e8, e9, e10⟩ := hagree c
    refine ⟨hu.trans ?_, hi.trans ?_, hargs⟩
    · rw [Cert.ReferenceIdeal.RefValue.xu2_net, e0, e1, e2, e3, e4, e5, e6, e7, e8, e9, e10]
    · rw [Cert.ReferenceIdeal.RefValue.xi2_net, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
